-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x26 : Shape := ⟨2, ![524288, 26]⟩
abbrev S_ : Shape := ⟨0, ![]⟩

class Facts : Prop where
  bcast_S_S524288x26 : S_.BroadcastsInDim S524288x26 (![] : Fin 0 → Fin S524288x26.rank)
  reducesTo_S524288x26_S_d0_1 : S524288x26.ReducesTo [0, 1] S_
  h_S_ : 0 < S_.numel

variable [Facts]

def fn {F : FTy → Type} [FloatOps F] (main_arg0 : FVec F S524288x26 .f32) : IVec S_ 1 :=
  let main_v0 : FVec F S524288x26 .f32 := Host.absf main_arg0
  let main_cst : FVec F S_ .f32 := constant S_ .f32 0x7F800000#32
  let main_v1 : FVec F S524288x26 .f32 := broadcastInDim S524288x26 ![] bcast_S_S524288x26 main_cst
  let main_v2 : IVec S524288x26 1 := cmpf .olt main_v0 main_v1
  let main_c : IVec S_ 1 := constantI S_ 1 1#1
  let main_v3 : IVec S_ 1 := (fun x v => Host.reduce IntOp.andi x v reducesTo_S524288x26_S_d0_1 h_S_) main_v2 main_c
  main_v3
-- ==== Kernel.lean ====
abbrev S524288x26 : Shape := ⟨2, ![524288, 26]⟩
abbrev S26x524288 : Shape := ⟨2, ![26, 524288]⟩
abbrev S26x8x65536 : Shape := ⟨3, ![26, 8, 65536]⟩
abbrev S51x8x65536 : Shape := ⟨3, ![51, 8, 65536]⟩
abbrev S26x8x2048 : Shape := ⟨3, ![26, 8, 2048]⟩
abbrev S51x8x2048 : Shape := ⟨3, ![51, 8, 2048]⟩
abbrev S1x8x2048 : Shape := ⟨3, ![1, 8, 2048]⟩
abbrev S8x2048 : Shape := ⟨2, ![8, 2048]⟩
abbrev S51x524288 : Shape := ⟨2, ![51, 524288]⟩
abbrev S524288x51 : Shape := ⟨2, ![524288, 51]⟩

abbrev nBuf : Space → Nat
  | .hbm => 6
  | .vmem => 4
  | .smem => 0
  | _ => 0

abbrev bufTy : (tb : Table) → Fin (tcTables nBuf tb) → BufTy
  | .hbm, ⟨0, _⟩ => ⟨S524288x26, .f32⟩
  | .hbm, ⟨1, _⟩ => ⟨S26x524288, .f32⟩
  | .hbm, ⟨2, _⟩ => ⟨S26x8x65536, .f32⟩
  | .hbm, ⟨3, _⟩ => ⟨S51x8x65536, .f32⟩
  | .hbm, ⟨4, _⟩ => ⟨S51x524288, .f32⟩
  | .hbm, ⟨5, _⟩ => ⟨S524288x51, .f32⟩
  | .local _ .vmem, ⟨0, _⟩ => ⟨S26x8x2048, .f32⟩
  | .local _ .vmem, ⟨1, _⟩ => ⟨S26x8x2048, .f32⟩
  | .local _ .vmem, ⟨2, _⟩ => ⟨S51x8x2048, .f32⟩
  | .local _ .vmem, ⟨3, _⟩ => ⟨S51x8x2048, .f32⟩
  | _, _ => ⟨S524288x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S26x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S51x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S524288x26_S26x524288_1_0 : S524288x26.Transposes [1, 0] S26x524288
  shapeCasts_S26x524288_S26x8x65536 : S26x524288.ShapeCasts S26x8x65536
  inb_S26x8x2048_S1x8x2048_0_0_0 : ∀ a, (![0, 0, 0] : Fin 3 → Nat) a + S1x8x2048.size a ≤ S26x8x2048.size a
  h_S1x8x2048 : 0 < S1x8x2048.numel
  shapeCasts_S1x8x2048_S8x2048 : S1x8x2048.ShapeCasts S8x2048
  inb_S26x8x2048_S1x8x2048_1_0_0 : ∀ a, (![1, 0, 0] : Fin 3 → Nat) a + S1x8x2048.size a ≤ S26x8x2048.size a
  inb_S26x8x2048_S1x8x2048_2_0_0 : ∀ a, (![2, 0, 0] : Fin 3 → Nat) a + S1x8x2048.size a ≤ S26x8x2048.size a
  inb_S26x8x2048_S1x8x2048_3_0_0 : ∀ a, (![3, 0, 0] : Fin 3 → Nat) a + S1x8x2048.size a ≤ S26x8x2048.size a
  inb_S26x8x2048_S1x8x2048_4_0_0 : ∀ a, (![4, 0, 0] : Fin 3 → Nat) a + S1x8x2048.size a ≤ S26x8x2048.size a
  inb_S26x8x2048_S1x8x2048_5_0_0 : ∀ a, (![5, 0, 0] : Fin 3 → Nat) a + S1x8x2048.size a ≤ S26x8x2048.size a
  inb_S26x8x2048_S1x8x2048_6_0_0 : ∀ a, (![6, 0, 0] : Fin 3 → Nat) a + S1x8x2048.size a ≤ S26x8x2048.size a
  inb_S26x8x2048_S1x8x2048_7_0_0 : ∀ a, (![7, 0, 0] : Fin 3 → Nat) a + S1x8x2048.size a ≤ S26x8x2048.size a
  inb_S26x8x2048_S1x8x2048_8_0_0 : ∀ a, (![8, 0, 0] : Fin 3 → Nat) a + S1x8x2048.size a ≤ S26x8x2048.size a
  inb_S26x8x2048_S1x8x2048_9_0_0 : ∀ a, (![9, 0, 0] : Fin 3 → Nat) a + S1x8x2048.size a ≤ S26x8x2048.size a
  inb_S26x8x2048_S1x8x2048_10_0_0 : ∀ a, (![10, 0, 0] : Fin 3 → Nat) a + S1x8x2048.size a ≤ S26x8x2048.size a
  inb_S26x8x2048_S1x8x2048_11_0_0 : ∀ a, (![11, 0, 0] : Fin 3 → Nat) a + S1x8x2048.size a ≤ S26x8x2048.size a
  inb_S26x8x2048_S1x8x2048_12_0_0 : ∀ a, (![12, 0, 0] : Fin 3 → Nat) a + S1x8x2048.size a ≤ S26x8x2048.size a
  inb_S26x8x2048_S1x8x2048_13_0_0 : ∀ a, (![13, 0, 0] : Fin 3 → Nat) a + S1x8x2048.size a ≤ S26x8x2048.size a
  inb_S26x8x2048_S1x8x2048_14_0_0 : ∀ a, (![14, 0, 0] : Fin 3 → Nat) a + S1x8x2048.size a ≤ S26x8x2048.size a
  inb_S26x8x2048_S1x8x2048_15_0_0 : ∀ a, (![15, 0, 0] : Fin 3 → Nat) a + S1x8x2048.size a ≤ S26x8x2048.size a
  inb_S26x8x2048_S1x8x2048_16_0_0 : ∀ a, (![16, 0, 0] : Fin 3 → Nat) a + S1x8x2048.size a ≤ S26x8x2048.size a
  inb_S26x8x2048_S1x8x2048_17_0_0 : ∀ a, (![17, 0, 0] : Fin 3 → Nat) a + S1x8x2048.size a ≤ S26x8x2048.size a
  inb_S26x8x2048_S1x8x2048_18_0_0 : ∀ a, (![18, 0, 0] : Fin 3 → Nat) a + S1x8x2048.size a ≤ S26x8x2048.size a
  inb_S26x8x2048_S1x8x2048_19_0_0 : ∀ a, (![19, 0, 0] : Fin 3 → Nat) a + S1x8x2048.size a ≤ S26x8x2048.size a
  inb_S26x8x2048_S1x8x2048_20_0_0 : ∀ a, (![20, 0, 0] : Fin 3 → Nat) a + S1x8x2048.size a ≤ S26x8x2048.size a
  inb_S26x8x2048_S1x8x2048_21_0_0 : ∀ a, (![21, 0, 0] : Fin 3 → Nat) a + S1x8x2048.size a ≤ S26x8x2048.size a
  inb_S26x8x2048_S1x8x2048_22_0_0 : ∀ a, (![22, 0, 0] : Fin 3 → Nat) a + S1x8x2048.size a ≤ S26x8x2048.size a
  inb_S26x8x2048_S1x8x2048_23_0_0 : ∀ a, (![23, 0, 0] : Fin 3 → Nat) a + S1x8x2048.size a ≤ S26x8x2048.size a
  inb_S26x8x2048_S1x8x2048_24_0_0 : ∀ a, (![24, 0, 0] : Fin 3 → Nat) a + S1x8x2048.size a ≤ S26x8x2048.size a
  inb_S26x8x2048_S1x8x2048_25_0_0 : ∀ a, (![25, 0, 0] : Fin 3 → Nat) a + S1x8x2048.size a ≤ S26x8x2048.size a
  inb_S51x8x2048_S1x8x2048_0_0_0 : ∀ a, (![0, 0, 0] : Fin 3 → Nat) a + S1x8x2048.size a ≤ S51x8x2048.size a
  shapeCasts_S8x2048_S1x8x2048 : S8x2048.ShapeCasts S1x8x2048
  inb_S51x8x2048_S1x8x2048_1_0_0 : ∀ a, (![1, 0, 0] : Fin 3 → Nat) a + S1x8x2048.size a ≤ S51x8x2048.size a
  inb_S51x8x2048_S1x8x2048_2_0_0 : ∀ a, (![2, 0, 0] : Fin 3 → Nat) a + S1x8x2048.size a ≤ S51x8x2048.size a
  inb_S51x8x2048_S1x8x2048_3_0_0 : ∀ a, (![3, 0, 0] : Fin 3 → Nat) a + S1x8x2048.size a ≤ S51x8x2048.size a
  inb_S51x8x2048_S1x8x2048_4_0_0 : ∀ a, (![4, 0, 0] : Fin 3 → Nat) a + S1x8x2048.size a ≤ S51x8x2048.size a
  inb_S51x8x2048_S1x8x2048_5_0_0 : ∀ a, (![5, 0, 0] : Fin 3 → Nat) a + S1x8x2048.size a ≤ S51x8x2048.size a
  inb_S51x8x2048_S1x8x2048_6_0_0 : ∀ a, (![6, 0, 0] : Fin 3 → Nat) a + S1x8x2048.size a ≤ S51x8x2048.size a
  inb_S51x8x2048_S1x8x2048_7_0_0 : ∀ a, (![7, 0, 0] : Fin 3 → Nat) a + S1x8x2048.size a ≤ S51x8x2048.size a
  inb_S51x8x2048_S1x8x2048_8_0_0 : ∀ a, (![8, 0, 0] : Fin 3 → Nat) a + S1x8x2048.size a ≤ S51x8x2048.size a
  inb_S51x8x2048_S1x8x2048_9_0_0 : ∀ a, (![9, 0, 0] : Fin 3 → Nat) a + S1x8x2048.size a ≤ S51x8x2048.size a
  inb_S51x8x2048_S1x8x2048_10_0_0 : ∀ a, (![10, 0, 0] : Fin 3 → Nat) a + S1x8x2048.size a ≤ S51x8x2048.size a
  inb_S51x8x2048_S1x8x2048_11_0_0 : ∀ a, (![11, 0, 0] : Fin 3 → Nat) a + S1x8x2048.size a ≤ S51x8x2048.size a
  inb_S51x8x2048_S1x8x2048_12_0_0 : ∀ a, (![12, 0, 0] : Fin 3 → Nat) a + S1x8x2048.size a ≤ S51x8x2048.size a
  inb_S51x8x2048_S1x8x2048_13_0_0 : ∀ a, (![13, 0, 0] : Fin 3 → Nat) a + S1x8x2048.size a ≤ S51x8x2048.size a
  inb_S51x8x2048_S1x8x2048_14_0_0 : ∀ a, (![14, 0, 0] : Fin 3 → Nat) a + S1x8x2048.size a ≤ S51x8x2048.size a
  inb_S51x8x2048_S1x8x2048_15_0_0 : ∀ a, (![15, 0, 0] : Fin 3 → Nat) a + S1x8x2048.size a ≤ S51x8x2048.size a
  inb_S51x8x2048_S1x8x2048_16_0_0 : ∀ a, (![16, 0, 0] : Fin 3 → Nat) a + S1x8x2048.size a ≤ S51x8x2048.size a
  inb_S51x8x2048_S1x8x2048_17_0_0 : ∀ a, (![17, 0, 0] : Fin 3 → Nat) a + S1x8x2048.size a ≤ S51x8x2048.size a
  inb_S51x8x2048_S1x8x2048_18_0_0 : ∀ a, (![18, 0, 0] : Fin 3 → Nat) a + S1x8x2048.size a ≤ S51x8x2048.size a
  inb_S51x8x2048_S1x8x2048_19_0_0 : ∀ a, (![19, 0, 0] : Fin 3 → Nat) a + S1x8x2048.size a ≤ S51x8x2048.size a
  inb_S51x8x2048_S1x8x2048_20_0_0 : ∀ a, (![20, 0, 0] : Fin 3 → Nat) a + S1x8x2048.size a ≤ S51x8x2048.size a
  inb_S51x8x2048_S1x8x2048_21_0_0 : ∀ a, (![21, 0, 0] : Fin 3 → Nat) a + S1x8x2048.size a ≤ S51x8x2048.size a
  inb_S51x8x2048_S1x8x2048_22_0_0 : ∀ a, (![22, 0, 0] : Fin 3 → Nat) a + S1x8x2048.size a ≤ S51x8x2048.size a
  inb_S51x8x2048_S1x8x2048_23_0_0 : ∀ a, (![23, 0, 0] : Fin 3 → Nat) a + S1x8x2048.size a ≤ S51x8x2048.size a
  inb_S51x8x2048_S1x8x2048_24_0_0 : ∀ a, (![24, 0, 0] : Fin 3 → Nat) a + S1x8x2048.size a ≤ S51x8x2048.size a
  inb_S51x8x2048_S1x8x2048_25_0_0 : ∀ a, (![25, 0, 0] : Fin 3 → Nat) a + S1x8x2048.size a ≤ S51x8x2048.size a
  inb_S51x8x2048_S1x8x2048_26_0_0 : ∀ a, (![26, 0, 0] : Fin 3 → Nat) a + S1x8x2048.size a ≤ S51x8x2048.size a
  inb_S51x8x2048_S1x8x2048_27_0_0 : ∀ a, (![27, 0, 0] : Fin 3 → Nat) a + S1x8x2048.size a ≤ S51x8x2048.size a
  inb_S51x8x2048_S1x8x2048_28_0_0 : ∀ a, (![28, 0, 0] : Fin 3 → Nat) a + S1x8x2048.size a ≤ S51x8x2048.size a
  inb_S51x8x2048_S1x8x2048_29_0_0 : ∀ a, (![29, 0, 0] : Fin 3 → Nat) a + S1x8x2048.size a ≤ S51x8x2048.size a
  inb_S51x8x2048_S1x8x2048_30_0_0 : ∀ a, (![30, 0, 0] : Fin 3 → Nat) a + S1x8x2048.size a ≤ S51x8x2048.size a
  inb_S51x8x2048_S1x8x2048_31_0_0 : ∀ a, (![31, 0, 0] : Fin 3 → Nat) a + S1x8x2048.size a ≤ S51x8x2048.size a
  inb_S51x8x2048_S1x8x2048_32_0_0 : ∀ a, (![32, 0, 0] : Fin 3 → Nat) a + S1x8x2048.size a ≤ S51x8x2048.size a
  inb_S51x8x2048_S1x8x2048_33_0_0 : ∀ a, (![33, 0, 0] : Fin 3 → Nat) a + S1x8x2048.size a ≤ S51x8x2048.size a
  inb_S51x8x2048_S1x8x2048_34_0_0 : ∀ a, (![34, 0, 0] : Fin 3 → Nat) a + S1x8x2048.size a ≤ S51x8x2048.size a
  inb_S51x8x2048_S1x8x2048_35_0_0 : ∀ a, (![35, 0, 0] : Fin 3 → Nat) a + S1x8x2048.size a ≤ S51x8x2048.size a
  inb_S51x8x2048_S1x8x2048_36_0_0 : ∀ a, (![36, 0, 0] : Fin 3 → Nat) a + S1x8x2048.size a ≤ S51x8x2048.size a
  inb_S51x8x2048_S1x8x2048_37_0_0 : ∀ a, (![37, 0, 0] : Fin 3 → Nat) a + S1x8x2048.size a ≤ S51x8x2048.size a
  inb_S51x8x2048_S1x8x2048_38_0_0 : ∀ a, (![38, 0, 0] : Fin 3 → Nat) a + S1x8x2048.size a ≤ S51x8x2048.size a
  inb_S51x8x2048_S1x8x2048_39_0_0 : ∀ a, (![39, 0, 0] : Fin 3 → Nat) a + S1x8x2048.size a ≤ S51x8x2048.size a
  inb_S51x8x2048_S1x8x2048_40_0_0 : ∀ a, (![40, 0, 0] : Fin 3 → Nat) a + S1x8x2048.size a ≤ S51x8x2048.size a
  inb_S51x8x2048_S1x8x2048_41_0_0 : ∀ a, (![41, 0, 0] : Fin 3 → Nat) a + S1x8x2048.size a ≤ S51x8x2048.size a
  inb_S51x8x2048_S1x8x2048_42_0_0 : ∀ a, (![42, 0, 0] : Fin 3 → Nat) a + S1x8x2048.size a ≤ S51x8x2048.size a
  inb_S51x8x2048_S1x8x2048_43_0_0 : ∀ a, (![43, 0, 0] : Fin 3 → Nat) a + S1x8x2048.size a ≤ S51x8x2048.size a
  inb_S51x8x2048_S1x8x2048_44_0_0 : ∀ a, (![44, 0, 0] : Fin 3 → Nat) a + S1x8x2048.size a ≤ S51x8x2048.size a
  inb_S51x8x2048_S1x8x2048_45_0_0 : ∀ a, (![45, 0, 0] : Fin 3 → Nat) a + S1x8x2048.size a ≤ S51x8x2048.size a
  inb_S51x8x2048_S1x8x2048_46_0_0 : ∀ a, (![46, 0, 0] : Fin 3 → Nat) a + S1x8x2048.size a ≤ S51x8x2048.size a
  inb_S51x8x2048_S1x8x2048_47_0_0 : ∀ a, (![47, 0, 0] : Fin 3 → Nat) a + S1x8x2048.size a ≤ S51x8x2048.size a
  inb_S51x8x2048_S1x8x2048_48_0_0 : ∀ a, (![48, 0, 0] : Fin 3 → Nat) a + S1x8x2048.size a ≤ S51x8x2048.size a
  inb_S51x8x2048_S1x8x2048_49_0_0 : ∀ a, (![49, 0, 0] : Fin 3 → Nat) a + S1x8x2048.size a ≤ S51x8x2048.size a
  inb_S51x8x2048_S1x8x2048_50_0_0 : ∀ a, (![50, 0, 0] : Fin 3 → Nat) a + S1x8x2048.size a ≤ S51x8x2048.size a
  shapeCasts_S51x8x65536_S51x524288 : S51x8x65536.ShapeCasts S51x524288
  transposes_S51x524288_S524288x51_1_0 : S51x524288.Transposes [1, 0] S524288x51
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S26x8x2048.size a ≤ S26x8x65536.size a
  hwx0_0 : ∀ i : grid0.Coords, EltTy.bits .f32 = 32 ∨ (Rect.block (s := S26x8x65536) S26x8x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S51x8x2048.size a ≤ S51x8x65536.size a
  hwx0_1 : ∀ i : grid0.Coords, EltTy.bits .f32 = 32 ∨ (Rect.block (s := S51x8x65536) S51x8x2048.size (cc0_transform_1 i) (hinb0_1 i)).WholeWords (EltTy.packing .f32)

variable [Facts₀]

abbrev win0_0 : Pipeline.Window sig grid0 :=
  Pipeline.Window.ofSpec (Memref.whole main_v1) S26x8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S51x8x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S524288x26 : Shape := ⟨2, ![524288, 26]⟩
abbrev S9 : Shape := ⟨1, ![9]⟩
abbrev S524288x25 : Shape := ⟨2, ![524288, 25]⟩
abbrev S524288x1 : Shape := ⟨2, ![524288, 1]⟩
abbrev S524288 : Shape := ⟨1, ![524288]⟩
abbrev S_ : Shape := ⟨0, ![]⟩
abbrev S524288x4 : Shape := ⟨2, ![524288, 4]⟩
abbrev S524288x1x4 : Shape := ⟨3, ![524288, 1, 4]⟩
abbrev S524288x4x4 : Shape := ⟨3, ![524288, 4, 4]⟩
abbrev S1 : Shape := ⟨1, ![1]⟩
abbrev S4x4 : Shape := ⟨2, ![4, 4]⟩
abbrev S2 : Shape := ⟨1, ![2]⟩
abbrev S524288x1x4x4 : Shape := ⟨4, ![524288, 1, 4, 4]⟩
abbrev S524288x16x4x4 : Shape := ⟨4, ![524288, 16, 4, 4]⟩
abbrev S524288x16x3x1 : Shape := ⟨4, ![524288, 16, 3, 1]⟩
abbrev S524288x16x3 : Shape := ⟨3, ![524288, 16, 3]⟩
abbrev S524288x1x3 : Shape := ⟨3, ![524288, 1, 3]⟩
abbrev S524288x3 : Shape := ⟨2, ![524288, 3]⟩
abbrev S524288x48 : Shape := ⟨2, ![524288, 48]⟩
abbrev S524288x51 : Shape := ⟨2, ![524288, 51]⟩

abbrev nBuf : Space → Nat
  | .hbm => 1223
  | .vmem => 0
  | .smem => 0
  | _ => 0

abbrev hbmTy0_0 (i : Nat) : BufTy := match i % 128 with
  | 0 => ⟨S524288x26, .f32⟩
  | 1 => ⟨S9, .f32⟩
  | 2 => ⟨S524288x25, .f32⟩
  | 3 => ⟨S524288x1, .f32⟩
  | 4 => ⟨S524288, .f32⟩
  | 5 => ⟨S524288x1, .f32⟩
  | 6 => ⟨S524288, .f32⟩
  | 7 => ⟨S524288, .f32⟩
  | 8 => ⟨S524288, .f32⟩
  | 9 => ⟨S_, .f32⟩
  | 10 => ⟨S524288, .f32⟩
  | 11 => ⟨S_, .f32⟩
  | 12 => ⟨S524288, .f32⟩
  | 13 => ⟨S524288, .f32⟩
  | 14 => ⟨S524288x1, .f32⟩
  | 15 => ⟨S524288x1, .f32⟩
  | 16 => ⟨S524288x1, .f32⟩
  | 17 => ⟨S524288x1, .f32⟩
  | 18 => ⟨S524288x4, .f32⟩
  | 19 => ⟨S524288x1, .f32⟩
  | 20 => ⟨S524288x1, .f32⟩
  | 21 => ⟨S524288x1, .f32⟩
  | 22 => ⟨S524288x1, .f32⟩
  | 23 => ⟨S524288x4, .f32⟩
  | 24 => ⟨S524288x1, .f32⟩
  | 25 => ⟨S524288x1, .f32⟩
  | 26 => ⟨S524288x1, .f32⟩
  | 27 => ⟨S524288x1, .f32⟩
  | 28 => ⟨S524288x4, .f32⟩
  | 29 => ⟨S524288x1, .f32⟩
  | 30 => ⟨S524288x1, .f32⟩
  | 31 => ⟨S524288x1, .f32⟩
  | 32 => ⟨S524288x1, .f32⟩
  | 33 => ⟨S524288x4, .f32⟩
  | 34 => ⟨S524288x1x4, .f32⟩
  | 35 => ⟨S524288x1x4, .f32⟩
  | 36 => ⟨S524288x1x4, .f32⟩
  | 37 => ⟨S524288x1x4, .f32⟩
  | 38 => ⟨S524288x4x4, .f32⟩
  | 39 => ⟨S524288x1, .f32⟩
  | 40 => ⟨S524288, .f32⟩
  | 41 => ⟨S524288, .f32⟩
  | 42 => ⟨S524288, .f32⟩
  | 43 => ⟨S_, .f32⟩
  | 44 => ⟨S524288, .f32⟩
  | 45 => ⟨S_, .f32⟩
  | 46 => ⟨S524288, .f32⟩
  | 47 => ⟨S524288, .f32⟩
  | 48 => ⟨S524288x1, .f32⟩
  | 49 => ⟨S524288x1, .f32⟩
  | 50 => ⟨S524288x1, .f32⟩
  | 51 => ⟨S524288x1, .f32⟩
  | 52 => ⟨S524288x4, .f32⟩
  | 53 => ⟨S524288x1, .f32⟩
  | 54 => ⟨S524288x1, .f32⟩
  | 55 => ⟨S524288x1, .f32⟩
  | 56 => ⟨S524288x1, .f32⟩
  | 57 => ⟨S524288x4, .f32⟩
  | 58 => ⟨S524288x1, .f32⟩
  | 59 => ⟨S524288x1, .f32⟩
  | 60 => ⟨S524288x1, .f32⟩
  | 61 => ⟨S524288x1, .f32⟩
  | 62 => ⟨S524288x4, .f32⟩
  | 63 => ⟨S524288x1, .f32⟩
  | 64 => ⟨S524288x1, .f32⟩
  | 65 => ⟨S524288x1, .f32⟩
  | 66 => ⟨S524288x1, .f32⟩
  | 67 => ⟨S524288x4, .f32⟩
  | 68 => ⟨S524288x1x4, .f32⟩
  | 69 => ⟨S524288x1x4, .f32⟩
  | 70 => ⟨S524288x1x4, .f32⟩
  | 71 => ⟨S524288x1x4, .f32⟩
  | 72 => ⟨S524288x4x4, .f32⟩
  | 73 => ⟨S524288x4x4, .f32⟩
  | 74 => ⟨S524288x1, .f32⟩
  | 75 => ⟨S524288, .f32⟩
  | 76 => ⟨S524288, .f32⟩
  | 77 => ⟨S524288, .f32⟩
  | 78 => ⟨S_, .f32⟩
  | 79 => ⟨S524288, .f32⟩
  | 80 => ⟨S_, .f32⟩
  | 81 => ⟨S524288, .f32⟩
  | 82 => ⟨S524288, .f32⟩
  | 83 => ⟨S524288x1, .f32⟩
  | 84 => ⟨S524288x1, .f32⟩
  | 85 => ⟨S524288x1, .f32⟩
  | 86 => ⟨S524288x1, .f32⟩
  | 87 => ⟨S524288x4, .f32⟩
  | 88 => ⟨S524288x1, .f32⟩
  | 89 => ⟨S524288x1, .f32⟩
  | 90 => ⟨S524288x1, .f32⟩
  | 91 => ⟨S524288x1, .f32⟩
  | 92 => ⟨S524288x4, .f32⟩
  | 93 => ⟨S524288x1, .f32⟩
  | 94 => ⟨S524288x1, .f32⟩
  | 95 => ⟨S524288x1, .f32⟩
  | 96 => ⟨S524288x1, .f32⟩
  | 97 => ⟨S524288x4, .f32⟩
  | 98 => ⟨S524288x1, .f32⟩
  | 99 => ⟨S524288x1, .f32⟩
  | 100 => ⟨S524288x1, .f32⟩
  | 101 => ⟨S524288x1, .f32⟩
  | 102 => ⟨S524288x4, .f32⟩
  | 103 => ⟨S524288x1x4, .f32⟩
  | 104 => ⟨S524288x1x4, .f32⟩
  | 105 => ⟨S524288x1x4, .f32⟩
  | 106 => ⟨S524288x1x4, .f32⟩
  | 107 => ⟨S524288x4x4, .f32⟩
  | 108 => ⟨S524288x4x4, .f32⟩
  | 109 => ⟨S524288x1, .f32⟩
  | 110 => ⟨S524288, .f32⟩
  | 111 => ⟨S524288, .f32⟩
  | 112 => ⟨S524288, .f32⟩
  | 113 => ⟨S_, .f32⟩
  | 114 => ⟨S524288, .f32⟩
  | 115 => ⟨S_, .f32⟩
  | 116 => ⟨S524288, .f32⟩
  | 117 => ⟨S524288, .f32⟩
  | 118 => ⟨S524288x1, .f32⟩
  | 119 => ⟨S524288x1, .f32⟩
  | 120 => ⟨S524288x1, .f32⟩
  | 121 => ⟨S524288x1, .f32⟩
  | 122 => ⟨S524288x4, .f32⟩
  | 123 => ⟨S524288x1, .f32⟩
  | 124 => ⟨S524288x1, .f32⟩
  | 125 => ⟨S524288x1, .f32⟩
  | 126 => ⟨S524288x1, .f32⟩
  | 127 => ⟨S524288x4, .f32⟩
  | _ => ⟨S524288x26, .f32⟩

abbrev hbmTy0_1 (i : Nat) : BufTy := match i % 128 with
  | 0 => ⟨S524288x1, .f32⟩
  | 1 => ⟨S524288x1, .f32⟩
  | 2 => ⟨S524288x1, .f32⟩
  | 3 => ⟨S524288x1, .f32⟩
  | 4 => ⟨S524288x4, .f32⟩
  | 5 => ⟨S524288x1, .f32⟩
  | 6 => ⟨S524288x1, .f32⟩
  | 7 => ⟨S524288x1, .f32⟩
  | 8 => ⟨S524288x1, .f32⟩
  | 9 => ⟨S524288x4, .f32⟩
  | 10 => ⟨S524288x1x4, .f32⟩
  | 11 => ⟨S524288x1x4, .f32⟩
  | 12 => ⟨S524288x1x4, .f32⟩
  | 13 => ⟨S524288x1x4, .f32⟩
  | 14 => ⟨S524288x4x4, .f32⟩
  | 15 => ⟨S524288x4x4, .f32⟩
  | 16 => ⟨S524288x1, .f32⟩
  | 17 => ⟨S524288, .f32⟩
  | 18 => ⟨S524288, .f32⟩
  | 19 => ⟨S524288, .f32⟩
  | 20 => ⟨S_, .f32⟩
  | 21 => ⟨S524288, .f32⟩
  | 22 => ⟨S_, .f32⟩
  | 23 => ⟨S524288, .f32⟩
  | 24 => ⟨S524288, .f32⟩
  | 25 => ⟨S524288x1, .f32⟩
  | 26 => ⟨S524288x1, .f32⟩
  | 27 => ⟨S524288x1, .f32⟩
  | 28 => ⟨S524288x1, .f32⟩
  | 29 => ⟨S524288x4, .f32⟩
  | 30 => ⟨S524288x1, .f32⟩
  | 31 => ⟨S524288x1, .f32⟩
  | 32 => ⟨S524288x1, .f32⟩
  | 33 => ⟨S524288x1, .f32⟩
  | 34 => ⟨S524288x4, .f32⟩
  | 35 => ⟨S524288x1, .f32⟩
  | 36 => ⟨S524288x1, .f32⟩
  | 37 => ⟨S524288x1, .f32⟩
  | 38 => ⟨S524288x1, .f32⟩
  | 39 => ⟨S524288x4, .f32⟩
  | 40 => ⟨S524288x1, .f32⟩
  | 41 => ⟨S524288x1, .f32⟩
  | 42 => ⟨S524288x1, .f32⟩
  | 43 => ⟨S524288x1, .f32⟩
  | 44 => ⟨S524288x4, .f32⟩
  | 45 => ⟨S524288x1x4, .f32⟩
  | 46 => ⟨S524288x1x4, .f32⟩
  | 47 => ⟨S524288x1x4, .f32⟩
  | 48 => ⟨S524288x1x4, .f32⟩
  | 49 => ⟨S524288x4x4, .f32⟩
  | 50 => ⟨S524288x4x4, .f32⟩
  | 51 => ⟨S1, .f32⟩
  | 52 => ⟨S_, .f32⟩
  | 53 => ⟨S_, .f32⟩
  | 54 => ⟨S_, .f32⟩
  | 55 => ⟨S524288, .f32⟩
  | 56 => ⟨S524288, .f32⟩
  | 57 => ⟨S4x4, .i32⟩
  | 58 => ⟨S4x4, .i32⟩
  | 59 => ⟨S_, .i32⟩
  | 60 => ⟨S4x4, .i32⟩
  | 61 => ⟨S4x4, .i32⟩
  | 62 => ⟨S4x4, .i1⟩
  | 63 => ⟨S4x4, .f32⟩
  | 64 => ⟨S524288x4x4, .f32⟩
  | 65 => ⟨S_, .i32⟩
  | 66 => ⟨S1, .i32⟩
  | 67 => ⟨S_, .i32⟩
  | 68 => ⟨S1, .i32⟩
  | 69 => ⟨S2, .i32⟩
  | 70 => ⟨S524288x4x4, .f32⟩
  | 71 => ⟨S524288x4x4, .f32⟩
  | 72 => ⟨S524288x1, .f32⟩
  | 73 => ⟨S524288, .f32⟩
  | 74 => ⟨S524288, .f32⟩
  | 75 => ⟨S524288, .f32⟩
  | 76 => ⟨S_, .f32⟩
  | 77 => ⟨S524288, .f32⟩
  | 78 => ⟨S_, .f32⟩
  | 79 => ⟨S524288, .f32⟩
  | 80 => ⟨S524288, .f32⟩
  | 81 => ⟨S524288x1, .f32⟩
  | 82 => ⟨S524288x1, .f32⟩
  | 83 => ⟨S524288x1, .f32⟩
  | 84 => ⟨S524288x1, .f32⟩
  | 85 => ⟨S524288x4, .f32⟩
  | 86 => ⟨S524288x1, .f32⟩
  | 87 => ⟨S524288x1, .f32⟩
  | 88 => ⟨S524288x1, .f32⟩
  | 89 => ⟨S524288x1, .f32⟩
  | 90 => ⟨S524288x4, .f32⟩
  | 91 => ⟨S524288x1, .f32⟩
  | 92 => ⟨S524288x1, .f32⟩
  | 93 => ⟨S524288x1, .f32⟩
  | 94 => ⟨S524288x1, .f32⟩
  | 95 => ⟨S524288x4, .f32⟩
  | 96 => ⟨S524288x1, .f32⟩
  | 97 => ⟨S524288x1, .f32⟩
  | 98 => ⟨S524288x1, .f32⟩
  | 99 => ⟨S524288x1, .f32⟩
  | 100 => ⟨S524288x4, .f32⟩
  | 101 => ⟨S524288x1x4, .f32⟩
  | 102 => ⟨S524288x1x4, .f32⟩
  | 103 => ⟨S524288x1x4, .f32⟩
  | 104 => ⟨S524288x1x4, .f32⟩
  | 105 => ⟨S524288x4x4, .f32⟩
  | 106 => ⟨S524288x4x4, .f32⟩
  | 107 => ⟨S524288x1, .f32⟩
  | 108 => ⟨S524288, .f32⟩
  | 109 => ⟨S524288, .f32⟩
  | 110 => ⟨S524288, .f32⟩
  | 111 => ⟨S_, .f32⟩
  | 112 => ⟨S524288, .f32⟩
  | 113 => ⟨S_, .f32⟩
  | 114 => ⟨S524288, .f32⟩
  | 115 => ⟨S524288, .f32⟩
  | 116 => ⟨S524288x1, .f32⟩
  | 117 => ⟨S524288x1, .f32⟩
  | 118 => ⟨S524288x1, .f32⟩
  | 119 => ⟨S524288x1, .f32⟩
  | 120 => ⟨S524288x4, .f32⟩
  | 121 => ⟨S524288x1, .f32⟩
  | 122 => ⟨S524288x1, .f32⟩
  | 123 => ⟨S524288x1, .f32⟩
  | 124 => ⟨S524288x1, .f32⟩
  | 125 => ⟨S524288x4, .f32⟩
  | 126 => ⟨S524288x1, .f32⟩
  | 127 => ⟨S524288x1, .f32⟩
  | _ => ⟨S524288x26, .f32⟩

abbrev hbmTy0_2 (i : Nat) : BufTy := match i % 128 with
  | 0 => ⟨S524288x1, .f32⟩
  | 1 => ⟨S524288x1, .f32⟩
  | 2 => ⟨S524288x4, .f32⟩
  | 3 => ⟨S524288x1, .f32⟩
  | 4 => ⟨S524288x1, .f32⟩
  | 5 => ⟨S524288x1, .f32⟩
  | 6 => ⟨S524288x1, .f32⟩
  | 7 => ⟨S524288x4, .f32⟩
  | 8 => ⟨S524288x1x4, .f32⟩
  | 9 => ⟨S524288x1x4, .f32⟩
  | 10 => ⟨S524288x1x4, .f32⟩
  | 11 => ⟨S524288x1x4, .f32⟩
  | 12 => ⟨S524288x4x4, .f32⟩
  | 13 => ⟨S524288x4x4, .f32⟩
  | 14 => ⟨S524288x1, .f32⟩
  | 15 => ⟨S524288, .f32⟩
  | 16 => ⟨S524288, .f32⟩
  | 17 => ⟨S524288, .f32⟩
  | 18 => ⟨S_, .f32⟩
  | 19 => ⟨S524288, .f32⟩
  | 20 => ⟨S_, .f32⟩
  | 21 => ⟨S524288, .f32⟩
  | 22 => ⟨S524288, .f32⟩
  | 23 => ⟨S524288x1, .f32⟩
  | 24 => ⟨S524288x1, .f32⟩
  | 25 => ⟨S524288x1, .f32⟩
  | 26 => ⟨S524288x1, .f32⟩
  | 27 => ⟨S524288x4, .f32⟩
  | 28 => ⟨S524288x1, .f32⟩
  | 29 => ⟨S524288x1, .f32⟩
  | 30 => ⟨S524288x1, .f32⟩
  | 31 => ⟨S524288x1, .f32⟩
  | 32 => ⟨S524288x4, .f32⟩
  | 33 => ⟨S524288x1, .f32⟩
  | 34 => ⟨S524288x1, .f32⟩
  | 35 => ⟨S524288x1, .f32⟩
  | 36 => ⟨S524288x1, .f32⟩
  | 37 => ⟨S524288x4, .f32⟩
  | 38 => ⟨S524288x1, .f32⟩
  | 39 => ⟨S524288x1, .f32⟩
  | 40 => ⟨S524288x1, .f32⟩
  | 41 => ⟨S524288x1, .f32⟩
  | 42 => ⟨S524288x4, .f32⟩
  | 43 => ⟨S524288x1x4, .f32⟩
  | 44 => ⟨S524288x1x4, .f32⟩
  | 45 => ⟨S524288x1x4, .f32⟩
  | 46 => ⟨S524288x1x4, .f32⟩
  | 47 => ⟨S524288x4x4, .f32⟩
  | 48 => ⟨S524288x4x4, .f32⟩
  | 49 => ⟨S1, .f32⟩
  | 50 => ⟨S_, .f32⟩
  | 51 => ⟨S_, .f32⟩
  | 52 => ⟨S_, .f32⟩
  | 53 => ⟨S524288, .f32⟩
  | 54 => ⟨S524288, .f32⟩
  | 55 => ⟨S4x4, .i32⟩
  | 56 => ⟨S4x4, .i32⟩
  | 57 => ⟨S_, .i32⟩
  | 58 => ⟨S4x4, .i32⟩
  | 59 => ⟨S4x4, .i32⟩
  | 60 => ⟨S4x4, .i1⟩
  | 61 => ⟨S4x4, .f32⟩
  | 62 => ⟨S524288x4x4, .f32⟩
  | 63 => ⟨S_, .i32⟩
  | 64 => ⟨S1, .i32⟩
  | 65 => ⟨S_, .i32⟩
  | 66 => ⟨S1, .i32⟩
  | 67 => ⟨S2, .i32⟩
  | 68 => ⟨S524288x4x4, .f32⟩
  | 69 => ⟨S524288x4x4, .f32⟩
  | 70 => ⟨S524288x1, .f32⟩
  | 71 => ⟨S524288, .f32⟩
  | 72 => ⟨S524288, .f32⟩
  | 73 => ⟨S524288, .f32⟩
  | 74 => ⟨S_, .f32⟩
  | 75 => ⟨S524288, .f32⟩
  | 76 => ⟨S_, .f32⟩
  | 77 => ⟨S524288, .f32⟩
  | 78 => ⟨S524288, .f32⟩
  | 79 => ⟨S524288x1, .f32⟩
  | 80 => ⟨S524288x1, .f32⟩
  | 81 => ⟨S524288x1, .f32⟩
  | 82 => ⟨S524288x1, .f32⟩
  | 83 => ⟨S524288x4, .f32⟩
  | 84 => ⟨S524288x1, .f32⟩
  | 85 => ⟨S524288x1, .f32⟩
  | 86 => ⟨S524288x1, .f32⟩
  | 87 => ⟨S524288x1, .f32⟩
  | 88 => ⟨S524288x4, .f32⟩
  | 89 => ⟨S524288x1, .f32⟩
  | 90 => ⟨S524288x1, .f32⟩
  | 91 => ⟨S524288x1, .f32⟩
  | 92 => ⟨S524288x1, .f32⟩
  | 93 => ⟨S524288x4, .f32⟩
  | 94 => ⟨S524288x1, .f32⟩
  | 95 => ⟨S524288x1, .f32⟩
  | 96 => ⟨S524288x1, .f32⟩
  | 97 => ⟨S524288x1, .f32⟩
  | 98 => ⟨S524288x4, .f32⟩
  | 99 => ⟨S524288x1x4, .f32⟩
  | 100 => ⟨S524288x1x4, .f32⟩
  | 101 => ⟨S524288x1x4, .f32⟩
  | 102 => ⟨S524288x1x4, .f32⟩
  | 103 => ⟨S524288x4x4, .f32⟩
  | 104 => ⟨S524288x4x4, .f32⟩
  | 105 => ⟨S1, .f32⟩
  | 106 => ⟨S_, .f32⟩
  | 107 => ⟨S_, .f32⟩
  | 108 => ⟨S_, .f32⟩
  | 109 => ⟨S524288, .f32⟩
  | 110 => ⟨S524288, .f32⟩
  | 111 => ⟨S4x4, .i32⟩
  | 112 => ⟨S4x4, .i32⟩
  | 113 => ⟨S_, .i32⟩
  | 114 => ⟨S4x4, .i32⟩
  | 115 => ⟨S4x4, .i32⟩
  | 116 => ⟨S4x4, .i1⟩
  | 117 => ⟨S4x4, .f32⟩
  | 118 => ⟨S524288x4x4, .f32⟩
  | 119 => ⟨S_, .i32⟩
  | 120 => ⟨S1, .i32⟩
  | 121 => ⟨S_, .i32⟩
  | 122 => ⟨S1, .i32⟩
  | 123 => ⟨S2, .i32⟩
  | 124 => ⟨S524288x4x4, .f32⟩
  | 125 => ⟨S524288x4x4, .f32⟩
  | 126 => ⟨S1, .f32⟩
  | 127 => ⟨S_, .f32⟩
  | _ => ⟨S524288x26, .f32⟩

abbrev hbmTy0_3 (i : Nat) : BufTy := match i % 128 with
  | 0 => ⟨S_, .f32⟩
  | 1 => ⟨S_, .f32⟩
  | 2 => ⟨S524288, .f32⟩
  | 3 => ⟨S524288, .f32⟩
  | 4 => ⟨S4x4, .i32⟩
  | 5 => ⟨S4x4, .i32⟩
  | 6 => ⟨S_, .i32⟩
  | 7 => ⟨S4x4, .i32⟩
  | 8 => ⟨S4x4, .i32⟩
  | 9 => ⟨S4x4, .i1⟩
  | 10 => ⟨S4x4, .f32⟩
  | 11 => ⟨S524288x4x4, .f32⟩
  | 12 => ⟨S_, .i32⟩
  | 13 => ⟨S1, .i32⟩
  | 14 => ⟨S_, .i32⟩
  | 15 => ⟨S1, .i32⟩
  | 16 => ⟨S2, .i32⟩
  | 17 => ⟨S524288x4x4, .f32⟩
  | 18 => ⟨S524288x4x4, .f32⟩
  | 19 => ⟨S524288x1, .f32⟩
  | 20 => ⟨S524288, .f32⟩
  | 21 => ⟨S524288, .f32⟩
  | 22 => ⟨S524288, .f32⟩
  | 23 => ⟨S_, .f32⟩
  | 24 => ⟨S524288, .f32⟩
  | 25 => ⟨S_, .f32⟩
  | 26 => ⟨S524288, .f32⟩
  | 27 => ⟨S524288, .f32⟩
  | 28 => ⟨S524288x1, .f32⟩
  | 29 => ⟨S524288x1, .f32⟩
  | 30 => ⟨S524288x1, .f32⟩
  | 31 => ⟨S524288x1, .f32⟩
  | 32 => ⟨S524288x4, .f32⟩
  | 33 => ⟨S524288x1, .f32⟩
  | 34 => ⟨S524288x1, .f32⟩
  | 35 => ⟨S524288x1, .f32⟩
  | 36 => ⟨S524288x1, .f32⟩
  | 37 => ⟨S524288x4, .f32⟩
  | 38 => ⟨S524288x1, .f32⟩
  | 39 => ⟨S524288x1, .f32⟩
  | 40 => ⟨S524288x1, .f32⟩
  | 41 => ⟨S524288x1, .f32⟩
  | 42 => ⟨S524288x4, .f32⟩
  | 43 => ⟨S524288x1, .f32⟩
  | 44 => ⟨S524288x1, .f32⟩
  | 45 => ⟨S524288x1, .f32⟩
  | 46 => ⟨S524288x1, .f32⟩
  | 47 => ⟨S524288x4, .f32⟩
  | 48 => ⟨S524288x1x4, .f32⟩
  | 49 => ⟨S524288x1x4, .f32⟩
  | 50 => ⟨S524288x1x4, .f32⟩
  | 51 => ⟨S524288x1x4, .f32⟩
  | 52 => ⟨S524288x4x4, .f32⟩
  | 53 => ⟨S524288x4x4, .f32⟩
  | 54 => ⟨S524288x1, .f32⟩
  | 55 => ⟨S524288, .f32⟩
  | 56 => ⟨S524288, .f32⟩
  | 57 => ⟨S524288, .f32⟩
  | 58 => ⟨S_, .f32⟩
  | 59 => ⟨S524288, .f32⟩
  | 60 => ⟨S_, .f32⟩
  | 61 => ⟨S524288, .f32⟩
  | 62 => ⟨S524288, .f32⟩
  | 63 => ⟨S524288x1, .f32⟩
  | 64 => ⟨S524288x1, .f32⟩
  | 65 => ⟨S524288x1, .f32⟩
  | 66 => ⟨S524288x1, .f32⟩
  | 67 => ⟨S524288x4, .f32⟩
  | 68 => ⟨S524288x1, .f32⟩
  | 69 => ⟨S524288x1, .f32⟩
  | 70 => ⟨S524288x1, .f32⟩
  | 71 => ⟨S524288x1, .f32⟩
  | 72 => ⟨S524288x4, .f32⟩
  | 73 => ⟨S524288x1, .f32⟩
  | 74 => ⟨S524288x1, .f32⟩
  | 75 => ⟨S524288x1, .f32⟩
  | 76 => ⟨S524288x1, .f32⟩
  | 77 => ⟨S524288x4, .f32⟩
  | 78 => ⟨S524288x1, .f32⟩
  | 79 => ⟨S524288x1, .f32⟩
  | 80 => ⟨S524288x1, .f32⟩
  | 81 => ⟨S524288x1, .f32⟩
  | 82 => ⟨S524288x4, .f32⟩
  | 83 => ⟨S524288x1x4, .f32⟩
  | 84 => ⟨S524288x1x4, .f32⟩
  | 85 => ⟨S524288x1x4, .f32⟩
  | 86 => ⟨S524288x1x4, .f32⟩
  | 87 => ⟨S524288x4x4, .f32⟩
  | 88 => ⟨S524288x4x4, .f32⟩
  | 89 => ⟨S524288x1, .f32⟩
  | 90 => ⟨S524288, .f32⟩
  | 91 => ⟨S524288, .f32⟩
  | 92 => ⟨S524288, .f32⟩
  | 93 => ⟨S_, .f32⟩
  | 94 => ⟨S524288, .f32⟩
  | 95 => ⟨S_, .f32⟩
  | 96 => ⟨S524288, .f32⟩
  | 97 => ⟨S524288, .f32⟩
  | 98 => ⟨S524288x1, .f32⟩
  | 99 => ⟨S524288x1, .f32⟩
  | 100 => ⟨S524288x1, .f32⟩
  | 101 => ⟨S524288x1, .f32⟩
  | 102 => ⟨S524288x4, .f32⟩
  | 103 => ⟨S524288x1, .f32⟩
  | 104 => ⟨S524288x1, .f32⟩
  | 105 => ⟨S524288x1, .f32⟩
  | 106 => ⟨S524288x1, .f32⟩
  | 107 => ⟨S524288x4, .f32⟩
  | 108 => ⟨S524288x1, .f32⟩
  | 109 => ⟨S524288x1, .f32⟩
  | 110 => ⟨S524288x1, .f32⟩
  | 111 => ⟨S524288x1, .f32⟩
  | 112 => ⟨S524288x4, .f32⟩
  | 113 => ⟨S524288x1, .f32⟩
  | 114 => ⟨S524288x1, .f32⟩
  | 115 => ⟨S524288x1, .f32⟩
  | 116 => ⟨S524288x1, .f32⟩
  | 117 => ⟨S524288x4, .f32⟩
  | 118 => ⟨S524288x1x4, .f32⟩
  | 119 => ⟨S524288x1x4, .f32⟩
  | 120 => ⟨S524288x1x4, .f32⟩
  | 121 => ⟨S524288x1x4, .f32⟩
  | 122 => ⟨S524288x4x4, .f32⟩
  | 123 => ⟨S524288x4x4, .f32⟩
  | 124 => ⟨S1, .f32⟩
  | 125 => ⟨S_, .f32⟩
  | 126 => ⟨S_, .f32⟩
  | 127 => ⟨S_, .f32⟩
  | _ => ⟨S524288x26, .f32⟩

abbrev hbmTy0_4 (i : Nat) : BufTy := match i % 128 with
  | 0 => ⟨S524288, .f32⟩
  | 1 => ⟨S524288, .f32⟩
  | 2 => ⟨S4x4, .i32⟩
  | 3 => ⟨S4x4, .i32⟩
  | 4 => ⟨S_, .i32⟩
  | 5 => ⟨S4x4, .i32⟩
  | 6 => ⟨S4x4, .i32⟩
  | 7 => ⟨S4x4, .i1⟩
  | 8 => ⟨S4x4, .f32⟩
  | 9 => ⟨S524288x4x4, .f32⟩
  | 10 => ⟨S_, .i32⟩
  | 11 => ⟨S1, .i32⟩
  | 12 => ⟨S_, .i32⟩
  | 13 => ⟨S1, .i32⟩
  | 14 => ⟨S2, .i32⟩
  | 15 => ⟨S524288x4x4, .f32⟩
  | 16 => ⟨S524288x4x4, .f32⟩
  | 17 => ⟨S524288x1, .f32⟩
  | 18 => ⟨S524288, .f32⟩
  | 19 => ⟨S524288, .f32⟩
  | 20 => ⟨S524288, .f32⟩
  | 21 => ⟨S_, .f32⟩
  | 22 => ⟨S524288, .f32⟩
  | 23 => ⟨S_, .f32⟩
  | 24 => ⟨S524288, .f32⟩
  | 25 => ⟨S524288, .f32⟩
  | 26 => ⟨S524288x1, .f32⟩
  | 27 => ⟨S524288x1, .f32⟩
  | 28 => ⟨S524288x1, .f32⟩
  | 29 => ⟨S524288x1, .f32⟩
  | 30 => ⟨S524288x4, .f32⟩
  | 31 => ⟨S524288x1, .f32⟩
  | 32 => ⟨S524288x1, .f32⟩
  | 33 => ⟨S524288x1, .f32⟩
  | 34 => ⟨S524288x1, .f32⟩
  | 35 => ⟨S524288x4, .f32⟩
  | 36 => ⟨S524288x1, .f32⟩
  | 37 => ⟨S524288x1, .f32⟩
  | 38 => ⟨S524288x1, .f32⟩
  | 39 => ⟨S524288x1, .f32⟩
  | 40 => ⟨S524288x4, .f32⟩
  | 41 => ⟨S524288x1, .f32⟩
  | 42 => ⟨S524288x1, .f32⟩
  | 43 => ⟨S524288x1, .f32⟩
  | 44 => ⟨S524288x1, .f32⟩
  | 45 => ⟨S524288x4, .f32⟩
  | 46 => ⟨S524288x1x4, .f32⟩
  | 47 => ⟨S524288x1x4, .f32⟩
  | 48 => ⟨S524288x1x4, .f32⟩
  | 49 => ⟨S524288x1x4, .f32⟩
  | 50 => ⟨S524288x4x4, .f32⟩
  | 51 => ⟨S524288x4x4, .f32⟩
  | 52 => ⟨S1, .f32⟩
  | 53 => ⟨S_, .f32⟩
  | 54 => ⟨S_, .f32⟩
  | 55 => ⟨S_, .f32⟩
  | 56 => ⟨S524288, .f32⟩
  | 57 => ⟨S524288, .f32⟩
  | 58 => ⟨S4x4, .i32⟩
  | 59 => ⟨S4x4, .i32⟩
  | 60 => ⟨S_, .i32⟩
  | 61 => ⟨S4x4, .i32⟩
  | 62 => ⟨S4x4, .i32⟩
  | 63 => ⟨S4x4, .i1⟩
  | 64 => ⟨S4x4, .f32⟩
  | 65 => ⟨S524288x4x4, .f32⟩
  | 66 => ⟨S_, .i32⟩
  | 67 => ⟨S1, .i32⟩
  | 68 => ⟨S_, .i32⟩
  | 69 => ⟨S1, .i32⟩
  | 70 => ⟨S2, .i32⟩
  | 71 => ⟨S524288x4x4, .f32⟩
  | 72 => ⟨S524288x4x4, .f32⟩
  | 73 => ⟨S1, .f32⟩
  | 74 => ⟨S_, .f32⟩
  | 75 => ⟨S_, .f32⟩
  | 76 => ⟨S_, .f32⟩
  | 77 => ⟨S524288, .f32⟩
  | 78 => ⟨S524288, .f32⟩
  | 79 => ⟨S4x4, .i32⟩
  | 80 => ⟨S4x4, .i32⟩
  | 81 => ⟨S_, .i32⟩
  | 82 => ⟨S4x4, .i32⟩
  | 83 => ⟨S4x4, .i32⟩
  | 84 => ⟨S4x4, .i1⟩
  | 85 => ⟨S4x4, .f32⟩
  | 86 => ⟨S524288x4x4, .f32⟩
  | 87 => ⟨S_, .i32⟩
  | 88 => ⟨S1, .i32⟩
  | 89 => ⟨S_, .i32⟩
  | 90 => ⟨S1, .i32⟩
  | 91 => ⟨S2, .i32⟩
  | 92 => ⟨S524288x4x4, .f32⟩
  | 93 => ⟨S524288x4x4, .f32⟩
  | 94 => ⟨S524288x1, .f32⟩
  | 95 => ⟨S524288, .f32⟩
  | 96 => ⟨S524288, .f32⟩
  | 97 => ⟨S524288, .f32⟩
  | 98 => ⟨S_, .f32⟩
  | 99 => ⟨S524288, .f32⟩
  | 100 => ⟨S_, .f32⟩
  | 101 => ⟨S524288, .f32⟩
  | 102 => ⟨S524288, .f32⟩
  | 103 => ⟨S524288x1, .f32⟩
  | 104 => ⟨S524288x1, .f32⟩
  | 105 => ⟨S524288x1, .f32⟩
  | 106 => ⟨S524288x1, .f32⟩
  | 107 => ⟨S524288x4, .f32⟩
  | 108 => ⟨S524288x1, .f32⟩
  | 109 => ⟨S524288x1, .f32⟩
  | 110 => ⟨S524288x1, .f32⟩
  | 111 => ⟨S524288x1, .f32⟩
  | 112 => ⟨S524288x4, .f32⟩
  | 113 => ⟨S524288x1, .f32⟩
  | 114 => ⟨S524288x1, .f32⟩
  | 115 => ⟨S524288x1, .f32⟩
  | 116 => ⟨S524288x1, .f32⟩
  | 117 => ⟨S524288x4, .f32⟩
  | 118 => ⟨S524288x1, .f32⟩
  | 119 => ⟨S524288x1, .f32⟩
  | 120 => ⟨S524288x1, .f32⟩
  | 121 => ⟨S524288x1, .f32⟩
  | 122 => ⟨S524288x4, .f32⟩
  | 123 => ⟨S524288x1x4, .f32⟩
  | 124 => ⟨S524288x1x4, .f32⟩
  | 125 => ⟨S524288x1x4, .f32⟩
  | 126 => ⟨S524288x1x4, .f32⟩
  | 127 => ⟨S524288x4x4, .f32⟩
  | _ => ⟨S524288x26, .f32⟩

abbrev hbmTy0_5 (i : Nat) : BufTy := match i % 128 with
  | 0 => ⟨S524288x4x4, .f32⟩
  | 1 => ⟨S524288x1, .f32⟩
  | 2 => ⟨S524288, .f32⟩
  | 3 => ⟨S524288, .f32⟩
  | 4 => ⟨S524288, .f32⟩
  | 5 => ⟨S_, .f32⟩
  | 6 => ⟨S524288, .f32⟩
  | 7 => ⟨S_, .f32⟩
  | 8 => ⟨S524288, .f32⟩
  | 9 => ⟨S524288, .f32⟩
  | 10 => ⟨S524288x1, .f32⟩
  | 11 => ⟨S524288x1, .f32⟩
  | 12 => ⟨S524288x1, .f32⟩
  | 13 => ⟨S524288x1, .f32⟩
  | 14 => ⟨S524288x4, .f32⟩
  | 15 => ⟨S524288x1, .f32⟩
  | 16 => ⟨S524288x1, .f32⟩
  | 17 => ⟨S524288x1, .f32⟩
  | 18 => ⟨S524288x1, .f32⟩
  | 19 => ⟨S524288x4, .f32⟩
  | 20 => ⟨S524288x1, .f32⟩
  | 21 => ⟨S524288x1, .f32⟩
  | 22 => ⟨S524288x1, .f32⟩
  | 23 => ⟨S524288x1, .f32⟩
  | 24 => ⟨S524288x4, .f32⟩
  | 25 => ⟨S524288x1, .f32⟩
  | 26 => ⟨S524288x1, .f32⟩
  | 27 => ⟨S524288x1, .f32⟩
  | 28 => ⟨S524288x1, .f32⟩
  | 29 => ⟨S524288x4, .f32⟩
  | 30 => ⟨S524288x1x4, .f32⟩
  | 31 => ⟨S524288x1x4, .f32⟩
  | 32 => ⟨S524288x1x4, .f32⟩
  | 33 => ⟨S524288x1x4, .f32⟩
  | 34 => ⟨S524288x4x4, .f32⟩
  | 35 => ⟨S524288x4x4, .f32⟩
  | 36 => ⟨S524288x1, .f32⟩
  | 37 => ⟨S524288, .f32⟩
  | 38 => ⟨S524288, .f32⟩
  | 39 => ⟨S524288, .f32⟩
  | 40 => ⟨S_, .f32⟩
  | 41 => ⟨S524288, .f32⟩
  | 42 => ⟨S_, .f32⟩
  | 43 => ⟨S524288, .f32⟩
  | 44 => ⟨S524288, .f32⟩
  | 45 => ⟨S524288x1, .f32⟩
  | 46 => ⟨S524288x1, .f32⟩
  | 47 => ⟨S524288x1, .f32⟩
  | 48 => ⟨S524288x1, .f32⟩
  | 49 => ⟨S524288x4, .f32⟩
  | 50 => ⟨S524288x1, .f32⟩
  | 51 => ⟨S524288x1, .f32⟩
  | 52 => ⟨S524288x1, .f32⟩
  | 53 => ⟨S524288x1, .f32⟩
  | 54 => ⟨S524288x4, .f32⟩
  | 55 => ⟨S524288x1, .f32⟩
  | 56 => ⟨S524288x1, .f32⟩
  | 57 => ⟨S524288x1, .f32⟩
  | 58 => ⟨S524288x1, .f32⟩
  | 59 => ⟨S524288x4, .f32⟩
  | 60 => ⟨S524288x1, .f32⟩
  | 61 => ⟨S524288x1, .f32⟩
  | 62 => ⟨S524288x1, .f32⟩
  | 63 => ⟨S524288x1, .f32⟩
  | 64 => ⟨S524288x4, .f32⟩
  | 65 => ⟨S524288x1x4, .f32⟩
  | 66 => ⟨S524288x1x4, .f32⟩
  | 67 => ⟨S524288x1x4, .f32⟩
  | 68 => ⟨S524288x1x4, .f32⟩
  | 69 => ⟨S524288x4x4, .f32⟩
  | 70 => ⟨S524288x4x4, .f32⟩
  | 71 => ⟨S1, .f32⟩
  | 72 => ⟨S_, .f32⟩
  | 73 => ⟨S_, .f32⟩
  | 74 => ⟨S_, .f32⟩
  | 75 => ⟨S524288, .f32⟩
  | 76 => ⟨S524288, .f32⟩
  | 77 => ⟨S4x4, .i32⟩
  | 78 => ⟨S4x4, .i32⟩
  | 79 => ⟨S_, .i32⟩
  | 80 => ⟨S4x4, .i32⟩
  | 81 => ⟨S4x4, .i32⟩
  | 82 => ⟨S4x4, .i1⟩
  | 83 => ⟨S4x4, .f32⟩
  | 84 => ⟨S524288x4x4, .f32⟩
  | 85 => ⟨S_, .i32⟩
  | 86 => ⟨S1, .i32⟩
  | 87 => ⟨S_, .i32⟩
  | 88 => ⟨S1, .i32⟩
  | 89 => ⟨S2, .i32⟩
  | 90 => ⟨S524288x4x4, .f32⟩
  | 91 => ⟨S524288x4x4, .f32⟩
  | 92 => ⟨S524288x1, .f32⟩
  | 93 => ⟨S524288, .f32⟩
  | 94 => ⟨S524288, .f32⟩
  | 95 => ⟨S524288, .f32⟩
  | 96 => ⟨S_, .f32⟩
  | 97 => ⟨S524288, .f32⟩
  | 98 => ⟨S_, .f32⟩
  | 99 => ⟨S524288, .f32⟩
  | 100 => ⟨S524288, .f32⟩
  | 101 => ⟨S524288x1, .f32⟩
  | 102 => ⟨S524288x1, .f32⟩
  | 103 => ⟨S524288x1, .f32⟩
  | 104 => ⟨S524288x1, .f32⟩
  | 105 => ⟨S524288x4, .f32⟩
  | 106 => ⟨S524288x1, .f32⟩
  | 107 => ⟨S524288x1, .f32⟩
  | 108 => ⟨S524288x1, .f32⟩
  | 109 => ⟨S524288x1, .f32⟩
  | 110 => ⟨S524288x4, .f32⟩
  | 111 => ⟨S524288x1, .f32⟩
  | 112 => ⟨S524288x1, .f32⟩
  | 113 => ⟨S524288x1, .f32⟩
  | 114 => ⟨S524288x1, .f32⟩
  | 115 => ⟨S524288x4, .f32⟩
  | 116 => ⟨S524288x1, .f32⟩
  | 117 => ⟨S524288x1, .f32⟩
  | 118 => ⟨S524288x1, .f32⟩
  | 119 => ⟨S524288x1, .f32⟩
  | 120 => ⟨S524288x4, .f32⟩
  | 121 => ⟨S524288x1x4, .f32⟩
  | 122 => ⟨S524288x1x4, .f32⟩
  | 123 => ⟨S524288x1x4, .f32⟩
  | 124 => ⟨S524288x1x4, .f32⟩
  | 125 => ⟨S524288x4x4, .f32⟩
  | 126 => ⟨S524288x4x4, .f32⟩
  | 127 => ⟨S1, .f32⟩
  | _ => ⟨S524288x26, .f32⟩

abbrev hbmTy0_6 (i : Nat) : BufTy := match i % 128 with
  | 0 => ⟨S_, .f32⟩
  | 1 => ⟨S_, .f32⟩
  | 2 => ⟨S_, .f32⟩
  | 3 => ⟨S524288, .f32⟩
  | 4 => ⟨S524288, .f32⟩
  | 5 => ⟨S4x4, .i32⟩
  | 6 => ⟨S4x4, .i32⟩
  | 7 => ⟨S_, .i32⟩
  | 8 => ⟨S4x4, .i32⟩
  | 9 => ⟨S4x4, .i32⟩
  | 10 => ⟨S4x4, .i1⟩
  | 11 => ⟨S4x4, .f32⟩
  | 12 => ⟨S524288x4x4, .f32⟩
  | 13 => ⟨S_, .i32⟩
  | 14 => ⟨S1, .i32⟩
  | 15 => ⟨S_, .i32⟩
  | 16 => ⟨S1, .i32⟩
  | 17 => ⟨S2, .i32⟩
  | 18 => ⟨S524288x4x4, .f32⟩
  | 19 => ⟨S524288x4x4, .f32⟩
  | 20 => ⟨S1, .f32⟩
  | 21 => ⟨S_, .f32⟩
  | 22 => ⟨S_, .f32⟩
  | 23 => ⟨S_, .f32⟩
  | 24 => ⟨S524288, .f32⟩
  | 25 => ⟨S524288, .f32⟩
  | 26 => ⟨S4x4, .i32⟩
  | 27 => ⟨S4x4, .i32⟩
  | 28 => ⟨S_, .i32⟩
  | 29 => ⟨S4x4, .i32⟩
  | 30 => ⟨S4x4, .i32⟩
  | 31 => ⟨S4x4, .i1⟩
  | 32 => ⟨S4x4, .f32⟩
  | 33 => ⟨S524288x4x4, .f32⟩
  | 34 => ⟨S_, .i32⟩
  | 35 => ⟨S1, .i32⟩
  | 36 => ⟨S_, .i32⟩
  | 37 => ⟨S1, .i32⟩
  | 38 => ⟨S2, .i32⟩
  | 39 => ⟨S524288x4x4, .f32⟩
  | 40 => ⟨S524288x4x4, .f32⟩
  | 41 => ⟨S524288x1, .f32⟩
  | 42 => ⟨S524288, .f32⟩
  | 43 => ⟨S524288, .f32⟩
  | 44 => ⟨S524288, .f32⟩
  | 45 => ⟨S_, .f32⟩
  | 46 => ⟨S524288, .f32⟩
  | 47 => ⟨S_, .f32⟩
  | 48 => ⟨S524288, .f32⟩
  | 49 => ⟨S524288, .f32⟩
  | 50 => ⟨S524288x1, .f32⟩
  | 51 => ⟨S524288x1, .f32⟩
  | 52 => ⟨S524288x1, .f32⟩
  | 53 => ⟨S524288x1, .f32⟩
  | 54 => ⟨S524288x4, .f32⟩
  | 55 => ⟨S524288x1, .f32⟩
  | 56 => ⟨S524288x1, .f32⟩
  | 57 => ⟨S524288x1, .f32⟩
  | 58 => ⟨S524288x1, .f32⟩
  | 59 => ⟨S524288x4, .f32⟩
  | 60 => ⟨S524288x1, .f32⟩
  | 61 => ⟨S524288x1, .f32⟩
  | 62 => ⟨S524288x1, .f32⟩
  | 63 => ⟨S524288x1, .f32⟩
  | 64 => ⟨S524288x4, .f32⟩
  | 65 => ⟨S524288x1, .f32⟩
  | 66 => ⟨S524288x1, .f32⟩
  | 67 => ⟨S524288x1, .f32⟩
  | 68 => ⟨S524288x1, .f32⟩
  | 69 => ⟨S524288x4, .f32⟩
  | 70 => ⟨S524288x1x4, .f32⟩
  | 71 => ⟨S524288x1x4, .f32⟩
  | 72 => ⟨S524288x1x4, .f32⟩
  | 73 => ⟨S524288x1x4, .f32⟩
  | 74 => ⟨S524288x4x4, .f32⟩
  | 75 => ⟨S524288x4x4, .f32⟩
  | 76 => ⟨S524288x1, .f32⟩
  | 77 => ⟨S524288, .f32⟩
  | 78 => ⟨S524288, .f32⟩
  | 79 => ⟨S524288, .f32⟩
  | 80 => ⟨S_, .f32⟩
  | 81 => ⟨S524288, .f32⟩
  | 82 => ⟨S_, .f32⟩
  | 83 => ⟨S524288, .f32⟩
  | 84 => ⟨S524288, .f32⟩
  | 85 => ⟨S524288x1, .f32⟩
  | 86 => ⟨S524288x1, .f32⟩
  | 87 => ⟨S524288x1, .f32⟩
  | 88 => ⟨S524288x1, .f32⟩
  | 89 => ⟨S524288x4, .f32⟩
  | 90 => ⟨S524288x1, .f32⟩
  | 91 => ⟨S524288x1, .f32⟩
  | 92 => ⟨S524288x1, .f32⟩
  | 93 => ⟨S524288x1, .f32⟩
  | 94 => ⟨S524288x4, .f32⟩
  | 95 => ⟨S524288x1, .f32⟩
  | 96 => ⟨S524288x1, .f32⟩
  | 97 => ⟨S524288x1, .f32⟩
  | 98 => ⟨S524288x1, .f32⟩
  | 99 => ⟨S524288x4, .f32⟩
  | 100 => ⟨S524288x1, .f32⟩
  | 101 => ⟨S524288x1, .f32⟩
  | 102 => ⟨S524288x1, .f32⟩
  | 103 => ⟨S524288x1, .f32⟩
  | 104 => ⟨S524288x4, .f32⟩
  | 105 => ⟨S524288x1x4, .f32⟩
  | 106 => ⟨S524288x1x4, .f32⟩
  | 107 => ⟨S524288x1x4, .f32⟩
  | 108 => ⟨S524288x1x4, .f32⟩
  | 109 => ⟨S524288x4x4, .f32⟩
  | 110 => ⟨S524288x4x4, .f32⟩
  | 111 => ⟨S524288x1, .f32⟩
  | 112 => ⟨S524288, .f32⟩
  | 113 => ⟨S524288, .f32⟩
  | 114 => ⟨S524288, .f32⟩
  | 115 => ⟨S_, .f32⟩
  | 116 => ⟨S524288, .f32⟩
  | 117 => ⟨S_, .f32⟩
  | 118 => ⟨S524288, .f32⟩
  | 119 => ⟨S524288, .f32⟩
  | 120 => ⟨S524288x1, .f32⟩
  | 121 => ⟨S524288x1, .f32⟩
  | 122 => ⟨S524288x1, .f32⟩
  | 123 => ⟨S524288x1, .f32⟩
  | 124 => ⟨S524288x4, .f32⟩
  | 125 => ⟨S524288x1, .f32⟩
  | 126 => ⟨S524288x1, .f32⟩
  | 127 => ⟨S524288x1, .f32⟩
  | _ => ⟨S524288x26, .f32⟩

abbrev hbmTy0_7 (i : Nat) : BufTy := match i % 128 with
  | 0 => ⟨S524288x1, .f32⟩
  | 1 => ⟨S524288x4, .f32⟩
  | 2 => ⟨S524288x1, .f32⟩
  | 3 => ⟨S524288x1, .f32⟩
  | 4 => ⟨S524288x1, .f32⟩
  | 5 => ⟨S524288x1, .f32⟩
  | 6 => ⟨S524288x4, .f32⟩
  | 7 => ⟨S524288x1, .f32⟩
  | 8 => ⟨S524288x1, .f32⟩
  | 9 => ⟨S524288x1, .f32⟩
  | 10 => ⟨S524288x1, .f32⟩
  | 11 => ⟨S524288x4, .f32⟩
  | 12 => ⟨S524288x1x4, .f32⟩
  | 13 => ⟨S524288x1x4, .f32⟩
  | 14 => ⟨S524288x1x4, .f32⟩
  | 15 => ⟨S524288x1x4, .f32⟩
  | 16 => ⟨S524288x4x4, .f32⟩
  | 17 => ⟨S524288x4x4, .f32⟩
  | 18 => ⟨S1, .f32⟩
  | 19 => ⟨S_, .f32⟩
  | 20 => ⟨S_, .f32⟩
  | 21 => ⟨S_, .f32⟩
  | 22 => ⟨S524288, .f32⟩
  | 23 => ⟨S524288, .f32⟩
  | 24 => ⟨S4x4, .i32⟩
  | 25 => ⟨S4x4, .i32⟩
  | 26 => ⟨S_, .i32⟩
  | 27 => ⟨S4x4, .i32⟩
  | 28 => ⟨S4x4, .i32⟩
  | 29 => ⟨S4x4, .i1⟩
  | 30 => ⟨S4x4, .f32⟩
  | 31 => ⟨S524288x4x4, .f32⟩
  | 32 => ⟨S_, .i32⟩
  | 33 => ⟨S1, .i32⟩
  | 34 => ⟨S_, .i32⟩
  | 35 => ⟨S1, .i32⟩
  | 36 => ⟨S2, .i32⟩
  | 37 => ⟨S524288x4x4, .f32⟩
  | 38 => ⟨S524288x4x4, .f32⟩
  | 39 => ⟨S524288x1, .f32⟩
  | 40 => ⟨S524288, .f32⟩
  | 41 => ⟨S524288, .f32⟩
  | 42 => ⟨S524288, .f32⟩
  | 43 => ⟨S_, .f32⟩
  | 44 => ⟨S524288, .f32⟩
  | 45 => ⟨S_, .f32⟩
  | 46 => ⟨S524288, .f32⟩
  | 47 => ⟨S524288, .f32⟩
  | 48 => ⟨S524288x1, .f32⟩
  | 49 => ⟨S524288x1, .f32⟩
  | 50 => ⟨S524288x1, .f32⟩
  | 51 => ⟨S524288x1, .f32⟩
  | 52 => ⟨S524288x4, .f32⟩
  | 53 => ⟨S524288x1, .f32⟩
  | 54 => ⟨S524288x1, .f32⟩
  | 55 => ⟨S524288x1, .f32⟩
  | 56 => ⟨S524288x1, .f32⟩
  | 57 => ⟨S524288x4, .f32⟩
  | 58 => ⟨S524288x1, .f32⟩
  | 59 => ⟨S524288x1, .f32⟩
  | 60 => ⟨S524288x1, .f32⟩
  | 61 => ⟨S524288x1, .f32⟩
  | 62 => ⟨S524288x4, .f32⟩
  | 63 => ⟨S524288x1, .f32⟩
  | 64 => ⟨S524288x1, .f32⟩
  | 65 => ⟨S524288x1, .f32⟩
  | 66 => ⟨S524288x1, .f32⟩
  | 67 => ⟨S524288x4, .f32⟩
  | 68 => ⟨S524288x1x4, .f32⟩
  | 69 => ⟨S524288x1x4, .f32⟩
  | 70 => ⟨S524288x1x4, .f32⟩
  | 71 => ⟨S524288x1x4, .f32⟩
  | 72 => ⟨S524288x4x4, .f32⟩
  | 73 => ⟨S524288x4x4, .f32⟩
  | 74 => ⟨S1, .f32⟩
  | 75 => ⟨S_, .f32⟩
  | 76 => ⟨S_, .f32⟩
  | 77 => ⟨S_, .f32⟩
  | 78 => ⟨S524288, .f32⟩
  | 79 => ⟨S524288, .f32⟩
  | 80 => ⟨S4x4, .i32⟩
  | 81 => ⟨S4x4, .i32⟩
  | 82 => ⟨S_, .i32⟩
  | 83 => ⟨S4x4, .i32⟩
  | 84 => ⟨S4x4, .i32⟩
  | 85 => ⟨S4x4, .i1⟩
  | 86 => ⟨S4x4, .f32⟩
  | 87 => ⟨S524288x4x4, .f32⟩
  | 88 => ⟨S_, .i32⟩
  | 89 => ⟨S1, .i32⟩
  | 90 => ⟨S_, .i32⟩
  | 91 => ⟨S1, .i32⟩
  | 92 => ⟨S2, .i32⟩
  | 93 => ⟨S524288x4x4, .f32⟩
  | 94 => ⟨S524288x4x4, .f32⟩
  | 95 => ⟨S1, .f32⟩
  | 96 => ⟨S_, .f32⟩
  | 97 => ⟨S_, .f32⟩
  | 98 => ⟨S_, .f32⟩
  | 99 => ⟨S524288, .f32⟩
  | 100 => ⟨S524288, .f32⟩
  | 101 => ⟨S4x4, .i32⟩
  | 102 => ⟨S4x4, .i32⟩
  | 103 => ⟨S_, .i32⟩
  | 104 => ⟨S4x4, .i32⟩
  | 105 => ⟨S4x4, .i32⟩
  | 106 => ⟨S4x4, .i1⟩
  | 107 => ⟨S4x4, .f32⟩
  | 108 => ⟨S524288x4x4, .f32⟩
  | 109 => ⟨S_, .i32⟩
  | 110 => ⟨S1, .i32⟩
  | 111 => ⟨S_, .i32⟩
  | 112 => ⟨S1, .i32⟩
  | 113 => ⟨S2, .i32⟩
  | 114 => ⟨S524288x4x4, .f32⟩
  | 115 => ⟨S524288x4x4, .f32⟩
  | 116 => ⟨S524288x1, .f32⟩
  | 117 => ⟨S524288, .f32⟩
  | 118 => ⟨S524288, .f32⟩
  | 119 => ⟨S524288, .f32⟩
  | 120 => ⟨S_, .f32⟩
  | 121 => ⟨S524288, .f32⟩
  | 122 => ⟨S_, .f32⟩
  | 123 => ⟨S524288, .f32⟩
  | 124 => ⟨S524288, .f32⟩
  | 125 => ⟨S524288x1, .f32⟩
  | 126 => ⟨S524288x1, .f32⟩
  | 127 => ⟨S524288x1, .f32⟩
  | _ => ⟨S524288x26, .f32⟩

abbrev hbmTy0_8 (i : Nat) : BufTy := match i % 128 with
  | 0 => ⟨S524288x1, .f32⟩
  | 1 => ⟨S524288x4, .f32⟩
  | 2 => ⟨S524288x1, .f32⟩
  | 3 => ⟨S524288x1, .f32⟩
  | 4 => ⟨S524288x1, .f32⟩
  | 5 => ⟨S524288x1, .f32⟩
  | 6 => ⟨S524288x4, .f32⟩
  | 7 => ⟨S524288x1, .f32⟩
  | 8 => ⟨S524288x1, .f32⟩
  | 9 => ⟨S524288x1, .f32⟩
  | 10 => ⟨S524288x1, .f32⟩
  | 11 => ⟨S524288x4, .f32⟩
  | 12 => ⟨S524288x1, .f32⟩
  | 13 => ⟨S524288x1, .f32⟩
  | 14 => ⟨S524288x1, .f32⟩
  | 15 => ⟨S524288x1, .f32⟩
  | 16 => ⟨S524288x4, .f32⟩
  | 17 => ⟨S524288x1x4, .f32⟩
  | 18 => ⟨S524288x1x4, .f32⟩
  | 19 => ⟨S524288x1x4, .f32⟩
  | 20 => ⟨S524288x1x4, .f32⟩
  | 21 => ⟨S524288x4x4, .f32⟩
  | 22 => ⟨S524288x4x4, .f32⟩
  | 23 => ⟨S524288x1, .f32⟩
  | 24 => ⟨S524288, .f32⟩
  | 25 => ⟨S524288, .f32⟩
  | 26 => ⟨S524288, .f32⟩
  | 27 => ⟨S_, .f32⟩
  | 28 => ⟨S524288, .f32⟩
  | 29 => ⟨S_, .f32⟩
  | 30 => ⟨S524288, .f32⟩
  | 31 => ⟨S524288, .f32⟩
  | 32 => ⟨S524288x1, .f32⟩
  | 33 => ⟨S524288x1, .f32⟩
  | 34 => ⟨S524288x1, .f32⟩
  | 35 => ⟨S524288x1, .f32⟩
  | 36 => ⟨S524288x4, .f32⟩
  | 37 => ⟨S524288x1, .f32⟩
  | 38 => ⟨S524288x1, .f32⟩
  | 39 => ⟨S524288x1, .f32⟩
  | 40 => ⟨S524288x1, .f32⟩
  | 41 => ⟨S524288x4, .f32⟩
  | 42 => ⟨S524288x1, .f32⟩
  | 43 => ⟨S524288x1, .f32⟩
  | 44 => ⟨S524288x1, .f32⟩
  | 45 => ⟨S524288x1, .f32⟩
  | 46 => ⟨S524288x4, .f32⟩
  | 47 => ⟨S524288x1, .f32⟩
  | 48 => ⟨S524288x1, .f32⟩
  | 49 => ⟨S524288x1, .f32⟩
  | 50 => ⟨S524288x1, .f32⟩
  | 51 => ⟨S524288x4, .f32⟩
  | 52 => ⟨S524288x1x4, .f32⟩
  | 53 => ⟨S524288x1x4, .f32⟩
  | 54 => ⟨S524288x1x4, .f32⟩
  | 55 => ⟨S524288x1x4, .f32⟩
  | 56 => ⟨S524288x4x4, .f32⟩
  | 57 => ⟨S524288x4x4, .f32⟩
  | 58 => ⟨S524288x1, .f32⟩
  | 59 => ⟨S524288, .f32⟩
  | 60 => ⟨S524288, .f32⟩
  | 61 => ⟨S524288, .f32⟩
  | 62 => ⟨S_, .f32⟩
  | 63 => ⟨S524288, .f32⟩
  | 64 => ⟨S_, .f32⟩
  | 65 => ⟨S524288, .f32⟩
  | 66 => ⟨S524288, .f32⟩
  | 67 => ⟨S524288x1, .f32⟩
  | 68 => ⟨S524288x1, .f32⟩
  | 69 => ⟨S524288x1, .f32⟩
  | 70 => ⟨S524288x1, .f32⟩
  | 71 => ⟨S524288x4, .f32⟩
  | 72 => ⟨S524288x1, .f32⟩
  | 73 => ⟨S524288x1, .f32⟩
  | 74 => ⟨S524288x1, .f32⟩
  | 75 => ⟨S524288x1, .f32⟩
  | 76 => ⟨S524288x4, .f32⟩
  | 77 => ⟨S524288x1, .f32⟩
  | 78 => ⟨S524288x1, .f32⟩
  | 79 => ⟨S524288x1, .f32⟩
  | 80 => ⟨S524288x1, .f32⟩
  | 81 => ⟨S524288x4, .f32⟩
  | 82 => ⟨S524288x1, .f32⟩
  | 83 => ⟨S524288x1, .f32⟩
  | 84 => ⟨S524288x1, .f32⟩
  | 85 => ⟨S524288x1, .f32⟩
  | 86 => ⟨S524288x4, .f32⟩
  | 87 => ⟨S524288x1x4, .f32⟩
  | 88 => ⟨S524288x1x4, .f32⟩
  | 89 => ⟨S524288x1x4, .f32⟩
  | 90 => ⟨S524288x1x4, .f32⟩
  | 91 => ⟨S524288x4x4, .f32⟩
  | 92 => ⟨S524288x4x4, .f32⟩
  | 93 => ⟨S1, .f32⟩
  | 94 => ⟨S_, .f32⟩
  | 95 => ⟨S_, .f32⟩
  | 96 => ⟨S_, .f32⟩
  | 97 => ⟨S524288, .f32⟩
  | 98 => ⟨S524288, .f32⟩
  | 99 => ⟨S4x4, .i32⟩
  | 100 => ⟨S4x4, .i32⟩
  | 101 => ⟨S_, .i32⟩
  | 102 => ⟨S4x4, .i32⟩
  | 103 => ⟨S4x4, .i32⟩
  | 104 => ⟨S4x4, .i1⟩
  | 105 => ⟨S4x4, .f32⟩
  | 106 => ⟨S524288x4x4, .f32⟩
  | 107 => ⟨S_, .i32⟩
  | 108 => ⟨S1, .i32⟩
  | 109 => ⟨S_, .i32⟩
  | 110 => ⟨S1, .i32⟩
  | 111 => ⟨S2, .i32⟩
  | 112 => ⟨S524288x4x4, .f32⟩
  | 113 => ⟨S524288x4x4, .f32⟩
  | 114 => ⟨S524288x1, .f32⟩
  | 115 => ⟨S524288, .f32⟩
  | 116 => ⟨S524288, .f32⟩
  | 117 => ⟨S524288, .f32⟩
  | 118 => ⟨S_, .f32⟩
  | 119 => ⟨S524288, .f32⟩
  | 120 => ⟨S_, .f32⟩
  | 121 => ⟨S524288, .f32⟩
  | 122 => ⟨S524288, .f32⟩
  | 123 => ⟨S524288x1, .f32⟩
  | 124 => ⟨S524288x1, .f32⟩
  | 125 => ⟨S524288x1, .f32⟩
  | 126 => ⟨S524288x1, .f32⟩
  | 127 => ⟨S524288x4, .f32⟩
  | _ => ⟨S524288x26, .f32⟩

abbrev hbmTy0_9 (i : Nat) : BufTy := match i % 128 with
  | 0 => ⟨S524288x1, .f32⟩
  | 1 => ⟨S524288x1, .f32⟩
  | 2 => ⟨S524288x1, .f32⟩
  | 3 => ⟨S524288x1, .f32⟩
  | 4 => ⟨S524288x4, .f32⟩
  | 5 => ⟨S524288x1, .f32⟩
  | 6 => ⟨S524288x1, .f32⟩
  | 7 => ⟨S524288x1, .f32⟩
  | 8 => ⟨S524288x1, .f32⟩
  | 9 => ⟨S524288x4, .f32⟩
  | 10 => ⟨S524288x1, .f32⟩
  | 11 => ⟨S524288x1, .f32⟩
  | 12 => ⟨S524288x1, .f32⟩
  | 13 => ⟨S524288x1, .f32⟩
  | 14 => ⟨S524288x4, .f32⟩
  | 15 => ⟨S524288x1x4, .f32⟩
  | 16 => ⟨S524288x1x4, .f32⟩
  | 17 => ⟨S524288x1x4, .f32⟩
  | 18 => ⟨S524288x1x4, .f32⟩
  | 19 => ⟨S524288x4x4, .f32⟩
  | 20 => ⟨S524288x4x4, .f32⟩
  | 21 => ⟨S1, .f32⟩
  | 22 => ⟨S_, .f32⟩
  | 23 => ⟨S_, .f32⟩
  | 24 => ⟨S_, .f32⟩
  | 25 => ⟨S524288, .f32⟩
  | 26 => ⟨S524288, .f32⟩
  | 27 => ⟨S4x4, .i32⟩
  | 28 => ⟨S4x4, .i32⟩
  | 29 => ⟨S_, .i32⟩
  | 30 => ⟨S4x4, .i32⟩
  | 31 => ⟨S4x4, .i32⟩
  | 32 => ⟨S4x4, .i1⟩
  | 33 => ⟨S4x4, .f32⟩
  | 34 => ⟨S524288x4x4, .f32⟩
  | 35 => ⟨S_, .i32⟩
  | 36 => ⟨S1, .i32⟩
  | 37 => ⟨S_, .i32⟩
  | 38 => ⟨S1, .i32⟩
  | 39 => ⟨S2, .i32⟩
  | 40 => ⟨S524288x4x4, .f32⟩
  | 41 => ⟨S524288x4x4, .f32⟩
  | 42 => ⟨S524288x1x4x4, .f32⟩
  | 43 => ⟨S524288x1x4x4, .f32⟩
  | 44 => ⟨S524288x1x4x4, .f32⟩
  | 45 => ⟨S524288x1x4x4, .f32⟩
  | 46 => ⟨S524288x1x4x4, .f32⟩
  | 47 => ⟨S524288x1x4x4, .f32⟩
  | 48 => ⟨S524288x1x4x4, .f32⟩
  | 49 => ⟨S524288x1x4x4, .f32⟩
  | 50 => ⟨S524288x1x4x4, .f32⟩
  | 51 => ⟨S524288x1x4x4, .f32⟩
  | 52 => ⟨S524288x1x4x4, .f32⟩
  | 53 => ⟨S524288x1x4x4, .f32⟩
  | 54 => ⟨S524288x1x4x4, .f32⟩
  | 55 => ⟨S524288x1x4x4, .f32⟩
  | 56 => ⟨S524288x1x4x4, .f32⟩
  | 57 => ⟨S524288x1x4x4, .f32⟩
  | 58 => ⟨S524288x16x4x4, .f32⟩
  | 59 => ⟨S524288x16x3x1, .f32⟩
  | 60 => ⟨S524288x16x3, .f32⟩
  | 61 => ⟨S524288x1x3, .f32⟩
  | 62 => ⟨S524288x3, .f32⟩
  | 63 => ⟨S524288x1x3, .f32⟩
  | 64 => ⟨S524288x3, .f32⟩
  | 65 => ⟨S524288x3, .f32⟩
  | 66 => ⟨S_, .f32⟩
  | 67 => ⟨S524288x3, .f32⟩
  | 68 => ⟨S524288x3, .f32⟩
  | 69 => ⟨S524288x48, .f32⟩
  | 70 => ⟨S524288x51, .f32⟩
  | _ => ⟨S524288x26, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S524288x26, .f32⟩

abbrev bufTy : (tb : Table) → Fin (tcTables nBuf tb) → BufTy
  | .hbm, ⟨i, _⟩ => hbmTy i
  | _, _ => ⟨S524288x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_2 : Ref sig .tc := ⟨.hbm, 43, rfl⟩
abbrev main_v39 : Ref sig .tc := ⟨.hbm, 44, rfl⟩
abbrev main_cst_3 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_cst_4 : Ref sig .tc := ⟨.hbm, 78, rfl⟩
abbrev main_v72 : Ref sig .tc := ⟨.hbm, 79, rfl⟩
abbrev main_cst_5 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_cst_6 : Ref sig .tc := ⟨.hbm, 113, rfl⟩
abbrev main_v105 : Ref sig .tc := ⟨.hbm, 114, rfl⟩
abbrev main_cst_7 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_cst_8 : Ref sig .tc := ⟨.hbm, 148, rfl⟩
abbrev main_v138 : Ref sig .tc := ⟨.hbm, 149, rfl⟩
abbrev main_cst_9 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_cst_10 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_c : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_c_11 : Ref sig .tc := ⟨.hbm, 193, rfl⟩
abbrev main_v179 : Ref sig .tc := ⟨.hbm, 194, rfl⟩
abbrev main_c_12 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_cst_13 : Ref sig .tc := ⟨.hbm, 204, rfl⟩
abbrev main_v188 : Ref sig .tc := ⟨.hbm, 205, rfl⟩
abbrev main_cst_14 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_cst_15 : Ref sig .tc := ⟨.hbm, 239, rfl⟩
abbrev main_v221 : Ref sig .tc := ⟨.hbm, 240, rfl⟩
abbrev main_cst_16 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_cst_17 : Ref sig .tc := ⟨.hbm, 274, rfl⟩
abbrev main_v254 : Ref sig .tc := ⟨.hbm, 275, rfl⟩
abbrev main_cst_18 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_v284 : Ref sig .tc := ⟨.hbm, 306, rfl⟩
abbrev main_cst_19 : Ref sig .tc := ⟨.hbm, 307, rfl⟩
abbrev main_v285 : Ref sig .tc := ⟨.hbm, 308, rfl⟩
abbrev main_v286 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_c_20 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_c_21 : Ref sig .tc := ⟨.hbm, 319, rfl⟩
abbrev main_v295 : Ref sig .tc := ⟨.hbm, 320, rfl⟩
abbrev main_c_22 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_cst_23 : Ref sig .tc := ⟨.hbm, 330, rfl⟩
abbrev main_v304 : Ref sig .tc := ⟨.hbm, 331, rfl⟩
abbrev main_cst_24 : Ref sig .tc := ⟨.hbm, 332, rfl⟩
abbrev main_v305 : Ref sig .tc := ⟨.hbm, 333, rfl⟩
abbrev main_v306 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_v319 : Ref sig .tc := ⟨.hbm, 347, rfl⟩
abbrev main_v320 : Ref sig .tc := ⟨.hbm, 348, rfl⟩
abbrev main_v321 : Ref sig .tc := ⟨.hbm, 349, rfl⟩
abbrev main_v322 : Ref sig .tc := ⟨.hbm, 350, rfl⟩
abbrev main_v323 : Ref sig .tc := ⟨.hbm, 351, rfl⟩
abbrev main_v324 : Ref sig .tc := ⟨.hbm, 352, rfl⟩
abbrev main_v325 : Ref sig .tc := ⟨.hbm, 353, rfl⟩
abbrev main_v326 : Ref sig .tc := ⟨.hbm, 354, rfl⟩
abbrev main_v327 : Ref sig .tc := ⟨.hbm, 355, rfl⟩
abbrev main_v328 : Ref sig .tc := ⟨.hbm, 356, rfl⟩
abbrev main_v329 : Ref sig .tc := ⟨.hbm, 357, rfl⟩
abbrev main_v330 : Ref sig .tc := ⟨.hbm, 358, rfl⟩
abbrev main_v331 : Ref sig .tc := ⟨.hbm, 359, rfl⟩
abbrev main_v332 : Ref sig .tc := ⟨.hbm, 360, rfl⟩
abbrev main_v333 : Ref sig .tc := ⟨.hbm, 361, rfl⟩
abbrev main_v334 : Ref sig .tc := ⟨.hbm, 362, rfl⟩
abbrev main_cst_25 : Ref sig .tc := ⟨.hbm, 363, rfl⟩
abbrev main_v335 : Ref sig .tc := ⟨.hbm, 364, rfl⟩
abbrev main_v336 : Ref sig .tc := ⟨.hbm, 365, rfl⟩
abbrev main_v337 : Ref sig .tc := ⟨.hbm, 366, rfl⟩
abbrev main_v338 : Ref sig .tc := ⟨.hbm, 367, rfl⟩
abbrev main_v339 : Ref sig .tc := ⟨.hbm, 368, rfl⟩
abbrev main_c_26 : Ref sig .tc := ⟨.hbm, 369, rfl⟩
abbrev main_v340 : Ref sig .tc := ⟨.hbm, 370, rfl⟩
abbrev main_v341 : Ref sig .tc := ⟨.hbm, 371, rfl⟩
abbrev main_v342 : Ref sig .tc := ⟨.hbm, 372, rfl⟩
abbrev main_v343 : Ref sig .tc := ⟨.hbm, 373, rfl⟩
abbrev main_v344 : Ref sig .tc := ⟨.hbm, 374, rfl⟩
abbrev main_c_27 : Ref sig .tc := ⟨.hbm, 375, rfl⟩
abbrev main_v345 : Ref sig .tc := ⟨.hbm, 376, rfl⟩
abbrev main_c_28 : Ref sig .tc := ⟨.hbm, 377, rfl⟩
abbrev main_v346 : Ref sig .tc := ⟨.hbm, 378, rfl⟩
abbrev main_v347 : Ref sig .tc := ⟨.hbm, 379, rfl⟩
abbrev main_v348 : Ref sig .tc := ⟨.hbm, 380, rfl⟩
abbrev main_v349 : Ref sig .tc := ⟨.hbm, 381, rfl⟩
abbrev main_v350 : Ref sig .tc := ⟨.hbm, 382, rfl⟩
abbrev main_v351 : Ref sig .tc := ⟨.hbm, 383, rfl⟩
abbrev main_cst_29 : Ref sig .tc := ⟨.hbm, 384, rfl⟩
abbrev main_v352 : Ref sig .tc := ⟨.hbm, 385, rfl⟩
abbrev main_v353 : Ref sig .tc := ⟨.hbm, 386, rfl⟩
abbrev main_v354 : Ref sig .tc := ⟨.hbm, 387, rfl⟩
abbrev main_v355 : Ref sig .tc := ⟨.hbm, 388, rfl⟩
abbrev main_v356 : Ref sig .tc := ⟨.hbm, 389, rfl⟩
abbrev main_c_30 : Ref sig .tc := ⟨.hbm, 390, rfl⟩
abbrev main_v357 : Ref sig .tc := ⟨.hbm, 391, rfl⟩
abbrev main_v358 : Ref sig .tc := ⟨.hbm, 392, rfl⟩
abbrev main_v359 : Ref sig .tc := ⟨.hbm, 393, rfl⟩
abbrev main_v360 : Ref sig .tc := ⟨.hbm, 394, rfl⟩
abbrev main_v361 : Ref sig .tc := ⟨.hbm, 395, rfl⟩
abbrev main_c_31 : Ref sig .tc := ⟨.hbm, 396, rfl⟩
abbrev main_v362 : Ref sig .tc := ⟨.hbm, 397, rfl⟩
abbrev main_c_32 : Ref sig .tc := ⟨.hbm, 398, rfl⟩
abbrev main_v363 : Ref sig .tc := ⟨.hbm, 399, rfl⟩
abbrev main_v364 : Ref sig .tc := ⟨.hbm, 400, rfl⟩
abbrev main_v365 : Ref sig .tc := ⟨.hbm, 401, rfl⟩
abbrev main_v366 : Ref sig .tc := ⟨.hbm, 402, rfl⟩
abbrev main_v367 : Ref sig .tc := ⟨.hbm, 403, rfl⟩
abbrev main_v368 : Ref sig .tc := ⟨.hbm, 404, rfl⟩
abbrev main_v369 : Ref sig .tc := ⟨.hbm, 405, rfl⟩
abbrev main_v370 : Ref sig .tc := ⟨.hbm, 406, rfl⟩
abbrev main_cst_33 : Ref sig .tc := ⟨.hbm, 407, rfl⟩
abbrev main_v371 : Ref sig .tc := ⟨.hbm, 408, rfl⟩
abbrev main_cst_34 : Ref sig .tc := ⟨.hbm, 409, rfl⟩
abbrev main_v372 : Ref sig .tc := ⟨.hbm, 410, rfl⟩
abbrev main_v373 : Ref sig .tc := ⟨.hbm, 411, rfl⟩
abbrev main_v374 : Ref sig .tc := ⟨.hbm, 412, rfl⟩
abbrev main_v375 : Ref sig .tc := ⟨.hbm, 413, rfl⟩
abbrev main_v376 : Ref sig .tc := ⟨.hbm, 414, rfl⟩
abbrev main_v377 : Ref sig .tc := ⟨.hbm, 415, rfl⟩
abbrev main_v378 : Ref sig .tc := ⟨.hbm, 416, rfl⟩
abbrev main_v379 : Ref sig .tc := ⟨.hbm, 417, rfl⟩
abbrev main_v380 : Ref sig .tc := ⟨.hbm, 418, rfl⟩
abbrev main_v381 : Ref sig .tc := ⟨.hbm, 419, rfl⟩
abbrev main_v382 : Ref sig .tc := ⟨.hbm, 420, rfl⟩
abbrev main_v383 : Ref sig .tc := ⟨.hbm, 421, rfl⟩
abbrev main_v384 : Ref sig .tc := ⟨.hbm, 422, rfl⟩
abbrev main_v385 : Ref sig .tc := ⟨.hbm, 423, rfl⟩
abbrev main_v386 : Ref sig .tc := ⟨.hbm, 424, rfl⟩
abbrev main_v387 : Ref sig .tc := ⟨.hbm, 425, rfl⟩
abbrev main_v388 : Ref sig .tc := ⟨.hbm, 426, rfl⟩
abbrev main_v389 : Ref sig .tc := ⟨.hbm, 427, rfl⟩
abbrev main_v390 : Ref sig .tc := ⟨.hbm, 428, rfl⟩
abbrev main_v391 : Ref sig .tc := ⟨.hbm, 429, rfl⟩
abbrev main_v392 : Ref sig .tc := ⟨.hbm, 430, rfl⟩
abbrev main_v393 : Ref sig .tc := ⟨.hbm, 431, rfl⟩
abbrev main_v394 : Ref sig .tc := ⟨.hbm, 432, rfl⟩
abbrev main_v395 : Ref sig .tc := ⟨.hbm, 433, rfl⟩
abbrev main_v396 : Ref sig .tc := ⟨.hbm, 434, rfl⟩
abbrev main_v397 : Ref sig .tc := ⟨.hbm, 435, rfl⟩
abbrev main_v398 : Ref sig .tc := ⟨.hbm, 436, rfl⟩
abbrev main_v399 : Ref sig .tc := ⟨.hbm, 437, rfl⟩
abbrev main_v400 : Ref sig .tc := ⟨.hbm, 438, rfl⟩
abbrev main_v401 : Ref sig .tc := ⟨.hbm, 439, rfl⟩
abbrev main_v402 : Ref sig .tc := ⟨.hbm, 440, rfl⟩
abbrev main_v403 : Ref sig .tc := ⟨.hbm, 441, rfl⟩
abbrev main_cst_35 : Ref sig .tc := ⟨.hbm, 442, rfl⟩
abbrev main_v404 : Ref sig .tc := ⟨.hbm, 443, rfl⟩
abbrev main_cst_36 : Ref sig .tc := ⟨.hbm, 444, rfl⟩
abbrev main_v405 : Ref sig .tc := ⟨.hbm, 445, rfl⟩
abbrev main_v406 : Ref sig .tc := ⟨.hbm, 446, rfl⟩
abbrev main_v407 : Ref sig .tc := ⟨.hbm, 447, rfl⟩
abbrev main_v408 : Ref sig .tc := ⟨.hbm, 448, rfl⟩
abbrev main_v409 : Ref sig .tc := ⟨.hbm, 449, rfl⟩
abbrev main_v410 : Ref sig .tc := ⟨.hbm, 450, rfl⟩
abbrev main_v411 : Ref sig .tc := ⟨.hbm, 451, rfl⟩
abbrev main_v412 : Ref sig .tc := ⟨.hbm, 452, rfl⟩
abbrev main_v413 : Ref sig .tc := ⟨.hbm, 453, rfl⟩
abbrev main_v414 : Ref sig .tc := ⟨.hbm, 454, rfl⟩
abbrev main_v415 : Ref sig .tc := ⟨.hbm, 455, rfl⟩
abbrev main_v416 : Ref sig .tc := ⟨.hbm, 456, rfl⟩
abbrev main_v417 : Ref sig .tc := ⟨.hbm, 457, rfl⟩
abbrev main_v418 : Ref sig .tc := ⟨.hbm, 458, rfl⟩
abbrev main_v419 : Ref sig .tc := ⟨.hbm, 459, rfl⟩
abbrev main_v420 : Ref sig .tc := ⟨.hbm, 460, rfl⟩
abbrev main_v421 : Ref sig .tc := ⟨.hbm, 461, rfl⟩
abbrev main_v422 : Ref sig .tc := ⟨.hbm, 462, rfl⟩
abbrev main_v423 : Ref sig .tc := ⟨.hbm, 463, rfl⟩
abbrev main_v424 : Ref sig .tc := ⟨.hbm, 464, rfl⟩
abbrev main_v425 : Ref sig .tc := ⟨.hbm, 465, rfl⟩
abbrev main_v426 : Ref sig .tc := ⟨.hbm, 466, rfl⟩
abbrev main_v427 : Ref sig .tc := ⟨.hbm, 467, rfl⟩
abbrev main_v428 : Ref sig .tc := ⟨.hbm, 468, rfl⟩
abbrev main_v429 : Ref sig .tc := ⟨.hbm, 469, rfl⟩
abbrev main_v430 : Ref sig .tc := ⟨.hbm, 470, rfl⟩
abbrev main_v431 : Ref sig .tc := ⟨.hbm, 471, rfl⟩
abbrev main_v432 : Ref sig .tc := ⟨.hbm, 472, rfl⟩
abbrev main_v433 : Ref sig .tc := ⟨.hbm, 473, rfl⟩
abbrev main_v434 : Ref sig .tc := ⟨.hbm, 474, rfl⟩
abbrev main_v435 : Ref sig .tc := ⟨.hbm, 475, rfl⟩
abbrev main_v436 : Ref sig .tc := ⟨.hbm, 476, rfl⟩
abbrev main_cst_37 : Ref sig .tc := ⟨.hbm, 477, rfl⟩
abbrev main_v437 : Ref sig .tc := ⟨.hbm, 478, rfl⟩
abbrev main_cst_38 : Ref sig .tc := ⟨.hbm, 479, rfl⟩
abbrev main_v438 : Ref sig .tc := ⟨.hbm, 480, rfl⟩
abbrev main_v439 : Ref sig .tc := ⟨.hbm, 481, rfl⟩
abbrev main_v440 : Ref sig .tc := ⟨.hbm, 482, rfl⟩
abbrev main_v441 : Ref sig .tc := ⟨.hbm, 483, rfl⟩
abbrev main_v442 : Ref sig .tc := ⟨.hbm, 484, rfl⟩
abbrev main_v443 : Ref sig .tc := ⟨.hbm, 485, rfl⟩
abbrev main_v444 : Ref sig .tc := ⟨.hbm, 486, rfl⟩
abbrev main_v445 : Ref sig .tc := ⟨.hbm, 487, rfl⟩
abbrev main_v446 : Ref sig .tc := ⟨.hbm, 488, rfl⟩
abbrev main_v447 : Ref sig .tc := ⟨.hbm, 489, rfl⟩
abbrev main_v448 : Ref sig .tc := ⟨.hbm, 490, rfl⟩
abbrev main_v449 : Ref sig .tc := ⟨.hbm, 491, rfl⟩
abbrev main_v450 : Ref sig .tc := ⟨.hbm, 492, rfl⟩
abbrev main_v451 : Ref sig .tc := ⟨.hbm, 493, rfl⟩
abbrev main_v452 : Ref sig .tc := ⟨.hbm, 494, rfl⟩
abbrev main_v453 : Ref sig .tc := ⟨.hbm, 495, rfl⟩
abbrev main_v454 : Ref sig .tc := ⟨.hbm, 496, rfl⟩
abbrev main_v455 : Ref sig .tc := ⟨.hbm, 497, rfl⟩
abbrev main_v456 : Ref sig .tc := ⟨.hbm, 498, rfl⟩
abbrev main_v457 : Ref sig .tc := ⟨.hbm, 499, rfl⟩
abbrev main_v458 : Ref sig .tc := ⟨.hbm, 500, rfl⟩
abbrev main_v459 : Ref sig .tc := ⟨.hbm, 501, rfl⟩
abbrev main_v460 : Ref sig .tc := ⟨.hbm, 502, rfl⟩
abbrev main_v461 : Ref sig .tc := ⟨.hbm, 503, rfl⟩
abbrev main_v462 : Ref sig .tc := ⟨.hbm, 504, rfl⟩
abbrev main_v463 : Ref sig .tc := ⟨.hbm, 505, rfl⟩
abbrev main_v464 : Ref sig .tc := ⟨.hbm, 506, rfl⟩
abbrev main_v465 : Ref sig .tc := ⟨.hbm, 507, rfl⟩
abbrev main_v466 : Ref sig .tc := ⟨.hbm, 508, rfl⟩
abbrev main_v467 : Ref sig .tc := ⟨.hbm, 509, rfl⟩
abbrev main_cst_39 : Ref sig .tc := ⟨.hbm, 510, rfl⟩
abbrev main_v468 : Ref sig .tc := ⟨.hbm, 511, rfl⟩
abbrev main_v469 : Ref sig .tc := ⟨.hbm, 512, rfl⟩
abbrev main_v470 : Ref sig .tc := ⟨.hbm, 513, rfl⟩
abbrev main_v471 : Ref sig .tc := ⟨.hbm, 514, rfl⟩
abbrev main_v472 : Ref sig .tc := ⟨.hbm, 515, rfl⟩
abbrev main_c_40 : Ref sig .tc := ⟨.hbm, 516, rfl⟩
abbrev main_v473 : Ref sig .tc := ⟨.hbm, 517, rfl⟩
abbrev main_v474 : Ref sig .tc := ⟨.hbm, 518, rfl⟩
abbrev main_v475 : Ref sig .tc := ⟨.hbm, 519, rfl⟩
abbrev main_v476 : Ref sig .tc := ⟨.hbm, 520, rfl⟩
abbrev main_v477 : Ref sig .tc := ⟨.hbm, 521, rfl⟩
abbrev main_c_41 : Ref sig .tc := ⟨.hbm, 522, rfl⟩
abbrev main_v478 : Ref sig .tc := ⟨.hbm, 523, rfl⟩
abbrev main_c_42 : Ref sig .tc := ⟨.hbm, 524, rfl⟩
abbrev main_v479 : Ref sig .tc := ⟨.hbm, 525, rfl⟩
abbrev main_v480 : Ref sig .tc := ⟨.hbm, 526, rfl⟩
abbrev main_v481 : Ref sig .tc := ⟨.hbm, 527, rfl⟩
abbrev main_v482 : Ref sig .tc := ⟨.hbm, 528, rfl⟩
abbrev main_v483 : Ref sig .tc := ⟨.hbm, 529, rfl⟩
abbrev main_v484 : Ref sig .tc := ⟨.hbm, 530, rfl⟩
abbrev main_v485 : Ref sig .tc := ⟨.hbm, 531, rfl⟩
abbrev main_v486 : Ref sig .tc := ⟨.hbm, 532, rfl⟩
abbrev main_cst_43 : Ref sig .tc := ⟨.hbm, 533, rfl⟩
abbrev main_v487 : Ref sig .tc := ⟨.hbm, 534, rfl⟩
abbrev main_cst_44 : Ref sig .tc := ⟨.hbm, 535, rfl⟩
abbrev main_v488 : Ref sig .tc := ⟨.hbm, 536, rfl⟩
abbrev main_v489 : Ref sig .tc := ⟨.hbm, 537, rfl⟩
abbrev main_v490 : Ref sig .tc := ⟨.hbm, 538, rfl⟩
abbrev main_v491 : Ref sig .tc := ⟨.hbm, 539, rfl⟩
abbrev main_v492 : Ref sig .tc := ⟨.hbm, 540, rfl⟩
abbrev main_v493 : Ref sig .tc := ⟨.hbm, 541, rfl⟩
abbrev main_v494 : Ref sig .tc := ⟨.hbm, 542, rfl⟩
abbrev main_v495 : Ref sig .tc := ⟨.hbm, 543, rfl⟩
abbrev main_v496 : Ref sig .tc := ⟨.hbm, 544, rfl⟩
abbrev main_v497 : Ref sig .tc := ⟨.hbm, 545, rfl⟩
abbrev main_v498 : Ref sig .tc := ⟨.hbm, 546, rfl⟩
abbrev main_v499 : Ref sig .tc := ⟨.hbm, 547, rfl⟩
abbrev main_v500 : Ref sig .tc := ⟨.hbm, 548, rfl⟩
abbrev main_v501 : Ref sig .tc := ⟨.hbm, 549, rfl⟩
abbrev main_v502 : Ref sig .tc := ⟨.hbm, 550, rfl⟩
abbrev main_v503 : Ref sig .tc := ⟨.hbm, 551, rfl⟩
abbrev main_v504 : Ref sig .tc := ⟨.hbm, 552, rfl⟩
abbrev main_v505 : Ref sig .tc := ⟨.hbm, 553, rfl⟩
abbrev main_v506 : Ref sig .tc := ⟨.hbm, 554, rfl⟩
abbrev main_v507 : Ref sig .tc := ⟨.hbm, 555, rfl⟩
abbrev main_v508 : Ref sig .tc := ⟨.hbm, 556, rfl⟩
abbrev main_v509 : Ref sig .tc := ⟨.hbm, 557, rfl⟩
abbrev main_v510 : Ref sig .tc := ⟨.hbm, 558, rfl⟩
abbrev main_v511 : Ref sig .tc := ⟨.hbm, 559, rfl⟩
abbrev main_v512 : Ref sig .tc := ⟨.hbm, 560, rfl⟩
abbrev main_v513 : Ref sig .tc := ⟨.hbm, 561, rfl⟩
abbrev main_v514 : Ref sig .tc := ⟨.hbm, 562, rfl⟩
abbrev main_v515 : Ref sig .tc := ⟨.hbm, 563, rfl⟩
abbrev main_v516 : Ref sig .tc := ⟨.hbm, 564, rfl⟩
abbrev main_v517 : Ref sig .tc := ⟨.hbm, 565, rfl⟩
abbrev main_cst_45 : Ref sig .tc := ⟨.hbm, 566, rfl⟩
abbrev main_v518 : Ref sig .tc := ⟨.hbm, 567, rfl⟩
abbrev main_v519 : Ref sig .tc := ⟨.hbm, 568, rfl⟩
abbrev main_v520 : Ref sig .tc := ⟨.hbm, 569, rfl⟩
abbrev main_v521 : Ref sig .tc := ⟨.hbm, 570, rfl⟩
abbrev main_v522 : Ref sig .tc := ⟨.hbm, 571, rfl⟩
abbrev main_c_46 : Ref sig .tc := ⟨.hbm, 572, rfl⟩
abbrev main_v523 : Ref sig .tc := ⟨.hbm, 573, rfl⟩
abbrev main_v524 : Ref sig .tc := ⟨.hbm, 574, rfl⟩
abbrev main_v525 : Ref sig .tc := ⟨.hbm, 575, rfl⟩
abbrev main_v526 : Ref sig .tc := ⟨.hbm, 576, rfl⟩
abbrev main_v527 : Ref sig .tc := ⟨.hbm, 577, rfl⟩
abbrev main_c_47 : Ref sig .tc := ⟨.hbm, 578, rfl⟩
abbrev main_v528 : Ref sig .tc := ⟨.hbm, 579, rfl⟩
abbrev main_c_48 : Ref sig .tc := ⟨.hbm, 580, rfl⟩
abbrev main_v529 : Ref sig .tc := ⟨.hbm, 581, rfl⟩
abbrev main_v530 : Ref sig .tc := ⟨.hbm, 582, rfl⟩
abbrev main_v531 : Ref sig .tc := ⟨.hbm, 583, rfl⟩
abbrev main_v532 : Ref sig .tc := ⟨.hbm, 584, rfl⟩
abbrev main_v533 : Ref sig .tc := ⟨.hbm, 585, rfl⟩
abbrev main_v534 : Ref sig .tc := ⟨.hbm, 586, rfl⟩
abbrev main_cst_49 : Ref sig .tc := ⟨.hbm, 587, rfl⟩
abbrev main_v535 : Ref sig .tc := ⟨.hbm, 588, rfl⟩
abbrev main_v536 : Ref sig .tc := ⟨.hbm, 589, rfl⟩
abbrev main_v537 : Ref sig .tc := ⟨.hbm, 590, rfl⟩
abbrev main_v538 : Ref sig .tc := ⟨.hbm, 591, rfl⟩
abbrev main_v539 : Ref sig .tc := ⟨.hbm, 592, rfl⟩
abbrev main_c_50 : Ref sig .tc := ⟨.hbm, 593, rfl⟩
abbrev main_v540 : Ref sig .tc := ⟨.hbm, 594, rfl⟩
abbrev main_v541 : Ref sig .tc := ⟨.hbm, 595, rfl⟩
abbrev main_v542 : Ref sig .tc := ⟨.hbm, 596, rfl⟩
abbrev main_v543 : Ref sig .tc := ⟨.hbm, 597, rfl⟩
abbrev main_v544 : Ref sig .tc := ⟨.hbm, 598, rfl⟩
abbrev main_c_51 : Ref sig .tc := ⟨.hbm, 599, rfl⟩
abbrev main_v545 : Ref sig .tc := ⟨.hbm, 600, rfl⟩
abbrev main_c_52 : Ref sig .tc := ⟨.hbm, 601, rfl⟩
abbrev main_v546 : Ref sig .tc := ⟨.hbm, 602, rfl⟩
abbrev main_v547 : Ref sig .tc := ⟨.hbm, 603, rfl⟩
abbrev main_v548 : Ref sig .tc := ⟨.hbm, 604, rfl⟩
abbrev main_v549 : Ref sig .tc := ⟨.hbm, 605, rfl⟩
abbrev main_v550 : Ref sig .tc := ⟨.hbm, 606, rfl⟩
abbrev main_v551 : Ref sig .tc := ⟨.hbm, 607, rfl⟩
abbrev main_v552 : Ref sig .tc := ⟨.hbm, 608, rfl⟩
abbrev main_v553 : Ref sig .tc := ⟨.hbm, 609, rfl⟩
abbrev main_cst_53 : Ref sig .tc := ⟨.hbm, 610, rfl⟩
abbrev main_v554 : Ref sig .tc := ⟨.hbm, 611, rfl⟩
abbrev main_cst_54 : Ref sig .tc := ⟨.hbm, 612, rfl⟩
abbrev main_v555 : Ref sig .tc := ⟨.hbm, 613, rfl⟩
abbrev main_v556 : Ref sig .tc := ⟨.hbm, 614, rfl⟩
abbrev main_v557 : Ref sig .tc := ⟨.hbm, 615, rfl⟩
abbrev main_v558 : Ref sig .tc := ⟨.hbm, 616, rfl⟩
abbrev main_v559 : Ref sig .tc := ⟨.hbm, 617, rfl⟩
abbrev main_v560 : Ref sig .tc := ⟨.hbm, 618, rfl⟩
abbrev main_v561 : Ref sig .tc := ⟨.hbm, 619, rfl⟩
abbrev main_v562 : Ref sig .tc := ⟨.hbm, 620, rfl⟩
abbrev main_v563 : Ref sig .tc := ⟨.hbm, 621, rfl⟩
abbrev main_v564 : Ref sig .tc := ⟨.hbm, 622, rfl⟩
abbrev main_v565 : Ref sig .tc := ⟨.hbm, 623, rfl⟩
abbrev main_v566 : Ref sig .tc := ⟨.hbm, 624, rfl⟩
abbrev main_v567 : Ref sig .tc := ⟨.hbm, 625, rfl⟩
abbrev main_v568 : Ref sig .tc := ⟨.hbm, 626, rfl⟩
abbrev main_v569 : Ref sig .tc := ⟨.hbm, 627, rfl⟩
abbrev main_v570 : Ref sig .tc := ⟨.hbm, 628, rfl⟩
abbrev main_v571 : Ref sig .tc := ⟨.hbm, 629, rfl⟩
abbrev main_v572 : Ref sig .tc := ⟨.hbm, 630, rfl⟩
abbrev main_v573 : Ref sig .tc := ⟨.hbm, 631, rfl⟩
abbrev main_v574 : Ref sig .tc := ⟨.hbm, 632, rfl⟩
abbrev main_v575 : Ref sig .tc := ⟨.hbm, 633, rfl⟩
abbrev main_v576 : Ref sig .tc := ⟨.hbm, 634, rfl⟩
abbrev main_v577 : Ref sig .tc := ⟨.hbm, 635, rfl⟩
abbrev main_v578 : Ref sig .tc := ⟨.hbm, 636, rfl⟩
abbrev main_v579 : Ref sig .tc := ⟨.hbm, 637, rfl⟩
abbrev main_v580 : Ref sig .tc := ⟨.hbm, 638, rfl⟩
abbrev main_v581 : Ref sig .tc := ⟨.hbm, 639, rfl⟩
abbrev main_v582 : Ref sig .tc := ⟨.hbm, 640, rfl⟩
abbrev main_v583 : Ref sig .tc := ⟨.hbm, 641, rfl⟩
abbrev main_v584 : Ref sig .tc := ⟨.hbm, 642, rfl⟩
abbrev main_v585 : Ref sig .tc := ⟨.hbm, 643, rfl⟩
abbrev main_v586 : Ref sig .tc := ⟨.hbm, 644, rfl⟩
abbrev main_cst_55 : Ref sig .tc := ⟨.hbm, 645, rfl⟩
abbrev main_v587 : Ref sig .tc := ⟨.hbm, 646, rfl⟩
abbrev main_cst_56 : Ref sig .tc := ⟨.hbm, 647, rfl⟩
abbrev main_v588 : Ref sig .tc := ⟨.hbm, 648, rfl⟩
abbrev main_v589 : Ref sig .tc := ⟨.hbm, 649, rfl⟩
abbrev main_v590 : Ref sig .tc := ⟨.hbm, 650, rfl⟩
abbrev main_v591 : Ref sig .tc := ⟨.hbm, 651, rfl⟩
abbrev main_v592 : Ref sig .tc := ⟨.hbm, 652, rfl⟩
abbrev main_v593 : Ref sig .tc := ⟨.hbm, 653, rfl⟩
abbrev main_v594 : Ref sig .tc := ⟨.hbm, 654, rfl⟩
abbrev main_v595 : Ref sig .tc := ⟨.hbm, 655, rfl⟩
abbrev main_v596 : Ref sig .tc := ⟨.hbm, 656, rfl⟩
abbrev main_v597 : Ref sig .tc := ⟨.hbm, 657, rfl⟩
abbrev main_v598 : Ref sig .tc := ⟨.hbm, 658, rfl⟩
abbrev main_v599 : Ref sig .tc := ⟨.hbm, 659, rfl⟩
abbrev main_v600 : Ref sig .tc := ⟨.hbm, 660, rfl⟩
abbrev main_v601 : Ref sig .tc := ⟨.hbm, 661, rfl⟩
abbrev main_v602 : Ref sig .tc := ⟨.hbm, 662, rfl⟩
abbrev main_v603 : Ref sig .tc := ⟨.hbm, 663, rfl⟩
abbrev main_v604 : Ref sig .tc := ⟨.hbm, 664, rfl⟩
abbrev main_v605 : Ref sig .tc := ⟨.hbm, 665, rfl⟩
abbrev main_v606 : Ref sig .tc := ⟨.hbm, 666, rfl⟩
abbrev main_v607 : Ref sig .tc := ⟨.hbm, 667, rfl⟩
abbrev main_v608 : Ref sig .tc := ⟨.hbm, 668, rfl⟩
abbrev main_v609 : Ref sig .tc := ⟨.hbm, 669, rfl⟩
abbrev main_v610 : Ref sig .tc := ⟨.hbm, 670, rfl⟩
abbrev main_v611 : Ref sig .tc := ⟨.hbm, 671, rfl⟩
abbrev main_v612 : Ref sig .tc := ⟨.hbm, 672, rfl⟩
abbrev main_v613 : Ref sig .tc := ⟨.hbm, 673, rfl⟩
abbrev main_v614 : Ref sig .tc := ⟨.hbm, 674, rfl⟩
abbrev main_v615 : Ref sig .tc := ⟨.hbm, 675, rfl⟩
abbrev main_v616 : Ref sig .tc := ⟨.hbm, 676, rfl⟩
abbrev main_v617 : Ref sig .tc := ⟨.hbm, 677, rfl⟩
abbrev main_v618 : Ref sig .tc := ⟨.hbm, 678, rfl⟩
abbrev main_v619 : Ref sig .tc := ⟨.hbm, 679, rfl⟩
abbrev main_cst_57 : Ref sig .tc := ⟨.hbm, 680, rfl⟩
abbrev main_v620 : Ref sig .tc := ⟨.hbm, 681, rfl⟩
abbrev main_cst_58 : Ref sig .tc := ⟨.hbm, 682, rfl⟩
abbrev main_v621 : Ref sig .tc := ⟨.hbm, 683, rfl⟩
abbrev main_v622 : Ref sig .tc := ⟨.hbm, 684, rfl⟩
abbrev main_v623 : Ref sig .tc := ⟨.hbm, 685, rfl⟩
abbrev main_v624 : Ref sig .tc := ⟨.hbm, 686, rfl⟩
abbrev main_v625 : Ref sig .tc := ⟨.hbm, 687, rfl⟩
abbrev main_v626 : Ref sig .tc := ⟨.hbm, 688, rfl⟩
abbrev main_v627 : Ref sig .tc := ⟨.hbm, 689, rfl⟩
abbrev main_v628 : Ref sig .tc := ⟨.hbm, 690, rfl⟩
abbrev main_v629 : Ref sig .tc := ⟨.hbm, 691, rfl⟩
abbrev main_v630 : Ref sig .tc := ⟨.hbm, 692, rfl⟩
abbrev main_v631 : Ref sig .tc := ⟨.hbm, 693, rfl⟩
abbrev main_v632 : Ref sig .tc := ⟨.hbm, 694, rfl⟩
abbrev main_v633 : Ref sig .tc := ⟨.hbm, 695, rfl⟩
abbrev main_v634 : Ref sig .tc := ⟨.hbm, 696, rfl⟩
abbrev main_v635 : Ref sig .tc := ⟨.hbm, 697, rfl⟩
abbrev main_v636 : Ref sig .tc := ⟨.hbm, 698, rfl⟩
abbrev main_v637 : Ref sig .tc := ⟨.hbm, 699, rfl⟩
abbrev main_v638 : Ref sig .tc := ⟨.hbm, 700, rfl⟩
abbrev main_v639 : Ref sig .tc := ⟨.hbm, 701, rfl⟩
abbrev main_v640 : Ref sig .tc := ⟨.hbm, 702, rfl⟩
abbrev main_v641 : Ref sig .tc := ⟨.hbm, 703, rfl⟩
abbrev main_v642 : Ref sig .tc := ⟨.hbm, 704, rfl⟩
abbrev main_v643 : Ref sig .tc := ⟨.hbm, 705, rfl⟩
abbrev main_v644 : Ref sig .tc := ⟨.hbm, 706, rfl⟩
abbrev main_v645 : Ref sig .tc := ⟨.hbm, 707, rfl⟩
abbrev main_v646 : Ref sig .tc := ⟨.hbm, 708, rfl⟩
abbrev main_v647 : Ref sig .tc := ⟨.hbm, 709, rfl⟩
abbrev main_v648 : Ref sig .tc := ⟨.hbm, 710, rfl⟩
abbrev main_v649 : Ref sig .tc := ⟨.hbm, 711, rfl⟩
abbrev main_v650 : Ref sig .tc := ⟨.hbm, 712, rfl⟩
abbrev main_cst_59 : Ref sig .tc := ⟨.hbm, 713, rfl⟩
abbrev main_v651 : Ref sig .tc := ⟨.hbm, 714, rfl⟩
abbrev main_v652 : Ref sig .tc := ⟨.hbm, 715, rfl⟩
abbrev main_v653 : Ref sig .tc := ⟨.hbm, 716, rfl⟩
abbrev main_v654 : Ref sig .tc := ⟨.hbm, 717, rfl⟩
abbrev main_v655 : Ref sig .tc := ⟨.hbm, 718, rfl⟩
abbrev main_c_60 : Ref sig .tc := ⟨.hbm, 719, rfl⟩
abbrev main_v656 : Ref sig .tc := ⟨.hbm, 720, rfl⟩
abbrev main_v657 : Ref sig .tc := ⟨.hbm, 721, rfl⟩
abbrev main_v658 : Ref sig .tc := ⟨.hbm, 722, rfl⟩
abbrev main_v659 : Ref sig .tc := ⟨.hbm, 723, rfl⟩
abbrev main_v660 : Ref sig .tc := ⟨.hbm, 724, rfl⟩
abbrev main_c_61 : Ref sig .tc := ⟨.hbm, 725, rfl⟩
abbrev main_v661 : Ref sig .tc := ⟨.hbm, 726, rfl⟩
abbrev main_c_62 : Ref sig .tc := ⟨.hbm, 727, rfl⟩
abbrev main_v662 : Ref sig .tc := ⟨.hbm, 728, rfl⟩
abbrev main_v663 : Ref sig .tc := ⟨.hbm, 729, rfl⟩
abbrev main_v664 : Ref sig .tc := ⟨.hbm, 730, rfl⟩
abbrev main_v665 : Ref sig .tc := ⟨.hbm, 731, rfl⟩
abbrev main_v666 : Ref sig .tc := ⟨.hbm, 732, rfl⟩
abbrev main_v667 : Ref sig .tc := ⟨.hbm, 733, rfl⟩
abbrev main_v668 : Ref sig .tc := ⟨.hbm, 734, rfl⟩
abbrev main_v669 : Ref sig .tc := ⟨.hbm, 735, rfl⟩
abbrev main_cst_63 : Ref sig .tc := ⟨.hbm, 736, rfl⟩
abbrev main_v670 : Ref sig .tc := ⟨.hbm, 737, rfl⟩
abbrev main_cst_64 : Ref sig .tc := ⟨.hbm, 738, rfl⟩
abbrev main_v671 : Ref sig .tc := ⟨.hbm, 739, rfl⟩
abbrev main_v672 : Ref sig .tc := ⟨.hbm, 740, rfl⟩
abbrev main_v673 : Ref sig .tc := ⟨.hbm, 741, rfl⟩
abbrev main_v674 : Ref sig .tc := ⟨.hbm, 742, rfl⟩
abbrev main_v675 : Ref sig .tc := ⟨.hbm, 743, rfl⟩
abbrev main_v676 : Ref sig .tc := ⟨.hbm, 744, rfl⟩
abbrev main_v677 : Ref sig .tc := ⟨.hbm, 745, rfl⟩
abbrev main_v678 : Ref sig .tc := ⟨.hbm, 746, rfl⟩
abbrev main_v679 : Ref sig .tc := ⟨.hbm, 747, rfl⟩
abbrev main_v680 : Ref sig .tc := ⟨.hbm, 748, rfl⟩
abbrev main_v681 : Ref sig .tc := ⟨.hbm, 749, rfl⟩
abbrev main_v682 : Ref sig .tc := ⟨.hbm, 750, rfl⟩
abbrev main_v683 : Ref sig .tc := ⟨.hbm, 751, rfl⟩
abbrev main_v684 : Ref sig .tc := ⟨.hbm, 752, rfl⟩
abbrev main_v685 : Ref sig .tc := ⟨.hbm, 753, rfl⟩
abbrev main_v686 : Ref sig .tc := ⟨.hbm, 754, rfl⟩
abbrev main_v687 : Ref sig .tc := ⟨.hbm, 755, rfl⟩
abbrev main_v688 : Ref sig .tc := ⟨.hbm, 756, rfl⟩
abbrev main_v689 : Ref sig .tc := ⟨.hbm, 757, rfl⟩
abbrev main_v690 : Ref sig .tc := ⟨.hbm, 758, rfl⟩
abbrev main_v691 : Ref sig .tc := ⟨.hbm, 759, rfl⟩
abbrev main_v692 : Ref sig .tc := ⟨.hbm, 760, rfl⟩
abbrev main_v693 : Ref sig .tc := ⟨.hbm, 761, rfl⟩
abbrev main_v694 : Ref sig .tc := ⟨.hbm, 762, rfl⟩
abbrev main_v695 : Ref sig .tc := ⟨.hbm, 763, rfl⟩
abbrev main_v696 : Ref sig .tc := ⟨.hbm, 764, rfl⟩
abbrev main_v697 : Ref sig .tc := ⟨.hbm, 765, rfl⟩
abbrev main_v698 : Ref sig .tc := ⟨.hbm, 766, rfl⟩
abbrev main_v699 : Ref sig .tc := ⟨.hbm, 767, rfl⟩
abbrev main_v700 : Ref sig .tc := ⟨.hbm, 768, rfl⟩
abbrev main_cst_65 : Ref sig .tc := ⟨.hbm, 769, rfl⟩
abbrev main_v701 : Ref sig .tc := ⟨.hbm, 770, rfl⟩
abbrev main_v702 : Ref sig .tc := ⟨.hbm, 771, rfl⟩
abbrev main_v703 : Ref sig .tc := ⟨.hbm, 772, rfl⟩
abbrev main_v704 : Ref sig .tc := ⟨.hbm, 773, rfl⟩
abbrev main_v705 : Ref sig .tc := ⟨.hbm, 774, rfl⟩
abbrev main_c_66 : Ref sig .tc := ⟨.hbm, 775, rfl⟩
abbrev main_v706 : Ref sig .tc := ⟨.hbm, 776, rfl⟩
abbrev main_v707 : Ref sig .tc := ⟨.hbm, 777, rfl⟩
abbrev main_v708 : Ref sig .tc := ⟨.hbm, 778, rfl⟩
abbrev main_v709 : Ref sig .tc := ⟨.hbm, 779, rfl⟩
abbrev main_v710 : Ref sig .tc := ⟨.hbm, 780, rfl⟩
abbrev main_c_67 : Ref sig .tc := ⟨.hbm, 781, rfl⟩
abbrev main_v711 : Ref sig .tc := ⟨.hbm, 782, rfl⟩
abbrev main_c_68 : Ref sig .tc := ⟨.hbm, 783, rfl⟩
abbrev main_v712 : Ref sig .tc := ⟨.hbm, 784, rfl⟩
abbrev main_v713 : Ref sig .tc := ⟨.hbm, 785, rfl⟩
abbrev main_v714 : Ref sig .tc := ⟨.hbm, 786, rfl⟩
abbrev main_v715 : Ref sig .tc := ⟨.hbm, 787, rfl⟩
abbrev main_v716 : Ref sig .tc := ⟨.hbm, 788, rfl⟩
abbrev main_v717 : Ref sig .tc := ⟨.hbm, 789, rfl⟩
abbrev main_cst_69 : Ref sig .tc := ⟨.hbm, 790, rfl⟩
abbrev main_v718 : Ref sig .tc := ⟨.hbm, 791, rfl⟩
abbrev main_v719 : Ref sig .tc := ⟨.hbm, 792, rfl⟩
abbrev main_v720 : Ref sig .tc := ⟨.hbm, 793, rfl⟩
abbrev main_v721 : Ref sig .tc := ⟨.hbm, 794, rfl⟩
abbrev main_v722 : Ref sig .tc := ⟨.hbm, 795, rfl⟩
abbrev main_c_70 : Ref sig .tc := ⟨.hbm, 796, rfl⟩
abbrev main_v723 : Ref sig .tc := ⟨.hbm, 797, rfl⟩
abbrev main_v724 : Ref sig .tc := ⟨.hbm, 798, rfl⟩
abbrev main_v725 : Ref sig .tc := ⟨.hbm, 799, rfl⟩
abbrev main_v726 : Ref sig .tc := ⟨.hbm, 800, rfl⟩
abbrev main_v727 : Ref sig .tc := ⟨.hbm, 801, rfl⟩
abbrev main_c_71 : Ref sig .tc := ⟨.hbm, 802, rfl⟩
abbrev main_v728 : Ref sig .tc := ⟨.hbm, 803, rfl⟩
abbrev main_c_72 : Ref sig .tc := ⟨.hbm, 804, rfl⟩
abbrev main_v729 : Ref sig .tc := ⟨.hbm, 805, rfl⟩
abbrev main_v730 : Ref sig .tc := ⟨.hbm, 806, rfl⟩
abbrev main_v731 : Ref sig .tc := ⟨.hbm, 807, rfl⟩
abbrev main_v732 : Ref sig .tc := ⟨.hbm, 808, rfl⟩
abbrev main_v733 : Ref sig .tc := ⟨.hbm, 809, rfl⟩
abbrev main_v734 : Ref sig .tc := ⟨.hbm, 810, rfl⟩
abbrev main_v735 : Ref sig .tc := ⟨.hbm, 811, rfl⟩
abbrev main_v736 : Ref sig .tc := ⟨.hbm, 812, rfl⟩
abbrev main_cst_73 : Ref sig .tc := ⟨.hbm, 813, rfl⟩
abbrev main_v737 : Ref sig .tc := ⟨.hbm, 814, rfl⟩
abbrev main_cst_74 : Ref sig .tc := ⟨.hbm, 815, rfl⟩
abbrev main_v738 : Ref sig .tc := ⟨.hbm, 816, rfl⟩
abbrev main_v739 : Ref sig .tc := ⟨.hbm, 817, rfl⟩
abbrev main_v740 : Ref sig .tc := ⟨.hbm, 818, rfl⟩
abbrev main_v741 : Ref sig .tc := ⟨.hbm, 819, rfl⟩
abbrev main_v742 : Ref sig .tc := ⟨.hbm, 820, rfl⟩
abbrev main_v743 : Ref sig .tc := ⟨.hbm, 821, rfl⟩
abbrev main_v744 : Ref sig .tc := ⟨.hbm, 822, rfl⟩
abbrev main_v745 : Ref sig .tc := ⟨.hbm, 823, rfl⟩
abbrev main_v746 : Ref sig .tc := ⟨.hbm, 824, rfl⟩
abbrev main_v747 : Ref sig .tc := ⟨.hbm, 825, rfl⟩
abbrev main_v748 : Ref sig .tc := ⟨.hbm, 826, rfl⟩
abbrev main_v749 : Ref sig .tc := ⟨.hbm, 827, rfl⟩
abbrev main_v750 : Ref sig .tc := ⟨.hbm, 828, rfl⟩
abbrev main_v751 : Ref sig .tc := ⟨.hbm, 829, rfl⟩
abbrev main_v752 : Ref sig .tc := ⟨.hbm, 830, rfl⟩
abbrev main_v753 : Ref sig .tc := ⟨.hbm, 831, rfl⟩
abbrev main_v754 : Ref sig .tc := ⟨.hbm, 832, rfl⟩
abbrev main_v755 : Ref sig .tc := ⟨.hbm, 833, rfl⟩
abbrev main_v756 : Ref sig .tc := ⟨.hbm, 834, rfl⟩
abbrev main_v757 : Ref sig .tc := ⟨.hbm, 835, rfl⟩
abbrev main_v758 : Ref sig .tc := ⟨.hbm, 836, rfl⟩
abbrev main_v759 : Ref sig .tc := ⟨.hbm, 837, rfl⟩
abbrev main_v760 : Ref sig .tc := ⟨.hbm, 838, rfl⟩
abbrev main_v761 : Ref sig .tc := ⟨.hbm, 839, rfl⟩
abbrev main_v762 : Ref sig .tc := ⟨.hbm, 840, rfl⟩
abbrev main_v763 : Ref sig .tc := ⟨.hbm, 841, rfl⟩
abbrev main_v764 : Ref sig .tc := ⟨.hbm, 842, rfl⟩
abbrev main_v765 : Ref sig .tc := ⟨.hbm, 843, rfl⟩
abbrev main_v766 : Ref sig .tc := ⟨.hbm, 844, rfl⟩
abbrev main_v767 : Ref sig .tc := ⟨.hbm, 845, rfl⟩
abbrev main_v768 : Ref sig .tc := ⟨.hbm, 846, rfl⟩
abbrev main_v769 : Ref sig .tc := ⟨.hbm, 847, rfl⟩
abbrev main_cst_75 : Ref sig .tc := ⟨.hbm, 848, rfl⟩
abbrev main_v770 : Ref sig .tc := ⟨.hbm, 849, rfl⟩
abbrev main_cst_76 : Ref sig .tc := ⟨.hbm, 850, rfl⟩
abbrev main_v771 : Ref sig .tc := ⟨.hbm, 851, rfl⟩
abbrev main_v772 : Ref sig .tc := ⟨.hbm, 852, rfl⟩
abbrev main_v773 : Ref sig .tc := ⟨.hbm, 853, rfl⟩
abbrev main_v774 : Ref sig .tc := ⟨.hbm, 854, rfl⟩
abbrev main_v775 : Ref sig .tc := ⟨.hbm, 855, rfl⟩
abbrev main_v776 : Ref sig .tc := ⟨.hbm, 856, rfl⟩
abbrev main_v777 : Ref sig .tc := ⟨.hbm, 857, rfl⟩
abbrev main_v778 : Ref sig .tc := ⟨.hbm, 858, rfl⟩
abbrev main_v779 : Ref sig .tc := ⟨.hbm, 859, rfl⟩
abbrev main_v780 : Ref sig .tc := ⟨.hbm, 860, rfl⟩
abbrev main_v781 : Ref sig .tc := ⟨.hbm, 861, rfl⟩
abbrev main_v782 : Ref sig .tc := ⟨.hbm, 862, rfl⟩
abbrev main_v783 : Ref sig .tc := ⟨.hbm, 863, rfl⟩
abbrev main_v784 : Ref sig .tc := ⟨.hbm, 864, rfl⟩
abbrev main_v785 : Ref sig .tc := ⟨.hbm, 865, rfl⟩
abbrev main_v786 : Ref sig .tc := ⟨.hbm, 866, rfl⟩
abbrev main_v787 : Ref sig .tc := ⟨.hbm, 867, rfl⟩
abbrev main_v788 : Ref sig .tc := ⟨.hbm, 868, rfl⟩
abbrev main_v789 : Ref sig .tc := ⟨.hbm, 869, rfl⟩
abbrev main_v790 : Ref sig .tc := ⟨.hbm, 870, rfl⟩
abbrev main_v791 : Ref sig .tc := ⟨.hbm, 871, rfl⟩
abbrev main_v792 : Ref sig .tc := ⟨.hbm, 872, rfl⟩
abbrev main_v793 : Ref sig .tc := ⟨.hbm, 873, rfl⟩
abbrev main_v794 : Ref sig .tc := ⟨.hbm, 874, rfl⟩
abbrev main_v795 : Ref sig .tc := ⟨.hbm, 875, rfl⟩
abbrev main_v796 : Ref sig .tc := ⟨.hbm, 876, rfl⟩
abbrev main_v797 : Ref sig .tc := ⟨.hbm, 877, rfl⟩
abbrev main_v798 : Ref sig .tc := ⟨.hbm, 878, rfl⟩
abbrev main_v799 : Ref sig .tc := ⟨.hbm, 879, rfl⟩
abbrev main_v800 : Ref sig .tc := ⟨.hbm, 880, rfl⟩
abbrev main_v801 : Ref sig .tc := ⟨.hbm, 881, rfl⟩
abbrev main_v802 : Ref sig .tc := ⟨.hbm, 882, rfl⟩
abbrev main_cst_77 : Ref sig .tc := ⟨.hbm, 883, rfl⟩
abbrev main_v803 : Ref sig .tc := ⟨.hbm, 884, rfl⟩
abbrev main_cst_78 : Ref sig .tc := ⟨.hbm, 885, rfl⟩
abbrev main_v804 : Ref sig .tc := ⟨.hbm, 886, rfl⟩
abbrev main_v805 : Ref sig .tc := ⟨.hbm, 887, rfl⟩
abbrev main_v806 : Ref sig .tc := ⟨.hbm, 888, rfl⟩
abbrev main_v807 : Ref sig .tc := ⟨.hbm, 889, rfl⟩
abbrev main_v808 : Ref sig .tc := ⟨.hbm, 890, rfl⟩
abbrev main_v809 : Ref sig .tc := ⟨.hbm, 891, rfl⟩
abbrev main_v810 : Ref sig .tc := ⟨.hbm, 892, rfl⟩
abbrev main_v811 : Ref sig .tc := ⟨.hbm, 893, rfl⟩
abbrev main_v812 : Ref sig .tc := ⟨.hbm, 894, rfl⟩
abbrev main_v813 : Ref sig .tc := ⟨.hbm, 895, rfl⟩
abbrev main_v814 : Ref sig .tc := ⟨.hbm, 896, rfl⟩
abbrev main_v815 : Ref sig .tc := ⟨.hbm, 897, rfl⟩
abbrev main_v816 : Ref sig .tc := ⟨.hbm, 898, rfl⟩
abbrev main_v817 : Ref sig .tc := ⟨.hbm, 899, rfl⟩
abbrev main_v818 : Ref sig .tc := ⟨.hbm, 900, rfl⟩
abbrev main_v819 : Ref sig .tc := ⟨.hbm, 901, rfl⟩
abbrev main_v820 : Ref sig .tc := ⟨.hbm, 902, rfl⟩
abbrev main_v821 : Ref sig .tc := ⟨.hbm, 903, rfl⟩
abbrev main_v822 : Ref sig .tc := ⟨.hbm, 904, rfl⟩
abbrev main_v823 : Ref sig .tc := ⟨.hbm, 905, rfl⟩
abbrev main_v824 : Ref sig .tc := ⟨.hbm, 906, rfl⟩
abbrev main_v825 : Ref sig .tc := ⟨.hbm, 907, rfl⟩
abbrev main_v826 : Ref sig .tc := ⟨.hbm, 908, rfl⟩
abbrev main_v827 : Ref sig .tc := ⟨.hbm, 909, rfl⟩
abbrev main_v828 : Ref sig .tc := ⟨.hbm, 910, rfl⟩
abbrev main_v829 : Ref sig .tc := ⟨.hbm, 911, rfl⟩
abbrev main_v830 : Ref sig .tc := ⟨.hbm, 912, rfl⟩
abbrev main_v831 : Ref sig .tc := ⟨.hbm, 913, rfl⟩
abbrev main_v832 : Ref sig .tc := ⟨.hbm, 914, rfl⟩
abbrev main_v833 : Ref sig .tc := ⟨.hbm, 915, rfl⟩
abbrev main_cst_79 : Ref sig .tc := ⟨.hbm, 916, rfl⟩
abbrev main_v834 : Ref sig .tc := ⟨.hbm, 917, rfl⟩
abbrev main_v835 : Ref sig .tc := ⟨.hbm, 918, rfl⟩
abbrev main_v836 : Ref sig .tc := ⟨.hbm, 919, rfl⟩
abbrev main_v837 : Ref sig .tc := ⟨.hbm, 920, rfl⟩
abbrev main_v838 : Ref sig .tc := ⟨.hbm, 921, rfl⟩
abbrev main_c_80 : Ref sig .tc := ⟨.hbm, 922, rfl⟩
abbrev main_v839 : Ref sig .tc := ⟨.hbm, 923, rfl⟩
abbrev main_v840 : Ref sig .tc := ⟨.hbm, 924, rfl⟩
abbrev main_v841 : Ref sig .tc := ⟨.hbm, 925, rfl⟩
abbrev main_v842 : Ref sig .tc := ⟨.hbm, 926, rfl⟩
abbrev main_v843 : Ref sig .tc := ⟨.hbm, 927, rfl⟩
abbrev main_c_81 : Ref sig .tc := ⟨.hbm, 928, rfl⟩
abbrev main_v844 : Ref sig .tc := ⟨.hbm, 929, rfl⟩
abbrev main_c_82 : Ref sig .tc := ⟨.hbm, 930, rfl⟩
abbrev main_v845 : Ref sig .tc := ⟨.hbm, 931, rfl⟩
abbrev main_v846 : Ref sig .tc := ⟨.hbm, 932, rfl⟩
abbrev main_v847 : Ref sig .tc := ⟨.hbm, 933, rfl⟩
abbrev main_v848 : Ref sig .tc := ⟨.hbm, 934, rfl⟩
abbrev main_v849 : Ref sig .tc := ⟨.hbm, 935, rfl⟩
abbrev main_v850 : Ref sig .tc := ⟨.hbm, 936, rfl⟩
abbrev main_v851 : Ref sig .tc := ⟨.hbm, 937, rfl⟩
abbrev main_v852 : Ref sig .tc := ⟨.hbm, 938, rfl⟩
abbrev main_cst_83 : Ref sig .tc := ⟨.hbm, 939, rfl⟩
abbrev main_v853 : Ref sig .tc := ⟨.hbm, 940, rfl⟩
abbrev main_cst_84 : Ref sig .tc := ⟨.hbm, 941, rfl⟩
abbrev main_v854 : Ref sig .tc := ⟨.hbm, 942, rfl⟩
abbrev main_v855 : Ref sig .tc := ⟨.hbm, 943, rfl⟩
abbrev main_v856 : Ref sig .tc := ⟨.hbm, 944, rfl⟩
abbrev main_v857 : Ref sig .tc := ⟨.hbm, 945, rfl⟩
abbrev main_v858 : Ref sig .tc := ⟨.hbm, 946, rfl⟩
abbrev main_v859 : Ref sig .tc := ⟨.hbm, 947, rfl⟩
abbrev main_v860 : Ref sig .tc := ⟨.hbm, 948, rfl⟩
abbrev main_v861 : Ref sig .tc := ⟨.hbm, 949, rfl⟩
abbrev main_v862 : Ref sig .tc := ⟨.hbm, 950, rfl⟩
abbrev main_v863 : Ref sig .tc := ⟨.hbm, 951, rfl⟩
abbrev main_v864 : Ref sig .tc := ⟨.hbm, 952, rfl⟩
abbrev main_v865 : Ref sig .tc := ⟨.hbm, 953, rfl⟩
abbrev main_v866 : Ref sig .tc := ⟨.hbm, 954, rfl⟩
abbrev main_v867 : Ref sig .tc := ⟨.hbm, 955, rfl⟩
abbrev main_v868 : Ref sig .tc := ⟨.hbm, 956, rfl⟩
abbrev main_v869 : Ref sig .tc := ⟨.hbm, 957, rfl⟩
abbrev main_v870 : Ref sig .tc := ⟨.hbm, 958, rfl⟩
abbrev main_v871 : Ref sig .tc := ⟨.hbm, 959, rfl⟩
abbrev main_v872 : Ref sig .tc := ⟨.hbm, 960, rfl⟩
abbrev main_v873 : Ref sig .tc := ⟨.hbm, 961, rfl⟩
abbrev main_v874 : Ref sig .tc := ⟨.hbm, 962, rfl⟩
abbrev main_v875 : Ref sig .tc := ⟨.hbm, 963, rfl⟩
abbrev main_v876 : Ref sig .tc := ⟨.hbm, 964, rfl⟩
abbrev main_v877 : Ref sig .tc := ⟨.hbm, 965, rfl⟩
abbrev main_v878 : Ref sig .tc := ⟨.hbm, 966, rfl⟩
abbrev main_v879 : Ref sig .tc := ⟨.hbm, 967, rfl⟩
abbrev main_v880 : Ref sig .tc := ⟨.hbm, 968, rfl⟩
abbrev main_v881 : Ref sig .tc := ⟨.hbm, 969, rfl⟩
abbrev main_v882 : Ref sig .tc := ⟨.hbm, 970, rfl⟩
abbrev main_v883 : Ref sig .tc := ⟨.hbm, 971, rfl⟩
abbrev main_cst_85 : Ref sig .tc := ⟨.hbm, 972, rfl⟩
abbrev main_v884 : Ref sig .tc := ⟨.hbm, 973, rfl⟩
abbrev main_v885 : Ref sig .tc := ⟨.hbm, 974, rfl⟩
abbrev main_v886 : Ref sig .tc := ⟨.hbm, 975, rfl⟩
abbrev main_v887 : Ref sig .tc := ⟨.hbm, 976, rfl⟩
abbrev main_v888 : Ref sig .tc := ⟨.hbm, 977, rfl⟩
abbrev main_c_86 : Ref sig .tc := ⟨.hbm, 978, rfl⟩
abbrev main_v889 : Ref sig .tc := ⟨.hbm, 979, rfl⟩
abbrev main_v890 : Ref sig .tc := ⟨.hbm, 980, rfl⟩
abbrev main_v891 : Ref sig .tc := ⟨.hbm, 981, rfl⟩
abbrev main_v892 : Ref sig .tc := ⟨.hbm, 982, rfl⟩
abbrev main_v893 : Ref sig .tc := ⟨.hbm, 983, rfl⟩
abbrev main_c_87 : Ref sig .tc := ⟨.hbm, 984, rfl⟩
abbrev main_v894 : Ref sig .tc := ⟨.hbm, 985, rfl⟩
abbrev main_c_88 : Ref sig .tc := ⟨.hbm, 986, rfl⟩
abbrev main_v895 : Ref sig .tc := ⟨.hbm, 987, rfl⟩
abbrev main_v896 : Ref sig .tc := ⟨.hbm, 988, rfl⟩
abbrev main_v897 : Ref sig .tc := ⟨.hbm, 989, rfl⟩
abbrev main_v898 : Ref sig .tc := ⟨.hbm, 990, rfl⟩
abbrev main_v899 : Ref sig .tc := ⟨.hbm, 991, rfl⟩
abbrev main_v900 : Ref sig .tc := ⟨.hbm, 992, rfl⟩
abbrev main_cst_89 : Ref sig .tc := ⟨.hbm, 993, rfl⟩
abbrev main_v901 : Ref sig .tc := ⟨.hbm, 994, rfl⟩
abbrev main_v902 : Ref sig .tc := ⟨.hbm, 995, rfl⟩
abbrev main_v903 : Ref sig .tc := ⟨.hbm, 996, rfl⟩
abbrev main_v904 : Ref sig .tc := ⟨.hbm, 997, rfl⟩
abbrev main_v905 : Ref sig .tc := ⟨.hbm, 998, rfl⟩
abbrev main_c_90 : Ref sig .tc := ⟨.hbm, 999, rfl⟩
abbrev main_v906 : Ref sig .tc := ⟨.hbm, 1000, rfl⟩
abbrev main_v907 : Ref sig .tc := ⟨.hbm, 1001, rfl⟩
abbrev main_v908 : Ref sig .tc := ⟨.hbm, 1002, rfl⟩
abbrev main_v909 : Ref sig .tc := ⟨.hbm, 1003, rfl⟩
abbrev main_v910 : Ref sig .tc := ⟨.hbm, 1004, rfl⟩
abbrev main_c_91 : Ref sig .tc := ⟨.hbm, 1005, rfl⟩
abbrev main_v911 : Ref sig .tc := ⟨.hbm, 1006, rfl⟩
abbrev main_c_92 : Ref sig .tc := ⟨.hbm, 1007, rfl⟩
abbrev main_v912 : Ref sig .tc := ⟨.hbm, 1008, rfl⟩
abbrev main_v913 : Ref sig .tc := ⟨.hbm, 1009, rfl⟩
abbrev main_v914 : Ref sig .tc := ⟨.hbm, 1010, rfl⟩
abbrev main_v915 : Ref sig .tc := ⟨.hbm, 1011, rfl⟩
abbrev main_v916 : Ref sig .tc := ⟨.hbm, 1012, rfl⟩
abbrev main_v917 : Ref sig .tc := ⟨.hbm, 1013, rfl⟩
abbrev main_v918 : Ref sig .tc := ⟨.hbm, 1014, rfl⟩
abbrev main_v919 : Ref sig .tc := ⟨.hbm, 1015, rfl⟩
abbrev main_cst_93 : Ref sig .tc := ⟨.hbm, 1016, rfl⟩
abbrev main_v920 : Ref sig .tc := ⟨.hbm, 1017, rfl⟩
abbrev main_cst_94 : Ref sig .tc := ⟨.hbm, 1018, rfl⟩
abbrev main_v921 : Ref sig .tc := ⟨.hbm, 1019, rfl⟩
abbrev main_v922 : Ref sig .tc := ⟨.hbm, 1020, rfl⟩
abbrev main_v923 : Ref sig .tc := ⟨.hbm, 1021, rfl⟩
abbrev main_v924 : Ref sig .tc := ⟨.hbm, 1022, rfl⟩
abbrev main_v925 : Ref sig .tc := ⟨.hbm, 1023, rfl⟩
abbrev main_v926 : Ref sig .tc := ⟨.hbm, 1024, rfl⟩
abbrev main_v927 : Ref sig .tc := ⟨.hbm, 1025, rfl⟩
abbrev main_v928 : Ref sig .tc := ⟨.hbm, 1026, rfl⟩
abbrev main_v929 : Ref sig .tc := ⟨.hbm, 1027, rfl⟩
abbrev main_v930 : Ref sig .tc := ⟨.hbm, 1028, rfl⟩
abbrev main_v931 : Ref sig .tc := ⟨.hbm, 1029, rfl⟩
abbrev main_v932 : Ref sig .tc := ⟨.hbm, 1030, rfl⟩
abbrev main_v933 : Ref sig .tc := ⟨.hbm, 1031, rfl⟩
abbrev main_v934 : Ref sig .tc := ⟨.hbm, 1032, rfl⟩
abbrev main_v935 : Ref sig .tc := ⟨.hbm, 1033, rfl⟩
abbrev main_v936 : Ref sig .tc := ⟨.hbm, 1034, rfl⟩
abbrev main_v937 : Ref sig .tc := ⟨.hbm, 1035, rfl⟩
abbrev main_v938 : Ref sig .tc := ⟨.hbm, 1036, rfl⟩
abbrev main_v939 : Ref sig .tc := ⟨.hbm, 1037, rfl⟩
abbrev main_v940 : Ref sig .tc := ⟨.hbm, 1038, rfl⟩
abbrev main_v941 : Ref sig .tc := ⟨.hbm, 1039, rfl⟩
abbrev main_v942 : Ref sig .tc := ⟨.hbm, 1040, rfl⟩
abbrev main_v943 : Ref sig .tc := ⟨.hbm, 1041, rfl⟩
abbrev main_v944 : Ref sig .tc := ⟨.hbm, 1042, rfl⟩
abbrev main_v945 : Ref sig .tc := ⟨.hbm, 1043, rfl⟩
abbrev main_v946 : Ref sig .tc := ⟨.hbm, 1044, rfl⟩
abbrev main_v947 : Ref sig .tc := ⟨.hbm, 1045, rfl⟩
abbrev main_v948 : Ref sig .tc := ⟨.hbm, 1046, rfl⟩
abbrev main_v949 : Ref sig .tc := ⟨.hbm, 1047, rfl⟩
abbrev main_v950 : Ref sig .tc := ⟨.hbm, 1048, rfl⟩
abbrev main_v951 : Ref sig .tc := ⟨.hbm, 1049, rfl⟩
abbrev main_v952 : Ref sig .tc := ⟨.hbm, 1050, rfl⟩
abbrev main_cst_95 : Ref sig .tc := ⟨.hbm, 1051, rfl⟩
abbrev main_v953 : Ref sig .tc := ⟨.hbm, 1052, rfl⟩
abbrev main_cst_96 : Ref sig .tc := ⟨.hbm, 1053, rfl⟩
abbrev main_v954 : Ref sig .tc := ⟨.hbm, 1054, rfl⟩
abbrev main_v955 : Ref sig .tc := ⟨.hbm, 1055, rfl⟩
abbrev main_v956 : Ref sig .tc := ⟨.hbm, 1056, rfl⟩
abbrev main_v957 : Ref sig .tc := ⟨.hbm, 1057, rfl⟩
abbrev main_v958 : Ref sig .tc := ⟨.hbm, 1058, rfl⟩
abbrev main_v959 : Ref sig .tc := ⟨.hbm, 1059, rfl⟩
abbrev main_v960 : Ref sig .tc := ⟨.hbm, 1060, rfl⟩
abbrev main_v961 : Ref sig .tc := ⟨.hbm, 1061, rfl⟩
abbrev main_v962 : Ref sig .tc := ⟨.hbm, 1062, rfl⟩
abbrev main_v963 : Ref sig .tc := ⟨.hbm, 1063, rfl⟩
abbrev main_v964 : Ref sig .tc := ⟨.hbm, 1064, rfl⟩
abbrev main_v965 : Ref sig .tc := ⟨.hbm, 1065, rfl⟩
abbrev main_v966 : Ref sig .tc := ⟨.hbm, 1066, rfl⟩
abbrev main_v967 : Ref sig .tc := ⟨.hbm, 1067, rfl⟩
abbrev main_v968 : Ref sig .tc := ⟨.hbm, 1068, rfl⟩
abbrev main_v969 : Ref sig .tc := ⟨.hbm, 1069, rfl⟩
abbrev main_v970 : Ref sig .tc := ⟨.hbm, 1070, rfl⟩
abbrev main_v971 : Ref sig .tc := ⟨.hbm, 1071, rfl⟩
abbrev main_v972 : Ref sig .tc := ⟨.hbm, 1072, rfl⟩
abbrev main_v973 : Ref sig .tc := ⟨.hbm, 1073, rfl⟩
abbrev main_v974 : Ref sig .tc := ⟨.hbm, 1074, rfl⟩
abbrev main_v975 : Ref sig .tc := ⟨.hbm, 1075, rfl⟩
abbrev main_v976 : Ref sig .tc := ⟨.hbm, 1076, rfl⟩
abbrev main_v977 : Ref sig .tc := ⟨.hbm, 1077, rfl⟩
abbrev main_v978 : Ref sig .tc := ⟨.hbm, 1078, rfl⟩
abbrev main_v979 : Ref sig .tc := ⟨.hbm, 1079, rfl⟩
abbrev main_v980 : Ref sig .tc := ⟨.hbm, 1080, rfl⟩
abbrev main_v981 : Ref sig .tc := ⟨.hbm, 1081, rfl⟩
abbrev main_v982 : Ref sig .tc := ⟨.hbm, 1082, rfl⟩
abbrev main_v983 : Ref sig .tc := ⟨.hbm, 1083, rfl⟩
abbrev main_v984 : Ref sig .tc := ⟨.hbm, 1084, rfl⟩
abbrev main_v985 : Ref sig .tc := ⟨.hbm, 1085, rfl⟩
abbrev main_cst_97 : Ref sig .tc := ⟨.hbm, 1086, rfl⟩
abbrev main_v986 : Ref sig .tc := ⟨.hbm, 1087, rfl⟩
abbrev main_cst_98 : Ref sig .tc := ⟨.hbm, 1088, rfl⟩
abbrev main_v987 : Ref sig .tc := ⟨.hbm, 1089, rfl⟩
abbrev main_v988 : Ref sig .tc := ⟨.hbm, 1090, rfl⟩
abbrev main_v989 : Ref sig .tc := ⟨.hbm, 1091, rfl⟩
abbrev main_v990 : Ref sig .tc := ⟨.hbm, 1092, rfl⟩
abbrev main_v991 : Ref sig .tc := ⟨.hbm, 1093, rfl⟩
abbrev main_v992 : Ref sig .tc := ⟨.hbm, 1094, rfl⟩
abbrev main_v993 : Ref sig .tc := ⟨.hbm, 1095, rfl⟩
abbrev main_v994 : Ref sig .tc := ⟨.hbm, 1096, rfl⟩
abbrev main_v995 : Ref sig .tc := ⟨.hbm, 1097, rfl⟩
abbrev main_v996 : Ref sig .tc := ⟨.hbm, 1098, rfl⟩
abbrev main_v997 : Ref sig .tc := ⟨.hbm, 1099, rfl⟩
abbrev main_v998 : Ref sig .tc := ⟨.hbm, 1100, rfl⟩
abbrev main_v999 : Ref sig .tc := ⟨.hbm, 1101, rfl⟩
abbrev main_v1000 : Ref sig .tc := ⟨.hbm, 1102, rfl⟩
abbrev main_v1001 : Ref sig .tc := ⟨.hbm, 1103, rfl⟩
abbrev main_v1002 : Ref sig .tc := ⟨.hbm, 1104, rfl⟩
abbrev main_v1003 : Ref sig .tc := ⟨.hbm, 1105, rfl⟩
abbrev main_v1004 : Ref sig .tc := ⟨.hbm, 1106, rfl⟩
abbrev main_v1005 : Ref sig .tc := ⟨.hbm, 1107, rfl⟩
abbrev main_v1006 : Ref sig .tc := ⟨.hbm, 1108, rfl⟩
abbrev main_v1007 : Ref sig .tc := ⟨.hbm, 1109, rfl⟩
abbrev main_v1008 : Ref sig .tc := ⟨.hbm, 1110, rfl⟩
abbrev main_v1009 : Ref sig .tc := ⟨.hbm, 1111, rfl⟩
abbrev main_v1010 : Ref sig .tc := ⟨.hbm, 1112, rfl⟩
abbrev main_v1011 : Ref sig .tc := ⟨.hbm, 1113, rfl⟩
abbrev main_v1012 : Ref sig .tc := ⟨.hbm, 1114, rfl⟩
abbrev main_v1013 : Ref sig .tc := ⟨.hbm, 1115, rfl⟩
abbrev main_v1014 : Ref sig .tc := ⟨.hbm, 1116, rfl⟩
abbrev main_v1015 : Ref sig .tc := ⟨.hbm, 1117, rfl⟩
abbrev main_v1016 : Ref sig .tc := ⟨.hbm, 1118, rfl⟩
abbrev main_cst_99 : Ref sig .tc := ⟨.hbm, 1119, rfl⟩
abbrev main_v1017 : Ref sig .tc := ⟨.hbm, 1120, rfl⟩
abbrev main_v1018 : Ref sig .tc := ⟨.hbm, 1121, rfl⟩
abbrev main_v1019 : Ref sig .tc := ⟨.hbm, 1122, rfl⟩
abbrev main_v1020 : Ref sig .tc := ⟨.hbm, 1123, rfl⟩
abbrev main_v1021 : Ref sig .tc := ⟨.hbm, 1124, rfl⟩
abbrev main_c_100 : Ref sig .tc := ⟨.hbm, 1125, rfl⟩
abbrev main_v1022 : Ref sig .tc := ⟨.hbm, 1126, rfl⟩
abbrev main_v1023 : Ref sig .tc := ⟨.hbm, 1127, rfl⟩
abbrev main_v1024 : Ref sig .tc := ⟨.hbm, 1128, rfl⟩
abbrev main_v1025 : Ref sig .tc := ⟨.hbm, 1129, rfl⟩
abbrev main_v1026 : Ref sig .tc := ⟨.hbm, 1130, rfl⟩
abbrev main_c_101 : Ref sig .tc := ⟨.hbm, 1131, rfl⟩
abbrev main_v1027 : Ref sig .tc := ⟨.hbm, 1132, rfl⟩
abbrev main_c_102 : Ref sig .tc := ⟨.hbm, 1133, rfl⟩
abbrev main_v1028 : Ref sig .tc := ⟨.hbm, 1134, rfl⟩
abbrev main_v1029 : Ref sig .tc := ⟨.hbm, 1135, rfl⟩
abbrev main_v1030 : Ref sig .tc := ⟨.hbm, 1136, rfl⟩
abbrev main_v1031 : Ref sig .tc := ⟨.hbm, 1137, rfl⟩
abbrev main_v1032 : Ref sig .tc := ⟨.hbm, 1138, rfl⟩
abbrev main_v1033 : Ref sig .tc := ⟨.hbm, 1139, rfl⟩
abbrev main_v1034 : Ref sig .tc := ⟨.hbm, 1140, rfl⟩
abbrev main_v1035 : Ref sig .tc := ⟨.hbm, 1141, rfl⟩
abbrev main_cst_103 : Ref sig .tc := ⟨.hbm, 1142, rfl⟩
abbrev main_v1036 : Ref sig .tc := ⟨.hbm, 1143, rfl⟩
abbrev main_cst_104 : Ref sig .tc := ⟨.hbm, 1144, rfl⟩
abbrev main_v1037 : Ref sig .tc := ⟨.hbm, 1145, rfl⟩
abbrev main_v1038 : Ref sig .tc := ⟨.hbm, 1146, rfl⟩
abbrev main_v1039 : Ref sig .tc := ⟨.hbm, 1147, rfl⟩
abbrev main_v1040 : Ref sig .tc := ⟨.hbm, 1148, rfl⟩
abbrev main_v1041 : Ref sig .tc := ⟨.hbm, 1149, rfl⟩
abbrev main_v1042 : Ref sig .tc := ⟨.hbm, 1150, rfl⟩
abbrev main_v1043 : Ref sig .tc := ⟨.hbm, 1151, rfl⟩
abbrev main_v1044 : Ref sig .tc := ⟨.hbm, 1152, rfl⟩
abbrev main_v1045 : Ref sig .tc := ⟨.hbm, 1153, rfl⟩
abbrev main_v1046 : Ref sig .tc := ⟨.hbm, 1154, rfl⟩
abbrev main_v1047 : Ref sig .tc := ⟨.hbm, 1155, rfl⟩
abbrev main_v1048 : Ref sig .tc := ⟨.hbm, 1156, rfl⟩
abbrev main_v1049 : Ref sig .tc := ⟨.hbm, 1157, rfl⟩
abbrev main_v1050 : Ref sig .tc := ⟨.hbm, 1158, rfl⟩
abbrev main_v1051 : Ref sig .tc := ⟨.hbm, 1159, rfl⟩
abbrev main_v1052 : Ref sig .tc := ⟨.hbm, 1160, rfl⟩
abbrev main_v1053 : Ref sig .tc := ⟨.hbm, 1161, rfl⟩
abbrev main_v1054 : Ref sig .tc := ⟨.hbm, 1162, rfl⟩
abbrev main_v1055 : Ref sig .tc := ⟨.hbm, 1163, rfl⟩
abbrev main_v1056 : Ref sig .tc := ⟨.hbm, 1164, rfl⟩
abbrev main_v1057 : Ref sig .tc := ⟨.hbm, 1165, rfl⟩
abbrev main_v1058 : Ref sig .tc := ⟨.hbm, 1166, rfl⟩
abbrev main_v1059 : Ref sig .tc := ⟨.hbm, 1167, rfl⟩
abbrev main_v1060 : Ref sig .tc := ⟨.hbm, 1168, rfl⟩
abbrev main_v1061 : Ref sig .tc := ⟨.hbm, 1169, rfl⟩
abbrev main_v1062 : Ref sig .tc := ⟨.hbm, 1170, rfl⟩
abbrev main_v1063 : Ref sig .tc := ⟨.hbm, 1171, rfl⟩
abbrev main_v1064 : Ref sig .tc := ⟨.hbm, 1172, rfl⟩
abbrev main_v1065 : Ref sig .tc := ⟨.hbm, 1173, rfl⟩
abbrev main_v1066 : Ref sig .tc := ⟨.hbm, 1174, rfl⟩
abbrev main_cst_105 : Ref sig .tc := ⟨.hbm, 1175, rfl⟩
abbrev main_v1067 : Ref sig .tc := ⟨.hbm, 1176, rfl⟩
abbrev main_v1068 : Ref sig .tc := ⟨.hbm, 1177, rfl⟩
abbrev main_v1069 : Ref sig .tc := ⟨.hbm, 1178, rfl⟩
abbrev main_v1070 : Ref sig .tc := ⟨.hbm, 1179, rfl⟩
abbrev main_v1071 : Ref sig .tc := ⟨.hbm, 1180, rfl⟩
abbrev main_c_106 : Ref sig .tc := ⟨.hbm, 1181, rfl⟩
abbrev main_v1072 : Ref sig .tc := ⟨.hbm, 1182, rfl⟩
abbrev main_v1073 : Ref sig .tc := ⟨.hbm, 1183, rfl⟩
abbrev main_v1074 : Ref sig .tc := ⟨.hbm, 1184, rfl⟩
abbrev main_v1075 : Ref sig .tc := ⟨.hbm, 1185, rfl⟩
abbrev main_v1076 : Ref sig .tc := ⟨.hbm, 1186, rfl⟩
abbrev main_c_107 : Ref sig .tc := ⟨.hbm, 1187, rfl⟩
abbrev main_v1077 : Ref sig .tc := ⟨.hbm, 1188, rfl⟩
abbrev main_c_108 : Ref sig .tc := ⟨.hbm, 1189, rfl⟩
abbrev main_v1078 : Ref sig .tc := ⟨.hbm, 1190, rfl⟩
abbrev main_v1079 : Ref sig .tc := ⟨.hbm, 1191, rfl⟩
abbrev main_v1080 : Ref sig .tc := ⟨.hbm, 1192, rfl⟩
abbrev main_v1081 : Ref sig .tc := ⟨.hbm, 1193, rfl⟩
abbrev main_v1082 : Ref sig .tc := ⟨.hbm, 1194, rfl⟩
abbrev main_v1083 : Ref sig .tc := ⟨.hbm, 1195, rfl⟩
abbrev main_v1084 : Ref sig .tc := ⟨.hbm, 1196, rfl⟩
abbrev main_v1085 : Ref sig .tc := ⟨.hbm, 1197, rfl⟩
abbrev main_v1086 : Ref sig .tc := ⟨.hbm, 1198, rfl⟩
abbrev main_v1087 : Ref sig .tc := ⟨.hbm, 1199, rfl⟩
abbrev main_v1088 : Ref sig .tc := ⟨.hbm, 1200, rfl⟩
abbrev main_v1089 : Ref sig .tc := ⟨.hbm, 1201, rfl⟩
abbrev main_v1090 : Ref sig .tc := ⟨.hbm, 1202, rfl⟩
abbrev main_v1091 : Ref sig .tc := ⟨.hbm, 1203, rfl⟩
abbrev main_v1092 : Ref sig .tc := ⟨.hbm, 1204, rfl⟩
abbrev main_v1093 : Ref sig .tc := ⟨.hbm, 1205, rfl⟩
abbrev main_v1094 : Ref sig .tc := ⟨.hbm, 1206, rfl⟩
abbrev main_v1095 : Ref sig .tc := ⟨.hbm, 1207, rfl⟩
abbrev main_v1096 : Ref sig .tc := ⟨.hbm, 1208, rfl⟩
abbrev main_v1097 : Ref sig .tc := ⟨.hbm, 1209, rfl⟩
abbrev main_v1098 : Ref sig .tc := ⟨.hbm, 1210, rfl⟩
abbrev main_v1099 : Ref sig .tc := ⟨.hbm, 1211, rfl⟩
abbrev main_v1100 : Ref sig .tc := ⟨.hbm, 1212, rfl⟩
abbrev main_v1101 : Ref sig .tc := ⟨.hbm, 1213, rfl⟩
abbrev main_v1102 : Ref sig .tc := ⟨.hbm, 1214, rfl⟩
abbrev main_v1103 : Ref sig .tc := ⟨.hbm, 1215, rfl⟩
abbrev main_v1104 : Ref sig .tc := ⟨.hbm, 1216, rfl⟩
abbrev main_v1105 : Ref sig .tc := ⟨.hbm, 1217, rfl⟩
abbrev main_cst_109 : Ref sig .tc := ⟨.hbm, 1218, rfl⟩
abbrev main_v1106 : Ref sig .tc := ⟨.hbm, 1219, rfl⟩
abbrev main_v1107 : Ref sig .tc := ⟨.hbm, 1220, rfl⟩
abbrev main_v1108 : Ref sig .tc := ⟨.hbm, 1221, rfl⟩
abbrev main_v1109 : Ref sig .tc := ⟨.hbm, 1222, rfl⟩

abbrev nD : Nat := 1
abbrev τ : Topo := Topo.v7x

variable {F : FTy → Type} [FloatOps F]

class Facts₀ : Prop where
  slices_S524288x26_S524288x25_0_0 : S524288x26.Slices ![0, 0] S524288x25
  slices_S524288x26_S524288x1_0_25 : S524288x26.Slices ![0, 25] S524288x1
  shapeCasts_S524288x1_S524288 : S524288x1.ShapeCasts S524288
  slices_S524288x25_S524288x1_0_0 : S524288x25.Slices ![0, 0] S524288x1
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x1_S524288x1_S524288x4_d1 : Shape.Concatenates [S524288x1, S524288x1, S524288x1, S524288x1] S524288x4 1
  bcast_S524288x4_S524288x1x4_0_2 : S524288x4.BroadcastsInDim S524288x1x4 (![0, 2] : Fin 2 → Fin S524288x1x4.rank)
  concatenates_S524288x1x4_S524288x1x4_S524288x1x4_S524288x1x4_S524288x4x4_d1 : Shape.Concatenates [S524288x1x4, S524288x1x4, S524288x1x4, S524288x1x4] S524288x4x4 1
  slices_S524288x25_S524288x1_0_1 : S524288x25.Slices ![0, 1] S524288x1
  slices_S524288x25_S524288x1_0_2 : S524288x25.Slices ![0, 2] S524288x1
  slices_S524288x25_S524288x1_0_3 : S524288x25.Slices ![0, 3] S524288x1
  slices_S524288x25_S524288x1_0_4 : S524288x25.Slices ![0, 4] S524288x1
  slices_S9_S1_3 : S9.Slices ![3] S1
  shapeCasts_S1_S_ : S1.ShapeCasts S_
  bcast_S_S4x4 : S_.BroadcastsInDim S4x4 (![] : Fin 0 → Fin S4x4.rank)
  bcast_S4x4_S524288x4x4_1_2 : S4x4.BroadcastsInDim S524288x4x4 (![1, 2] : Fin 2 → Fin S524288x4x4.rank)
  bcast_S_S1 : S_.BroadcastsInDim S1 (![] : Fin 0 → Fin S1.rank)
  concatenates_S1_S1_S2_d0 : Shape.Concatenates [S1, S1] S2 0
  slices_S524288x25_S524288x1_0_5 : S524288x25.Slices ![0, 5] S524288x1
  slices_S524288x25_S524288x1_0_6 : S524288x25.Slices ![0, 6] S524288x1
  slices_S524288x25_S524288x1_0_7 : S524288x25.Slices ![0, 7] S524288x1
  slices_S9_S1_4 : S9.Slices ![4] S1
  slices_S524288x25_S524288x1_0_8 : S524288x25.Slices ![0, 8] S524288x1
  slices_S9_S1_5 : S9.Slices ![5] S1
  slices_S9_S1_2 : S9.Slices ![2] S1
  slices_S524288x25_S524288x1_0_9 : S524288x25.Slices ![0, 9] S524288x1
  slices_S524288x25_S524288x1_0_10 : S524288x25.Slices ![0, 10] S524288x1
  slices_S524288x25_S524288x1_0_11 : S524288x25.Slices ![0, 11] S524288x1
  slices_S9_S1_1 : S9.Slices ![1] S1
  slices_S524288x25_S524288x1_0_12 : S524288x25.Slices ![0, 12] S524288x1
  slices_S9_S1_0 : S9.Slices ![0] S1
  slices_S524288x25_S524288x1_0_13 : S524288x25.Slices ![0, 13] S524288x1
  slices_S524288x25_S524288x1_0_14 : S524288x25.Slices ![0, 14] S524288x1
  slices_S524288x25_S524288x1_0_15 : S524288x25.Slices ![0, 15] S524288x1
  slices_S524288x25_S524288x1_0_16 : S524288x25.Slices ![0, 16] S524288x1
  slices_S9_S1_8 : S9.Slices ![8] S1
  slices_S524288x25_S524288x1_0_17 : S524288x25.Slices ![0, 17] S524288x1
  slices_S524288x25_S524288x1_0_18 : S524288x25.Slices ![0, 18] S524288x1
  slices_S524288x25_S524288x1_0_19 : S524288x25.Slices ![0, 19] S524288x1
  slices_S9_S1_7 : S9.Slices ![7] S1
  slices_S524288x25_S524288x1_0_20 : S524288x25.Slices ![0, 20] S524288x1
  slices_S9_S1_6 : S9.Slices ![6] S1
  slices_S524288x25_S524288x1_0_21 : S524288x25.Slices ![0, 21] S524288x1
  slices_S524288x25_S524288x1_0_22 : S524288x25.Slices ![0, 22] S524288x1
  slices_S524288x25_S524288x1_0_23 : S524288x25.Slices ![0, 23] S524288x1
  slices_S524288x25_S524288x1_0_24 : S524288x25.Slices ![0, 24] S524288x1
  bcast_S524288x4x4_S524288x1x4x4_0_2_3 : S524288x4x4.BroadcastsInDim S524288x1x4x4 (![0, 2, 3] : Fin 3 → Fin S524288x1x4x4.rank)
  concatenates_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x16x4x4_d1 : Shape.Concatenates [S524288x1x4x4, S524288x1x4x4, S524288x1x4x4, S524288x1x4x4, S524288x1x4x4, S524288x1x4x4, S524288x1x4x4, S524288x1x4x4, S524288x1x4x4, S524288x1x4x4, S524288x1x4x4, S524288x1x4x4, S524288x1x4x4, S524288x1x4x4, S524288x1x4x4, S524288x1x4x4] S524288x16x4x4 1
  slices_S524288x16x4x4_S524288x16x3x1_0_0_0_3 : S524288x16x4x4.Slices ![0, 0, 0, 3] S524288x16x3x1
  shapeCasts_S524288x16x3x1_S524288x16x3 : S524288x16x3x1.ShapeCasts S524288x16x3
  slices_S524288x16x3_S524288x1x3_0_8_0 : S524288x16x3.Slices ![0, 8, 0] S524288x1x3
  shapeCasts_S524288x1x3_S524288x3 : S524288x1x3.ShapeCasts S524288x3
  slices_S524288x16x3_S524288x1x3_0_6_0 : S524288x16x3.Slices ![0, 6, 0] S524288x1x3
  bcast_S_S524288x3 : S_.BroadcastsInDim S524288x3 (![] : Fin 0 → Fin S524288x3.rank)
  shapeCasts_S524288x16x3_S524288x48 : S524288x16x3.ShapeCasts S524288x48
  concatenates_S524288x48_S524288x3_S524288x51_d1 : Shape.Concatenates [S524288x48, S524288x3] S524288x51 1
  dot_S524288x4x4_S524288x4x4_S524288x4x4_2_1_1_2_0_0_wf : DotDims.WF S524288x4x4 S524288x4x4 S524288x4x4 [2] [1] [1] [2] [0] [0]
  scatter_S524288x4x4_S2_S524288_0_12_12_0_wf : ScatterDims.WF S524288x4x4 S2 S524288 [0] [1, 2] [1, 2] 0

variable [Facts₀]

def dot_S524288x4x4_S524288x4x4_S524288x4x4_2_1_1_2_0_0 : DotDims S524288x4x4 S524288x4x4 S524288x4x4 where
  lhsContracting := [2]
  rhsContracting := [1]
  lhsNonContracting := [1]
  rhsNonContracting := [2]
  lhsBatch := [0]
  rhsBatch := [0]
  wf := dot_S524288x4x4_S524288x4x4_S524288x4x4_2_1_1_2_0_0_wf
def scatter_S524288x4x4_S2_S524288_0_12_12_0 : ScatterDims S524288x4x4 S2 S524288 where
  updateWindowDims := [0]
  insertedWindowDims := [1, 2]
  scatterDimsToOperandDims := [1, 2]
  indexVectorDim := 0
  wf := scatter_S524288x4x4_S2_S524288_0_12_12_0_wf

class Facts : Prop extends Facts₀ where

variable [Facts]
-- ==== Proof.SpecWords.lean ====
/-
  The forward-kinematics chain of sixteen joints, written twice over the extended reals, and the law that joins the two.

  A sample is 25 joint angles and one scale. A joint's pose is a product of homogeneous 4×4 matrices — rotations
  about z, x, y by one angle each, and translations along x or y by a bone length times the scale — and its position
  is the last column of the product. Written the first way ('refOut') the products are formed as they stand. Written
  the second way ('kinOut') a pose is carried as its 3×3 rotation block 'R' and its translation column 't': a right
  multiplication by a rotation about an axis mixes the two columns of 'R' that the axis does not fix and leaves 't',
  and a right multiplication by a translation along axis 'a' by 'd' adds 'd' times column 'a' of 'R' to 't'.
  The two agree on ALL extended reals, the infinities included: a homogeneous matrix '[[R, t], [0, 1]]' times a
  rotation or a translation is again of that form, and the equations between the entries use only
  'x * 0 = 0', 'x * 1 = x', 'x + 0 = x', '0 - x = -x', the sign rules of a product, 'a - b = a + -b' and the
  commutativity of '+' and '*' — none of which needs a finite operand.
-/
import Idealize.ShloMosaic.PureOps.Ideal

noncomputable section

namespace Cert.Kin

open Idealize.ShloMosaic

/-- The extended real a 32-bit float word denotes. -/
abbrev kw (w : BitVec 32) : EReal := Ideal.ofBits .f32 w

/-! ## The words the two programs spell -/

theorem kw_zero : kw 0x00000000#32 = 0 := by simp [kw, Ideal.ofBits, Ideal.ieee]
theorem kw_negzero : kw 0x80000000#32 = 0 := by simp [kw, Ideal.ofBits, Ideal.ieee]
theorem kw_one : kw 0x3F800000#32 = 1 := by simp [kw, Ideal.ofBits, Ideal.ieee, -EReal.coe_mul]; norm_num
theorem kw_negone : kw 0xBF800000#32 = -1 := by
  have h : kw 0xBF800000#32 = ((-1 : ℝ) : EReal) := by simp [kw, Ideal.ofBits, Ideal.ieee, -EReal.coe_mul]; norm_num
  rw [h]; simp

/-- Flipping the sign bit of a float word negates the number it denotes: the five bone lengths that one program
    multiplies by '-1' and the other spells with the sign bit set. -/
theorem kw_neg_7_6 : kw 0xBF955555#32 = -kw 0x3F955555#32 := by
  have h1 : kw 0x3F955555#32 = ((9786709 / 8388608 : ℝ) : EReal) := by simp [kw, Ideal.ofBits, Ideal.ieee, -EReal.coe_mul]; norm_num
  have h2 : kw 0xBF955555#32 = ((-(9786709 / 8388608) : ℝ) : EReal) := by simp [kw, Ideal.ofBits, Ideal.ieee, -EReal.coe_mul]; norm_num
  rw [h1, h2, EReal.coe_neg]
theorem kw_neg_1_4 : kw 0xBE800000#32 = -kw 0x3E800000#32 := by
  have h1 : kw 0x3E800000#32 = ((1 / 4 : ℝ) : EReal) := by simp [kw, Ideal.ofBits, Ideal.ieee, -EReal.coe_mul]; norm_num
  have h2 : kw 0xBE800000#32 = ((-(1 / 4) : ℝ) : EReal) := by simp [kw, Ideal.ofBits, Ideal.ieee, -EReal.coe_mul]; norm_num
  rw [h1, h2, EReal.coe_neg]
theorem kw_neg_5_6 : kw 0xBF555555#32 = -kw 0x3F555555#32 := by
  have h1 : kw 0x3F555555#32 = ((13981013 / 16777216 : ℝ) : EReal) := by simp [kw, Ideal.ofBits, Ideal.ieee, -EReal.coe_mul]; norm_num
  have h2 : kw 0xBF555555#32 = ((-(13981013 / 16777216) : ℝ) : EReal) := by simp [kw, Ideal.ofBits, Ideal.ieee, -EReal.coe_mul]; norm_num
  rw [h1, h2, EReal.coe_neg]
theorem kw_neg_17_30 : kw 0xBF111111#32 = -kw 0x3F111111#32 := by
  have h1 : kw 0x3F111111#32 = ((9507089 / 16777216 : ℝ) : EReal) := by simp [kw, Ideal.ofBits, Ideal.ieee, -EReal.coe_mul]; norm_num
  have h2 : kw 0xBF111111#32 = ((-(9507089 / 16777216) : ℝ) : EReal) := by simp [kw, Ideal.ofBits, Ideal.ieee, -EReal.coe_mul]; norm_num
  rw [h1, h2, EReal.coe_neg]
theorem kw_neg_one' : kw 0xBF800000#32 = -kw 0x3F800000#32 := by rw [kw_negone, kw_one]

end Cert.Kin

end
-- ==== Proof.Spec.lean ====
/-
  The forward-kinematics chain of sixteen joints, written twice over the extended reals, and the law that joins the two.

  A sample is 25 joint angles and one scale. A joint's pose is a product of homogeneous 4×4 matrices — rotations
  about z, x, y by one angle each, and translations along x or y by a bone length times the scale — and its position
  is the last column of the product. Written the first way ('refOut') the products are formed as they stand. Written
  the second way ('kinOut') a pose is carried as its 3×3 rotation block 'R' and its translation column 't': a right
  multiplication by a rotation about an axis mixes the two columns of 'R' that the axis does not fix and leaves 't',
  and a right multiplication by a translation along axis 'a' by 'd' adds 'd' times column 'a' of 'R' to 't'.
  The two agree on ALL extended reals, the infinities included: a homogeneous matrix '[[R, t], [0, 1]]' times a
  rotation or a translation is again of that form, and the equations between the entries use only
  'x * 0 = 0', 'x * 1 = x', 'x + 0 = x', '0 - x = -x', the sign rules of a product, 'a - b = a + -b' and the
  commutativity of '+' and '*' — none of which needs a finite operand.
-/
import proofs.«164878_j3058016714901_2_alg».proof.Proof.SpecWords

noncomputable section

namespace Cert.Kin

open Idealize.ShloMosaic

/-! ## Homogeneous matrices -/

/-- A 4×4 matrix of extended reals. -/
abbrev Mat := Fin 4 → Fin 4 → EReal

/-- The product of two 4×4 matrices. -/
def mmul (A B : Mat) : Mat := fun i j => ∑ k : Fin 4, A i k * B k j

/-- Rotation about z by the angle whose cosine and sine are 'c', 's'; 'o' and 'z' are its ones and zeros. -/
def rotZ (c s o z : EReal) : Mat := ![![c, -s, z, z], ![s, c, z, z], ![z, z, o, z], ![z, z, z, o]]
/-- Rotation about x. -/
def rotX (c s o z : EReal) : Mat := ![![o, z, z, z], ![z, c, -s, z], ![z, s, c, z], ![z, z, z, o]]
/-- Rotation about y. -/
def rotY (c s o z : EReal) : Mat := ![![c, z, s, z], ![z, o, z, z], ![-s, z, c, z], ![z, z, z, o]]
/-- Translation by 'd' along axis 'a': the identity with 'd' at row 'a' of the last column. -/
def trans (a : Fin 4) (d : EReal) : Mat := fun i j => if i = a ∧ j = 3 then d else if i = j then 1 else 0

/-! ## The chain with the products formed as they stand -/

section
variable (x : Fin 26 → EReal)

/-- Cosine and sine of angle 'a', the scale, a one and a zero as the words spell them. -/
def co (a : Fin 26) : EReal := Ideal.cos (x a)
def si (a : Fin 26) : EReal := Ideal.sin (x a)
abbrev o1 : EReal := kw 0x3F800000#32
abbrev z0 : EReal := kw 0x00000000#32
def Rz (a : Fin 26) : Mat := rotZ (co x a) (si x a) o1 z0
def Rx (a : Fin 26) : Mat := rotX (co x a) (si x a) o1 z0
def Ry (a : Fin 26) : Mat := rotY (co x a) (si x a) o1 z0
/-- A bone: the sign word times the length word times the scale. -/
def bone (sg len : BitVec 32) : EReal := kw sg * kw len * x 25
def Ty (sg len : BitVec 32) : Mat := trans 1 (bone x sg len)
def Tx (sg len : BitVec 32) : Mat := trans 0 (bone x sg len)

def Tpel : Mat := mmul (mmul (Rz x 0) (Rx x 1)) (Ry x 2)
def Ttor : Mat := mmul (mmul (mmul (Tpel x) (Rz x 3)) (Ry x 4)) (Ty x 0x3F800000#32 0x3FAAAAAB#32)
def Tnec : Mat := mmul (mmul (mmul (mmul (Ttor x) (Rz x 5)) (Rx x 6)) (Ry x 7)) (Ty x 0x3F800000#32 0x3E7C733C#32)
def Thed : Mat := mmul (mmul (Tnec x) (Rx x 8)) (Ty x 0x3F800000#32 0x3F54816F#32)
def Tlhp : Mat := mmul (Tpel x) (Tx x 0x3F800000#32 0x3E800000#32)
def Tlkn : Mat := mmul (mmul (mmul (mmul (Tlhp x) (Rz x 9)) (Rx x 10)) (Ry x 11)) (Ty x 0xBF800000#32 0x3F955555#32)
def Tlan : Mat := mmul (mmul (Tlkn x) (Rx x 12)) (Ty x 0xBF800000#32 0x3F800000#32)
def Trhp : Mat := mmul (Tpel x) (Tx x 0xBF800000#32 0x3E800000#32)
def Trkn : Mat := mmul (mmul (mmul (mmul (Trhp x) (Rz x 13)) (Rx x 14)) (Ry x 15)) (Ty x 0xBF800000#32 0x3F955555#32)
def Tran : Mat := mmul (mmul (Trkn x) (Rx x 16)) (Ty x 0xBF800000#32 0x3F800000#32)
def Tlsh : Mat := mmul (Ttor x) (Tx x 0x3F800000#32 0x3F111111#32)
def Tlel : Mat := mmul (mmul (mmul (mmul (Tlsh x) (Rz x 17)) (Rx x 18)) (Ry x 19)) (Ty x 0xBF800000#32 0x3F555555#32)
def Tlwr : Mat := mmul (mmul (Tlel x) (Rx x 20)) (Ty x 0xBF800000#32 0x3F555555#32)
def Trsh : Mat := mmul (Ttor x) (Tx x 0xBF800000#32 0x3F111111#32)
def Trel : Mat := mmul (mmul (mmul (mmul (Trsh x) (Rz x 21)) (Rx x 22)) (Ry x 23)) (Ty x 0xBF800000#32 0x3F555555#32)
def Trwr : Mat := mmul (mmul (Trel x) (Rx x 24)) (Ty x 0xBF800000#32 0x3F555555#32)

/-- The sixteen poses in the order the result lists them. -/
def pose : Fin 16 → Mat :=
  ![Tpel x, Ttor x, Tnec x, Thed x, Tlhp x, Tlkn x, Tlan x, Trhp x, Trkn x, Tran x, Tlsh x, Tlel x, Tlwr x, Trsh x, Trel x, Trwr x]

/-- Entry 3q + i of the result is coordinate i of joint q; the last three are half the sum of joints 8 and 6. -/
def refOut (j : Fin 51) : EReal :=
  if h : j.val < 48 then pose x ⟨j.val / 3, by omega⟩ ⟨j.val % 3, by omega⟩ 3
  else kw 0x3F000000#32 * (pose x 8 ⟨j.val - 48, by omega⟩ 3 + pose x 6 ⟨j.val - 48, by omega⟩ 3)

end

/-! ## The chain carried as a rotation block and a translation column -/

/-- A 3×3 block, row by row. -/
structure R9 where
  (a00 a01 a02 a10 a11 a12 a20 a21 a22 : EReal)
/-- A column of three. -/
structure T3 where
  (t0 t1 t2 : EReal)

abbrev k0 : EReal := kw 0x00000000#32
abbrev k1 : EReal := kw 0x3F800000#32
abbrev km1 : EReal := kw 0xBF800000#32
abbrev kn0 : EReal := kw 0x80000000#32

/-- The identity block times a rotation about z, the identity's ones and zeros as literal words. -/
def rz0 (c s : EReal) : R9 :=
  ⟨k1 * c + k0 * s, km1 * s + k0 * c, k0, k0 * c + k1 * s, kn0 * s + k1 * c, k0, k0 * c + k0 * s, kn0 * s + k0 * c, k1⟩
/-- A block times a rotation about z: columns 0 and 1 mix. -/
def rz (R : R9) (c s : EReal) : R9 :=
  ⟨R.a00 * c + R.a01 * s, (k0 - R.a00) * s + R.a01 * c, R.a02,
   R.a10 * c + R.a11 * s, (k0 - R.a10) * s + R.a11 * c, R.a12,
   R.a20 * c + R.a21 * s, (k0 - R.a20) * s + R.a21 * c, R.a22⟩
/-- A block times a rotation about x: columns 1 and 2 mix. -/
def rx (R : R9) (c s : EReal) : R9 :=
  ⟨R.a00, R.a01 * c + R.a02 * s, (k0 - R.a01) * s + R.a02 * c,
   R.a10, R.a11 * c + R.a12 * s, (k0 - R.a11) * s + R.a12 * c,
   R.a20, R.a21 * c + R.a22 * s, (k0 - R.a21) * s + R.a22 * c⟩
/-- A block times a rotation about y: columns 0 and 2 mix. -/
def ry (R : R9) (c s : EReal) : R9 :=
  ⟨R.a00 * c - R.a02 * s, R.a01, R.a00 * s + R.a02 * c,
   R.a10 * c - R.a12 * s, R.a11, R.a10 * s + R.a12 * c,
   R.a20 * c - R.a22 * s, R.a21, R.a20 * s + R.a22 * c⟩
/-- A translation along x by 'd': 'd' times column 0 joins the translation column. -/
def tx (R : R9) (t : T3) (d : EReal) : T3 := ⟨t.t0 + R.a00 * d, t.t1 + R.a10 * d, t.t2 + R.a20 * d⟩
/-- A translation along y by 'd': 'd' times column 1 joins the translation column. -/
def ty (R : R9) (t : T3) (d : EReal) : T3 := ⟨t.t0 + R.a01 * d, t.t1 + R.a11 * d, t.t2 + R.a21 * d⟩

section
variable (x : Fin 26 → EReal)

/-- A bone as the second spelling has it: the scale times one word (the sign inside the word). -/
def bn (w : BitVec 32) : EReal := x 25 * kw w

def Rpel : R9 := ry (rx (rz0 (co x 0) (si x 0)) (co x 1) (si x 1)) (co x 2) (si x 2)
def tpel : T3 := ⟨k0, k0, k0⟩
def Rtor : R9 := ry (rz (Rpel x) (co x 3) (si x 3)) (co x 4) (si x 4)
def ttor : T3 := ty (Rtor x) tpel (bn x 0x3FAAAAAB#32)
def Rnec : R9 := ry (rx (rz (Rtor x) (co x 5) (si x 5)) (co x 6) (si x 6)) (co x 7) (si x 7)
def tnec : T3 := ty (Rnec x) (ttor x) (bn x 0x3E7C733C#32)
def Rhed : R9 := rx (Rnec x) (co x 8) (si x 8)
def thed : T3 := ty (Rhed x) (tnec x) (bn x 0x3F54816F#32)
def tlhp : T3 := tx (Rpel x) tpel (bn x 0x3E800000#32)
def Rlkn : R9 := ry (rx (rz (Rpel x) (co x 9) (si x 9)) (co x 10) (si x 10)) (co x 11) (si x 11)
def tlkn : T3 := ty (Rlkn x) (tlhp x) (bn x 0xBF955555#32)
def Rlan : R9 := rx (Rlkn x) (co x 12) (si x 12)
def tlan : T3 := ty (Rlan x) (tlkn x) (bn x 0xBF800000#32)
def trhp : T3 := tx (Rpel x) tpel (bn x 0xBE800000#32)
def Rrkn : R9 := ry (rx (rz (Rpel x) (co x 13) (si x 13)) (co x 14) (si x 14)) (co x 15) (si x 15)
def trkn : T3 := ty (Rrkn x) (trhp x) (bn x 0xBF955555#32)
def Rran : R9 := rx (Rrkn x) (co x 16) (si x 16)
def tran : T3 := ty (Rran x) (trkn x) (bn x 0xBF800000#32)
def tlsh : T3 := tx (Rtor x) (ttor x) (bn x 0x3F111111#32)
def Rlel : R9 := ry (rx (rz (Rtor x) (co x 17) (si x 17)) (co x 18) (si x 18)) (co x 19) (si x 19)
def tlel : T3 := ty (Rlel x) (tlsh x) (bn x 0xBF555555#32)
def Rlwr : R9 := rx (Rlel x) (co x 20) (si x 20)
def tlwr : T3 := ty (Rlwr x) (tlel x) (bn x 0xBF555555#32)
def trsh : T3 := tx (Rtor x) (ttor x) (bn x 0xBF111111#32)
def Rrel : R9 := ry (rx (rz (Rtor x) (co x 21) (si x 21)) (co x 22) (si x 22)) (co x 23) (si x 23)
def trel : T3 := ty (Rrel x) (trsh x) (bn x 0xBF555555#32)
def Rrwr : R9 := rx (Rrel x) (co x 24) (si x 24)
def trwr : T3 := ty (Rrwr x) (trel x) (bn x 0xBF555555#32)

/-- The sixteen joint positions in the order the result lists them. -/
def joint : Fin 16 → T3 :=
  ![tpel, ttor x, tnec x, thed x, tlhp x, tlkn x, tlan x, trhp x, trkn x, tran x, tlsh x, tlel x, tlwr x, trsh x, trel x, trwr x]

/-- Coordinate 'i' of a column. -/
def T3.get (t : T3) : Fin 3 → EReal := ![t.t0, t.t1, t.t2]

def kinOut (j : Fin 51) : EReal :=
  if h : j.val < 48 then (joint x ⟨j.val / 3, by omega⟩).get ⟨j.val % 3, by omega⟩
  else kw 0x3F000000#32 * ((joint x 8).get ⟨j.val - 48, by omega⟩ + (joint x 6).get ⟨j.val - 48, by omega⟩)

end

end Cert.Kin

end
-- ==== Proof.Out.lean ====
/-
  The result array [524288, 51] as a function of the argument array [524288, 26]: row b of the result is the
  kinematic chain of row b of the argument (its 25 angles and its scale), in either spelling of the chain.
-/
import proofs.«164878_j3058016714901_2_alg».proof.Proof.Spec
import Idealize.ShloMosaic.Lib.ValueIdx

noncomputable section

namespace Cert.Kin

open Idealize.ShloMosaic Idealize.ShloMosaic.ValueIdx

abbrev SIn : Shape := ⟨2, ![524288, 26]⟩
abbrev SOut : Shape := ⟨2, ![524288, 51]⟩

/-- Sample b of the argument array: its 26 numbers. -/
def sample (a : SIn.Idx → EReal) (b : Fin 524288) : Fin 26 → EReal := fun r => a (ix2 b r)

/-- The result with each pose carried as a rotation block and a translation column. -/
def kOut (a : SIn.Idx → EReal) : SOut.Idx → EReal :=
  fun i => kinOut (sample a ⟨(i 0).val, idx2_lt0 i⟩) ⟨(i 1).val, idx2_lt1 i⟩

/-- The result with the 4×4 products formed as they stand. -/
def rOut (a : SIn.Idx → EReal) : SOut.Idx → EReal :=
  fun i => refOut (sample a ⟨(i 0).val, idx2_lt0 i⟩) ⟨(i 1).val, idx2_lt1 i⟩

end Cert.Kin

end
-- ==== Proof.KernelSample.lean ====
/-
  One sample of a block.

  A grid point's input block is [26, 8, 2048]: row r holds number r (25 joint angles, then the scale) of
  8 × 2048 samples, one per sublane and lane. This module names the 26 numbers of the sample at one
  (sublane, lane), the kinematic chain applied at every (sublane, lane) of such an array, and reads a loaded
  row and a stored row at an index.
-/
import proofs.«164878_j3058016714901_2_alg».proof.Proof.Gen.KernelIdeal.Frame
import proofs.«164878_j3058016714901_2_alg».proof.Proof.Out
import Idealize.ShloMosaic.Lib.ValueLayout
import Idealize.ShloMosaic.Lib.Pipeline.Value

set_option maxRecDepth 16384

noncomputable section

namespace Cert.KernelIdeal.HandValue

open Cert.KernelIdeal Cert.KernelIdeal.Gen Idealize.ShloMosaic Idealize.ShloMosaic.ValueIdx Cert.Kin

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The 26 numbers of the sample at sublane and lane `i` of a block whose rows are the numbers. -/
def lane (x0 : S26x8x2048.Idx → EReal) (i : S8x2048.Idx) : Fin 26 → EReal :=
  fun r => x0 (ix3 r ⟨(i 0).val, idx2_lt0 i⟩ ⟨(i 1).val, idx2_lt1 i⟩)

/-- The chain applied sample by sample to an array [26, 8, n] whose rows are the 26 numbers: entry (j, s, l) of
    the result is entry j of the chain of the sample at (s, l). -/
def bodyOut {n : Nat} (X : (⟨3, ![26, 8, n]⟩ : Shape).Idx → EReal) : (⟨3, ![51, 8, n]⟩ : Shape).Idx → EReal :=
  fun y => kinOut (fun r => X (ix3 r ⟨(y 1).val, idx3_lt1 y⟩ ⟨(y 2).val, idx3_lt2 y⟩)) ⟨(y 0).val, idx3_lt0 y⟩

/-- Row k of a block, loaded and with its unit axis dropped, is the block's row k. -/
theorem leaf (x0 : Vec Ideal S26x8x2048 .f32) (k : Nat) (hk : k < 26) (inb) (h) :
    shapeCast S8x2048 (View.ld x0 (Rect.unit (s := S26x8x2048) ![k, 0, 0] S1x8x2048.size inb)) h = fun i => lane x0 i ⟨k, hk⟩ := by
  funext i
  obtain ⟨s, l, rfl⟩ : ∃ (s : Fin 8) (l : Fin 2048), i = ix2 s l := ⟨i 0, i 1, eq_ix2 i⟩
  refine (shapeCast_1ab_ab_apply _ h s l).trans ?_
  show x0 _ = x0 _
  refine congrArg x0 (funext fun a => Fin.ext ?_)
  match a with
  | ⟨0, _⟩ => show k + 1 * 0 = k; omega
  | ⟨1, _⟩ => show 0 + 1 * s.val = s.val; omega
  | ⟨2, _⟩ => show 0 + 1 * l.val = l.val; omega

/-- The store of output row k places its [1, 8, 2048] payload at row k of the block. -/
theorem emb_row (k : Nat) (inb : ∀ a, (![k, 0, 0] : Fin 3 → Nat) a + S1x8x2048.size a ≤ S51x8x2048.size a)
    (u : Fin 1) (s : Fin 8) (l : Fin 2048) :
    (Rect.unit (s := S51x8x2048) ![k, 0, 0] S1x8x2048.size inb).emb (ix3 u s l) = ix3 ⟨k, (show k < 51 from inb 0)⟩ s l := by
  refine funext fun a => Fin.ext ?_
  have hu : u.val = 0 := by omega
  match a with
  | ⟨0, _⟩ => show k + 1 * u.val = k; omega
  | ⟨1, _⟩ => show 0 + 1 * s.val = s.val; omega
  | ⟨2, _⟩ => show 0 + 1 * l.val = l.val; omega

/-- The chain applied to a block, read at output row k, sublane s, lane l: entry k of the chain of the sample there. -/
theorem bodyOut_row (x0 : S26x8x2048.Idx → EReal) (k : Nat) (hk : k < 51) (s : Fin 8) (l : Fin 2048) :
    bodyOut x0 (ix3 ⟨k, hk⟩ s l) = kinOut (lane x0 (ix2 s l)) ⟨k, hk⟩ := rfl

end Cert.KernelIdeal.HandValue

end
-- ==== Proof.KernelBody.lean ====
/-
  The body of the kernel, sample by sample.

  The body loads the 26 rows of its input block, drops each row's unit axis, and computes with pointwise
  operations only (cosine, sine, products, sums, differences, broadcast words), so the value it leaves at
  sublane s and lane l of output row j depends on the 26 numbers at (s, l) alone: it is entry j of the
  kinematic chain of that sample. Each of the 51 stores writes one whole row [1, 8, 2048] of the output
  block, and the 51 rows tile it.
-/
import proofs.«164878_j3058016714901_2_alg».proof.Proof.KernelSample

set_option maxRecDepth 16384

noncomputable section

namespace Cert.KernelIdeal.HandValue

open Cert.KernelIdeal Cert.KernelIdeal.Gen Idealize.ShloMosaic Idealize.ShloMosaic.ValueIdx Cert.Kin

/-- What the body leaves in the output block is the chain, sample by sample, of the input block.

    The block is the 51 stored rows put together, so it is enough that each stored row is the matching row of the
    chain. A stored row is a pointwise expression of the 26 loaded rows with a unit axis put in front; read at
    (sublane, lane) it is that expression of the 26 numbers there (each loaded row read at an index is the block's
    row), and the expression is, operation for operation, the chain's entry for that row. -/
theorem out0_1_eq (x0 : Vec Ideal S26x8x2048 .f32) : out0_1 x0 = bodyOut x0 := by
  funext y
  unfold out0_1
  refine View.canon_apply_of_pieces (Val := Elt Ideal) (S := S51x8x2048) (e := .f32) (bodyOut x0) _ ?_ y (cover0_1 (F := Ideal) _ _ _ _ _ _ _ _ _ _ _ _ _ _ _ _ _ _ _ _ _ _ _ _ _ _ _ _ _ _ _ _ _ _ _ _ _ _ _ _ _ _ _ _ _ _ _ _ _ _ _ y)
  -- one stored row at a time, last store first
  iterate 51
    refine List.forall_mem_cons.2 ⟨?_, ?_⟩
    · intro x
      obtain ⟨u, s, l, rfl⟩ : ∃ (u : Fin 1) (s : Fin 8) (l : Fin 2048), x = ix3 u s l := ⟨x 0, x 1, x 2, eq_ix3 x⟩
      -- where the row lands in the block, and the chain's entry there
      rw [emb_row, bodyOut_row]
      -- the stored value is a [8, 2048] value with a unit axis in front
      simp only [k0_pay1, k0_pay2, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282]
      refine (shapeCast_ab_1ab_apply _ _ u s l).trans ?_
      -- the loaded rows, their unit axes dropped, are the block's rows
      try simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
      try simp only [leaf x0 0 (by omega), leaf x0 1 (by omega), leaf x0 2 (by omega), leaf x0 3 (by omega), leaf x0 4 (by omega), leaf x0 5 (by omega), leaf x0 6 (by omega), leaf x0 7 (by omega), leaf x0 8 (by omega), leaf x0 9 (by omega), leaf x0 10 (by omega), leaf x0 11 (by omega), leaf x0 12 (by omega), leaf x0 13 (by omega), leaf x0 14 (by omega), leaf x0 15 (by omega), leaf x0 16 (by omega), leaf x0 17 (by omega), leaf x0 18 (by omega), leaf x0 19 (by omega), leaf x0 20 (by omega), leaf x0 21 (by omega), leaf x0 22 (by omega), leaf x0 23 (by omega), leaf x0 24 (by omega), leaf x0 25 (by omega)]
      -- what is left is pointwise: the same operations on the same 26 numbers
      rfl
  intro p hp
  cases hp

end Cert.KernelIdeal.HandValue

end
-- ==== Proof.KernelBlocks.lean ====
/-
  From blocks to the array.

  The call's input array is [26, 8, 65536] and its result array [51, 8, 65536]; grid point t (of 32) reads the
  input's lanes [2048 t, 2048 t + 2048) as its block and writes the same lanes of the result back, all rows and
  sublanes at once. The body acts sample by sample, so what point t writes back is block t of ONE function of the
  input array — the chain applied at every (sublane, lane) — and the 32 blocks tile the lanes: the result array
  ends holding that function.
-/
import proofs.«164878_j3058016714901_2_alg».proof.Proof.KernelBody

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx Cert.Kin
open Idealize.ShloMosaic.Pipeline (Dat)

variable (m : (ℓ : Loc nD τ sig) → Buf (Elt Ideal) ℓ)

/-- The printed index maps over the grid: both windows sit at block 0 of the rows and of the sublanes and at
    block t of the lanes. -/
theorem idx_facts : ∀ t : Fin cfg0.N, win0_0.index t (0 : Fin 3) = 0 ∧ win0_0.index t (1 : Fin 3) = 0
    ∧ win0_0.index t (2 : Fin 3) = t.val ∧ win0_1.index t (0 : Fin 3) = 0 ∧ win0_1.index t (1 : Fin 3) = 0
    ∧ win0_1.index t (2 : Fin 3) = t.val :=
  (by decide +kernel : ∀ t : Fin grid0.N, _)

/-- The call's input array as the region finds it. -/
abbrev inArr (c : Dev nD) : S26x8x65536.Idx → EReal := V m c main_v1

/-- An element of the input block at point t is the input array's element 2048 t lanes further on. -/
theorem iblk_apply (c : Dev nD) (t : Fin cfg0.N) (x : S26x8x2048.Idx) (k : S26x8x65536.Idx)
    (h0 : (k 0).val = (x 0).val) (h1 : (k 1).val = (x 1).val) (h2 : (k 2).val = 2048 * t.val + (x 2).val) :
    (iblk m c 0 t : Vec Ideal S26x8x2048 .f32) x = inArr m c k := by
  obtain ⟨e0, e1, e2, -, -, -⟩ := idx_facts t
  unfold iblk
  rw [View.read_apply]
  show V m c main_v1 _ = V m c main_v1 _
  refine congrArg (V m c main_v1) (funext fun a => Fin.ext ?_)
  match a with
  | ⟨0, _⟩ => show win0_0.index t (0 : Fin 3) * 26 + 1 * (x 0).val = (k 0).val; rw [e0, h0]; omega
  | ⟨1, _⟩ => show win0_0.index t (1 : Fin 3) * 8 + 1 * (x 1).val = (k 1).val; rw [e1, h1]; omega
  | ⟨2, _⟩ => show win0_0.index t (2 : Fin 3) * 2048 + 1 * (x 2).val = (k 2).val; rw [e2, h2]; omega

/-- WHAT POINT t WRITES BACK is block t of the chain applied sample by sample to the input array. -/
theorem flushed_eq (c : Dev nD) (t : Fin cfg0.N) :
    (dats m 0 c).flushed 1 t = ((cfg0.win 1).blk t).view.read (Elt Ideal) (bodyOut (inArr m c)) := by
  show (cfg0.win 1).cut (grid0.coords t) ((dats m 0 c).after 1 t) = _
  rw [after0_1, out0_1_eq]
  obtain ⟨-, -, -, f0, f1, f2⟩ := idx_facts t
  have hN : cfg0.N = 32 := N_0
  have ht : t.val < 32 := hN ▸ t.isLt
  funext j
  show bodyOut (iblk m c 0 t) j = bodyOut (inArr m c) (((cfg0.win 1).blk t).view.emb j)
  have hj0 : (j 0).val < 51 := (j 0).isLt
  have hj1 : (j 1).val < 8 := (j 1).isLt
  have hj2 : (j 2).val < 2048 := (j 2).isLt
  have g0 : ((((cfg0.win 1).blk t).view.emb j) 0).val = (j 0).val := by
    show win0_1.index t (0 : Fin 3) * 51 + 1 * (j 0).val = (j 0).val; rw [f0]; omega
  have g1 : ((((cfg0.win 1).blk t).view.emb j) 1).val = (j 1).val := by
    show win0_1.index t (1 : Fin 3) * 8 + 1 * (j 1).val = (j 1).val; rw [f1]; omega
  have g2 : ((((cfg0.win 1).blk t).view.emb j) 2).val = 2048 * t.val + (j 2).val := by
    show win0_1.index t (2 : Fin 3) * 2048 + 1 * (j 2).val = 2048 * t.val + (j 2).val; rw [f2]; omega
  unfold bodyOut
  refine congr (congrArg kinOut (funext fun r => ?_)) (Fin.ext g0.symm)
  exact iblk_apply m c t _ _ rfl g1 g2

/-- An index of the result array is in point t's block iff each coordinate is in the block's range. -/
theorem mem_blk (t : Fin cfg0.N) (i : S51x8x65536.Idx) :
    i ∈ ((cfg0.win 1).blk t).view.set ↔ ∀ a : Fin 3, win0_1.index t a * S51x8x2048.size a ≤ (i a).val
      ∧ (i a).val < win0_1.index t a * S51x8x2048.size a + S51x8x2048.size a := by
  show i ∈ ((View.whole main_v2).slice (win0_1.rect t)).set ↔ _
  rw [View.set_slice_whole, Rect.mem_set_unit]
  exact Iff.rfl

/-- Every index of the result array is in the block of the point its lane falls to. -/
theorem cover (i : S51x8x65536.Idx) :
    ∃ t : Fin cfg0.N, (cfg0.win 1).flush t = true ∧ i ∈ ((cfg0.win 1).blk t).view.set := by
  have hN : cfg0.N = 32 := N_0
  have hi0 : (i 0).val < 51 := (i 0).isLt
  have hi1 : (i 1).val < 8 := (i 1).isLt
  have hi2 : (i 2).val < 65536 := (i 2).isLt
  have hlt : (i 2).val / 2048 < cfg0.N := by rw [hN]; omega
  obtain ⟨-, -, -, f0, f1, f2⟩ := idx_facts ⟨(i 2).val / 2048, hlt⟩
  refine ⟨⟨(i 2).val / 2048, hlt⟩, flush0_1 _, ?_⟩
  rw [mem_blk]
  intro a
  match a with
  | ⟨0, _⟩ =>
    show win0_1.index ⟨(i 2).val / 2048, hlt⟩ (0 : Fin 3) * 51 ≤ (i 0).val ∧ (i 0).val < win0_1.index ⟨(i 2).val / 2048, hlt⟩ (0 : Fin 3) * 51 + 51
    rw [f0]; omega
  | ⟨1, _⟩ =>
    show win0_1.index ⟨(i 2).val / 2048, hlt⟩ (1 : Fin 3) * 8 ≤ (i 1).val ∧ (i 1).val < win0_1.index ⟨(i 2).val / 2048, hlt⟩ (1 : Fin 3) * 8 + 8
    rw [f1]; omega
  | ⟨2, _⟩ =>
    show win0_1.index ⟨(i 2).val / 2048, hlt⟩ (2 : Fin 3) * 2048 ≤ (i 2).val ∧ (i 2).val < win0_1.index ⟨(i 2).val / 2048, hlt⟩ (2 : Fin 3) * 2048 + 2048
    rw [f2]; show (i 2).val / 2048 * 2048 ≤ (i 2).val ∧ (i 2).val < (i 2).val / 2048 * 2048 + 2048; omega

/-- THE RESULT ARRAY after the run: the chain applied sample by sample to the input array. -/
theorem final (c : Dev nD) : (dats m 0 c).arrAt 1 cfg0.N = bodyOut (inArr m c) :=
  (dats m 0 c).arrAt_eq_of_cover 1 (bodyOut (inArr m c)) (fun t _ => flushed_eq m c t) cover

end Cert.KernelIdeal.HandValue

end
-- ==== Proof.KernelRun.lean ====
/-
  The kernel's run, read.

  On the host the argument [524288, 26] is transposed to [26, 524288] and its batch axis split as 8 × 65536
  (sample b sits at sublane b / 65536, lane b % 65536); the call computes the chain at every (sublane, lane);
  its result [51, 8, 65536] is merged back to [51, 524288] and transposed to [524288, 51]. Both reshapes use
  the same split, so row b of the result is the chain of row b of the argument.
-/
import proofs.«164878_j3058016714901_2_alg».proof.Proof.KernelBlocks
import Idealize.ShloMosaic.Lib.Tactic

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx Idealize.ShloMosaic.Tactic Cert.Kin
open Idealize.ShloMosaic.Pipeline (Dat)

variable (m : (ℓ : Loc nD τ sig) → Buf (Elt Ideal) ℓ) (ρ : Dev nD → PrngReg)

/-- The call's input array is the argument transposed, its batch axis split as 8 × 65536. -/
theorem inArr_eq (c : Dev nD) : inArr m c = shapeCast S26x8x65536
    (transpose S26x524288 [1, 0] (m ((c.tc : Thread nD τ).loc main_arg0) : S524288x26.Idx → EReal) transposes_S524288x26_S26x524288_1_0)
    shapeCasts_S26x524288_S26x8x65536 := by
  show StableHlo.after hostOps0 (fun b => m (c, b)) (Proc.devRef .tc main_v1) = _
  after_results
  rfl

/-- Number r of the sample at sublane s and lane w is entry (65536 s + w, r) of the argument. -/
theorem inArr_apply (c : Dev nD) (r : Fin 26) (s : Fin 8) (w : Fin 65536) (b : Fin 524288) (hb : b.val = 65536 * s.val + w.val) :
    inArr m c (ix3 r s w) = (m ((c.tc : Thread nD τ).loc main_arg0) : S524288x26.Idx → EReal) (ix2 b r) := by
  rw [inArr_eq]
  refine (shapeCast_apply _ _ (ix3 r s w) (ix2 r b) ?_).trans (transpose_ix2_apply _ _ r b)
  rw [Shape.rowMajor_val_two, Shape.rowMajor_val_three]
  show r.val * 524288 + b.val = (r.val * 8 + s.val) * 65536 + w.val
  omega

/-- What the host lines after the call leave in the result: the call's result array merged and transposed. -/
theorem tail_eq (c : Dev nD) : Pipeline.afterTail₀ cfgs (dats m) 0 (V0 m) [hostOps1] c main_v4
    = transpose S524288x51 [1, 0] (shapeCast S51x524288 ((dats m 0 c).arrAt 1 cfg0.N : S51x8x65536.Idx → EReal) shapeCasts_S51x8x65536_S51x524288)
        transposes_S51x524288_S524288x51_1_0 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2)
      = (dats m 0 c).arrAt 1 cfg0.N := Pipeline.withArrays_arr spec0 launch0.win.arr_inj c _ _ 1
  rw [e]
  rfl

/-- The merged and transposed result is, row by row, the chain of the argument's rows. -/
theorem result_eq (c : Dev nD) :
    transpose S524288x51 [1, 0] (shapeCast S51x524288 ((dats m 0 c).arrAt 1 cfg0.N : S51x8x65536.Idx → EReal) shapeCasts_S51x8x65536_S51x524288)
        transposes_S51x524288_S524288x51_1_0 = kOut (m ((c.tc : Thread nD τ).loc main_arg0)) := by
  rw [final]
  funext i
  obtain ⟨b, j, rfl⟩ : ∃ (b : Fin 524288) (j : Fin 51), i = ix2 b j := ⟨i 0, i 1, eq_ix2 i⟩
  refine (transpose_ix2_apply _ _ b j).trans ?_
  have hb : b.val < 524288 := b.isLt
  refine (shapeCast_apply _ _ (ix2 j b) (ix3 j (⟨b.val / 65536, by omega⟩ : Fin 8) (⟨b.val % 65536, by omega⟩ : Fin 65536)) ?_).trans ?_
  · rw [Shape.rowMajor_val_three, Shape.rowMajor_val_two]
    show (j.val * 8 + b.val / 65536) * 65536 + b.val % 65536 = j.val * 524288 + b.val
    omega
  · show kinOut _ _ = kinOut _ _
    refine congr (congrArg kinOut (funext fun r => ?_)) rfl
    exact inArr_apply m c r _ _ _ (by show b.val = 65536 * (b.val / 65536) + b.val % 65536; omega)

/-- THE RUN: on every TensorCore the result buffer ends holding, row by row, the chain of the argument's rows, and the
    argument is as launched. -/
theorem run :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4) = Cert.Kin.kOut (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run defs _ _).mono (fun r h c =>
      ⟨((h c).2 main_v4 (Pipeline.mem_restRefs_of main_v4 (by decide) (by decide))).trans ((tail_eq m c).trans (result_eq m c)),
       ((h c).2 main_arg0 (Pipeline.mem_restRefs_of main_arg0 (by decide) (by decide))).trans (W_main_arg0 m (dats m) c)⟩)
    (run_main m ρ)

end Cert.KernelIdeal.HandValue

end
-- ==== Proof.RefOps0.lean ====
/- Written by: bun scratch/gen_refops.js (from proof/ReferenceIdeal.lean). The reference's statements 1 … 325 of 1222
   as literal lists of operations, one list per stretch; with each list: every buffer it names is a TensorCore buffer,
   no operation allocates, and the references its operations write. -/
import proofs.«164878_j3058016714901_2_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 1 … 38. -/
abbrev pc0 : List (HloOp τ sig (Elt F)) :=
  [ nullary main_cst (fun i => FloatOps.ofBits .f32 (lit0 (S9.rowMajor i))),
    unary main_arg0 main_v0 ((extractStridedSlice S524288x25 ![0, 0] · slices_S524288x26_S524288x25_0_0) : (⟨S524288x26, .f32⟩ : BufTy).Contents (Elt F) → (⟨S524288x25, .f32⟩ : BufTy).Contents (Elt F)),
    unary main_arg0 main_v1 ((extractStridedSlice S524288x1 ![0, 25] · slices_S524288x26_S524288x1_0_25) : (⟨S524288x26, .f32⟩ : BufTy).Contents (Elt F) → (⟨S524288x1, .f32⟩ : BufTy).Contents (Elt F)),
    reshape main_v1 main_v2 rfl shapeCasts_S524288x1_S524288,
    unary main_v0 main_v3 ((extractStridedSlice S524288x1 ![0, 0] · slices_S524288x25_S524288x1_0_0) : (⟨S524288x25, .f32⟩ : BufTy).Contents (Elt F) → (⟨S524288x1, .f32⟩ : BufTy).Contents (Elt F)),
    reshape main_v3 main_v4 rfl shapeCasts_S524288x1_S524288,
    unary main_v4 main_v5 (Host.cos : (⟨S524288, .f32⟩ : BufTy).Contents (Elt F) → (⟨S524288, .f32⟩ : BufTy).Contents (Elt F)),
    unary main_v4 main_v6 (Host.sin : (⟨S524288, .f32⟩ : BufTy).Contents (Elt F) → (⟨S524288, .f32⟩ : BufTy).Contents (Elt F)),
    nullary main_cst_0 (constant S_ .f32 0x3F800000#32),
    unary main_cst_0 main_v7 (broadcastInDim S524288 ![] bcast_S_S524288 : (⟨S_, .f32⟩ : BufTy).Contents (Elt F) → (⟨S524288, .f32⟩ : BufTy).Contents (Elt F)),
    nullary main_cst_1 (constant S_ .f32 0x00000000#32),
    unary main_cst_1 main_v8 (broadcastInDim S524288 ![] bcast_S_S524288 : (⟨S_, .f32⟩ : BufTy).Contents (Elt F) → (⟨S524288, .f32⟩ : BufTy).Contents (Elt F)),
    unary main_v6 main_v9 (Host.negf : (⟨S524288, .f32⟩ : BufTy).Contents (Elt F) → (⟨S524288, .f32⟩ : BufTy).Contents (Elt F)),
    unary main_v5 main_v10 (broadcastInDim S524288x1 ![0] bcast_S524288_S524288x1_0 : (⟨S524288, .f32⟩ : BufTy).Contents (Elt F) → (⟨S524288x1, .f32⟩ : BufTy).Contents (Elt F)),
    unary main_v9 main_v11 (broadcastInDim S524288x1 ![0] bcast_S524288_S524288x1_0 : (⟨S524288, .f32⟩ : BufTy).Contents (Elt F) → (⟨S524288x1, .f32⟩ : BufTy).Contents (Elt F)),
    unary main_v8 main_v12 (broadcastInDim S524288x1 ![0] bcast_S524288_S524288x1_0 : (⟨S524288, .f32⟩ : BufTy).Contents (Elt F) → (⟨S524288x1, .f32⟩ : BufTy).Contents (Elt F)),
    unary main_v8 main_v13 (broadcastInDim S524288x1 ![0] bcast_S524288_S524288x1_0 : (⟨S524288, .f32⟩ : BufTy).Contents (Elt F) → (⟨S524288x1, .f32⟩ : BufTy).Contents (Elt F)),
    nary ![main_v10, main_v11, main_v12, main_v13] main_v14 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v6 main_v15 (broadcastInDim S524288x1 ![0] bcast_S524288_S524288x1_0 : (⟨S524288, .f32⟩ : BufTy).Contents (Elt F) → (⟨S524288x1, .f32⟩ : BufTy).Contents (Elt F)),
    unary main_v5 main_v16 (broadcastInDim S524288x1 ![0] bcast_S524288_S524288x1_0 : (⟨S524288, .f32⟩ : BufTy).Contents (Elt F) → (⟨S524288x1, .f32⟩ : BufTy).Contents (Elt F)),
    unary main_v8 main_v17 (broadcastInDim S524288x1 ![0] bcast_S524288_S524288x1_0 : (⟨S524288, .f32⟩ : BufTy).Contents (Elt F) → (⟨S524288x1, .f32⟩ : BufTy).Contents (Elt F)),
    unary main_v8 main_v18 (broadcastInDim S524288x1 ![0] bcast_S524288_S524288x1_0 : (⟨S524288, .f32⟩ : BufTy).Contents (Elt F) → (⟨S524288x1, .f32⟩ : BufTy).Contents (Elt F)),
    nary ![main_v15, main_v16, main_v17, main_v18] main_v19 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v8 main_v20 (broadcastInDim S524288x1 ![0] bcast_S524288_S524288x1_0 : (⟨S524288, .f32⟩ : BufTy).Contents (Elt F) → (⟨S524288x1, .f32⟩ : BufTy).Contents (Elt F)),
    unary main_v8 main_v21 (broadcastInDim S524288x1 ![0] bcast_S524288_S524288x1_0 : (⟨S524288, .f32⟩ : BufTy).Contents (Elt F) → (⟨S524288x1, .f32⟩ : BufTy).Contents (Elt F)),
    unary main_v7 main_v22 (broadcastInDim S524288x1 ![0] bcast_S524288_S524288x1_0 : (⟨S524288, .f32⟩ : BufTy).Contents (Elt F) → (⟨S524288x1, .f32⟩ : BufTy).Contents (Elt F)),
    unary main_v8 main_v23 (broadcastInDim S524288x1 ![0] bcast_S524288_S524288x1_0 : (⟨S524288, .f32⟩ : BufTy).Contents (Elt F) → (⟨S524288x1, .f32⟩ : BufTy).Contents (Elt F)),
    nary ![main_v20, main_v21, main_v22, main_v23] main_v24 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v8 main_v25 (broadcastInDim S524288x1 ![0] bcast_S524288_S524288x1_0 : (⟨S524288, .f32⟩ : BufTy).Contents (Elt F) → (⟨S524288x1, .f32⟩ : BufTy).Contents (Elt F)),
    unary main_v8 main_v26 (broadcastInDim S524288x1 ![0] bcast_S524288_S524288x1_0 : (⟨S524288, .f32⟩ : BufTy).Contents (Elt F) → (⟨S524288x1, .f32⟩ : BufTy).Contents (Elt F)),
    unary main_v8 main_v27 (broadcastInDim S524288x1 ![0] bcast_S524288_S524288x1_0 : (⟨S524288, .f32⟩ : BufTy).Contents (Elt F) → (⟨S524288x1, .f32⟩ : BufTy).Contents (Elt F)),
    unary main_v7 main_v28 (broadcastInDim S524288x1 ![0] bcast_S524288_S524288x1_0 : (⟨S524288, .f32⟩ : BufTy).Contents (Elt F) → (⟨S524288x1, .f32⟩ : BufTy).Contents (Elt F)),
    nary ![main_v25, main_v26, main_v27, main_v28] main_v29 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v14 main_v30 (broadcastInDim S524288x1x4 ![0, 2] bcast_S524288x4_S524288x1x4_0_2 : (⟨S524288x4, .f32⟩ : BufTy).Contents (Elt F) → (⟨S524288x1x4, .f32⟩ : BufTy).Contents (Elt F)),
    unary main_v19 main_v31 (broadcastInDim S524288x1x4 ![0, 2] bcast_S524288x4_S524288x1x4_0_2 : (⟨S524288x4, .f32⟩ : BufTy).Contents (Elt F) → (⟨S524288x1x4, .f32⟩ : BufTy).Contents (Elt F)),
    unary main_v24 main_v32 (broadcastInDim S524288x1x4 ![0, 2] bcast_S524288x4_S524288x1x4_0_2 : (⟨S524288x4, .f32⟩ : BufTy).Contents (Elt F) → (⟨S524288x1x4, .f32⟩ : BufTy).Contents (Elt F)),
    unary main_v29 main_v33 (broadcastInDim S524288x1x4 ![0, 2] bcast_S524288x4_S524288x1x4_0_2 : (⟨S524288x4, .f32⟩ : BufTy).Contents (Elt F) → (⟨S524288x1x4, .f32⟩ : BufTy).Contents (Elt F)),
    nary ![main_v30, main_v31, main_v32, main_v33] main_v34 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1) ]
theorem pc0_sub : (pc0 : List (HloOp τ sig (Elt F))).Forall fun op => op.bufs ⊆ tcRefs τ sig :=
  ⟨nullary_bufs_sub .., unary_bufs_sub .., unary_bufs_sub .., reshape_bufs_sub .., unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub ..⟩
theorem pc0_fresh : (pc0 : List (HloOp τ sig (Elt F))).Forall fun op => op.fresh = ∅ := by
  simp only [List.Forall]; repeat' constructor
/-- The references statements 1 … 38 write. -/
abbrev wr0 : List (Ref sig .tc) := [main_cst, main_v0, main_v1, main_v2, main_v3, main_v4, main_v5, main_v6, main_cst_0, main_v7, main_cst_1, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34]
theorem pc0_writes : (pc0 : List (HloOp τ sig (Elt F))).Forall fun op => op.writes ⊆ ((wr0).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 39 … 60. -/
abbrev pc1 : List (HloOp τ sig (Elt F)) :=
  [ unary main_v0 main_v35 ((extractStridedSlice S524288x1 ![0, 1] · slices_S524288x25_S524288x1_0_1) : (⟨S524288x25, .f32⟩ : BufTy).Contents (Elt F) → (⟨S524288x1, .f32⟩ : BufTy).Contents (Elt F)),
    reshape main_v35 main_v36 rfl shapeCasts_S524288x1_S524288,
    unary main_v36 main_v37 (Host.cos : (⟨S524288, .f32⟩ : BufTy).Contents (Elt F) → (⟨S524288, .f32⟩ : BufTy).Contents (Elt F)),
    unary main_v36 main_v38 (Host.sin : (⟨S524288, .f32⟩ : BufTy).Contents (Elt F) → (⟨S524288, .f32⟩ : BufTy).Contents (Elt F)),
    nullary main_cst_2 (constant S_ .f32 0x3F800000#32),
    unary main_cst_2 main_v39 (broadcastInDim S524288 ![] bcast_S_S524288 : (⟨S_, .f32⟩ : BufTy).Contents (Elt F) → (⟨S524288, .f32⟩ : BufTy).Contents (Elt F)),
    nullary main_cst_3 (constant S_ .f32 0x00000000#32),
    unary main_cst_3 main_v40 (broadcastInDim S524288 ![] bcast_S_S524288 : (⟨S_, .f32⟩ : BufTy).Contents (Elt F) → (⟨S524288, .f32⟩ : BufTy).Contents (Elt F)),
    unary main_v38 main_v41 (Host.negf : (⟨S524288, .f32⟩ : BufTy).Contents (Elt F) → (⟨S524288, .f32⟩ : BufTy).Contents (Elt F)),
    unary main_v39 main_v42 (broadcastInDim S524288x1 ![0] bcast_S524288_S524288x1_0 : (⟨S524288, .f32⟩ : BufTy).Contents (Elt F) → (⟨S524288x1, .f32⟩ : BufTy).Contents (Elt F)),
    unary main_v40 main_v43 (broadcastInDim S524288x1 ![0] bcast_S524288_S524288x1_0 : (⟨S524288, .f32⟩ : BufTy).Contents (Elt F) → (⟨S524288x1, .f32⟩ : BufTy).Contents (Elt F)),
    unary main_v40 main_v44 (broadcastInDim S524288x1 ![0] bcast_S524288_S524288x1_0 : (⟨S524288, .f32⟩ : BufTy).Contents (Elt F) → (⟨S524288x1, .f32⟩ : BufTy).Contents (Elt F)),
    unary main_v40 main_v45 (broadcastInDim S524288x1 ![0] bcast_S524288_S524288x1_0 : (⟨S524288, .f32⟩ : BufTy).Contents (Elt F) → (⟨S524288x1, .f32⟩ : BufTy).Contents (Elt F)),
    nary ![main_v42, main_v43, main_v44, main_v45] main_v46 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v40 main_v47 (broadcastInDim S524288x1 ![0] bcast_S524288_S524288x1_0 : (⟨S524288, .f32⟩ : BufTy).Contents (Elt F) → (⟨S524288x1, .f32⟩ : BufTy).Contents (Elt F)),
    unary main_v37 main_v48 (broadcastInDim S524288x1 ![0] bcast_S524288_S524288x1_0 : (⟨S524288, .f32⟩ : BufTy).Contents (Elt F) → (⟨S524288x1, .f32⟩ : BufTy).Contents (Elt F)),
    unary main_v41 main_v49 (broadcastInDim S524288x1 ![0] bcast_S524288_S524288x1_0 : (⟨S524288, .f32⟩ : BufTy).Contents (Elt F) → (⟨S524288x1, .f32⟩ : BufTy).Contents (Elt F)),
    unary main_v40 main_v50 (broadcastInDim S524288x1 ![0] bcast_S524288_S524288x1_0 : (⟨S524288, .f32⟩ : BufTy).Contents (Elt F) → (⟨S524288x1, .f32⟩ : BufTy).Contents (Elt F)),
    nary ![main_v47, main_v48, main_v49, main_v50] main_v51 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v40 main_v52 (broadcastInDim S524288x1 ![0] bcast_S524288_S524288x1_0 : (⟨S524288, .f32⟩ : BufTy).Contents (Elt F) → (⟨S524288x1, .f32⟩ : BufTy).Contents (Elt F)),
    unary main_v38 main_v53 (broadcastInDim S524288x1 ![0] bcast_S524288_S524288x1_0 : (⟨S524288, .f32⟩ : BufTy).Contents (Elt F) → (⟨S524288x1, .f32⟩ : BufTy).Contents (Elt F)),
    unary main_v37 main_v54 (broadcastInDim S524288x1 ![0] bcast_S524288_S524288x1_0 : (⟨S524288, .f32⟩ : BufTy).Contents (Elt F) → (⟨S524288x1, .f32⟩ : BufTy).Contents (Elt F)) ]
theorem pc1_sub : (pc1 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub ..⟩
theorem pc1_fresh : (pc1 : List (HloOp τ sig (Elt F))).Forall fun op => op.fresh = ∅ := by
  simp only [List.Forall]; repeat' constructor
/-- The references statements 39 … 60 write. -/
abbrev wr1 : List (Ref sig .tc) := [main_v35, main_v36, main_v37, main_v38, main_cst_2, main_v39, main_cst_3, main_v40, main_v41, main_v42, main_v43, main_v44, main_v45, main_v46, main_v47, main_v48, main_v49, main_v50, main_v51, main_v52, main_v53, main_v54]
theorem pc1_writes : (pc1 : List (HloOp τ sig (Elt F))).Forall fun op => op.writes ⊆ ((wr1).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 61 … 73. -/
abbrev pc2 : List (HloOp τ sig (Elt F)) :=
  [ unary main_v40 main_v55 (broadcastInDim S524288x1 ![0] bcast_S524288_S524288x1_0 : (⟨S524288, .f32⟩ : BufTy).Contents (Elt F) → (⟨S524288x1, .f32⟩ : BufTy).Contents (Elt F)),
    nary ![main_v52, main_v53, main_v54, main_v55] main_v56 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v40 main_v57 (broadcastInDim S524288x1 ![0] bcast_S524288_S524288x1_0 : (⟨S524288, .f32⟩ : BufTy).Contents (Elt F) → (⟨S524288x1, .f32⟩ : BufTy).Contents (Elt F)),
    unary main_v40 main_v58 (broadcastInDim S524288x1 ![0] bcast_S524288_S524288x1_0 : (⟨S524288, .f32⟩ : BufTy).Contents (Elt F) → (⟨S524288x1, .f32⟩ : BufTy).Contents (Elt F)),
    unary main_v40 main_v59 (broadcastInDim S524288x1 ![0] bcast_S524288_S524288x1_0 : (⟨S524288, .f32⟩ : BufTy).Contents (Elt F) → (⟨S524288x1, .f32⟩ : BufTy).Contents (Elt F)),
    unary main_v39 main_v60 (broadcastInDim S524288x1 ![0] bcast_S524288_S524288x1_0 : (⟨S524288, .f32⟩ : BufTy).Contents (Elt F) → (⟨S524288x1, .f32⟩ : BufTy).Contents (Elt F)),
    nary ![main_v57, main_v58, main_v59, main_v60] main_v61 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v46 main_v62 (broadcastInDim S524288x1x4 ![0, 2] bcast_S524288x4_S524288x1x4_0_2 : (⟨S524288x4, .f32⟩ : BufTy).Contents (Elt F) → (⟨S524288x1x4, .f32⟩ : BufTy).Contents (Elt F)),
    unary main_v51 main_v63 (broadcastInDim S524288x1x4 ![0, 2] bcast_S524288x4_S524288x1x4_0_2 : (⟨S524288x4, .f32⟩ : BufTy).Contents (Elt F) → (⟨S524288x1x4, .f32⟩ : BufTy).Contents (Elt F)),
    unary main_v56 main_v64 (broadcastInDim S524288x1x4 ![0, 2] bcast_S524288x4_S524288x1x4_0_2 : (⟨S524288x4, .f32⟩ : BufTy).Contents (Elt F) → (⟨S524288x1x4, .f32⟩ : BufTy).Contents (Elt F)),
    unary main_v61 main_v65 (broadcastInDim S524288x1x4 ![0, 2] bcast_S524288x4_S524288x1x4_0_2 : (⟨S524288x4, .f32⟩ : BufTy).Contents (Elt F) → (⟨S524288x1x4, .f32⟩ : BufTy).Contents (Elt F)),
    nary ![main_v62, main_v63, main_v64, main_v65] main_v66 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v34 main_v66 main_v67 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc2_sub : (pc2 : List (HloOp τ sig (Elt F))).Forall fun op => op.bufs ⊆ tcRefs τ sig :=
  ⟨unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc2_fresh : (pc2 : List (HloOp τ sig (Elt F))).Forall fun op => op.fresh = ∅ := by
  simp only [List.Forall]; repeat' constructor
/-- The references statements 61 … 73 write. -/
abbrev wr2 : List (Ref sig .tc) := [main_v55, main_v56, main_v57, main_v58, main_v59, main_v60, main_v61, main_v62, main_v63, main_v64, main_v65, main_v66, main_v67]
theorem pc2_writes : (pc2 : List (HloOp τ sig (Elt F))).Forall fun op => op.writes ⊆ ((wr2).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 74 … 108. -/
abbrev pc3 : List (HloOp τ sig (Elt F)) :=
  [ unary main_v0 main_v68 ((extractStridedSlice S524288x1 ![0, 2] · slices_S524288x25_S524288x1_0_2) : (⟨S524288x25, .f32⟩ : BufTy).Contents (Elt F) → (⟨S524288x1, .f32⟩ : BufTy).Contents (Elt F)),
    reshape main_v68 main_v69 rfl shapeCasts_S524288x1_S524288,
    unary main_v69 main_v70 (Host.cos : (⟨S524288, .f32⟩ : BufTy).Contents (Elt F) → (⟨S524288, .f32⟩ : BufTy).Contents (Elt F)),
    unary main_v69 main_v71 (Host.sin : (⟨S524288, .f32⟩ : BufTy).Contents (Elt F) → (⟨S524288, .f32⟩ : BufTy).Contents (Elt F)),
    nullary main_cst_4 (constant S_ .f32 0x3F800000#32),
    unary main_cst_4 main_v72 (broadcastInDim S524288 ![] bcast_S_S524288 : (⟨S_, .f32⟩ : BufTy).Contents (Elt F) → (⟨S524288, .f32⟩ : BufTy).Contents (Elt F)),
    nullary main_cst_5 (constant S_ .f32 0x00000000#32),
    unary main_cst_5 main_v73 (broadcastInDim S524288 ![] bcast_S_S524288 : (⟨S_, .f32⟩ : BufTy).Contents (Elt F) → (⟨S524288, .f32⟩ : BufTy).Contents (Elt F)),
    unary main_v71 main_v74 (Host.negf : (⟨S524288, .f32⟩ : BufTy).Contents (Elt F) → (⟨S524288, .f32⟩ : BufTy).Contents (Elt F)),
    unary main_v70 main_v75 (broadcastInDim S524288x1 ![0] bcast_S524288_S524288x1_0 : (⟨S524288, .f32⟩ : BufTy).Contents (Elt F) → (⟨S524288x1, .f32⟩ : BufTy).Contents (Elt F)),
    unary main_v73 main_v76 (broadcastInDim S524288x1 ![0] bcast_S524288_S524288x1_0 : (⟨S524288, .f32⟩ : BufTy).Contents (Elt F) → (⟨S524288x1, .f32⟩ : BufTy).Contents (Elt F)),
    unary main_v71 main_v77 (broadcastInDim S524288x1 ![0] bcast_S524288_S524288x1_0 : (⟨S524288, .f32⟩ : BufTy).Contents (Elt F) → (⟨S524288x1, .f32⟩ : BufTy).Contents (Elt F)),
    unary main_v73 main_v78 (broadcastInDim S524288x1 ![0] bcast_S524288_S524288x1_0 : (⟨S524288, .f32⟩ : BufTy).Contents (Elt F) → (⟨S524288x1, .f32⟩ : BufTy).Contents (Elt F)),
    nary ![main_v75, main_v76, main_v77, main_v78] main_v79 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v73 main_v80 (broadcastInDim S524288x1 ![0] bcast_S524288_S524288x1_0 : (⟨S524288, .f32⟩ : BufTy).Contents (Elt F) → (⟨S524288x1, .f32⟩ : BufTy).Contents (Elt F)),
    unary main_v72 main_v81 (broadcastInDim S524288x1 ![0] bcast_S524288_S524288x1_0 : (⟨S524288, .f32⟩ : BufTy).Contents (Elt F) → (⟨S524288x1, .f32⟩ : BufTy).Contents (Elt F)),
    unary main_v73 main_v82 (broadcastInDim S524288x1 ![0] bcast_S524288_S524288x1_0 : (⟨S524288, .f32⟩ : BufTy).Contents (Elt F) → (⟨S524288x1, .f32⟩ : BufTy).Contents (Elt F)),
    unary main_v73 main_v83 (broadcastInDim S524288x1 ![0] bcast_S524288_S524288x1_0 : (⟨S524288, .f32⟩ : BufTy).Contents (Elt F) → (⟨S524288x1, .f32⟩ : BufTy).Contents (Elt F)),
    nary ![main_v80, main_v81, main_v82, main_v83] main_v84 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v74 main_v85 (broadcastInDim S524288x1 ![0] bcast_S524288_S524288x1_0 : (⟨S524288, .f32⟩ : BufTy).Contents (Elt F) → (⟨S524288x1, .f32⟩ : BufTy).Contents (Elt F)),
    unary main_v73 main_v86 (broadcastInDim S524288x1 ![0] bcast_S524288_S524288x1_0 : (⟨S524288, .f32⟩ : BufTy).Contents (Elt F) → (⟨S524288x1, .f32⟩ : BufTy).Contents (Elt F)),
    unary main_v70 main_v87 (broadcastInDim S524288x1 ![0] bcast_S524288_S524288x1_0 : (⟨S524288, .f32⟩ : BufTy).Contents (Elt F) → (⟨S524288x1, .f32⟩ : BufTy).Contents (Elt F)),
    unary main_v73 main_v88 (broadcastInDim S524288x1 ![0] bcast_S524288_S524288x1_0 : (⟨S524288, .f32⟩ : BufTy).Contents (Elt F) → (⟨S524288x1, .f32⟩ : BufTy).Contents (Elt F)),
    nary ![main_v85, main_v86, main_v87, main_v88] main_v89 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v73 main_v90 (broadcastInDim S524288x1 ![0] bcast_S524288_S524288x1_0 : (⟨S524288, .f32⟩ : BufTy).Contents (Elt F) → (⟨S524288x1, .f32⟩ : BufTy).Contents (Elt F)),
    unary main_v73 main_v91 (broadcastInDim S524288x1 ![0] bcast_S524288_S524288x1_0 : (⟨S524288, .f32⟩ : BufTy).Contents (Elt F) → (⟨S524288x1, .f32⟩ : BufTy).Contents (Elt F)),
    unary main_v73 main_v92 (broadcastInDim S524288x1 ![0] bcast_S524288_S524288x1_0 : (⟨S524288, .f32⟩ : BufTy).Contents (Elt F) → (⟨S524288x1, .f32⟩ : BufTy).Contents (Elt F)),
    unary main_v72 main_v93 (broadcastInDim S524288x1 ![0] bcast_S524288_S524288x1_0 : (⟨S524288, .f32⟩ : BufTy).Contents (Elt F) → (⟨S524288x1, .f32⟩ : BufTy).Contents (Elt F)),
    nary ![main_v90, main_v91, main_v92, main_v93] main_v94 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v79 main_v95 (broadcastInDim S524288x1x4 ![0, 2] bcast_S524288x4_S524288x1x4_0_2 : (⟨S524288x4, .f32⟩ : BufTy).Contents (Elt F) → (⟨S524288x1x4, .f32⟩ : BufTy).Contents (Elt F)),
    unary main_v84 main_v96 (broadcastInDim S524288x1x4 ![0, 2] bcast_S524288x4_S524288x1x4_0_2 : (⟨S524288x4, .f32⟩ : BufTy).Contents (Elt F) → (⟨S524288x1x4, .f32⟩ : BufTy).Contents (Elt F)),
    unary main_v89 main_v97 (broadcastInDim S524288x1x4 ![0, 2] bcast_S524288x4_S524288x1x4_0_2 : (⟨S524288x4, .f32⟩ : BufTy).Contents (Elt F) → (⟨S524288x1x4, .f32⟩ : BufTy).Contents (Elt F)),
    unary main_v94 main_v98 (broadcastInDim S524288x1x4 ![0, 2] bcast_S524288x4_S524288x1x4_0_2 : (⟨S524288x4, .f32⟩ : BufTy).Contents (Elt F) → (⟨S524288x1x4, .f32⟩ : BufTy).Contents (Elt F)),
    nary ![main_v95, main_v96, main_v97, main_v98] main_v99 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v67 main_v99 main_v100 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc3_sub : (pc3 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc3_fresh : (pc3 : List (HloOp τ sig (Elt F))).Forall fun op => op.fresh = ∅ := by
  simp only [List.Forall]; repeat' constructor
/-- The references statements 74 … 108 write. -/
abbrev wr3 : List (Ref sig .tc) := [main_v68, main_v69, main_v70, main_v71, main_cst_4, main_v72, main_cst_5, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100]
theorem pc3_writes : (pc3 : List (HloOp τ sig (Elt F))).Forall fun op => op.writes ⊆ ((wr3).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 109 … 120. -/
abbrev pc4 : List (HloOp τ sig (Elt F)) :=
  [ unary main_v0 main_v101 ((extractStridedSlice S524288x1 ![0, 3] · slices_S524288x25_S524288x1_0_3) : (⟨S524288x25, .f32⟩ : BufTy).Contents (Elt F) → (⟨S524288x1, .f32⟩ : BufTy).Contents (Elt F)),
    reshape main_v101 main_v102 rfl shapeCasts_S524288x1_S524288,
    unary main_v102 main_v103 (Host.cos : (⟨S524288, .f32⟩ : BufTy).Contents (Elt F) → (⟨S524288, .f32⟩ : BufTy).Contents (Elt F)),
    unary main_v102 main_v104 (Host.sin : (⟨S524288, .f32⟩ : BufTy).Contents (Elt F) → (⟨S524288, .f32⟩ : BufTy).Contents (Elt F)),
    nullary main_cst_6 (constant S_ .f32 0x3F800000#32),
    unary main_cst_6 main_v105 (broadcastInDim S524288 ![] bcast_S_S524288 : (⟨S_, .f32⟩ : BufTy).Contents (Elt F) → (⟨S524288, .f32⟩ : BufTy).Contents (Elt F)),
    nullary main_cst_7 (constant S_ .f32 0x00000000#32),
    unary main_cst_7 main_v106 (broadcastInDim S524288 ![] bcast_S_S524288 : (⟨S_, .f32⟩ : BufTy).Contents (Elt F) → (⟨S524288, .f32⟩ : BufTy).Contents (Elt F)),
    unary main_v104 main_v107 (Host.negf : (⟨S524288, .f32⟩ : BufTy).Contents (Elt F) → (⟨S524288, .f32⟩ : BufTy).Contents (Elt F)),
    unary main_v103 main_v108 (broadcastInDim S524288x1 ![0] bcast_S524288_S524288x1_0 : (⟨S524288, .f32⟩ : BufTy).Contents (Elt F) → (⟨S524288x1, .f32⟩ : BufTy).Contents (Elt F)),
    unary main_v107 main_v109 (broadcastInDim S524288x1 ![0] bcast_S524288_S524288x1_0 : (⟨S524288, .f32⟩ : BufTy).Contents (Elt F) → (⟨S524288x1, .f32⟩ : BufTy).Contents (Elt F)),
    unary main_v106 main_v110 (broadcastInDim S524288x1 ![0] bcast_S524288_S524288x1_0 : (⟨S524288, .f32⟩ : BufTy).Contents (Elt F) → (⟨S524288x1, .f32⟩ : BufTy).Contents (Elt F)) ]
theorem pc4_sub : (pc4 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub ..⟩
theorem pc4_fresh : (pc4 : List (HloOp τ sig (Elt F))).Forall fun op => op.fresh = ∅ := by
  simp only [List.Forall]; repeat' constructor
/-- The references statements 109 … 120 write. -/
abbrev wr4 : List (Ref sig .tc) := [main_v101, main_v102, main_v103, main_v104, main_cst_6, main_v105, main_cst_7, main_v106, main_v107, main_v108, main_v109, main_v110]
theorem pc4_writes : (pc4 : List (HloOp τ sig (Elt F))).Forall fun op => op.writes ⊆ ((wr4).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 121 … 143. -/
abbrev pc5 : List (HloOp τ sig (Elt F)) :=
  [ unary main_v106 main_v111 (broadcastInDim S524288x1 ![0] bcast_S524288_S524288x1_0 : (⟨S524288, .f32⟩ : BufTy).Contents (Elt F) → (⟨S524288x1, .f32⟩ : BufTy).Contents (Elt F)),
    nary ![main_v108, main_v109, main_v110, main_v111] main_v112 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v104 main_v113 (broadcastInDim S524288x1 ![0] bcast_S524288_S524288x1_0 : (⟨S524288, .f32⟩ : BufTy).Contents (Elt F) → (⟨S524288x1, .f32⟩ : BufTy).Contents (Elt F)),
    unary main_v103 main_v114 (broadcastInDim S524288x1 ![0] bcast_S524288_S524288x1_0 : (⟨S524288, .f32⟩ : BufTy).Contents (Elt F) → (⟨S524288x1, .f32⟩ : BufTy).Contents (Elt F)),
    unary main_v106 main_v115 (broadcastInDim S524288x1 ![0] bcast_S524288_S524288x1_0 : (⟨S524288, .f32⟩ : BufTy).Contents (Elt F) → (⟨S524288x1, .f32⟩ : BufTy).Contents (Elt F)),
    unary main_v106 main_v116 (broadcastInDim S524288x1 ![0] bcast_S524288_S524288x1_0 : (⟨S524288, .f32⟩ : BufTy).Contents (Elt F) → (⟨S524288x1, .f32⟩ : BufTy).Contents (Elt F)),
    nary ![main_v113, main_v114, main_v115, main_v116] main_v117 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v106 main_v118 (broadcastInDim S524288x1 ![0] bcast_S524288_S524288x1_0 : (⟨S524288, .f32⟩ : BufTy).Contents (Elt F) → (⟨S524288x1, .f32⟩ : BufTy).Contents (Elt F)),
    unary main_v106 main_v119 (broadcastInDim S524288x1 ![0] bcast_S524288_S524288x1_0 : (⟨S524288, .f32⟩ : BufTy).Contents (Elt F) → (⟨S524288x1, .f32⟩ : BufTy).Contents (Elt F)),
    unary main_v105 main_v120 (broadcastInDim S524288x1 ![0] bcast_S524288_S524288x1_0 : (⟨S524288, .f32⟩ : BufTy).Contents (Elt F) → (⟨S524288x1, .f32⟩ : BufTy).Contents (Elt F)),
    unary main_v106 main_v121 (broadcastInDim S524288x1 ![0] bcast_S524288_S524288x1_0 : (⟨S524288, .f32⟩ : BufTy).Contents (Elt F) → (⟨S524288x1, .f32⟩ : BufTy).Contents (Elt F)),
    nary ![main_v118, main_v119, main_v120, main_v121] main_v122 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v106 main_v123 (broadcastInDim S524288x1 ![0] bcast_S524288_S524288x1_0 : (⟨S524288, .f32⟩ : BufTy).Contents (Elt F) → (⟨S524288x1, .f32⟩ : BufTy).Contents (Elt F)),
    unary main_v106 main_v124 (broadcastInDim S524288x1 ![0] bcast_S524288_S524288x1_0 : (⟨S524288, .f32⟩ : BufTy).Contents (Elt F) → (⟨S524288x1, .f32⟩ : BufTy).Contents (Elt F)),
    unary main_v106 main_v125 (broadcastInDim S524288x1 ![0] bcast_S524288_S524288x1_0 : (⟨S524288, .f32⟩ : BufTy).Contents (Elt F) → (⟨S524288x1, .f32⟩ : BufTy).Contents (Elt F)),
    unary main_v105 main_v126 (broadcastInDim S524288x1 ![0] bcast_S524288_S524288x1_0 : (⟨S524288, .f32⟩ : BufTy).Contents (Elt F) → (⟨S524288x1, .f32⟩ : BufTy).Contents (Elt F)),
    nary ![main_v123, main_v124, main_v125, main_v126] main_v127 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v112 main_v128 (broadcastInDim S524288x1x4 ![0, 2] bcast_S524288x4_S524288x1x4_0_2 : (⟨S524288x4, .f32⟩ : BufTy).Contents (Elt F) → (⟨S524288x1x4, .f32⟩ : BufTy).Contents (Elt F)),
    unary main_v117 main_v129 (broadcastInDim S524288x1x4 ![0, 2] bcast_S524288x4_S524288x1x4_0_2 : (⟨S524288x4, .f32⟩ : BufTy).Contents (Elt F) → (⟨S524288x1x4, .f32⟩ : BufTy).Contents (Elt F)),
    unary main_v122 main_v130 (broadcastInDim S524288x1x4 ![0, 2] bcast_S524288x4_S524288x1x4_0_2 : (⟨S524288x4, .f32⟩ : BufTy).Contents (Elt F) → (⟨S524288x1x4, .f32⟩ : BufTy).Contents (Elt F)),
    unary main_v127 main_v131 (broadcastInDim S524288x1x4 ![0, 2] bcast_S524288x4_S524288x1x4_0_2 : (⟨S524288x4, .f32⟩ : BufTy).Contents (Elt F) → (⟨S524288x1x4, .f32⟩ : BufTy).Contents (Elt F)),
    nary ![main_v128, main_v129, main_v130, main_v131] main_v132 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v100 main_v132 main_v133 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc5_sub : (pc5 : List (HloOp τ sig (Elt F))).Forall fun op => op.bufs ⊆ tcRefs τ sig :=
  ⟨unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc5_fresh : (pc5 : List (HloOp τ sig (Elt F))).Forall fun op => op.fresh = ∅ := by
  simp only [List.Forall]; repeat' constructor
/-- The references statements 121 … 143 write. -/
abbrev wr5 : List (Ref sig .tc) := [main_v111, main_v112, main_v113, main_v114, main_v115, main_v116, main_v117, main_v118, main_v119, main_v120, main_v121, main_v122, main_v123, main_v124, main_v125, main_v126, main_v127, main_v128, main_v129, main_v130, main_v131, main_v132, main_v133]
theorem pc5_writes : (pc5 : List (HloOp τ sig (Elt F))).Forall fun op => op.writes ⊆ ((wr5).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 144 … 178. -/
abbrev pc6 : List (HloOp τ sig (Elt F)) :=
  [ unary main_v0 main_v134 ((extractStridedSlice S524288x1 ![0, 4] · slices_S524288x25_S524288x1_0_4) : (⟨S524288x25, .f32⟩ : BufTy).Contents (Elt F) → (⟨S524288x1, .f32⟩ : BufTy).Contents (Elt F)),
    reshape main_v134 main_v135 rfl shapeCasts_S524288x1_S524288,
    unary main_v135 main_v136 (Host.cos : (⟨S524288, .f32⟩ : BufTy).Contents (Elt F) → (⟨S524288, .f32⟩ : BufTy).Contents (Elt F)),
    unary main_v135 main_v137 (Host.sin : (⟨S524288, .f32⟩ : BufTy).Contents (Elt F) → (⟨S524288, .f32⟩ : BufTy).Contents (Elt F)),
    nullary main_cst_8 (constant S_ .f32 0x3F800000#32),
    unary main_cst_8 main_v138 (broadcastInDim S524288 ![] bcast_S_S524288 : (⟨S_, .f32⟩ : BufTy).Contents (Elt F) → (⟨S524288, .f32⟩ : BufTy).Contents (Elt F)),
    nullary main_cst_9 (constant S_ .f32 0x00000000#32),
    unary main_cst_9 main_v139 (broadcastInDim S524288 ![] bcast_S_S524288 : (⟨S_, .f32⟩ : BufTy).Contents (Elt F) → (⟨S524288, .f32⟩ : BufTy).Contents (Elt F)),
    unary main_v137 main_v140 (Host.negf : (⟨S524288, .f32⟩ : BufTy).Contents (Elt F) → (⟨S524288, .f32⟩ : BufTy).Contents (Elt F)),
    unary main_v136 main_v141 (broadcastInDim S524288x1 ![0] bcast_S524288_S524288x1_0 : (⟨S524288, .f32⟩ : BufTy).Contents (Elt F) → (⟨S524288x1, .f32⟩ : BufTy).Contents (Elt F)),
    unary main_v139 main_v142 (broadcastInDim S524288x1 ![0] bcast_S524288_S524288x1_0 : (⟨S524288, .f32⟩ : BufTy).Contents (Elt F) → (⟨S524288x1, .f32⟩ : BufTy).Contents (Elt F)),
    unary main_v137 main_v143 (broadcastInDim S524288x1 ![0] bcast_S524288_S524288x1_0 : (⟨S524288, .f32⟩ : BufTy).Contents (Elt F) → (⟨S524288x1, .f32⟩ : BufTy).Contents (Elt F)),
    unary main_v139 main_v144 (broadcastInDim S524288x1 ![0] bcast_S524288_S524288x1_0 : (⟨S524288, .f32⟩ : BufTy).Contents (Elt F) → (⟨S524288x1, .f32⟩ : BufTy).Contents (Elt F)),
    nary ![main_v141, main_v142, main_v143, main_v144] main_v145 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v139 main_v146 (broadcastInDim S524288x1 ![0] bcast_S524288_S524288x1_0 : (⟨S524288, .f32⟩ : BufTy).Contents (Elt F) → (⟨S524288x1, .f32⟩ : BufTy).Contents (Elt F)),
    unary main_v138 main_v147 (broadcastInDim S524288x1 ![0] bcast_S524288_S524288x1_0 : (⟨S524288, .f32⟩ : BufTy).Contents (Elt F) → (⟨S524288x1, .f32⟩ : BufTy).Contents (Elt F)),
    unary main_v139 main_v148 (broadcastInDim S524288x1 ![0] bcast_S524288_S524288x1_0 : (⟨S524288, .f32⟩ : BufTy).Contents (Elt F) → (⟨S524288x1, .f32⟩ : BufTy).Contents (Elt F)),
    unary main_v139 main_v149 (broadcastInDim S524288x1 ![0] bcast_S524288_S524288x1_0 : (⟨S524288, .f32⟩ : BufTy).Contents (Elt F) → (⟨S524288x1, .f32⟩ : BufTy).Contents (Elt F)),
    nary ![main_v146, main_v147, main_v148, main_v149] main_v150 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v140 main_v151 (broadcastInDim S524288x1 ![0] bcast_S524288_S524288x1_0 : (⟨S524288, .f32⟩ : BufTy).Contents (Elt F) → (⟨S524288x1, .f32⟩ : BufTy).Contents (Elt F)),
    unary main_v139 main_v152 (broadcastInDim S524288x1 ![0] bcast_S524288_S524288x1_0 : (⟨S524288, .f32⟩ : BufTy).Contents (Elt F) → (⟨S524288x1, .f32⟩ : BufTy).Contents (Elt F)),
    unary main_v136 main_v153 (broadcastInDim S524288x1 ![0] bcast_S524288_S524288x1_0 : (⟨S524288, .f32⟩ : BufTy).Contents (Elt F) → (⟨S524288x1, .f32⟩ : BufTy).Contents (Elt F)),
    unary main_v139 main_v154 (broadcastInDim S524288x1 ![0] bcast_S524288_S524288x1_0 : (⟨S524288, .f32⟩ : BufTy).Contents (Elt F) → (⟨S524288x1, .f32⟩ : BufTy).Contents (Elt F)),
    nary ![main_v151, main_v152, main_v153, main_v154] main_v155 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v139 main_v156 (broadcastInDim S524288x1 ![0] bcast_S524288_S524288x1_0 : (⟨S524288, .f32⟩ : BufTy).Contents (Elt F) → (⟨S524288x1, .f32⟩ : BufTy).Contents (Elt F)),
    unary main_v139 main_v157 (broadcastInDim S524288x1 ![0] bcast_S524288_S524288x1_0 : (⟨S524288, .f32⟩ : BufTy).Contents (Elt F) → (⟨S524288x1, .f32⟩ : BufTy).Contents (Elt F)),
    unary main_v139 main_v158 (broadcastInDim S524288x1 ![0] bcast_S524288_S524288x1_0 : (⟨S524288, .f32⟩ : BufTy).Contents (Elt F) → (⟨S524288x1, .f32⟩ : BufTy).Contents (Elt F)),
    unary main_v138 main_v159 (broadcastInDim S524288x1 ![0] bcast_S524288_S524288x1_0 : (⟨S524288, .f32⟩ : BufTy).Contents (Elt F) → (⟨S524288x1, .f32⟩ : BufTy).Contents (Elt F)),
    nary ![main_v156, main_v157, main_v158, main_v159] main_v160 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v145 main_v161 (broadcastInDim S524288x1x4 ![0, 2] bcast_S524288x4_S524288x1x4_0_2 : (⟨S524288x4, .f32⟩ : BufTy).Contents (Elt F) → (⟨S524288x1x4, .f32⟩ : BufTy).Contents (Elt F)),
    unary main_v150 main_v162 (broadcastInDim S524288x1x4 ![0, 2] bcast_S524288x4_S524288x1x4_0_2 : (⟨S524288x4, .f32⟩ : BufTy).Contents (Elt F) → (⟨S524288x1x4, .f32⟩ : BufTy).Contents (Elt F)),
    unary main_v155 main_v163 (broadcastInDim S524288x1x4 ![0, 2] bcast_S524288x4_S524288x1x4_0_2 : (⟨S524288x4, .f32⟩ : BufTy).Contents (Elt F) → (⟨S524288x1x4, .f32⟩ : BufTy).Contents (Elt F)),
    unary main_v160 main_v164 (broadcastInDim S524288x1x4 ![0, 2] bcast_S524288x4_S524288x1x4_0_2 : (⟨S524288x4, .f32⟩ : BufTy).Contents (Elt F) → (⟨S524288x1x4, .f32⟩ : BufTy).Contents (Elt F)),
    nary ![main_v161, main_v162, main_v163, main_v164] main_v165 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v133 main_v165 main_v166 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc6_sub : (pc6 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc6_fresh : (pc6 : List (HloOp τ sig (Elt F))).Forall fun op => op.fresh = ∅ := by
  simp only [List.Forall]; repeat' constructor
/-- The references statements 144 … 178 write. -/
abbrev wr6 : List (Ref sig .tc) := [main_v134, main_v135, main_v136, main_v137, main_cst_8, main_v138, main_cst_9, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166]
theorem pc6_writes : (pc6 : List (HloOp τ sig (Elt F))).Forall fun op => op.writes ⊆ ((wr6).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 179 … 180. -/
abbrev pc7 : List (HloOp τ sig (Elt F)) :=
  [ unary main_cst main_v167 ((extractStridedSlice S1 ![3] · slices_S9_S1_3) : (⟨S9, .f32⟩ : BufTy).Contents (Elt F) → (⟨S1, .f32⟩ : BufTy).Contents (Elt F)),
    reshape main_v167 main_v168 rfl shapeCasts_S1_S_ ]
theorem pc7_sub : (pc7 : List (HloOp τ sig (Elt F))).Forall fun op => op.bufs ⊆ tcRefs τ sig :=
  ⟨unary_bufs_sub .., reshape_bufs_sub ..⟩
theorem pc7_fresh : (pc7 : List (HloOp τ sig (Elt F))).Forall fun op => op.fresh = ∅ := by
  simp only [List.Forall]; repeat' constructor
/-- The references statements 179 … 180 write. -/
abbrev wr7 : List (Ref sig .tc) := [main_v167, main_v168]
theorem pc7_writes : (pc7 : List (HloOp τ sig (Elt F))).Forall fun op => op.writes ⊆ ((wr7).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 181 … 199. -/
abbrev pc8 : List (HloOp τ sig (Elt F)) :=
  [ nullary main_cst_10 (constant S_ .f32 0x3F800000#32),
    binary main_cst_10 main_v168 main_v169 (mulf : (⟨S_, .f32⟩ : BufTy).Contents (Elt F) → (⟨S_, .f32⟩ : BufTy).Contents (Elt F) → (⟨S_, .f32⟩ : BufTy).Contents (Elt F)),
    unary main_v169 main_v170 (broadcastInDim S524288 ![] bcast_S_S524288 : (⟨S_, .f32⟩ : BufTy).Contents (Elt F) → (⟨S524288, .f32⟩ : BufTy).Contents (Elt F)),
    binary main_v170 main_v2 main_v171 (mulf : (⟨S524288, .f32⟩ : BufTy).Contents (Elt F) → (⟨S524288, .f32⟩ : BufTy).Contents (Elt F) → (⟨S524288, .f32⟩ : BufTy).Contents (Elt F)),
    nullary main_v172 (iotaInDim S4x4 32 0),
    nullary main_v173 (iotaInDim S4x4 32 1),
    nullary main_c (constantI S_ 32 0#32),
    unary main_c main_v174 (broadcastInDim S4x4 ![] bcast_S_S4x4 : (⟨S_, .i32⟩ : BufTy).Contents (Elt F) → (⟨S4x4, .i32⟩ : BufTy).Contents (Elt F)),
    binary main_v172 main_v174 main_v175 (addi : (⟨S4x4, .i32⟩ : BufTy).Contents (Elt F) → (⟨S4x4, .i32⟩ : BufTy).Contents (Elt F) → (⟨S4x4, .i32⟩ : BufTy).Contents (Elt F)),
    binary main_v175 main_v173 main_v176 (cmpi .eq : (⟨S4x4, .i32⟩ : BufTy).Contents (Elt F) → (⟨S4x4, .i32⟩ : BufTy).Contents (Elt F) → (⟨S4x4, .i1⟩ : BufTy).Contents (Elt F)),
    unary main_v176 main_v177 (uitofp .f32 : (⟨S4x4, .i1⟩ : BufTy).Contents (Elt F) → (⟨S4x4, .f32⟩ : BufTy).Contents (Elt F)),
    unary main_v177 main_v178 (broadcastInDim S524288x4x4 ![1, 2] bcast_S4x4_S524288x4x4_1_2 : (⟨S4x4, .f32⟩ : BufTy).Contents (Elt F) → (⟨S524288x4x4, .f32⟩ : BufTy).Contents (Elt F)),
    nullary main_c_11 (constantI S_ 32 1#32),
    unary main_c_11 main_v179 (broadcastInDim S1 ![] bcast_S_S1 : (⟨S_, .i32⟩ : BufTy).Contents (Elt F) → (⟨S1, .i32⟩ : BufTy).Contents (Elt F)),
    nullary main_c_12 (constantI S_ 32 3#32),
    unary main_c_12 main_v180 (broadcastInDim S1 ![] bcast_S_S1 : (⟨S_, .i32⟩ : BufTy).Contents (Elt F) → (⟨S1, .i32⟩ : BufTy).Contents (Elt F)),
    binary main_v179 main_v180 main_v181 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v178 main_v181 main_v171 main_v182 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v166 main_v182 main_v183 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc8_sub : (pc8 : List (HloOp τ sig (Elt F))).Forall fun op => op.bufs ⊆ tcRefs τ sig :=
  ⟨nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc8_fresh : (pc8 : List (HloOp τ sig (Elt F))).Forall fun op => op.fresh = ∅ := by
  simp only [List.Forall]; repeat' constructor
/-- The references statements 181 … 199 write. -/
abbrev wr8 : List (Ref sig .tc) := [main_cst_10, main_v169, main_v170, main_v171, main_v172, main_v173, main_c, main_v174, main_v175, main_v176, main_v177, main_v178, main_c_11, main_v179, main_c_12, main_v180, main_v181, main_v182, main_v183]
theorem pc8_writes : (pc8 : List (HloOp τ sig (Elt F))).Forall fun op => op.writes ⊆ ((wr8).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 200 … 234. -/
abbrev pc9 : List (HloOp τ sig (Elt F)) :=
  [ unary main_v0 main_v184 ((extractStridedSlice S524288x1 ![0, 5] · slices_S524288x25_S524288x1_0_5) : (⟨S524288x25, .f32⟩ : BufTy).Contents (Elt F) → (⟨S524288x1, .f32⟩ : BufTy).Contents (Elt F)),
    reshape main_v184 main_v185 rfl shapeCasts_S524288x1_S524288,
    unary main_v185 main_v186 (Host.cos : (⟨S524288, .f32⟩ : BufTy).Contents (Elt F) → (⟨S524288, .f32⟩ : BufTy).Contents (Elt F)),
    unary main_v185 main_v187 (Host.sin : (⟨S524288, .f32⟩ : BufTy).Contents (Elt F) → (⟨S524288, .f32⟩ : BufTy).Contents (Elt F)),
    nullary main_cst_13 (constant S_ .f32 0x3F800000#32),
    unary main_cst_13 main_v188 (broadcastInDim S524288 ![] bcast_S_S524288 : (⟨S_, .f32⟩ : BufTy).Contents (Elt F) → (⟨S524288, .f32⟩ : BufTy).Contents (Elt F)),
    nullary main_cst_14 (constant S_ .f32 0x00000000#32),
    unary main_cst_14 main_v189 (broadcastInDim S524288 ![] bcast_S_S524288 : (⟨S_, .f32⟩ : BufTy).Contents (Elt F) → (⟨S524288, .f32⟩ : BufTy).Contents (Elt F)),
    unary main_v187 main_v190 (Host.negf : (⟨S524288, .f32⟩ : BufTy).Contents (Elt F) → (⟨S524288, .f32⟩ : BufTy).Contents (Elt F)),
    unary main_v186 main_v191 (broadcastInDim S524288x1 ![0] bcast_S524288_S524288x1_0 : (⟨S524288, .f32⟩ : BufTy).Contents (Elt F) → (⟨S524288x1, .f32⟩ : BufTy).Contents (Elt F)),
    unary main_v190 main_v192 (broadcastInDim S524288x1 ![0] bcast_S524288_S524288x1_0 : (⟨S524288, .f32⟩ : BufTy).Contents (Elt F) → (⟨S524288x1, .f32⟩ : BufTy).Contents (Elt F)),
    unary main_v189 main_v193 (broadcastInDim S524288x1 ![0] bcast_S524288_S524288x1_0 : (⟨S524288, .f32⟩ : BufTy).Contents (Elt F) → (⟨S524288x1, .f32⟩ : BufTy).Contents (Elt F)),
    unary main_v189 main_v194 (broadcastInDim S524288x1 ![0] bcast_S524288_S524288x1_0 : (⟨S524288, .f32⟩ : BufTy).Contents (Elt F) → (⟨S524288x1, .f32⟩ : BufTy).Contents (Elt F)),
    nary ![main_v191, main_v192, main_v193, main_v194] main_v195 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v187 main_v196 (broadcastInDim S524288x1 ![0] bcast_S524288_S524288x1_0 : (⟨S524288, .f32⟩ : BufTy).Contents (Elt F) → (⟨S524288x1, .f32⟩ : BufTy).Contents (Elt F)),
    unary main_v186 main_v197 (broadcastInDim S524288x1 ![0] bcast_S524288_S524288x1_0 : (⟨S524288, .f32⟩ : BufTy).Contents (Elt F) → (⟨S524288x1, .f32⟩ : BufTy).Contents (Elt F)),
    unary main_v189 main_v198 (broadcastInDim S524288x1 ![0] bcast_S524288_S524288x1_0 : (⟨S524288, .f32⟩ : BufTy).Contents (Elt F) → (⟨S524288x1, .f32⟩ : BufTy).Contents (Elt F)),
    unary main_v189 main_v199 (broadcastInDim S524288x1 ![0] bcast_S524288_S524288x1_0 : (⟨S524288, .f32⟩ : BufTy).Contents (Elt F) → (⟨S524288x1, .f32⟩ : BufTy).Contents (Elt F)),
    nary ![main_v196, main_v197, main_v198, main_v199] main_v200 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v189 main_v201 (broadcastInDim S524288x1 ![0] bcast_S524288_S524288x1_0 : (⟨S524288, .f32⟩ : BufTy).Contents (Elt F) → (⟨S524288x1, .f32⟩ : BufTy).Contents (Elt F)),
    unary main_v189 main_v202 (broadcastInDim S524288x1 ![0] bcast_S524288_S524288x1_0 : (⟨S524288, .f32⟩ : BufTy).Contents (Elt F) → (⟨S524288x1, .f32⟩ : BufTy).Contents (Elt F)),
    unary main_v188 main_v203 (broadcastInDim S524288x1 ![0] bcast_S524288_S524288x1_0 : (⟨S524288, .f32⟩ : BufTy).Contents (Elt F) → (⟨S524288x1, .f32⟩ : BufTy).Contents (Elt F)),
    unary main_v189 main_v204 (broadcastInDim S524288x1 ![0] bcast_S524288_S524288x1_0 : (⟨S524288, .f32⟩ : BufTy).Contents (Elt F) → (⟨S524288x1, .f32⟩ : BufTy).Contents (Elt F)),
    nary ![main_v201, main_v202, main_v203, main_v204] main_v205 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v189 main_v206 (broadcastInDim S524288x1 ![0] bcast_S524288_S524288x1_0 : (⟨S524288, .f32⟩ : BufTy).Contents (Elt F) → (⟨S524288x1, .f32⟩ : BufTy).Contents (Elt F)),
    unary main_v189 main_v207 (broadcastInDim S524288x1 ![0] bcast_S524288_S524288x1_0 : (⟨S524288, .f32⟩ : BufTy).Contents (Elt F) → (⟨S524288x1, .f32⟩ : BufTy).Contents (Elt F)),
    unary main_v189 main_v208 (broadcastInDim S524288x1 ![0] bcast_S524288_S524288x1_0 : (⟨S524288, .f32⟩ : BufTy).Contents (Elt F) → (⟨S524288x1, .f32⟩ : BufTy).Contents (Elt F)),
    unary main_v188 main_v209 (broadcastInDim S524288x1 ![0] bcast_S524288_S524288x1_0 : (⟨S524288, .f32⟩ : BufTy).Contents (Elt F) → (⟨S524288x1, .f32⟩ : BufTy).Contents (Elt F)),
    nary ![main_v206, main_v207, main_v208, main_v209] main_v210 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v195 main_v211 (broadcastInDim S524288x1x4 ![0, 2] bcast_S524288x4_S524288x1x4_0_2 : (⟨S524288x4, .f32⟩ : BufTy).Contents (Elt F) → (⟨S524288x1x4, .f32⟩ : BufTy).Contents (Elt F)),
    unary main_v200 main_v212 (broadcastInDim S524288x1x4 ![0, 2] bcast_S524288x4_S524288x1x4_0_2 : (⟨S524288x4, .f32⟩ : BufTy).Contents (Elt F) → (⟨S524288x1x4, .f32⟩ : BufTy).Contents (Elt F)),
    unary main_v205 main_v213 (broadcastInDim S524288x1x4 ![0, 2] bcast_S524288x4_S524288x1x4_0_2 : (⟨S524288x4, .f32⟩ : BufTy).Contents (Elt F) → (⟨S524288x1x4, .f32⟩ : BufTy).Contents (Elt F)),
    unary main_v210 main_v214 (broadcastInDim S524288x1x4 ![0, 2] bcast_S524288x4_S524288x1x4_0_2 : (⟨S524288x4, .f32⟩ : BufTy).Contents (Elt F) → (⟨S524288x1x4, .f32⟩ : BufTy).Contents (Elt F)),
    nary ![main_v211, main_v212, main_v213, main_v214] main_v215 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v183 main_v215 main_v216 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc9_sub : (pc9 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc9_fresh : (pc9 : List (HloOp τ sig (Elt F))).Forall fun op => op.fresh = ∅ := by
  simp only [List.Forall]; repeat' constructor
/-- The references statements 200 … 234 write. -/
abbrev wr9 : List (Ref sig .tc) := [main_v184, main_v185, main_v186, main_v187, main_cst_13, main_v188, main_cst_14, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216]
theorem pc9_writes : (pc9 : List (HloOp τ sig (Elt F))).Forall fun op => op.writes ⊆ ((wr9).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 235 … 240. -/
abbrev pc10 : List (HloOp τ sig (Elt F)) :=
  [ unary main_v0 main_v217 ((extractStridedSlice S524288x1 ![0, 6] · slices_S524288x25_S524288x1_0_6) : (⟨S524288x25, .f32⟩ : BufTy).Contents (Elt F) → (⟨S524288x1, .f32⟩ : BufTy).Contents (Elt F)),
    reshape main_v217 main_v218 rfl shapeCasts_S524288x1_S524288,
    unary main_v218 main_v219 (Host.cos : (⟨S524288, .f32⟩ : BufTy).Contents (Elt F) → (⟨S524288, .f32⟩ : BufTy).Contents (Elt F)),
    unary main_v218 main_v220 (Host.sin : (⟨S524288, .f32⟩ : BufTy).Contents (Elt F) → (⟨S524288, .f32⟩ : BufTy).Contents (Elt F)),
    nullary main_cst_15 (constant S_ .f32 0x3F800000#32),
    unary main_cst_15 main_v221 (broadcastInDim S524288 ![] bcast_S_S524288 : (⟨S_, .f32⟩ : BufTy).Contents (Elt F) → (⟨S524288, .f32⟩ : BufTy).Contents (Elt F)) ]
theorem pc10_sub : (pc10 : List (HloOp τ sig (Elt F))).Forall fun op => op.bufs ⊆ tcRefs τ sig :=
  ⟨unary_bufs_sub .., reshape_bufs_sub .., unary_bufs_sub .., unary_bufs_sub .., nullary_bufs_sub .., unary_bufs_sub ..⟩
theorem pc10_fresh : (pc10 : List (HloOp τ sig (Elt F))).Forall fun op => op.fresh = ∅ := by
  simp only [List.Forall]; repeat' constructor
/-- The references statements 235 … 240 write. -/
abbrev wr10 : List (Ref sig .tc) := [main_v217, main_v218, main_v219, main_v220, main_cst_15, main_v221]
theorem pc10_writes : (pc10 : List (HloOp τ sig (Elt F))).Forall fun op => op.writes ⊆ ((wr10).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 241 … 269. -/
abbrev pc11 : List (HloOp τ sig (Elt F)) :=
  [ nullary main_cst_16 (constant S_ .f32 0x00000000#32),
    unary main_cst_16 main_v222 (broadcastInDim S524288 ![] bcast_S_S524288 : (⟨S_, .f32⟩ : BufTy).Contents (Elt F) → (⟨S524288, .f32⟩ : BufTy).Contents (Elt F)),
    unary main_v220 main_v223 (Host.negf : (⟨S524288, .f32⟩ : BufTy).Contents (Elt F) → (⟨S524288, .f32⟩ : BufTy).Contents (Elt F)),
    unary main_v221 main_v224 (broadcastInDim S524288x1 ![0] bcast_S524288_S524288x1_0 : (⟨S524288, .f32⟩ : BufTy).Contents (Elt F) → (⟨S524288x1, .f32⟩ : BufTy).Contents (Elt F)),
    unary main_v222 main_v225 (broadcastInDim S524288x1 ![0] bcast_S524288_S524288x1_0 : (⟨S524288, .f32⟩ : BufTy).Contents (Elt F) → (⟨S524288x1, .f32⟩ : BufTy).Contents (Elt F)),
    unary main_v222 main_v226 (broadcastInDim S524288x1 ![0] bcast_S524288_S524288x1_0 : (⟨S524288, .f32⟩ : BufTy).Contents (Elt F) → (⟨S524288x1, .f32⟩ : BufTy).Contents (Elt F)),
    unary main_v222 main_v227 (broadcastInDim S524288x1 ![0] bcast_S524288_S524288x1_0 : (⟨S524288, .f32⟩ : BufTy).Contents (Elt F) → (⟨S524288x1, .f32⟩ : BufTy).Contents (Elt F)),
    nary ![main_v224, main_v225, main_v226, main_v227] main_v228 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v222 main_v229 (broadcastInDim S524288x1 ![0] bcast_S524288_S524288x1_0 : (⟨S524288, .f32⟩ : BufTy).Contents (Elt F) → (⟨S524288x1, .f32⟩ : BufTy).Contents (Elt F)),
    unary main_v219 main_v230 (broadcastInDim S524288x1 ![0] bcast_S524288_S524288x1_0 : (⟨S524288, .f32⟩ : BufTy).Contents (Elt F) → (⟨S524288x1, .f32⟩ : BufTy).Contents (Elt F)),
    unary main_v223 main_v231 (broadcastInDim S524288x1 ![0] bcast_S524288_S524288x1_0 : (⟨S524288, .f32⟩ : BufTy).Contents (Elt F) → (⟨S524288x1, .f32⟩ : BufTy).Contents (Elt F)),
    unary main_v222 main_v232 (broadcastInDim S524288x1 ![0] bcast_S524288_S524288x1_0 : (⟨S524288, .f32⟩ : BufTy).Contents (Elt F) → (⟨S524288x1, .f32⟩ : BufTy).Contents (Elt F)),
    nary ![main_v229, main_v230, main_v231, main_v232] main_v233 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v222 main_v234 (broadcastInDim S524288x1 ![0] bcast_S524288_S524288x1_0 : (⟨S524288, .f32⟩ : BufTy).Contents (Elt F) → (⟨S524288x1, .f32⟩ : BufTy).Contents (Elt F)),
    unary main_v220 main_v235 (broadcastInDim S524288x1 ![0] bcast_S524288_S524288x1_0 : (⟨S524288, .f32⟩ : BufTy).Contents (Elt F) → (⟨S524288x1, .f32⟩ : BufTy).Contents (Elt F)),
    unary main_v219 main_v236 (broadcastInDim S524288x1 ![0] bcast_S524288_S524288x1_0 : (⟨S524288, .f32⟩ : BufTy).Contents (Elt F) → (⟨S524288x1, .f32⟩ : BufTy).Contents (Elt F)),
    unary main_v222 main_v237 (broadcastInDim S524288x1 ![0] bcast_S524288_S524288x1_0 : (⟨S524288, .f32⟩ : BufTy).Contents (Elt F) → (⟨S524288x1, .f32⟩ : BufTy).Contents (Elt F)),
    nary ![main_v234, main_v235, main_v236, main_v237] main_v238 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v222 main_v239 (broadcastInDim S524288x1 ![0] bcast_S524288_S524288x1_0 : (⟨S524288, .f32⟩ : BufTy).Contents (Elt F) → (⟨S524288x1, .f32⟩ : BufTy).Contents (Elt F)),
    unary main_v222 main_v240 (broadcastInDim S524288x1 ![0] bcast_S524288_S524288x1_0 : (⟨S524288, .f32⟩ : BufTy).Contents (Elt F) → (⟨S524288x1, .f32⟩ : BufTy).Contents (Elt F)),
    unary main_v222 main_v241 (broadcastInDim S524288x1 ![0] bcast_S524288_S524288x1_0 : (⟨S524288, .f32⟩ : BufTy).Contents (Elt F) → (⟨S524288x1, .f32⟩ : BufTy).Contents (Elt F)),
    unary main_v221 main_v242 (broadcastInDim S524288x1 ![0] bcast_S524288_S524288x1_0 : (⟨S524288, .f32⟩ : BufTy).Contents (Elt F) → (⟨S524288x1, .f32⟩ : BufTy).Contents (Elt F)),
    nary ![main_v239, main_v240, main_v241, main_v242] main_v243 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v228 main_v244 (broadcastInDim S524288x1x4 ![0, 2] bcast_S524288x4_S524288x1x4_0_2 : (⟨S524288x4, .f32⟩ : BufTy).Contents (Elt F) → (⟨S524288x1x4, .f32⟩ : BufTy).Contents (Elt F)),
    unary main_v233 main_v245 (broadcastInDim S524288x1x4 ![0, 2] bcast_S524288x4_S524288x1x4_0_2 : (⟨S524288x4, .f32⟩ : BufTy).Contents (Elt F) → (⟨S524288x1x4, .f32⟩ : BufTy).Contents (Elt F)),
    unary main_v238 main_v246 (broadcastInDim S524288x1x4 ![0, 2] bcast_S524288x4_S524288x1x4_0_2 : (⟨S524288x4, .f32⟩ : BufTy).Contents (Elt F) → (⟨S524288x1x4, .f32⟩ : BufTy).Contents (Elt F)),
    unary main_v243 main_v247 (broadcastInDim S524288x1x4 ![0, 2] bcast_S524288x4_S524288x1x4_0_2 : (⟨S524288x4, .f32⟩ : BufTy).Contents (Elt F) → (⟨S524288x1x4, .f32⟩ : BufTy).Contents (Elt F)),
    nary ![main_v244, main_v245, main_v246, main_v247] main_v248 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v216 main_v248 main_v249 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc11_sub : (pc11 : List (HloOp τ sig (Elt F))).Forall fun op => op.bufs ⊆ tcRefs τ sig :=
  ⟨nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc11_fresh : (pc11 : List (HloOp τ sig (Elt F))).Forall fun op => op.fresh = ∅ := by
  simp only [List.Forall]; repeat' constructor
/-- The references statements 241 … 269 write. -/
abbrev wr11 : List (Ref sig .tc) := [main_cst_16, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249]
theorem pc11_writes : (pc11 : List (HloOp τ sig (Elt F))).Forall fun op => op.writes ⊆ ((wr11).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 270 … 300. -/
abbrev pc12 : List (HloOp τ sig (Elt F)) :=
  [ unary main_v0 main_v250 ((extractStridedSlice S524288x1 ![0, 7] · slices_S524288x25_S524288x1_0_7) : (⟨S524288x25, .f32⟩ : BufTy).Contents (Elt F) → (⟨S524288x1, .f32⟩ : BufTy).Contents (Elt F)),
    reshape main_v250 main_v251 rfl shapeCasts_S524288x1_S524288,
    unary main_v251 main_v252 (Host.cos : (⟨S524288, .f32⟩ : BufTy).Contents (Elt F) → (⟨S524288, .f32⟩ : BufTy).Contents (Elt F)),
    unary main_v251 main_v253 (Host.sin : (⟨S524288, .f32⟩ : BufTy).Contents (Elt F) → (⟨S524288, .f32⟩ : BufTy).Contents (Elt F)),
    nullary main_cst_17 (constant S_ .f32 0x3F800000#32),
    unary main_cst_17 main_v254 (broadcastInDim S524288 ![] bcast_S_S524288 : (⟨S_, .f32⟩ : BufTy).Contents (Elt F) → (⟨S524288, .f32⟩ : BufTy).Contents (Elt F)),
    nullary main_cst_18 (constant S_ .f32 0x00000000#32),
    unary main_cst_18 main_v255 (broadcastInDim S524288 ![] bcast_S_S524288 : (⟨S_, .f32⟩ : BufTy).Contents (Elt F) → (⟨S524288, .f32⟩ : BufTy).Contents (Elt F)),
    unary main_v253 main_v256 (Host.negf : (⟨S524288, .f32⟩ : BufTy).Contents (Elt F) → (⟨S524288, .f32⟩ : BufTy).Contents (Elt F)),
    unary main_v252 main_v257 (broadcastInDim S524288x1 ![0] bcast_S524288_S524288x1_0 : (⟨S524288, .f32⟩ : BufTy).Contents (Elt F) → (⟨S524288x1, .f32⟩ : BufTy).Contents (Elt F)),
    unary main_v255 main_v258 (broadcastInDim S524288x1 ![0] bcast_S524288_S524288x1_0 : (⟨S524288, .f32⟩ : BufTy).Contents (Elt F) → (⟨S524288x1, .f32⟩ : BufTy).Contents (Elt F)),
    unary main_v253 main_v259 (broadcastInDim S524288x1 ![0] bcast_S524288_S524288x1_0 : (⟨S524288, .f32⟩ : BufTy).Contents (Elt F) → (⟨S524288x1, .f32⟩ : BufTy).Contents (Elt F)),
    unary main_v255 main_v260 (broadcastInDim S524288x1 ![0] bcast_S524288_S524288x1_0 : (⟨S524288, .f32⟩ : BufTy).Contents (Elt F) → (⟨S524288x1, .f32⟩ : BufTy).Contents (Elt F)),
    nary ![main_v257, main_v258, main_v259, main_v260] main_v261 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v255 main_v262 (broadcastInDim S524288x1 ![0] bcast_S524288_S524288x1_0 : (⟨S524288, .f32⟩ : BufTy).Contents (Elt F) → (⟨S524288x1, .f32⟩ : BufTy).Contents (Elt F)),
    unary main_v254 main_v263 (broadcastInDim S524288x1 ![0] bcast_S524288_S524288x1_0 : (⟨S524288, .f32⟩ : BufTy).Contents (Elt F) → (⟨S524288x1, .f32⟩ : BufTy).Contents (Elt F)),
    unary main_v255 main_v264 (broadcastInDim S524288x1 ![0] bcast_S524288_S524288x1_0 : (⟨S524288, .f32⟩ : BufTy).Contents (Elt F) → (⟨S524288x1, .f32⟩ : BufTy).Contents (Elt F)),
    unary main_v255 main_v265 (broadcastInDim S524288x1 ![0] bcast_S524288_S524288x1_0 : (⟨S524288, .f32⟩ : BufTy).Contents (Elt F) → (⟨S524288x1, .f32⟩ : BufTy).Contents (Elt F)),
    nary ![main_v262, main_v263, main_v264, main_v265] main_v266 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v256 main_v267 (broadcastInDim S524288x1 ![0] bcast_S524288_S524288x1_0 : (⟨S524288, .f32⟩ : BufTy).Contents (Elt F) → (⟨S524288x1, .f32⟩ : BufTy).Contents (Elt F)),
    unary main_v255 main_v268 (broadcastInDim S524288x1 ![0] bcast_S524288_S524288x1_0 : (⟨S524288, .f32⟩ : BufTy).Contents (Elt F) → (⟨S524288x1, .f32⟩ : BufTy).Contents (Elt F)),
    unary main_v252 main_v269 (broadcastInDim S524288x1 ![0] bcast_S524288_S524288x1_0 : (⟨S524288, .f32⟩ : BufTy).Contents (Elt F) → (⟨S524288x1, .f32⟩ : BufTy).Contents (Elt F)),
    unary main_v255 main_v270 (broadcastInDim S524288x1 ![0] bcast_S524288_S524288x1_0 : (⟨S524288, .f32⟩ : BufTy).Contents (Elt F) → (⟨S524288x1, .f32⟩ : BufTy).Contents (Elt F)),
    nary ![main_v267, main_v268, main_v269, main_v270] main_v271 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v255 main_v272 (broadcastInDim S524288x1 ![0] bcast_S524288_S524288x1_0 : (⟨S524288, .f32⟩ : BufTy).Contents (Elt F) → (⟨S524288x1, .f32⟩ : BufTy).Contents (Elt F)),
    unary main_v255 main_v273 (broadcastInDim S524288x1 ![0] bcast_S524288_S524288x1_0 : (⟨S524288, .f32⟩ : BufTy).Contents (Elt F) → (⟨S524288x1, .f32⟩ : BufTy).Contents (Elt F)),
    unary main_v255 main_v274 (broadcastInDim S524288x1 ![0] bcast_S524288_S524288x1_0 : (⟨S524288, .f32⟩ : BufTy).Contents (Elt F) → (⟨S524288x1, .f32⟩ : BufTy).Contents (Elt F)),
    unary main_v254 main_v275 (broadcastInDim S524288x1 ![0] bcast_S524288_S524288x1_0 : (⟨S524288, .f32⟩ : BufTy).Contents (Elt F) → (⟨S524288x1, .f32⟩ : BufTy).Contents (Elt F)),
    nary ![main_v272, main_v273, main_v274, main_v275] main_v276 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v261 main_v277 (broadcastInDim S524288x1x4 ![0, 2] bcast_S524288x4_S524288x1x4_0_2 : (⟨S524288x4, .f32⟩ : BufTy).Contents (Elt F) → (⟨S524288x1x4, .f32⟩ : BufTy).Contents (Elt F)),
    unary main_v266 main_v278 (broadcastInDim S524288x1x4 ![0, 2] bcast_S524288x4_S524288x1x4_0_2 : (⟨S524288x4, .f32⟩ : BufTy).Contents (Elt F) → (⟨S524288x1x4, .f32⟩ : BufTy).Contents (Elt F)) ]
theorem pc12_sub : (pc12 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub ..⟩
theorem pc12_fresh : (pc12 : List (HloOp τ sig (Elt F))).Forall fun op => op.fresh = ∅ := by
  simp only [List.Forall]; repeat' constructor
/-- The references statements 270 … 300 write. -/
abbrev wr12 : List (Ref sig .tc) := [main_v250, main_v251, main_v252, main_v253, main_cst_17, main_v254, main_cst_18, main_v255, main_v256, main_v257, main_v258, main_v259, main_v260, main_v261, main_v262, main_v263, main_v264, main_v265, main_v266, main_v267, main_v268, main_v269, main_v270, main_v271, main_v272, main_v273, main_v274, main_v275, main_v276, main_v277, main_v278]
theorem pc12_writes : (pc12 : List (HloOp τ sig (Elt F))).Forall fun op => op.writes ⊆ ((wr12).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 301 … 304. -/
abbrev pc13 : List (HloOp τ sig (Elt F)) :=
  [ unary main_v271 main_v279 (broadcastInDim S524288x1x4 ![0, 2] bcast_S524288x4_S524288x1x4_0_2 : (⟨S524288x4, .f32⟩ : BufTy).Contents (Elt F) → (⟨S524288x1x4, .f32⟩ : BufTy).Contents (Elt F)),
    unary main_v276 main_v280 (broadcastInDim S524288x1x4 ![0, 2] bcast_S524288x4_S524288x1x4_0_2 : (⟨S524288x4, .f32⟩ : BufTy).Contents (Elt F) → (⟨S524288x1x4, .f32⟩ : BufTy).Contents (Elt F)),
    nary ![main_v277, main_v278, main_v279, main_v280] main_v281 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v249 main_v281 main_v282 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc13_sub : (pc13 : List (HloOp τ sig (Elt F))).Forall fun op => op.bufs ⊆ tcRefs τ sig :=
  ⟨unary_bufs_sub .., unary_bufs_sub .., nary_bufs_sub .., binary_bufs_sub ..⟩
theorem pc13_fresh : (pc13 : List (HloOp τ sig (Elt F))).Forall fun op => op.fresh = ∅ := by
  simp only [List.Forall]; repeat' constructor
/-- The references statements 301 … 304 write. -/
abbrev wr13 : List (Ref sig .tc) := [main_v279, main_v280, main_v281, main_v282]
theorem pc13_writes : (pc13 : List (HloOp τ sig (Elt F))).Forall fun op => op.writes ⊆ ((wr13).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 305 … 325. -/
abbrev pc14 : List (HloOp τ sig (Elt F)) :=
  [ unary main_cst main_v283 ((extractStridedSlice S1 ![4] · slices_S9_S1_4) : (⟨S9, .f32⟩ : BufTy).Contents (Elt F) → (⟨S1, .f32⟩ : BufTy).Contents (Elt F)),
    reshape main_v283 main_v284 rfl shapeCasts_S1_S_,
    nullary main_cst_19 (constant S_ .f32 0x3F800000#32),
    binary main_cst_19 main_v284 main_v285 (mulf : (⟨S_, .f32⟩ : BufTy).Contents (Elt F) → (⟨S_, .f32⟩ : BufTy).Contents (Elt F) → (⟨S_, .f32⟩ : BufTy).Contents (Elt F)),
    unary main_v285 main_v286 (broadcastInDim S524288 ![] bcast_S_S524288 : (⟨S_, .f32⟩ : BufTy).Contents (Elt F) → (⟨S524288, .f32⟩ : BufTy).Contents (Elt F)),
    binary main_v286 main_v2 main_v287 (mulf : (⟨S524288, .f32⟩ : BufTy).Contents (Elt F) → (⟨S524288, .f32⟩ : BufTy).Contents (Elt F) → (⟨S524288, .f32⟩ : BufTy).Contents (Elt F)),
    nullary main_v288 (iotaInDim S4x4 32 0),
    nullary main_v289 (iotaInDim S4x4 32 1),
    nullary main_c_20 (constantI S_ 32 0#32),
    unary main_c_20 main_v290 (broadcastInDim S4x4 ![] bcast_S_S4x4 : (⟨S_, .i32⟩ : BufTy).Contents (Elt F) → (⟨S4x4, .i32⟩ : BufTy).Contents (Elt F)),
    binary main_v288 main_v290 main_v291 (addi : (⟨S4x4, .i32⟩ : BufTy).Contents (Elt F) → (⟨S4x4, .i32⟩ : BufTy).Contents (Elt F) → (⟨S4x4, .i32⟩ : BufTy).Contents (Elt F)),
    binary main_v291 main_v289 main_v292 (cmpi .eq : (⟨S4x4, .i32⟩ : BufTy).Contents (Elt F) → (⟨S4x4, .i32⟩ : BufTy).Contents (Elt F) → (⟨S4x4, .i1⟩ : BufTy).Contents (Elt F)),
    unary main_v292 main_v293 (uitofp .f32 : (⟨S4x4, .i1⟩ : BufTy).Contents (Elt F) → (⟨S4x4, .f32⟩ : BufTy).Contents (Elt F)),
    unary main_v293 main_v294 (broadcastInDim S524288x4x4 ![1, 2] bcast_S4x4_S524288x4x4_1_2 : (⟨S4x4, .f32⟩ : BufTy).Contents (Elt F) → (⟨S524288x4x4, .f32⟩ : BufTy).Contents (Elt F)),
    nullary main_c_21 (constantI S_ 32 1#32),
    unary main_c_21 main_v295 (broadcastInDim S1 ![] bcast_S_S1 : (⟨S_, .i32⟩ : BufTy).Contents (Elt F) → (⟨S1, .i32⟩ : BufTy).Contents (Elt F)),
    nullary main_c_22 (constantI S_ 32 3#32),
    unary main_c_22 main_v296 (broadcastInDim S1 ![] bcast_S_S1 : (⟨S_, .i32⟩ : BufTy).Contents (Elt F) → (⟨S1, .i32⟩ : BufTy).Contents (Elt F)),
    binary main_v295 main_v296 main_v297 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v294 main_v297 main_v287 main_v298 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v282 main_v298 main_v299 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc14_sub : (pc14 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc14_fresh : (pc14 : List (HloOp τ sig (Elt F))).Forall fun op => op.fresh = ∅ := by
  simp only [List.Forall]; repeat' constructor
/-- The references statements 305 … 325 write. -/
abbrev wr14 : List (Ref sig .tc) := [main_v283, main_v284, main_cst_19, main_v285, main_v286, main_v287, main_v288, main_v289, main_c_20, main_v290, main_v291, main_v292, main_v293, main_v294, main_c_21, main_v295, main_c_22, main_v296, main_v297, main_v298, main_v299]
theorem pc14_writes : (pc14 : List (HloOp τ sig (Elt F))).Forall fun op => op.writes ⊆ ((wr14).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

end Cert.ReferenceIdeal.Hand

end
-- ==== Proof.RefOps1.lean ====
/- Written by: bun scratch/gen_refops.js (from proof/ReferenceIdeal.lean). The reference's statements 326 … 640 of 1222
   as literal lists of operations, one list per stretch; with each list: every buffer it names is a TensorCore buffer,
   no operation allocates, and the references its operations write. -/
import proofs.«164878_j3058016714901_2_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 326 … 360. -/
abbrev pc15 : List (HloOp τ sig (Elt F)) :=
  [ unary main_v0 main_v300 ((extractStridedSlice S524288x1 ![0, 8] · slices_S524288x25_S524288x1_0_8) : (⟨S524288x25, .f32⟩ : BufTy).Contents (Elt F) → (⟨S524288x1, .f32⟩ : BufTy).Contents (Elt F)),
    reshape main_v300 main_v301 rfl shapeCasts_S524288x1_S524288,
    unary main_v301 main_v302 (Host.cos : (⟨S524288, .f32⟩ : BufTy).Contents (Elt F) → (⟨S524288, .f32⟩ : BufTy).Contents (Elt F)),
    unary main_v301 main_v303 (Host.sin : (⟨S524288, .f32⟩ : BufTy).Contents (Elt F) → (⟨S524288, .f32⟩ : BufTy).Contents (Elt F)),
    nullary main_cst_23 (constant S_ .f32 0x3F800000#32),
    unary main_cst_23 main_v304 (broadcastInDim S524288 ![] bcast_S_S524288 : (⟨S_, .f32⟩ : BufTy).Contents (Elt F) → (⟨S524288, .f32⟩ : BufTy).Contents (Elt F)),
    nullary main_cst_24 (constant S_ .f32 0x00000000#32),
    unary main_cst_24 main_v305 (broadcastInDim S524288 ![] bcast_S_S524288 : (⟨S_, .f32⟩ : BufTy).Contents (Elt F) → (⟨S524288, .f32⟩ : BufTy).Contents (Elt F)),
    unary main_v303 main_v306 (Host.negf : (⟨S524288, .f32⟩ : BufTy).Contents (Elt F) → (⟨S524288, .f32⟩ : BufTy).Contents (Elt F)),
    unary main_v304 main_v307 (broadcastInDim S524288x1 ![0] bcast_S524288_S524288x1_0 : (⟨S524288, .f32⟩ : BufTy).Contents (Elt F) → (⟨S524288x1, .f32⟩ : BufTy).Contents (Elt F)),
    unary main_v305 main_v308 (broadcastInDim S524288x1 ![0] bcast_S524288_S524288x1_0 : (⟨S524288, .f32⟩ : BufTy).Contents (Elt F) → (⟨S524288x1, .f32⟩ : BufTy).Contents (Elt F)),
    unary main_v305 main_v309 (broadcastInDim S524288x1 ![0] bcast_S524288_S524288x1_0 : (⟨S524288, .f32⟩ : BufTy).Contents (Elt F) → (⟨S524288x1, .f32⟩ : BufTy).Contents (Elt F)),
    unary main_v305 main_v310 (broadcastInDim S524288x1 ![0] bcast_S524288_S524288x1_0 : (⟨S524288, .f32⟩ : BufTy).Contents (Elt F) → (⟨S524288x1, .f32⟩ : BufTy).Contents (Elt F)),
    nary ![main_v307, main_v308, main_v309, main_v310] main_v311 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v305 main_v312 (broadcastInDim S524288x1 ![0] bcast_S524288_S524288x1_0 : (⟨S524288, .f32⟩ : BufTy).Contents (Elt F) → (⟨S524288x1, .f32⟩ : BufTy).Contents (Elt F)),
    unary main_v302 main_v313 (broadcastInDim S524288x1 ![0] bcast_S524288_S524288x1_0 : (⟨S524288, .f32⟩ : BufTy).Contents (Elt F) → (⟨S524288x1, .f32⟩ : BufTy).Contents (Elt F)),
    unary main_v306 main_v314 (broadcastInDim S524288x1 ![0] bcast_S524288_S524288x1_0 : (⟨S524288, .f32⟩ : BufTy).Contents (Elt F) → (⟨S524288x1, .f32⟩ : BufTy).Contents (Elt F)),
    unary main_v305 main_v315 (broadcastInDim S524288x1 ![0] bcast_S524288_S524288x1_0 : (⟨S524288, .f32⟩ : BufTy).Contents (Elt F) → (⟨S524288x1, .f32⟩ : BufTy).Contents (Elt F)),
    nary ![main_v312, main_v313, main_v314, main_v315] main_v316 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v305 main_v317 (broadcastInDim S524288x1 ![0] bcast_S524288_S524288x1_0 : (⟨S524288, .f32⟩ : BufTy).Contents (Elt F) → (⟨S524288x1, .f32⟩ : BufTy).Contents (Elt F)),
    unary main_v303 main_v318 (broadcastInDim S524288x1 ![0] bcast_S524288_S524288x1_0 : (⟨S524288, .f32⟩ : BufTy).Contents (Elt F) → (⟨S524288x1, .f32⟩ : BufTy).Contents (Elt F)),
    unary main_v302 main_v319 (broadcastInDim S524288x1 ![0] bcast_S524288_S524288x1_0 : (⟨S524288, .f32⟩ : BufTy).Contents (Elt F) → (⟨S524288x1, .f32⟩ : BufTy).Contents (Elt F)),
    unary main_v305 main_v320 (broadcastInDim S524288x1 ![0] bcast_S524288_S524288x1_0 : (⟨S524288, .f32⟩ : BufTy).Contents (Elt F) → (⟨S524288x1, .f32⟩ : BufTy).Contents (Elt F)),
    nary ![main_v317, main_v318, main_v319, main_v320] main_v321 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v305 main_v322 (broadcastInDim S524288x1 ![0] bcast_S524288_S524288x1_0 : (⟨S524288, .f32⟩ : BufTy).Contents (Elt F) → (⟨S524288x1, .f32⟩ : BufTy).Contents (Elt F)),
    unary main_v305 main_v323 (broadcastInDim S524288x1 ![0] bcast_S524288_S524288x1_0 : (⟨S524288, .f32⟩ : BufTy).Contents (Elt F) → (⟨S524288x1, .f32⟩ : BufTy).Contents (Elt F)),
    unary main_v305 main_v324 (broadcastInDim S524288x1 ![0] bcast_S524288_S524288x1_0 : (⟨S524288, .f32⟩ : BufTy).Contents (Elt F) → (⟨S524288x1, .f32⟩ : BufTy).Contents (Elt F)),
    unary main_v304 main_v325 (broadcastInDim S524288x1 ![0] bcast_S524288_S524288x1_0 : (⟨S524288, .f32⟩ : BufTy).Contents (Elt F) → (⟨S524288x1, .f32⟩ : BufTy).Contents (Elt F)),
    nary ![main_v322, main_v323, main_v324, main_v325] main_v326 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v311 main_v327 (broadcastInDim S524288x1x4 ![0, 2] bcast_S524288x4_S524288x1x4_0_2 : (⟨S524288x4, .f32⟩ : BufTy).Contents (Elt F) → (⟨S524288x1x4, .f32⟩ : BufTy).Contents (Elt F)),
    unary main_v316 main_v328 (broadcastInDim S524288x1x4 ![0, 2] bcast_S524288x4_S524288x1x4_0_2 : (⟨S524288x4, .f32⟩ : BufTy).Contents (Elt F) → (⟨S524288x1x4, .f32⟩ : BufTy).Contents (Elt F)),
    unary main_v321 main_v329 (broadcastInDim S524288x1x4 ![0, 2] bcast_S524288x4_S524288x1x4_0_2 : (⟨S524288x4, .f32⟩ : BufTy).Contents (Elt F) → (⟨S524288x1x4, .f32⟩ : BufTy).Contents (Elt F)),
    unary main_v326 main_v330 (broadcastInDim S524288x1x4 ![0, 2] bcast_S524288x4_S524288x1x4_0_2 : (⟨S524288x4, .f32⟩ : BufTy).Contents (Elt F) → (⟨S524288x1x4, .f32⟩ : BufTy).Contents (Elt F)),
    nary ![main_v327, main_v328, main_v329, main_v330] main_v331 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v299 main_v331 main_v332 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc15_sub : (pc15 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc15_fresh : (pc15 : List (HloOp τ sig (Elt F))).Forall fun op => op.fresh = ∅ := by
  simp only [List.Forall]; repeat' constructor
/-- The references statements 326 … 360 write. -/
abbrev wr15 : List (Ref sig .tc) := [main_v300, main_v301, main_v302, main_v303, main_cst_23, main_v304, main_cst_24, main_v305, main_v306, main_v307, main_v308, main_v309, main_v310, main_v311, main_v312, main_v313, main_v314, main_v315, main_v316, main_v317, main_v318, main_v319, main_v320, main_v321, main_v322, main_v323, main_v324, main_v325, main_v326, main_v327, main_v328, main_v329, main_v330, main_v331, main_v332]
theorem pc15_writes : (pc15 : List (HloOp τ sig (Elt F))).Forall fun op => op.writes ⊆ ((wr15).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 361 … 381. -/
abbrev pc16 : List (HloOp τ sig (Elt F)) :=
  [ unary main_cst main_v333 ((extractStridedSlice S1 ![5] · slices_S9_S1_5) : (⟨S9, .f32⟩ : BufTy).Contents (Elt F) → (⟨S1, .f32⟩ : BufTy).Contents (Elt F)),
    reshape main_v333 main_v334 rfl shapeCasts_S1_S_,
    nullary main_cst_25 (constant S_ .f32 0x3F800000#32),
    binary main_cst_25 main_v334 main_v335 (mulf : (⟨S_, .f32⟩ : BufTy).Contents (Elt F) → (⟨S_, .f32⟩ : BufTy).Contents (Elt F) → (⟨S_, .f32⟩ : BufTy).Contents (Elt F)),
    unary main_v335 main_v336 (broadcastInDim S524288 ![] bcast_S_S524288 : (⟨S_, .f32⟩ : BufTy).Contents (Elt F) → (⟨S524288, .f32⟩ : BufTy).Contents (Elt F)),
    binary main_v336 main_v2 main_v337 (mulf : (⟨S524288, .f32⟩ : BufTy).Contents (Elt F) → (⟨S524288, .f32⟩ : BufTy).Contents (Elt F) → (⟨S524288, .f32⟩ : BufTy).Contents (Elt F)),
    nullary main_v338 (iotaInDim S4x4 32 0),
    nullary main_v339 (iotaInDim S4x4 32 1),
    nullary main_c_26 (constantI S_ 32 0#32),
    unary main_c_26 main_v340 (broadcastInDim S4x4 ![] bcast_S_S4x4 : (⟨S_, .i32⟩ : BufTy).Contents (Elt F) → (⟨S4x4, .i32⟩ : BufTy).Contents (Elt F)),
    binary main_v338 main_v340 main_v341 (addi : (⟨S4x4, .i32⟩ : BufTy).Contents (Elt F) → (⟨S4x4, .i32⟩ : BufTy).Contents (Elt F) → (⟨S4x4, .i32⟩ : BufTy).Contents (Elt F)),
    binary main_v341 main_v339 main_v342 (cmpi .eq : (⟨S4x4, .i32⟩ : BufTy).Contents (Elt F) → (⟨S4x4, .i32⟩ : BufTy).Contents (Elt F) → (⟨S4x4, .i1⟩ : BufTy).Contents (Elt F)),
    unary main_v342 main_v343 (uitofp .f32 : (⟨S4x4, .i1⟩ : BufTy).Contents (Elt F) → (⟨S4x4, .f32⟩ : BufTy).Contents (Elt F)),
    unary main_v343 main_v344 (broadcastInDim S524288x4x4 ![1, 2] bcast_S4x4_S524288x4x4_1_2 : (⟨S4x4, .f32⟩ : BufTy).Contents (Elt F) → (⟨S524288x4x4, .f32⟩ : BufTy).Contents (Elt F)),
    nullary main_c_27 (constantI S_ 32 1#32),
    unary main_c_27 main_v345 (broadcastInDim S1 ![] bcast_S_S1 : (⟨S_, .i32⟩ : BufTy).Contents (Elt F) → (⟨S1, .i32⟩ : BufTy).Contents (Elt F)),
    nullary main_c_28 (constantI S_ 32 3#32),
    unary main_c_28 main_v346 (broadcastInDim S1 ![] bcast_S_S1 : (⟨S_, .i32⟩ : BufTy).Contents (Elt F) → (⟨S1, .i32⟩ : BufTy).Contents (Elt F)),
    binary main_v345 main_v346 main_v347 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v344 main_v347 main_v337 main_v348 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v332 main_v348 main_v349 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc16_sub : (pc16 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc16_fresh : (pc16 : List (HloOp τ sig (Elt F))).Forall fun op => op.fresh = ∅ := by
  simp only [List.Forall]; repeat' constructor
/-- The references statements 361 … 381 write. -/
abbrev wr16 : List (Ref sig .tc) := [main_v333, main_v334, main_cst_25, main_v335, main_v336, main_v337, main_v338, main_v339, main_c_26, main_v340, main_v341, main_v342, main_v343, main_v344, main_c_27, main_v345, main_c_28, main_v346, main_v347, main_v348, main_v349]
theorem pc16_writes : (pc16 : List (HloOp τ sig (Elt F))).Forall fun op => op.writes ⊆ ((wr16).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 382 … 402. -/
abbrev pc17 : List (HloOp τ sig (Elt F)) :=
  [ unary main_cst main_v350 ((extractStridedSlice S1 ![2] · slices_S9_S1_2) : (⟨S9, .f32⟩ : BufTy).Contents (Elt F) → (⟨S1, .f32⟩ : BufTy).Contents (Elt F)),
    reshape main_v350 main_v351 rfl shapeCasts_S1_S_,
    nullary main_cst_29 (constant S_ .f32 0x3F800000#32),
    binary main_cst_29 main_v351 main_v352 (mulf : (⟨S_, .f32⟩ : BufTy).Contents (Elt F) → (⟨S_, .f32⟩ : BufTy).Contents (Elt F) → (⟨S_, .f32⟩ : BufTy).Contents (Elt F)),
    unary main_v352 main_v353 (broadcastInDim S524288 ![] bcast_S_S524288 : (⟨S_, .f32⟩ : BufTy).Contents (Elt F) → (⟨S524288, .f32⟩ : BufTy).Contents (Elt F)),
    binary main_v353 main_v2 main_v354 (mulf : (⟨S524288, .f32⟩ : BufTy).Contents (Elt F) → (⟨S524288, .f32⟩ : BufTy).Contents (Elt F) → (⟨S524288, .f32⟩ : BufTy).Contents (Elt F)),
    nullary main_v355 (iotaInDim S4x4 32 0),
    nullary main_v356 (iotaInDim S4x4 32 1),
    nullary main_c_30 (constantI S_ 32 0#32),
    unary main_c_30 main_v357 (broadcastInDim S4x4 ![] bcast_S_S4x4 : (⟨S_, .i32⟩ : BufTy).Contents (Elt F) → (⟨S4x4, .i32⟩ : BufTy).Contents (Elt F)),
    binary main_v355 main_v357 main_v358 (addi : (⟨S4x4, .i32⟩ : BufTy).Contents (Elt F) → (⟨S4x4, .i32⟩ : BufTy).Contents (Elt F) → (⟨S4x4, .i32⟩ : BufTy).Contents (Elt F)),
    binary main_v358 main_v356 main_v359 (cmpi .eq : (⟨S4x4, .i32⟩ : BufTy).Contents (Elt F) → (⟨S4x4, .i32⟩ : BufTy).Contents (Elt F) → (⟨S4x4, .i1⟩ : BufTy).Contents (Elt F)),
    unary main_v359 main_v360 (uitofp .f32 : (⟨S4x4, .i1⟩ : BufTy).Contents (Elt F) → (⟨S4x4, .f32⟩ : BufTy).Contents (Elt F)),
    unary main_v360 main_v361 (broadcastInDim S524288x4x4 ![1, 2] bcast_S4x4_S524288x4x4_1_2 : (⟨S4x4, .f32⟩ : BufTy).Contents (Elt F) → (⟨S524288x4x4, .f32⟩ : BufTy).Contents (Elt F)),
    nullary main_c_31 (constantI S_ 32 0#32),
    unary main_c_31 main_v362 (broadcastInDim S1 ![] bcast_S_S1 : (⟨S_, .i32⟩ : BufTy).Contents (Elt F) → (⟨S1, .i32⟩ : BufTy).Contents (Elt F)),
    nullary main_c_32 (constantI S_ 32 3#32),
    unary main_c_32 main_v363 (broadcastInDim S1 ![] bcast_S_S1 : (⟨S_, .i32⟩ : BufTy).Contents (Elt F) → (⟨S1, .i32⟩ : BufTy).Contents (Elt F)),
    binary main_v362 main_v363 main_v364 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v361 main_v364 main_v354 main_v365 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v100 main_v365 main_v366 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc17_sub : (pc17 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc17_fresh : (pc17 : List (HloOp τ sig (Elt F))).Forall fun op => op.fresh = ∅ := by
  simp only [List.Forall]; repeat' constructor
/-- The references statements 382 … 402 write. -/
abbrev wr17 : List (Ref sig .tc) := [main_v350, main_v351, main_cst_29, main_v352, main_v353, main_v354, main_v355, main_v356, main_c_30, main_v357, main_v358, main_v359, main_v360, main_v361, main_c_31, main_v362, main_c_32, main_v363, main_v364, main_v365, main_v366]
theorem pc17_writes : (pc17 : List (HloOp τ sig (Elt F))).Forall fun op => op.writes ⊆ ((wr17).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 403 … 420. -/
abbrev pc18 : List (HloOp τ sig (Elt F)) :=
  [ unary main_v0 main_v367 ((extractStridedSlice S524288x1 ![0, 9] · slices_S524288x25_S524288x1_0_9) : (⟨S524288x25, .f32⟩ : BufTy).Contents (Elt F) → (⟨S524288x1, .f32⟩ : BufTy).Contents (Elt F)),
    reshape main_v367 main_v368 rfl shapeCasts_S524288x1_S524288,
    unary main_v368 main_v369 (Host.cos : (⟨S524288, .f32⟩ : BufTy).Contents (Elt F) → (⟨S524288, .f32⟩ : BufTy).Contents (Elt F)),
    unary main_v368 main_v370 (Host.sin : (⟨S524288, .f32⟩ : BufTy).Contents (Elt F) → (⟨S524288, .f32⟩ : BufTy).Contents (Elt F)),
    nullary main_cst_33 (constant S_ .f32 0x3F800000#32),
    unary main_cst_33 main_v371 (broadcastInDim S524288 ![] bcast_S_S524288 : (⟨S_, .f32⟩ : BufTy).Contents (Elt F) → (⟨S524288, .f32⟩ : BufTy).Contents (Elt F)),
    nullary main_cst_34 (constant S_ .f32 0x00000000#32),
    unary main_cst_34 main_v372 (broadcastInDim S524288 ![] bcast_S_S524288 : (⟨S_, .f32⟩ : BufTy).Contents (Elt F) → (⟨S524288, .f32⟩ : BufTy).Contents (Elt F)),
    unary main_v370 main_v373 (Host.negf : (⟨S524288, .f32⟩ : BufTy).Contents (Elt F) → (⟨S524288, .f32⟩ : BufTy).Contents (Elt F)),
    unary main_v369 main_v374 (broadcastInDim S524288x1 ![0] bcast_S524288_S524288x1_0 : (⟨S524288, .f32⟩ : BufTy).Contents (Elt F) → (⟨S524288x1, .f32⟩ : BufTy).Contents (Elt F)),
    unary main_v373 main_v375 (broadcastInDim S524288x1 ![0] bcast_S524288_S524288x1_0 : (⟨S524288, .f32⟩ : BufTy).Contents (Elt F) → (⟨S524288x1, .f32⟩ : BufTy).Contents (Elt F)),
    unary main_v372 main_v376 (broadcastInDim S524288x1 ![0] bcast_S524288_S524288x1_0 : (⟨S524288, .f32⟩ : BufTy).Contents (Elt F) → (⟨S524288x1, .f32⟩ : BufTy).Contents (Elt F)),
    unary main_v372 main_v377 (broadcastInDim S524288x1 ![0] bcast_S524288_S524288x1_0 : (⟨S524288, .f32⟩ : BufTy).Contents (Elt F) → (⟨S524288x1, .f32⟩ : BufTy).Contents (Elt F)),
    nary ![main_v374, main_v375, main_v376, main_v377] main_v378 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v370 main_v379 (broadcastInDim S524288x1 ![0] bcast_S524288_S524288x1_0 : (⟨S524288, .f32⟩ : BufTy).Contents (Elt F) → (⟨S524288x1, .f32⟩ : BufTy).Contents (Elt F)),
    unary main_v369 main_v380 (broadcastInDim S524288x1 ![0] bcast_S524288_S524288x1_0 : (⟨S524288, .f32⟩ : BufTy).Contents (Elt F) → (⟨S524288x1, .f32⟩ : BufTy).Contents (Elt F)),
    unary main_v372 main_v381 (broadcastInDim S524288x1 ![0] bcast_S524288_S524288x1_0 : (⟨S524288, .f32⟩ : BufTy).Contents (Elt F) → (⟨S524288x1, .f32⟩ : BufTy).Contents (Elt F)),
    unary main_v372 main_v382 (broadcastInDim S524288x1 ![0] bcast_S524288_S524288x1_0 : (⟨S524288, .f32⟩ : BufTy).Contents (Elt F) → (⟨S524288x1, .f32⟩ : BufTy).Contents (Elt F)) ]
theorem pc18_sub : (pc18 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub ..⟩
theorem pc18_fresh : (pc18 : List (HloOp τ sig (Elt F))).Forall fun op => op.fresh = ∅ := by
  simp only [List.Forall]; repeat' constructor
/-- The references statements 403 … 420 write. -/
abbrev wr18 : List (Ref sig .tc) := [main_v367, main_v368, main_v369, main_v370, main_cst_33, main_v371, main_cst_34, main_v372, main_v373, main_v374, main_v375, main_v376, main_v377, main_v378, main_v379, main_v380, main_v381, main_v382]
theorem pc18_writes : (pc18 : List (HloOp τ sig (Elt F))).Forall fun op => op.writes ⊆ ((wr18).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 421 … 437. -/
abbrev pc19 : List (HloOp τ sig (Elt F)) :=
  [ nary ![main_v379, main_v380, main_v381, main_v382] main_v383 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v372 main_v384 (broadcastInDim S524288x1 ![0] bcast_S524288_S524288x1_0 : (⟨S524288, .f32⟩ : BufTy).Contents (Elt F) → (⟨S524288x1, .f32⟩ : BufTy).Contents (Elt F)),
    unary main_v372 main_v385 (broadcastInDim S524288x1 ![0] bcast_S524288_S524288x1_0 : (⟨S524288, .f32⟩ : BufTy).Contents (Elt F) → (⟨S524288x1, .f32⟩ : BufTy).Contents (Elt F)),
    unary main_v371 main_v386 (broadcastInDim S524288x1 ![0] bcast_S524288_S524288x1_0 : (⟨S524288, .f32⟩ : BufTy).Contents (Elt F) → (⟨S524288x1, .f32⟩ : BufTy).Contents (Elt F)),
    unary main_v372 main_v387 (broadcastInDim S524288x1 ![0] bcast_S524288_S524288x1_0 : (⟨S524288, .f32⟩ : BufTy).Contents (Elt F) → (⟨S524288x1, .f32⟩ : BufTy).Contents (Elt F)),
    nary ![main_v384, main_v385, main_v386, main_v387] main_v388 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v372 main_v389 (broadcastInDim S524288x1 ![0] bcast_S524288_S524288x1_0 : (⟨S524288, .f32⟩ : BufTy).Contents (Elt F) → (⟨S524288x1, .f32⟩ : BufTy).Contents (Elt F)),
    unary main_v372 main_v390 (broadcastInDim S524288x1 ![0] bcast_S524288_S524288x1_0 : (⟨S524288, .f32⟩ : BufTy).Contents (Elt F) → (⟨S524288x1, .f32⟩ : BufTy).Contents (Elt F)),
    unary main_v372 main_v391 (broadcastInDim S524288x1 ![0] bcast_S524288_S524288x1_0 : (⟨S524288, .f32⟩ : BufTy).Contents (Elt F) → (⟨S524288x1, .f32⟩ : BufTy).Contents (Elt F)),
    unary main_v371 main_v392 (broadcastInDim S524288x1 ![0] bcast_S524288_S524288x1_0 : (⟨S524288, .f32⟩ : BufTy).Contents (Elt F) → (⟨S524288x1, .f32⟩ : BufTy).Contents (Elt F)),
    nary ![main_v389, main_v390, main_v391, main_v392] main_v393 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v378 main_v394 (broadcastInDim S524288x1x4 ![0, 2] bcast_S524288x4_S524288x1x4_0_2 : (⟨S524288x4, .f32⟩ : BufTy).Contents (Elt F) → (⟨S524288x1x4, .f32⟩ : BufTy).Contents (Elt F)),
    unary main_v383 main_v395 (broadcastInDim S524288x1x4 ![0, 2] bcast_S524288x4_S524288x1x4_0_2 : (⟨S524288x4, .f32⟩ : BufTy).Contents (Elt F) → (⟨S524288x1x4, .f32⟩ : BufTy).Contents (Elt F)),
    unary main_v388 main_v396 (broadcastInDim S524288x1x4 ![0, 2] bcast_S524288x4_S524288x1x4_0_2 : (⟨S524288x4, .f32⟩ : BufTy).Contents (Elt F) → (⟨S524288x1x4, .f32⟩ : BufTy).Contents (Elt F)),
    unary main_v393 main_v397 (broadcastInDim S524288x1x4 ![0, 2] bcast_S524288x4_S524288x1x4_0_2 : (⟨S524288x4, .f32⟩ : BufTy).Contents (Elt F) → (⟨S524288x1x4, .f32⟩ : BufTy).Contents (Elt F)),
    nary ![main_v394, main_v395, main_v396, main_v397] main_v398 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v366 main_v398 main_v399 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc19_sub : (pc19 : List (HloOp τ sig (Elt F))).Forall fun op => op.bufs ⊆ tcRefs τ sig :=
  ⟨nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc19_fresh : (pc19 : List (HloOp τ sig (Elt F))).Forall fun op => op.fresh = ∅ := by
  simp only [List.Forall]; repeat' constructor
/-- The references statements 421 … 437 write. -/
abbrev wr19 : List (Ref sig .tc) := [main_v383, main_v384, main_v385, main_v386, main_v387, main_v388, main_v389, main_v390, main_v391, main_v392, main_v393, main_v394, main_v395, main_v396, main_v397, main_v398, main_v399]
theorem pc19_writes : (pc19 : List (HloOp τ sig (Elt F))).Forall fun op => op.writes ⊆ ((wr19).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 438 … 472. -/
abbrev pc20 : List (HloOp τ sig (Elt F)) :=
  [ unary main_v0 main_v400 ((extractStridedSlice S524288x1 ![0, 10] · slices_S524288x25_S524288x1_0_10) : (⟨S524288x25, .f32⟩ : BufTy).Contents (Elt F) → (⟨S524288x1, .f32⟩ : BufTy).Contents (Elt F)),
    reshape main_v400 main_v401 rfl shapeCasts_S524288x1_S524288,
    unary main_v401 main_v402 (Host.cos : (⟨S524288, .f32⟩ : BufTy).Contents (Elt F) → (⟨S524288, .f32⟩ : BufTy).Contents (Elt F)),
    unary main_v401 main_v403 (Host.sin : (⟨S524288, .f32⟩ : BufTy).Contents (Elt F) → (⟨S524288, .f32⟩ : BufTy).Contents (Elt F)),
    nullary main_cst_35 (constant S_ .f32 0x3F800000#32),
    unary main_cst_35 main_v404 (broadcastInDim S524288 ![] bcast_S_S524288 : (⟨S_, .f32⟩ : BufTy).Contents (Elt F) → (⟨S524288, .f32⟩ : BufTy).Contents (Elt F)),
    nullary main_cst_36 (constant S_ .f32 0x00000000#32),
    unary main_cst_36 main_v405 (broadcastInDim S524288 ![] bcast_S_S524288 : (⟨S_, .f32⟩ : BufTy).Contents (Elt F) → (⟨S524288, .f32⟩ : BufTy).Contents (Elt F)),
    unary main_v403 main_v406 (Host.negf : (⟨S524288, .f32⟩ : BufTy).Contents (Elt F) → (⟨S524288, .f32⟩ : BufTy).Contents (Elt F)),
    unary main_v404 main_v407 (broadcastInDim S524288x1 ![0] bcast_S524288_S524288x1_0 : (⟨S524288, .f32⟩ : BufTy).Contents (Elt F) → (⟨S524288x1, .f32⟩ : BufTy).Contents (Elt F)),
    unary main_v405 main_v408 (broadcastInDim S524288x1 ![0] bcast_S524288_S524288x1_0 : (⟨S524288, .f32⟩ : BufTy).Contents (Elt F) → (⟨S524288x1, .f32⟩ : BufTy).Contents (Elt F)),
    unary main_v405 main_v409 (broadcastInDim S524288x1 ![0] bcast_S524288_S524288x1_0 : (⟨S524288, .f32⟩ : BufTy).Contents (Elt F) → (⟨S524288x1, .f32⟩ : BufTy).Contents (Elt F)),
    unary main_v405 main_v410 (broadcastInDim S524288x1 ![0] bcast_S524288_S524288x1_0 : (⟨S524288, .f32⟩ : BufTy).Contents (Elt F) → (⟨S524288x1, .f32⟩ : BufTy).Contents (Elt F)),
    nary ![main_v407, main_v408, main_v409, main_v410] main_v411 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v405 main_v412 (broadcastInDim S524288x1 ![0] bcast_S524288_S524288x1_0 : (⟨S524288, .f32⟩ : BufTy).Contents (Elt F) → (⟨S524288x1, .f32⟩ : BufTy).Contents (Elt F)),
    unary main_v402 main_v413 (broadcastInDim S524288x1 ![0] bcast_S524288_S524288x1_0 : (⟨S524288, .f32⟩ : BufTy).Contents (Elt F) → (⟨S524288x1, .f32⟩ : BufTy).Contents (Elt F)),
    unary main_v406 main_v414 (broadcastInDim S524288x1 ![0] bcast_S524288_S524288x1_0 : (⟨S524288, .f32⟩ : BufTy).Contents (Elt F) → (⟨S524288x1, .f32⟩ : BufTy).Contents (Elt F)),
    unary main_v405 main_v415 (broadcastInDim S524288x1 ![0] bcast_S524288_S524288x1_0 : (⟨S524288, .f32⟩ : BufTy).Contents (Elt F) → (⟨S524288x1, .f32⟩ : BufTy).Contents (Elt F)),
    nary ![main_v412, main_v413, main_v414, main_v415] main_v416 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v405 main_v417 (broadcastInDim S524288x1 ![0] bcast_S524288_S524288x1_0 : (⟨S524288, .f32⟩ : BufTy).Contents (Elt F) → (⟨S524288x1, .f32⟩ : BufTy).Contents (Elt F)),
    unary main_v403 main_v418 (broadcastInDim S524288x1 ![0] bcast_S524288_S524288x1_0 : (⟨S524288, .f32⟩ : BufTy).Contents (Elt F) → (⟨S524288x1, .f32⟩ : BufTy).Contents (Elt F)),
    unary main_v402 main_v419 (broadcastInDim S524288x1 ![0] bcast_S524288_S524288x1_0 : (⟨S524288, .f32⟩ : BufTy).Contents (Elt F) → (⟨S524288x1, .f32⟩ : BufTy).Contents (Elt F)),
    unary main_v405 main_v420 (broadcastInDim S524288x1 ![0] bcast_S524288_S524288x1_0 : (⟨S524288, .f32⟩ : BufTy).Contents (Elt F) → (⟨S524288x1, .f32⟩ : BufTy).Contents (Elt F)),
    nary ![main_v417, main_v418, main_v419, main_v420] main_v421 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v405 main_v422 (broadcastInDim S524288x1 ![0] bcast_S524288_S524288x1_0 : (⟨S524288, .f32⟩ : BufTy).Contents (Elt F) → (⟨S524288x1, .f32⟩ : BufTy).Contents (Elt F)),
    unary main_v405 main_v423 (broadcastInDim S524288x1 ![0] bcast_S524288_S524288x1_0 : (⟨S524288, .f32⟩ : BufTy).Contents (Elt F) → (⟨S524288x1, .f32⟩ : BufTy).Contents (Elt F)),
    unary main_v405 main_v424 (broadcastInDim S524288x1 ![0] bcast_S524288_S524288x1_0 : (⟨S524288, .f32⟩ : BufTy).Contents (Elt F) → (⟨S524288x1, .f32⟩ : BufTy).Contents (Elt F)),
    unary main_v404 main_v425 (broadcastInDim S524288x1 ![0] bcast_S524288_S524288x1_0 : (⟨S524288, .f32⟩ : BufTy).Contents (Elt F) → (⟨S524288x1, .f32⟩ : BufTy).Contents (Elt F)),
    nary ![main_v422, main_v423, main_v424, main_v425] main_v426 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v411 main_v427 (broadcastInDim S524288x1x4 ![0, 2] bcast_S524288x4_S524288x1x4_0_2 : (⟨S524288x4, .f32⟩ : BufTy).Contents (Elt F) → (⟨S524288x1x4, .f32⟩ : BufTy).Contents (Elt F)),
    unary main_v416 main_v428 (broadcastInDim S524288x1x4 ![0, 2] bcast_S524288x4_S524288x1x4_0_2 : (⟨S524288x4, .f32⟩ : BufTy).Contents (Elt F) → (⟨S524288x1x4, .f32⟩ : BufTy).Contents (Elt F)),
    unary main_v421 main_v429 (broadcastInDim S524288x1x4 ![0, 2] bcast_S524288x4_S524288x1x4_0_2 : (⟨S524288x4, .f32⟩ : BufTy).Contents (Elt F) → (⟨S524288x1x4, .f32⟩ : BufTy).Contents (Elt F)),
    unary main_v426 main_v430 (broadcastInDim S524288x1x4 ![0, 2] bcast_S524288x4_S524288x1x4_0_2 : (⟨S524288x4, .f32⟩ : BufTy).Contents (Elt F) → (⟨S524288x1x4, .f32⟩ : BufTy).Contents (Elt F)),
    nary ![main_v427, main_v428, main_v429, main_v430] main_v431 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v399 main_v431 main_v432 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc20_sub : (pc20 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc20_fresh : (pc20 : List (HloOp τ sig (Elt F))).Forall fun op => op.fresh = ∅ := by
  simp only [List.Forall]; repeat' constructor
/-- The references statements 438 … 472 write. -/
abbrev wr20 : List (Ref sig .tc) := [main_v400, main_v401, main_v402, main_v403, main_cst_35, main_v404, main_cst_36, main_v405, main_v406, main_v407, main_v408, main_v409, main_v410, main_v411, main_v412, main_v413, main_v414, main_v415, main_v416, main_v417, main_v418, main_v419, main_v420, main_v421, main_v422, main_v423, main_v424, main_v425, main_v426, main_v427, main_v428, main_v429, main_v430, main_v431, main_v432]
theorem pc20_writes : (pc20 : List (HloOp τ sig (Elt F))).Forall fun op => op.writes ⊆ ((wr20).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 473 … 480. -/
abbrev pc21 : List (HloOp τ sig (Elt F)) :=
  [ unary main_v0 main_v433 ((extractStridedSlice S524288x1 ![0, 11] · slices_S524288x25_S524288x1_0_11) : (⟨S524288x25, .f32⟩ : BufTy).Contents (Elt F) → (⟨S524288x1, .f32⟩ : BufTy).Contents (Elt F)),
    reshape main_v433 main_v434 rfl shapeCasts_S524288x1_S524288,
    unary main_v434 main_v435 (Host.cos : (⟨S524288, .f32⟩ : BufTy).Contents (Elt F) → (⟨S524288, .f32⟩ : BufTy).Contents (Elt F)),
    unary main_v434 main_v436 (Host.sin : (⟨S524288, .f32⟩ : BufTy).Contents (Elt F) → (⟨S524288, .f32⟩ : BufTy).Contents (Elt F)),
    nullary main_cst_37 (constant S_ .f32 0x3F800000#32),
    unary main_cst_37 main_v437 (broadcastInDim S524288 ![] bcast_S_S524288 : (⟨S_, .f32⟩ : BufTy).Contents (Elt F) → (⟨S524288, .f32⟩ : BufTy).Contents (Elt F)),
    nullary main_cst_38 (constant S_ .f32 0x00000000#32),
    unary main_cst_38 main_v438 (broadcastInDim S524288 ![] bcast_S_S524288 : (⟨S_, .f32⟩ : BufTy).Contents (Elt F) → (⟨S524288, .f32⟩ : BufTy).Contents (Elt F)) ]
theorem pc21_sub : (pc21 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub ..⟩
theorem pc21_fresh : (pc21 : List (HloOp τ sig (Elt F))).Forall fun op => op.fresh = ∅ := by
  simp only [List.Forall]; repeat' constructor
/-- The references statements 473 … 480 write. -/
abbrev wr21 : List (Ref sig .tc) := [main_v433, main_v434, main_v435, main_v436, main_cst_37, main_v437, main_cst_38, main_v438]
theorem pc21_writes : (pc21 : List (HloOp τ sig (Elt F))).Forall fun op => op.writes ⊆ ((wr21).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 481 … 507. -/
abbrev pc22 : List (HloOp τ sig (Elt F)) :=
  [ unary main_v436 main_v439 (Host.negf : (⟨S524288, .f32⟩ : BufTy).Contents (Elt F) → (⟨S524288, .f32⟩ : BufTy).Contents (Elt F)),
    unary main_v435 main_v440 (broadcastInDim S524288x1 ![0] bcast_S524288_S524288x1_0 : (⟨S524288, .f32⟩ : BufTy).Contents (Elt F) → (⟨S524288x1, .f32⟩ : BufTy).Contents (Elt F)),
    unary main_v438 main_v441 (broadcastInDim S524288x1 ![0] bcast_S524288_S524288x1_0 : (⟨S524288, .f32⟩ : BufTy).Contents (Elt F) → (⟨S524288x1, .f32⟩ : BufTy).Contents (Elt F)),
    unary main_v436 main_v442 (broadcastInDim S524288x1 ![0] bcast_S524288_S524288x1_0 : (⟨S524288, .f32⟩ : BufTy).Contents (Elt F) → (⟨S524288x1, .f32⟩ : BufTy).Contents (Elt F)),
    unary main_v438 main_v443 (broadcastInDim S524288x1 ![0] bcast_S524288_S524288x1_0 : (⟨S524288, .f32⟩ : BufTy).Contents (Elt F) → (⟨S524288x1, .f32⟩ : BufTy).Contents (Elt F)),
    nary ![main_v440, main_v441, main_v442, main_v443] main_v444 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v438 main_v445 (broadcastInDim S524288x1 ![0] bcast_S524288_S524288x1_0 : (⟨S524288, .f32⟩ : BufTy).Contents (Elt F) → (⟨S524288x1, .f32⟩ : BufTy).Contents (Elt F)),
    unary main_v437 main_v446 (broadcastInDim S524288x1 ![0] bcast_S524288_S524288x1_0 : (⟨S524288, .f32⟩ : BufTy).Contents (Elt F) → (⟨S524288x1, .f32⟩ : BufTy).Contents (Elt F)),
    unary main_v438 main_v447 (broadcastInDim S524288x1 ![0] bcast_S524288_S524288x1_0 : (⟨S524288, .f32⟩ : BufTy).Contents (Elt F) → (⟨S524288x1, .f32⟩ : BufTy).Contents (Elt F)),
    unary main_v438 main_v448 (broadcastInDim S524288x1 ![0] bcast_S524288_S524288x1_0 : (⟨S524288, .f32⟩ : BufTy).Contents (Elt F) → (⟨S524288x1, .f32⟩ : BufTy).Contents (Elt F)),
    nary ![main_v445, main_v446, main_v447, main_v448] main_v449 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v439 main_v450 (broadcastInDim S524288x1 ![0] bcast_S524288_S524288x1_0 : (⟨S524288, .f32⟩ : BufTy).Contents (Elt F) → (⟨S524288x1, .f32⟩ : BufTy).Contents (Elt F)),
    unary main_v438 main_v451 (broadcastInDim S524288x1 ![0] bcast_S524288_S524288x1_0 : (⟨S524288, .f32⟩ : BufTy).Contents (Elt F) → (⟨S524288x1, .f32⟩ : BufTy).Contents (Elt F)),
    unary main_v435 main_v452 (broadcastInDim S524288x1 ![0] bcast_S524288_S524288x1_0 : (⟨S524288, .f32⟩ : BufTy).Contents (Elt F) → (⟨S524288x1, .f32⟩ : BufTy).Contents (Elt F)),
    unary main_v438 main_v453 (broadcastInDim S524288x1 ![0] bcast_S524288_S524288x1_0 : (⟨S524288, .f32⟩ : BufTy).Contents (Elt F) → (⟨S524288x1, .f32⟩ : BufTy).Contents (Elt F)),
    nary ![main_v450, main_v451, main_v452, main_v453] main_v454 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v438 main_v455 (broadcastInDim S524288x1 ![0] bcast_S524288_S524288x1_0 : (⟨S524288, .f32⟩ : BufTy).Contents (Elt F) → (⟨S524288x1, .f32⟩ : BufTy).Contents (Elt F)),
    unary main_v438 main_v456 (broadcastInDim S524288x1 ![0] bcast_S524288_S524288x1_0 : (⟨S524288, .f32⟩ : BufTy).Contents (Elt F) → (⟨S524288x1, .f32⟩ : BufTy).Contents (Elt F)),
    unary main_v438 main_v457 (broadcastInDim S524288x1 ![0] bcast_S524288_S524288x1_0 : (⟨S524288, .f32⟩ : BufTy).Contents (Elt F) → (⟨S524288x1, .f32⟩ : BufTy).Contents (Elt F)),
    unary main_v437 main_v458 (broadcastInDim S524288x1 ![0] bcast_S524288_S524288x1_0 : (⟨S524288, .f32⟩ : BufTy).Contents (Elt F) → (⟨S524288x1, .f32⟩ : BufTy).Contents (Elt F)),
    nary ![main_v455, main_v456, main_v457, main_v458] main_v459 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v444 main_v460 (broadcastInDim S524288x1x4 ![0, 2] bcast_S524288x4_S524288x1x4_0_2 : (⟨S524288x4, .f32⟩ : BufTy).Contents (Elt F) → (⟨S524288x1x4, .f32⟩ : BufTy).Contents (Elt F)),
    unary main_v449 main_v461 (broadcastInDim S524288x1x4 ![0, 2] bcast_S524288x4_S524288x1x4_0_2 : (⟨S524288x4, .f32⟩ : BufTy).Contents (Elt F) → (⟨S524288x1x4, .f32⟩ : BufTy).Contents (Elt F)),
    unary main_v454 main_v462 (broadcastInDim S524288x1x4 ![0, 2] bcast_S524288x4_S524288x1x4_0_2 : (⟨S524288x4, .f32⟩ : BufTy).Contents (Elt F) → (⟨S524288x1x4, .f32⟩ : BufTy).Contents (Elt F)),
    unary main_v459 main_v463 (broadcastInDim S524288x1x4 ![0, 2] bcast_S524288x4_S524288x1x4_0_2 : (⟨S524288x4, .f32⟩ : BufTy).Contents (Elt F) → (⟨S524288x1x4, .f32⟩ : BufTy).Contents (Elt F)),
    nary ![main_v460, main_v461, main_v462, main_v463] main_v464 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v432 main_v464 main_v465 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc22_sub : (pc22 : List (HloOp τ sig (Elt F))).Forall fun op => op.bufs ⊆ tcRefs τ sig :=
  ⟨unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc22_fresh : (pc22 : List (HloOp τ sig (Elt F))).Forall fun op => op.fresh = ∅ := by
  simp only [List.Forall]; repeat' constructor
/-- The references statements 481 … 507 write. -/
abbrev wr22 : List (Ref sig .tc) := [main_v439, main_v440, main_v441, main_v442, main_v443, main_v444, main_v445, main_v446, main_v447, main_v448, main_v449, main_v450, main_v451, main_v452, main_v453, main_v454, main_v455, main_v456, main_v457, main_v458, main_v459, main_v460, main_v461, main_v462, main_v463, main_v464, main_v465]
theorem pc22_writes : (pc22 : List (HloOp τ sig (Elt F))).Forall fun op => op.writes ⊆ ((wr22).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 508 … 528. -/
abbrev pc23 : List (HloOp τ sig (Elt F)) :=
  [ unary main_cst main_v466 ((extractStridedSlice S1 ![1] · slices_S9_S1_1) : (⟨S9, .f32⟩ : BufTy).Contents (Elt F) → (⟨S1, .f32⟩ : BufTy).Contents (Elt F)),
    reshape main_v466 main_v467 rfl shapeCasts_S1_S_,
    nullary main_cst_39 (constant S_ .f32 0xBF800000#32),
    binary main_cst_39 main_v467 main_v468 (mulf : (⟨S_, .f32⟩ : BufTy).Contents (Elt F) → (⟨S_, .f32⟩ : BufTy).Contents (Elt F) → (⟨S_, .f32⟩ : BufTy).Contents (Elt F)),
    unary main_v468 main_v469 (broadcastInDim S524288 ![] bcast_S_S524288 : (⟨S_, .f32⟩ : BufTy).Contents (Elt F) → (⟨S524288, .f32⟩ : BufTy).Contents (Elt F)),
    binary main_v469 main_v2 main_v470 (mulf : (⟨S524288, .f32⟩ : BufTy).Contents (Elt F) → (⟨S524288, .f32⟩ : BufTy).Contents (Elt F) → (⟨S524288, .f32⟩ : BufTy).Contents (Elt F)),
    nullary main_v471 (iotaInDim S4x4 32 0),
    nullary main_v472 (iotaInDim S4x4 32 1),
    nullary main_c_40 (constantI S_ 32 0#32),
    unary main_c_40 main_v473 (broadcastInDim S4x4 ![] bcast_S_S4x4 : (⟨S_, .i32⟩ : BufTy).Contents (Elt F) → (⟨S4x4, .i32⟩ : BufTy).Contents (Elt F)),
    binary main_v471 main_v473 main_v474 (addi : (⟨S4x4, .i32⟩ : BufTy).Contents (Elt F) → (⟨S4x4, .i32⟩ : BufTy).Contents (Elt F) → (⟨S4x4, .i32⟩ : BufTy).Contents (Elt F)),
    binary main_v474 main_v472 main_v475 (cmpi .eq : (⟨S4x4, .i32⟩ : BufTy).Contents (Elt F) → (⟨S4x4, .i32⟩ : BufTy).Contents (Elt F) → (⟨S4x4, .i1⟩ : BufTy).Contents (Elt F)),
    unary main_v475 main_v476 (uitofp .f32 : (⟨S4x4, .i1⟩ : BufTy).Contents (Elt F) → (⟨S4x4, .f32⟩ : BufTy).Contents (Elt F)),
    unary main_v476 main_v477 (broadcastInDim S524288x4x4 ![1, 2] bcast_S4x4_S524288x4x4_1_2 : (⟨S4x4, .f32⟩ : BufTy).Contents (Elt F) → (⟨S524288x4x4, .f32⟩ : BufTy).Contents (Elt F)),
    nullary main_c_41 (constantI S_ 32 1#32),
    unary main_c_41 main_v478 (broadcastInDim S1 ![] bcast_S_S1 : (⟨S_, .i32⟩ : BufTy).Contents (Elt F) → (⟨S1, .i32⟩ : BufTy).Contents (Elt F)),
    nullary main_c_42 (constantI S_ 32 3#32),
    unary main_c_42 main_v479 (broadcastInDim S1 ![] bcast_S_S1 : (⟨S_, .i32⟩ : BufTy).Contents (Elt F) → (⟨S1, .i32⟩ : BufTy).Contents (Elt F)),
    binary main_v478 main_v479 main_v480 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v477 main_v480 main_v470 main_v481 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v465 main_v481 main_v482 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc23_sub : (pc23 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc23_fresh : (pc23 : List (HloOp τ sig (Elt F))).Forall fun op => op.fresh = ∅ := by
  simp only [List.Forall]; repeat' constructor
/-- The references statements 508 … 528 write. -/
abbrev wr23 : List (Ref sig .tc) := [main_v466, main_v467, main_cst_39, main_v468, main_v469, main_v470, main_v471, main_v472, main_c_40, main_v473, main_v474, main_v475, main_v476, main_v477, main_c_41, main_v478, main_c_42, main_v479, main_v480, main_v481, main_v482]
theorem pc23_writes : (pc23 : List (HloOp τ sig (Elt F))).Forall fun op => op.writes ⊆ ((wr23).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 529 … 540. -/
abbrev pc24 : List (HloOp τ sig (Elt F)) :=
  [ unary main_v0 main_v483 ((extractStridedSlice S524288x1 ![0, 12] · slices_S524288x25_S524288x1_0_12) : (⟨S524288x25, .f32⟩ : BufTy).Contents (Elt F) → (⟨S524288x1, .f32⟩ : BufTy).Contents (Elt F)),
    reshape main_v483 main_v484 rfl shapeCasts_S524288x1_S524288,
    unary main_v484 main_v485 (Host.cos : (⟨S524288, .f32⟩ : BufTy).Contents (Elt F) → (⟨S524288, .f32⟩ : BufTy).Contents (Elt F)),
    unary main_v484 main_v486 (Host.sin : (⟨S524288, .f32⟩ : BufTy).Contents (Elt F) → (⟨S524288, .f32⟩ : BufTy).Contents (Elt F)),
    nullary main_cst_43 (constant S_ .f32 0x3F800000#32),
    unary main_cst_43 main_v487 (broadcastInDim S524288 ![] bcast_S_S524288 : (⟨S_, .f32⟩ : BufTy).Contents (Elt F) → (⟨S524288, .f32⟩ : BufTy).Contents (Elt F)),
    nullary main_cst_44 (constant S_ .f32 0x00000000#32),
    unary main_cst_44 main_v488 (broadcastInDim S524288 ![] bcast_S_S524288 : (⟨S_, .f32⟩ : BufTy).Contents (Elt F) → (⟨S524288, .f32⟩ : BufTy).Contents (Elt F)),
    unary main_v486 main_v489 (Host.negf : (⟨S524288, .f32⟩ : BufTy).Contents (Elt F) → (⟨S524288, .f32⟩ : BufTy).Contents (Elt F)),
    unary main_v487 main_v490 (broadcastInDim S524288x1 ![0] bcast_S524288_S524288x1_0 : (⟨S524288, .f32⟩ : BufTy).Contents (Elt F) → (⟨S524288x1, .f32⟩ : BufTy).Contents (Elt F)),
    unary main_v488 main_v491 (broadcastInDim S524288x1 ![0] bcast_S524288_S524288x1_0 : (⟨S524288, .f32⟩ : BufTy).Contents (Elt F) → (⟨S524288x1, .f32⟩ : BufTy).Contents (Elt F)),
    unary main_v488 main_v492 (broadcastInDim S524288x1 ![0] bcast_S524288_S524288x1_0 : (⟨S524288, .f32⟩ : BufTy).Contents (Elt F) → (⟨S524288x1, .f32⟩ : BufTy).Contents (Elt F)) ]
theorem pc24_sub : (pc24 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub ..⟩
theorem pc24_fresh : (pc24 : List (HloOp τ sig (Elt F))).Forall fun op => op.fresh = ∅ := by
  simp only [List.Forall]; repeat' constructor
/-- The references statements 529 … 540 write. -/
abbrev wr24 : List (Ref sig .tc) := [main_v483, main_v484, main_v485, main_v486, main_cst_43, main_v487, main_cst_44, main_v488, main_v489, main_v490, main_v491, main_v492]
theorem pc24_writes : (pc24 : List (HloOp τ sig (Elt F))).Forall fun op => op.writes ⊆ ((wr24).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 541 … 563. -/
abbrev pc25 : List (HloOp τ sig (Elt F)) :=
  [ unary main_v488 main_v493 (broadcastInDim S524288x1 ![0] bcast_S524288_S524288x1_0 : (⟨S524288, .f32⟩ : BufTy).Contents (Elt F) → (⟨S524288x1, .f32⟩ : BufTy).Contents (Elt F)),
    nary ![main_v490, main_v491, main_v492, main_v493] main_v494 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v488 main_v495 (broadcastInDim S524288x1 ![0] bcast_S524288_S524288x1_0 : (⟨S524288, .f32⟩ : BufTy).Contents (Elt F) → (⟨S524288x1, .f32⟩ : BufTy).Contents (Elt F)),
    unary main_v485 main_v496 (broadcastInDim S524288x1 ![0] bcast_S524288_S524288x1_0 : (⟨S524288, .f32⟩ : BufTy).Contents (Elt F) → (⟨S524288x1, .f32⟩ : BufTy).Contents (Elt F)),
    unary main_v489 main_v497 (broadcastInDim S524288x1 ![0] bcast_S524288_S524288x1_0 : (⟨S524288, .f32⟩ : BufTy).Contents (Elt F) → (⟨S524288x1, .f32⟩ : BufTy).Contents (Elt F)),
    unary main_v488 main_v498 (broadcastInDim S524288x1 ![0] bcast_S524288_S524288x1_0 : (⟨S524288, .f32⟩ : BufTy).Contents (Elt F) → (⟨S524288x1, .f32⟩ : BufTy).Contents (Elt F)),
    nary ![main_v495, main_v496, main_v497, main_v498] main_v499 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v488 main_v500 (broadcastInDim S524288x1 ![0] bcast_S524288_S524288x1_0 : (⟨S524288, .f32⟩ : BufTy).Contents (Elt F) → (⟨S524288x1, .f32⟩ : BufTy).Contents (Elt F)),
    unary main_v486 main_v501 (broadcastInDim S524288x1 ![0] bcast_S524288_S524288x1_0 : (⟨S524288, .f32⟩ : BufTy).Contents (Elt F) → (⟨S524288x1, .f32⟩ : BufTy).Contents (Elt F)),
    unary main_v485 main_v502 (broadcastInDim S524288x1 ![0] bcast_S524288_S524288x1_0 : (⟨S524288, .f32⟩ : BufTy).Contents (Elt F) → (⟨S524288x1, .f32⟩ : BufTy).Contents (Elt F)),
    unary main_v488 main_v503 (broadcastInDim S524288x1 ![0] bcast_S524288_S524288x1_0 : (⟨S524288, .f32⟩ : BufTy).Contents (Elt F) → (⟨S524288x1, .f32⟩ : BufTy).Contents (Elt F)),
    nary ![main_v500, main_v501, main_v502, main_v503] main_v504 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v488 main_v505 (broadcastInDim S524288x1 ![0] bcast_S524288_S524288x1_0 : (⟨S524288, .f32⟩ : BufTy).Contents (Elt F) → (⟨S524288x1, .f32⟩ : BufTy).Contents (Elt F)),
    unary main_v488 main_v506 (broadcastInDim S524288x1 ![0] bcast_S524288_S524288x1_0 : (⟨S524288, .f32⟩ : BufTy).Contents (Elt F) → (⟨S524288x1, .f32⟩ : BufTy).Contents (Elt F)),
    unary main_v488 main_v507 (broadcastInDim S524288x1 ![0] bcast_S524288_S524288x1_0 : (⟨S524288, .f32⟩ : BufTy).Contents (Elt F) → (⟨S524288x1, .f32⟩ : BufTy).Contents (Elt F)),
    unary main_v487 main_v508 (broadcastInDim S524288x1 ![0] bcast_S524288_S524288x1_0 : (⟨S524288, .f32⟩ : BufTy).Contents (Elt F) → (⟨S524288x1, .f32⟩ : BufTy).Contents (Elt F)),
    nary ![main_v505, main_v506, main_v507, main_v508] main_v509 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v494 main_v510 (broadcastInDim S524288x1x4 ![0, 2] bcast_S524288x4_S524288x1x4_0_2 : (⟨S524288x4, .f32⟩ : BufTy).Contents (Elt F) → (⟨S524288x1x4, .f32⟩ : BufTy).Contents (Elt F)),
    unary main_v499 main_v511 (broadcastInDim S524288x1x4 ![0, 2] bcast_S524288x4_S524288x1x4_0_2 : (⟨S524288x4, .f32⟩ : BufTy).Contents (Elt F) → (⟨S524288x1x4, .f32⟩ : BufTy).Contents (Elt F)),
    unary main_v504 main_v512 (broadcastInDim S524288x1x4 ![0, 2] bcast_S524288x4_S524288x1x4_0_2 : (⟨S524288x4, .f32⟩ : BufTy).Contents (Elt F) → (⟨S524288x1x4, .f32⟩ : BufTy).Contents (Elt F)),
    unary main_v509 main_v513 (broadcastInDim S524288x1x4 ![0, 2] bcast_S524288x4_S524288x1x4_0_2 : (⟨S524288x4, .f32⟩ : BufTy).Contents (Elt F) → (⟨S524288x1x4, .f32⟩ : BufTy).Contents (Elt F)),
    nary ![main_v510, main_v511, main_v512, main_v513] main_v514 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v482 main_v514 main_v515 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc25_sub : (pc25 : List (HloOp τ sig (Elt F))).Forall fun op => op.bufs ⊆ tcRefs τ sig :=
  ⟨unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc25_fresh : (pc25 : List (HloOp τ sig (Elt F))).Forall fun op => op.fresh = ∅ := by
  simp only [List.Forall]; repeat' constructor
/-- The references statements 541 … 563 write. -/
abbrev wr25 : List (Ref sig .tc) := [main_v493, main_v494, main_v495, main_v496, main_v497, main_v498, main_v499, main_v500, main_v501, main_v502, main_v503, main_v504, main_v505, main_v506, main_v507, main_v508, main_v509, main_v510, main_v511, main_v512, main_v513, main_v514, main_v515]
theorem pc25_writes : (pc25 : List (HloOp τ sig (Elt F))).Forall fun op => op.writes ⊆ ((wr25).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 564 … 584. -/
abbrev pc26 : List (HloOp τ sig (Elt F)) :=
  [ unary main_cst main_v516 ((extractStridedSlice S1 ![0] · slices_S9_S1_0) : (⟨S9, .f32⟩ : BufTy).Contents (Elt F) → (⟨S1, .f32⟩ : BufTy).Contents (Elt F)),
    reshape main_v516 main_v517 rfl shapeCasts_S1_S_,
    nullary main_cst_45 (constant S_ .f32 0xBF800000#32),
    binary main_cst_45 main_v517 main_v518 (mulf : (⟨S_, .f32⟩ : BufTy).Contents (Elt F) → (⟨S_, .f32⟩ : BufTy).Contents (Elt F) → (⟨S_, .f32⟩ : BufTy).Contents (Elt F)),
    unary main_v518 main_v519 (broadcastInDim S524288 ![] bcast_S_S524288 : (⟨S_, .f32⟩ : BufTy).Contents (Elt F) → (⟨S524288, .f32⟩ : BufTy).Contents (Elt F)),
    binary main_v519 main_v2 main_v520 (mulf : (⟨S524288, .f32⟩ : BufTy).Contents (Elt F) → (⟨S524288, .f32⟩ : BufTy).Contents (Elt F) → (⟨S524288, .f32⟩ : BufTy).Contents (Elt F)),
    nullary main_v521 (iotaInDim S4x4 32 0),
    nullary main_v522 (iotaInDim S4x4 32 1),
    nullary main_c_46 (constantI S_ 32 0#32),
    unary main_c_46 main_v523 (broadcastInDim S4x4 ![] bcast_S_S4x4 : (⟨S_, .i32⟩ : BufTy).Contents (Elt F) → (⟨S4x4, .i32⟩ : BufTy).Contents (Elt F)),
    binary main_v521 main_v523 main_v524 (addi : (⟨S4x4, .i32⟩ : BufTy).Contents (Elt F) → (⟨S4x4, .i32⟩ : BufTy).Contents (Elt F) → (⟨S4x4, .i32⟩ : BufTy).Contents (Elt F)),
    binary main_v524 main_v522 main_v525 (cmpi .eq : (⟨S4x4, .i32⟩ : BufTy).Contents (Elt F) → (⟨S4x4, .i32⟩ : BufTy).Contents (Elt F) → (⟨S4x4, .i1⟩ : BufTy).Contents (Elt F)),
    unary main_v525 main_v526 (uitofp .f32 : (⟨S4x4, .i1⟩ : BufTy).Contents (Elt F) → (⟨S4x4, .f32⟩ : BufTy).Contents (Elt F)),
    unary main_v526 main_v527 (broadcastInDim S524288x4x4 ![1, 2] bcast_S4x4_S524288x4x4_1_2 : (⟨S4x4, .f32⟩ : BufTy).Contents (Elt F) → (⟨S524288x4x4, .f32⟩ : BufTy).Contents (Elt F)),
    nullary main_c_47 (constantI S_ 32 1#32),
    unary main_c_47 main_v528 (broadcastInDim S1 ![] bcast_S_S1 : (⟨S_, .i32⟩ : BufTy).Contents (Elt F) → (⟨S1, .i32⟩ : BufTy).Contents (Elt F)),
    nullary main_c_48 (constantI S_ 32 3#32),
    unary main_c_48 main_v529 (broadcastInDim S1 ![] bcast_S_S1 : (⟨S_, .i32⟩ : BufTy).Contents (Elt F) → (⟨S1, .i32⟩ : BufTy).Contents (Elt F)),
    binary main_v528 main_v529 main_v530 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v527 main_v530 main_v520 main_v531 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v515 main_v531 main_v532 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc26_sub : (pc26 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc26_fresh : (pc26 : List (HloOp τ sig (Elt F))).Forall fun op => op.fresh = ∅ := by
  simp only [List.Forall]; repeat' constructor
/-- The references statements 564 … 584 write. -/
abbrev wr26 : List (Ref sig .tc) := [main_v516, main_v517, main_cst_45, main_v518, main_v519, main_v520, main_v521, main_v522, main_c_46, main_v523, main_v524, main_v525, main_v526, main_v527, main_c_47, main_v528, main_c_48, main_v529, main_v530, main_v531, main_v532]
theorem pc26_writes : (pc26 : List (HloOp τ sig (Elt F))).Forall fun op => op.writes ⊆ ((wr26).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 585 … 600. -/
abbrev pc27 : List (HloOp τ sig (Elt F)) :=
  [ unary main_cst main_v533 ((extractStridedSlice S1 ![2] · slices_S9_S1_2) : (⟨S9, .f32⟩ : BufTy).Contents (Elt F) → (⟨S1, .f32⟩ : BufTy).Contents (Elt F)),
    reshape main_v533 main_v534 rfl shapeCasts_S1_S_,
    nullary main_cst_49 (constant S_ .f32 0xBF800000#32),
    binary main_cst_49 main_v534 main_v535 (mulf : (⟨S_, .f32⟩ : BufTy).Contents (Elt F) → (⟨S_, .f32⟩ : BufTy).Contents (Elt F) → (⟨S_, .f32⟩ : BufTy).Contents (Elt F)),
    unary main_v535 main_v536 (broadcastInDim S524288 ![] bcast_S_S524288 : (⟨S_, .f32⟩ : BufTy).Contents (Elt F) → (⟨S524288, .f32⟩ : BufTy).Contents (Elt F)),
    binary main_v536 main_v2 main_v537 (mulf : (⟨S524288, .f32⟩ : BufTy).Contents (Elt F) → (⟨S524288, .f32⟩ : BufTy).Contents (Elt F) → (⟨S524288, .f32⟩ : BufTy).Contents (Elt F)),
    nullary main_v538 (iotaInDim S4x4 32 0),
    nullary main_v539 (iotaInDim S4x4 32 1),
    nullary main_c_50 (constantI S_ 32 0#32),
    unary main_c_50 main_v540 (broadcastInDim S4x4 ![] bcast_S_S4x4 : (⟨S_, .i32⟩ : BufTy).Contents (Elt F) → (⟨S4x4, .i32⟩ : BufTy).Contents (Elt F)),
    binary main_v538 main_v540 main_v541 (addi : (⟨S4x4, .i32⟩ : BufTy).Contents (Elt F) → (⟨S4x4, .i32⟩ : BufTy).Contents (Elt F) → (⟨S4x4, .i32⟩ : BufTy).Contents (Elt F)),
    binary main_v541 main_v539 main_v542 (cmpi .eq : (⟨S4x4, .i32⟩ : BufTy).Contents (Elt F) → (⟨S4x4, .i32⟩ : BufTy).Contents (Elt F) → (⟨S4x4, .i1⟩ : BufTy).Contents (Elt F)),
    unary main_v542 main_v543 (uitofp .f32 : (⟨S4x4, .i1⟩ : BufTy).Contents (Elt F) → (⟨S4x4, .f32⟩ : BufTy).Contents (Elt F)),
    unary main_v543 main_v544 (broadcastInDim S524288x4x4 ![1, 2] bcast_S4x4_S524288x4x4_1_2 : (⟨S4x4, .f32⟩ : BufTy).Contents (Elt F) → (⟨S524288x4x4, .f32⟩ : BufTy).Contents (Elt F)),
    nullary main_c_51 (constantI S_ 32 0#32),
    unary main_c_51 main_v545 (broadcastInDim S1 ![] bcast_S_S1 : (⟨S_, .i32⟩ : BufTy).Contents (Elt F) → (⟨S1, .i32⟩ : BufTy).Contents (Elt F)) ]
theorem pc27_sub : (pc27 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub ..⟩
theorem pc27_fresh : (pc27 : List (HloOp τ sig (Elt F))).Forall fun op => op.fresh = ∅ := by
  simp only [List.Forall]; repeat' constructor
/-- The references statements 585 … 600 write. -/
abbrev wr27 : List (Ref sig .tc) := [main_v533, main_v534, main_cst_49, main_v535, main_v536, main_v537, main_v538, main_v539, main_c_50, main_v540, main_v541, main_v542, main_v543, main_v544, main_c_51, main_v545]
theorem pc27_writes : (pc27 : List (HloOp τ sig (Elt F))).Forall fun op => op.writes ⊆ ((wr27).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 601 … 605. -/
abbrev pc28 : List (HloOp τ sig (Elt F)) :=
  [ nullary main_c_52 (constantI S_ 32 3#32),
    unary main_c_52 main_v546 (broadcastInDim S1 ![] bcast_S_S1 : (⟨S_, .i32⟩ : BufTy).Contents (Elt F) → (⟨S1, .i32⟩ : BufTy).Contents (Elt F)),
    binary main_v545 main_v546 main_v547 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v544 main_v547 main_v537 main_v548 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v100 main_v548 main_v549 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc28_sub : (pc28 : List (HloOp τ sig (Elt F))).Forall fun op => op.bufs ⊆ tcRefs τ sig :=
  ⟨nullary_bufs_sub .., unary_bufs_sub .., binary_bufs_sub .., ternary_bufs_sub .., binary_bufs_sub ..⟩
theorem pc28_fresh : (pc28 : List (HloOp τ sig (Elt F))).Forall fun op => op.fresh = ∅ := by
  simp only [List.Forall]; repeat' constructor
/-- The references statements 601 … 605 write. -/
abbrev wr28 : List (Ref sig .tc) := [main_c_52, main_v546, main_v547, main_v548, main_v549]
theorem pc28_writes : (pc28 : List (HloOp τ sig (Elt F))).Forall fun op => op.writes ⊆ ((wr28).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 606 … 640. -/
abbrev pc29 : List (HloOp τ sig (Elt F)) :=
  [ unary main_v0 main_v550 ((extractStridedSlice S524288x1 ![0, 13] · slices_S524288x25_S524288x1_0_13) : (⟨S524288x25, .f32⟩ : BufTy).Contents (Elt F) → (⟨S524288x1, .f32⟩ : BufTy).Contents (Elt F)),
    reshape main_v550 main_v551 rfl shapeCasts_S524288x1_S524288,
    unary main_v551 main_v552 (Host.cos : (⟨S524288, .f32⟩ : BufTy).Contents (Elt F) → (⟨S524288, .f32⟩ : BufTy).Contents (Elt F)),
    unary main_v551 main_v553 (Host.sin : (⟨S524288, .f32⟩ : BufTy).Contents (Elt F) → (⟨S524288, .f32⟩ : BufTy).Contents (Elt F)),
    nullary main_cst_53 (constant S_ .f32 0x3F800000#32),
    unary main_cst_53 main_v554 (broadcastInDim S524288 ![] bcast_S_S524288 : (⟨S_, .f32⟩ : BufTy).Contents (Elt F) → (⟨S524288, .f32⟩ : BufTy).Contents (Elt F)),
    nullary main_cst_54 (constant S_ .f32 0x00000000#32),
    unary main_cst_54 main_v555 (broadcastInDim S524288 ![] bcast_S_S524288 : (⟨S_, .f32⟩ : BufTy).Contents (Elt F) → (⟨S524288, .f32⟩ : BufTy).Contents (Elt F)),
    unary main_v553 main_v556 (Host.negf : (⟨S524288, .f32⟩ : BufTy).Contents (Elt F) → (⟨S524288, .f32⟩ : BufTy).Contents (Elt F)),
    unary main_v552 main_v557 (broadcastInDim S524288x1 ![0] bcast_S524288_S524288x1_0 : (⟨S524288, .f32⟩ : BufTy).Contents (Elt F) → (⟨S524288x1, .f32⟩ : BufTy).Contents (Elt F)),
    unary main_v556 main_v558 (broadcastInDim S524288x1 ![0] bcast_S524288_S524288x1_0 : (⟨S524288, .f32⟩ : BufTy).Contents (Elt F) → (⟨S524288x1, .f32⟩ : BufTy).Contents (Elt F)),
    unary main_v555 main_v559 (broadcastInDim S524288x1 ![0] bcast_S524288_S524288x1_0 : (⟨S524288, .f32⟩ : BufTy).Contents (Elt F) → (⟨S524288x1, .f32⟩ : BufTy).Contents (Elt F)),
    unary main_v555 main_v560 (broadcastInDim S524288x1 ![0] bcast_S524288_S524288x1_0 : (⟨S524288, .f32⟩ : BufTy).Contents (Elt F) → (⟨S524288x1, .f32⟩ : BufTy).Contents (Elt F)),
    nary ![main_v557, main_v558, main_v559, main_v560] main_v561 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v553 main_v562 (broadcastInDim S524288x1 ![0] bcast_S524288_S524288x1_0 : (⟨S524288, .f32⟩ : BufTy).Contents (Elt F) → (⟨S524288x1, .f32⟩ : BufTy).Contents (Elt F)),
    unary main_v552 main_v563 (broadcastInDim S524288x1 ![0] bcast_S524288_S524288x1_0 : (⟨S524288, .f32⟩ : BufTy).Contents (Elt F) → (⟨S524288x1, .f32⟩ : BufTy).Contents (Elt F)),
    unary main_v555 main_v564 (broadcastInDim S524288x1 ![0] bcast_S524288_S524288x1_0 : (⟨S524288, .f32⟩ : BufTy).Contents (Elt F) → (⟨S524288x1, .f32⟩ : BufTy).Contents (Elt F)),
    unary main_v555 main_v565 (broadcastInDim S524288x1 ![0] bcast_S524288_S524288x1_0 : (⟨S524288, .f32⟩ : BufTy).Contents (Elt F) → (⟨S524288x1, .f32⟩ : BufTy).Contents (Elt F)),
    nary ![main_v562, main_v563, main_v564, main_v565] main_v566 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v555 main_v567 (broadcastInDim S524288x1 ![0] bcast_S524288_S524288x1_0 : (⟨S524288, .f32⟩ : BufTy).Contents (Elt F) → (⟨S524288x1, .f32⟩ : BufTy).Contents (Elt F)),
    unary main_v555 main_v568 (broadcastInDim S524288x1 ![0] bcast_S524288_S524288x1_0 : (⟨S524288, .f32⟩ : BufTy).Contents (Elt F) → (⟨S524288x1, .f32⟩ : BufTy).Contents (Elt F)),
    unary main_v554 main_v569 (broadcastInDim S524288x1 ![0] bcast_S524288_S524288x1_0 : (⟨S524288, .f32⟩ : BufTy).Contents (Elt F) → (⟨S524288x1, .f32⟩ : BufTy).Contents (Elt F)),
    unary main_v555 main_v570 (broadcastInDim S524288x1 ![0] bcast_S524288_S524288x1_0 : (⟨S524288, .f32⟩ : BufTy).Contents (Elt F) → (⟨S524288x1, .f32⟩ : BufTy).Contents (Elt F)),
    nary ![main_v567, main_v568, main_v569, main_v570] main_v571 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v555 main_v572 (broadcastInDim S524288x1 ![0] bcast_S524288_S524288x1_0 : (⟨S524288, .f32⟩ : BufTy).Contents (Elt F) → (⟨S524288x1, .f32⟩ : BufTy).Contents (Elt F)),
    unary main_v555 main_v573 (broadcastInDim S524288x1 ![0] bcast_S524288_S524288x1_0 : (⟨S524288, .f32⟩ : BufTy).Contents (Elt F) → (⟨S524288x1, .f32⟩ : BufTy).Contents (Elt F)),
    unary main_v555 main_v574 (broadcastInDim S524288x1 ![0] bcast_S524288_S524288x1_0 : (⟨S524288, .f32⟩ : BufTy).Contents (Elt F) → (⟨S524288x1, .f32⟩ : BufTy).Contents (Elt F)),
    unary main_v554 main_v575 (broadcastInDim S524288x1 ![0] bcast_S524288_S524288x1_0 : (⟨S524288, .f32⟩ : BufTy).Contents (Elt F) → (⟨S524288x1, .f32⟩ : BufTy).Contents (Elt F)),
    nary ![main_v572, main_v573, main_v574, main_v575] main_v576 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v561 main_v577 (broadcastInDim S524288x1x4 ![0, 2] bcast_S524288x4_S524288x1x4_0_2 : (⟨S524288x4, .f32⟩ : BufTy).Contents (Elt F) → (⟨S524288x1x4, .f32⟩ : BufTy).Contents (Elt F)),
    unary main_v566 main_v578 (broadcastInDim S524288x1x4 ![0, 2] bcast_S524288x4_S524288x1x4_0_2 : (⟨S524288x4, .f32⟩ : BufTy).Contents (Elt F) → (⟨S524288x1x4, .f32⟩ : BufTy).Contents (Elt F)),
    unary main_v571 main_v579 (broadcastInDim S524288x1x4 ![0, 2] bcast_S524288x4_S524288x1x4_0_2 : (⟨S524288x4, .f32⟩ : BufTy).Contents (Elt F) → (⟨S524288x1x4, .f32⟩ : BufTy).Contents (Elt F)),
    unary main_v576 main_v580 (broadcastInDim S524288x1x4 ![0, 2] bcast_S524288x4_S524288x1x4_0_2 : (⟨S524288x4, .f32⟩ : BufTy).Contents (Elt F) → (⟨S524288x1x4, .f32⟩ : BufTy).Contents (Elt F)),
    nary ![main_v577, main_v578, main_v579, main_v580] main_v581 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v549 main_v581 main_v582 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc29_sub : (pc29 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc29_fresh : (pc29 : List (HloOp τ sig (Elt F))).Forall fun op => op.fresh = ∅ := by
  simp only [List.Forall]; repeat' constructor
/-- The references statements 606 … 640 write. -/
abbrev wr29 : List (Ref sig .tc) := [main_v550, main_v551, main_v552, main_v553, main_cst_53, main_v554, main_cst_54, main_v555, main_v556, main_v557, main_v558, main_v559, main_v560, main_v561, main_v562, main_v563, main_v564, main_v565, main_v566, main_v567, main_v568, main_v569, main_v570, main_v571, main_v572, main_v573, main_v574, main_v575, main_v576, main_v577, main_v578, main_v579, main_v580, main_v581, main_v582]
theorem pc29_writes : (pc29 : List (HloOp τ sig (Elt F))).Forall fun op => op.writes ⊆ ((wr29).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

end Cert.ReferenceIdeal.Hand

end
-- ==== Proof.RefOps2.lean ====
/- Written by: bun scratch/gen_refops.js (from proof/ReferenceIdeal.lean). The reference's statements 641 … 934 of 1222
   as literal lists of operations, one list per stretch; with each list: every buffer it names is a TensorCore buffer,
   no operation allocates, and the references its operations write. -/
import proofs.«164878_j3058016714901_2_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 641 … 660. -/
abbrev pc30 : List (HloOp τ sig (Elt F)) :=
  [ unary main_v0 main_v583 ((extractStridedSlice S524288x1 ![0, 14] · slices_S524288x25_S524288x1_0_14) : (⟨S524288x25, .f32⟩ : BufTy).Contents (Elt F) → (⟨S524288x1, .f32⟩ : BufTy).Contents (Elt F)),
    reshape main_v583 main_v584 rfl shapeCasts_S524288x1_S524288,
    unary main_v584 main_v585 (Host.cos : (⟨S524288, .f32⟩ : BufTy).Contents (Elt F) → (⟨S524288, .f32⟩ : BufTy).Contents (Elt F)),
    unary main_v584 main_v586 (Host.sin : (⟨S524288, .f32⟩ : BufTy).Contents (Elt F) → (⟨S524288, .f32⟩ : BufTy).Contents (Elt F)),
    nullary main_cst_55 (constant S_ .f32 0x3F800000#32),
    unary main_cst_55 main_v587 (broadcastInDim S524288 ![] bcast_S_S524288 : (⟨S_, .f32⟩ : BufTy).Contents (Elt F) → (⟨S524288, .f32⟩ : BufTy).Contents (Elt F)),
    nullary main_cst_56 (constant S_ .f32 0x00000000#32),
    unary main_cst_56 main_v588 (broadcastInDim S524288 ![] bcast_S_S524288 : (⟨S_, .f32⟩ : BufTy).Contents (Elt F) → (⟨S524288, .f32⟩ : BufTy).Contents (Elt F)),
    unary main_v586 main_v589 (Host.negf : (⟨S524288, .f32⟩ : BufTy).Contents (Elt F) → (⟨S524288, .f32⟩ : BufTy).Contents (Elt F)),
    unary main_v587 main_v590 (broadcastInDim S524288x1 ![0] bcast_S524288_S524288x1_0 : (⟨S524288, .f32⟩ : BufTy).Contents (Elt F) → (⟨S524288x1, .f32⟩ : BufTy).Contents (Elt F)),
    unary main_v588 main_v591 (broadcastInDim S524288x1 ![0] bcast_S524288_S524288x1_0 : (⟨S524288, .f32⟩ : BufTy).Contents (Elt F) → (⟨S524288x1, .f32⟩ : BufTy).Contents (Elt F)),
    unary main_v588 main_v592 (broadcastInDim S524288x1 ![0] bcast_S524288_S524288x1_0 : (⟨S524288, .f32⟩ : BufTy).Contents (Elt F) → (⟨S524288x1, .f32⟩ : BufTy).Contents (Elt F)),
    unary main_v588 main_v593 (broadcastInDim S524288x1 ![0] bcast_S524288_S524288x1_0 : (⟨S524288, .f32⟩ : BufTy).Contents (Elt F) → (⟨S524288x1, .f32⟩ : BufTy).Contents (Elt F)),
    nary ![main_v590, main_v591, main_v592, main_v593] main_v594 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v588 main_v595 (broadcastInDim S524288x1 ![0] bcast_S524288_S524288x1_0 : (⟨S524288, .f32⟩ : BufTy).Contents (Elt F) → (⟨S524288x1, .f32⟩ : BufTy).Contents (Elt F)),
    unary main_v585 main_v596 (broadcastInDim S524288x1 ![0] bcast_S524288_S524288x1_0 : (⟨S524288, .f32⟩ : BufTy).Contents (Elt F) → (⟨S524288x1, .f32⟩ : BufTy).Contents (Elt F)),
    unary main_v589 main_v597 (broadcastInDim S524288x1 ![0] bcast_S524288_S524288x1_0 : (⟨S524288, .f32⟩ : BufTy).Contents (Elt F) → (⟨S524288x1, .f32⟩ : BufTy).Contents (Elt F)),
    unary main_v588 main_v598 (broadcastInDim S524288x1 ![0] bcast_S524288_S524288x1_0 : (⟨S524288, .f32⟩ : BufTy).Contents (Elt F) → (⟨S524288x1, .f32⟩ : BufTy).Contents (Elt F)),
    nary ![main_v595, main_v596, main_v597, main_v598] main_v599 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v588 main_v600 (broadcastInDim S524288x1 ![0] bcast_S524288_S524288x1_0 : (⟨S524288, .f32⟩ : BufTy).Contents (Elt F) → (⟨S524288x1, .f32⟩ : BufTy).Contents (Elt F)) ]
theorem pc30_sub : (pc30 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub ..⟩
theorem pc30_fresh : (pc30 : List (HloOp τ sig (Elt F))).Forall fun op => op.fresh = ∅ := by
  simp only [List.Forall]; repeat' constructor
/-- The references statements 641 … 660 write. -/
abbrev wr30 : List (Ref sig .tc) := [main_v583, main_v584, main_v585, main_v586, main_cst_55, main_v587, main_cst_56, main_v588, main_v589, main_v590, main_v591, main_v592, main_v593, main_v594, main_v595, main_v596, main_v597, main_v598, main_v599, main_v600]
theorem pc30_writes : (pc30 : List (HloOp τ sig (Elt F))).Forall fun op => op.writes ⊆ ((wr30).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 661 … 675. -/
abbrev pc31 : List (HloOp τ sig (Elt F)) :=
  [ unary main_v586 main_v601 (broadcastInDim S524288x1 ![0] bcast_S524288_S524288x1_0 : (⟨S524288, .f32⟩ : BufTy).Contents (Elt F) → (⟨S524288x1, .f32⟩ : BufTy).Contents (Elt F)),
    unary main_v585 main_v602 (broadcastInDim S524288x1 ![0] bcast_S524288_S524288x1_0 : (⟨S524288, .f32⟩ : BufTy).Contents (Elt F) → (⟨S524288x1, .f32⟩ : BufTy).Contents (Elt F)),
    unary main_v588 main_v603 (broadcastInDim S524288x1 ![0] bcast_S524288_S524288x1_0 : (⟨S524288, .f32⟩ : BufTy).Contents (Elt F) → (⟨S524288x1, .f32⟩ : BufTy).Contents (Elt F)),
    nary ![main_v600, main_v601, main_v602, main_v603] main_v604 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v588 main_v605 (broadcastInDim S524288x1 ![0] bcast_S524288_S524288x1_0 : (⟨S524288, .f32⟩ : BufTy).Contents (Elt F) → (⟨S524288x1, .f32⟩ : BufTy).Contents (Elt F)),
    unary main_v588 main_v606 (broadcastInDim S524288x1 ![0] bcast_S524288_S524288x1_0 : (⟨S524288, .f32⟩ : BufTy).Contents (Elt F) → (⟨S524288x1, .f32⟩ : BufTy).Contents (Elt F)),
    unary main_v588 main_v607 (broadcastInDim S524288x1 ![0] bcast_S524288_S524288x1_0 : (⟨S524288, .f32⟩ : BufTy).Contents (Elt F) → (⟨S524288x1, .f32⟩ : BufTy).Contents (Elt F)),
    unary main_v587 main_v608 (broadcastInDim S524288x1 ![0] bcast_S524288_S524288x1_0 : (⟨S524288, .f32⟩ : BufTy).Contents (Elt F) → (⟨S524288x1, .f32⟩ : BufTy).Contents (Elt F)),
    nary ![main_v605, main_v606, main_v607, main_v608] main_v609 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v594 main_v610 (broadcastInDim S524288x1x4 ![0, 2] bcast_S524288x4_S524288x1x4_0_2 : (⟨S524288x4, .f32⟩ : BufTy).Contents (Elt F) → (⟨S524288x1x4, .f32⟩ : BufTy).Contents (Elt F)),
    unary main_v599 main_v611 (broadcastInDim S524288x1x4 ![0, 2] bcast_S524288x4_S524288x1x4_0_2 : (⟨S524288x4, .f32⟩ : BufTy).Contents (Elt F) → (⟨S524288x1x4, .f32⟩ : BufTy).Contents (Elt F)),
    unary main_v604 main_v612 (broadcastInDim S524288x1x4 ![0, 2] bcast_S524288x4_S524288x1x4_0_2 : (⟨S524288x4, .f32⟩ : BufTy).Contents (Elt F) → (⟨S524288x1x4, .f32⟩ : BufTy).Contents (Elt F)),
    unary main_v609 main_v613 (broadcastInDim S524288x1x4 ![0, 2] bcast_S524288x4_S524288x1x4_0_2 : (⟨S524288x4, .f32⟩ : BufTy).Contents (Elt F) → (⟨S524288x1x4, .f32⟩ : BufTy).Contents (Elt F)),
    nary ![main_v610, main_v611, main_v612, main_v613] main_v614 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v582 main_v614 main_v615 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc31_sub : (pc31 : List (HloOp τ sig (Elt F))).Forall fun op => op.bufs ⊆ tcRefs τ sig :=
  ⟨unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc31_fresh : (pc31 : List (HloOp τ sig (Elt F))).Forall fun op => op.fresh = ∅ := by
  simp only [List.Forall]; repeat' constructor
/-- The references statements 661 … 675 write. -/
abbrev wr31 : List (Ref sig .tc) := [main_v601, main_v602, main_v603, main_v604, main_v605, main_v606, main_v607, main_v608, main_v609, main_v610, main_v611, main_v612, main_v613, main_v614, main_v615]
theorem pc31_writes : (pc31 : List (HloOp τ sig (Elt F))).Forall fun op => op.writes ⊆ ((wr31).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 676 … 710. -/
abbrev pc32 : List (HloOp τ sig (Elt F)) :=
  [ unary main_v0 main_v616 ((extractStridedSlice S524288x1 ![0, 15] · slices_S524288x25_S524288x1_0_15) : (⟨S524288x25, .f32⟩ : BufTy).Contents (Elt F) → (⟨S524288x1, .f32⟩ : BufTy).Contents (Elt F)),
    reshape main_v616 main_v617 rfl shapeCasts_S524288x1_S524288,
    unary main_v617 main_v618 (Host.cos : (⟨S524288, .f32⟩ : BufTy).Contents (Elt F) → (⟨S524288, .f32⟩ : BufTy).Contents (Elt F)),
    unary main_v617 main_v619 (Host.sin : (⟨S524288, .f32⟩ : BufTy).Contents (Elt F) → (⟨S524288, .f32⟩ : BufTy).Contents (Elt F)),
    nullary main_cst_57 (constant S_ .f32 0x3F800000#32),
    unary main_cst_57 main_v620 (broadcastInDim S524288 ![] bcast_S_S524288 : (⟨S_, .f32⟩ : BufTy).Contents (Elt F) → (⟨S524288, .f32⟩ : BufTy).Contents (Elt F)),
    nullary main_cst_58 (constant S_ .f32 0x00000000#32),
    unary main_cst_58 main_v621 (broadcastInDim S524288 ![] bcast_S_S524288 : (⟨S_, .f32⟩ : BufTy).Contents (Elt F) → (⟨S524288, .f32⟩ : BufTy).Contents (Elt F)),
    unary main_v619 main_v622 (Host.negf : (⟨S524288, .f32⟩ : BufTy).Contents (Elt F) → (⟨S524288, .f32⟩ : BufTy).Contents (Elt F)),
    unary main_v618 main_v623 (broadcastInDim S524288x1 ![0] bcast_S524288_S524288x1_0 : (⟨S524288, .f32⟩ : BufTy).Contents (Elt F) → (⟨S524288x1, .f32⟩ : BufTy).Contents (Elt F)),
    unary main_v621 main_v624 (broadcastInDim S524288x1 ![0] bcast_S524288_S524288x1_0 : (⟨S524288, .f32⟩ : BufTy).Contents (Elt F) → (⟨S524288x1, .f32⟩ : BufTy).Contents (Elt F)),
    unary main_v619 main_v625 (broadcastInDim S524288x1 ![0] bcast_S524288_S524288x1_0 : (⟨S524288, .f32⟩ : BufTy).Contents (Elt F) → (⟨S524288x1, .f32⟩ : BufTy).Contents (Elt F)),
    unary main_v621 main_v626 (broadcastInDim S524288x1 ![0] bcast_S524288_S524288x1_0 : (⟨S524288, .f32⟩ : BufTy).Contents (Elt F) → (⟨S524288x1, .f32⟩ : BufTy).Contents (Elt F)),
    nary ![main_v623, main_v624, main_v625, main_v626] main_v627 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v621 main_v628 (broadcastInDim S524288x1 ![0] bcast_S524288_S524288x1_0 : (⟨S524288, .f32⟩ : BufTy).Contents (Elt F) → (⟨S524288x1, .f32⟩ : BufTy).Contents (Elt F)),
    unary main_v620 main_v629 (broadcastInDim S524288x1 ![0] bcast_S524288_S524288x1_0 : (⟨S524288, .f32⟩ : BufTy).Contents (Elt F) → (⟨S524288x1, .f32⟩ : BufTy).Contents (Elt F)),
    unary main_v621 main_v630 (broadcastInDim S524288x1 ![0] bcast_S524288_S524288x1_0 : (⟨S524288, .f32⟩ : BufTy).Contents (Elt F) → (⟨S524288x1, .f32⟩ : BufTy).Contents (Elt F)),
    unary main_v621 main_v631 (broadcastInDim S524288x1 ![0] bcast_S524288_S524288x1_0 : (⟨S524288, .f32⟩ : BufTy).Contents (Elt F) → (⟨S524288x1, .f32⟩ : BufTy).Contents (Elt F)),
    nary ![main_v628, main_v629, main_v630, main_v631] main_v632 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v622 main_v633 (broadcastInDim S524288x1 ![0] bcast_S524288_S524288x1_0 : (⟨S524288, .f32⟩ : BufTy).Contents (Elt F) → (⟨S524288x1, .f32⟩ : BufTy).Contents (Elt F)),
    unary main_v621 main_v634 (broadcastInDim S524288x1 ![0] bcast_S524288_S524288x1_0 : (⟨S524288, .f32⟩ : BufTy).Contents (Elt F) → (⟨S524288x1, .f32⟩ : BufTy).Contents (Elt F)),
    unary main_v618 main_v635 (broadcastInDim S524288x1 ![0] bcast_S524288_S524288x1_0 : (⟨S524288, .f32⟩ : BufTy).Contents (Elt F) → (⟨S524288x1, .f32⟩ : BufTy).Contents (Elt F)),
    unary main_v621 main_v636 (broadcastInDim S524288x1 ![0] bcast_S524288_S524288x1_0 : (⟨S524288, .f32⟩ : BufTy).Contents (Elt F) → (⟨S524288x1, .f32⟩ : BufTy).Contents (Elt F)),
    nary ![main_v633, main_v634, main_v635, main_v636] main_v637 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v621 main_v638 (broadcastInDim S524288x1 ![0] bcast_S524288_S524288x1_0 : (⟨S524288, .f32⟩ : BufTy).Contents (Elt F) → (⟨S524288x1, .f32⟩ : BufTy).Contents (Elt F)),
    unary main_v621 main_v639 (broadcastInDim S524288x1 ![0] bcast_S524288_S524288x1_0 : (⟨S524288, .f32⟩ : BufTy).Contents (Elt F) → (⟨S524288x1, .f32⟩ : BufTy).Contents (Elt F)),
    unary main_v621 main_v640 (broadcastInDim S524288x1 ![0] bcast_S524288_S524288x1_0 : (⟨S524288, .f32⟩ : BufTy).Contents (Elt F) → (⟨S524288x1, .f32⟩ : BufTy).Contents (Elt F)),
    unary main_v620 main_v641 (broadcastInDim S524288x1 ![0] bcast_S524288_S524288x1_0 : (⟨S524288, .f32⟩ : BufTy).Contents (Elt F) → (⟨S524288x1, .f32⟩ : BufTy).Contents (Elt F)),
    nary ![main_v638, main_v639, main_v640, main_v641] main_v642 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v627 main_v643 (broadcastInDim S524288x1x4 ![0, 2] bcast_S524288x4_S524288x1x4_0_2 : (⟨S524288x4, .f32⟩ : BufTy).Contents (Elt F) → (⟨S524288x1x4, .f32⟩ : BufTy).Contents (Elt F)),
    unary main_v632 main_v644 (broadcastInDim S524288x1x4 ![0, 2] bcast_S524288x4_S524288x1x4_0_2 : (⟨S524288x4, .f32⟩ : BufTy).Contents (Elt F) → (⟨S524288x1x4, .f32⟩ : BufTy).Contents (Elt F)),
    unary main_v637 main_v645 (broadcastInDim S524288x1x4 ![0, 2] bcast_S524288x4_S524288x1x4_0_2 : (⟨S524288x4, .f32⟩ : BufTy).Contents (Elt F) → (⟨S524288x1x4, .f32⟩ : BufTy).Contents (Elt F)),
    unary main_v642 main_v646 (broadcastInDim S524288x1x4 ![0, 2] bcast_S524288x4_S524288x1x4_0_2 : (⟨S524288x4, .f32⟩ : BufTy).Contents (Elt F) → (⟨S524288x1x4, .f32⟩ : BufTy).Contents (Elt F)),
    nary ![main_v643, main_v644, main_v645, main_v646] main_v647 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v615 main_v647 main_v648 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc32_sub : (pc32 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc32_fresh : (pc32 : List (HloOp τ sig (Elt F))).Forall fun op => op.fresh = ∅ := by
  simp only [List.Forall]; repeat' constructor
/-- The references statements 676 … 710 write. -/
abbrev wr32 : List (Ref sig .tc) := [main_v616, main_v617, main_v618, main_v619, main_cst_57, main_v620, main_cst_58, main_v621, main_v622, main_v623, main_v624, main_v625, main_v626, main_v627, main_v628, main_v629, main_v630, main_v631, main_v632, main_v633, main_v634, main_v635, main_v636, main_v637, main_v638, main_v639, main_v640, main_v641, main_v642, main_v643, main_v644, main_v645, main_v646, main_v647, main_v648]
theorem pc32_writes : (pc32 : List (HloOp τ sig (Elt F))).Forall fun op => op.writes ⊆ ((wr32).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 711 … 720. -/
abbrev pc33 : List (HloOp τ sig (Elt F)) :=
  [ unary main_cst main_v649 ((extractStridedSlice S1 ![1] · slices_S9_S1_1) : (⟨S9, .f32⟩ : BufTy).Contents (Elt F) → (⟨S1, .f32⟩ : BufTy).Contents (Elt F)),
    reshape main_v649 main_v650 rfl shapeCasts_S1_S_,
    nullary main_cst_59 (constant S_ .f32 0xBF800000#32),
    binary main_cst_59 main_v650 main_v651 (mulf : (⟨S_, .f32⟩ : BufTy).Contents (Elt F) → (⟨S_, .f32⟩ : BufTy).Contents (Elt F) → (⟨S_, .f32⟩ : BufTy).Contents (Elt F)),
    unary main_v651 main_v652 (broadcastInDim S524288 ![] bcast_S_S524288 : (⟨S_, .f32⟩ : BufTy).Contents (Elt F) → (⟨S524288, .f32⟩ : BufTy).Contents (Elt F)),
    binary main_v652 main_v2 main_v653 (mulf : (⟨S524288, .f32⟩ : BufTy).Contents (Elt F) → (⟨S524288, .f32⟩ : BufTy).Contents (Elt F) → (⟨S524288, .f32⟩ : BufTy).Contents (Elt F)),
    nullary main_v654 (iotaInDim S4x4 32 0),
    nullary main_v655 (iotaInDim S4x4 32 1),
    nullary main_c_60 (constantI S_ 32 0#32),
    unary main_c_60 main_v656 (broadcastInDim S4x4 ![] bcast_S_S4x4 : (⟨S_, .i32⟩ : BufTy).Contents (Elt F) → (⟨S4x4, .i32⟩ : BufTy).Contents (Elt F)) ]
theorem pc33_sub : (pc33 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub ..⟩
theorem pc33_fresh : (pc33 : List (HloOp τ sig (Elt F))).Forall fun op => op.fresh = ∅ := by
  simp only [List.Forall]; repeat' constructor
/-- The references statements 711 … 720 write. -/
abbrev wr33 : List (Ref sig .tc) := [main_v649, main_v650, main_cst_59, main_v651, main_v652, main_v653, main_v654, main_v655, main_c_60, main_v656]
theorem pc33_writes : (pc33 : List (HloOp τ sig (Elt F))).Forall fun op => op.writes ⊆ ((wr33).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 721 … 731. -/
abbrev pc34 : List (HloOp τ sig (Elt F)) :=
  [ binary main_v654 main_v656 main_v657 (addi : (⟨S4x4, .i32⟩ : BufTy).Contents (Elt F) → (⟨S4x4, .i32⟩ : BufTy).Contents (Elt F) → (⟨S4x4, .i32⟩ : BufTy).Contents (Elt F)),
    binary main_v657 main_v655 main_v658 (cmpi .eq : (⟨S4x4, .i32⟩ : BufTy).Contents (Elt F) → (⟨S4x4, .i32⟩ : BufTy).Contents (Elt F) → (⟨S4x4, .i1⟩ : BufTy).Contents (Elt F)),
    unary main_v658 main_v659 (uitofp .f32 : (⟨S4x4, .i1⟩ : BufTy).Contents (Elt F) → (⟨S4x4, .f32⟩ : BufTy).Contents (Elt F)),
    unary main_v659 main_v660 (broadcastInDim S524288x4x4 ![1, 2] bcast_S4x4_S524288x4x4_1_2 : (⟨S4x4, .f32⟩ : BufTy).Contents (Elt F) → (⟨S524288x4x4, .f32⟩ : BufTy).Contents (Elt F)),
    nullary main_c_61 (constantI S_ 32 1#32),
    unary main_c_61 main_v661 (broadcastInDim S1 ![] bcast_S_S1 : (⟨S_, .i32⟩ : BufTy).Contents (Elt F) → (⟨S1, .i32⟩ : BufTy).Contents (Elt F)),
    nullary main_c_62 (constantI S_ 32 3#32),
    unary main_c_62 main_v662 (broadcastInDim S1 ![] bcast_S_S1 : (⟨S_, .i32⟩ : BufTy).Contents (Elt F) → (⟨S1, .i32⟩ : BufTy).Contents (Elt F)),
    binary main_v661 main_v662 main_v663 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v660 main_v663 main_v653 main_v664 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v648 main_v664 main_v665 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc34_sub : (pc34 : List (HloOp τ sig (Elt F))).Forall fun op => op.bufs ⊆ tcRefs τ sig :=
  ⟨binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc34_fresh : (pc34 : List (HloOp τ sig (Elt F))).Forall fun op => op.fresh = ∅ := by
  simp only [List.Forall]; repeat' constructor
/-- The references statements 721 … 731 write. -/
abbrev wr34 : List (Ref sig .tc) := [main_v657, main_v658, main_v659, main_v660, main_c_61, main_v661, main_c_62, main_v662, main_v663, main_v664, main_v665]
theorem pc34_writes : (pc34 : List (HloOp τ sig (Elt F))).Forall fun op => op.writes ⊆ ((wr34).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 732 … 766. -/
abbrev pc35 : List (HloOp τ sig (Elt F)) :=
  [ unary main_v0 main_v666 ((extractStridedSlice S524288x1 ![0, 16] · slices_S524288x25_S524288x1_0_16) : (⟨S524288x25, .f32⟩ : BufTy).Contents (Elt F) → (⟨S524288x1, .f32⟩ : BufTy).Contents (Elt F)),
    reshape main_v666 main_v667 rfl shapeCasts_S524288x1_S524288,
    unary main_v667 main_v668 (Host.cos : (⟨S524288, .f32⟩ : BufTy).Contents (Elt F) → (⟨S524288, .f32⟩ : BufTy).Contents (Elt F)),
    unary main_v667 main_v669 (Host.sin : (⟨S524288, .f32⟩ : BufTy).Contents (Elt F) → (⟨S524288, .f32⟩ : BufTy).Contents (Elt F)),
    nullary main_cst_63 (constant S_ .f32 0x3F800000#32),
    unary main_cst_63 main_v670 (broadcastInDim S524288 ![] bcast_S_S524288 : (⟨S_, .f32⟩ : BufTy).Contents (Elt F) → (⟨S524288, .f32⟩ : BufTy).Contents (Elt F)),
    nullary main_cst_64 (constant S_ .f32 0x00000000#32),
    unary main_cst_64 main_v671 (broadcastInDim S524288 ![] bcast_S_S524288 : (⟨S_, .f32⟩ : BufTy).Contents (Elt F) → (⟨S524288, .f32⟩ : BufTy).Contents (Elt F)),
    unary main_v669 main_v672 (Host.negf : (⟨S524288, .f32⟩ : BufTy).Contents (Elt F) → (⟨S524288, .f32⟩ : BufTy).Contents (Elt F)),
    unary main_v670 main_v673 (broadcastInDim S524288x1 ![0] bcast_S524288_S524288x1_0 : (⟨S524288, .f32⟩ : BufTy).Contents (Elt F) → (⟨S524288x1, .f32⟩ : BufTy).Contents (Elt F)),
    unary main_v671 main_v674 (broadcastInDim S524288x1 ![0] bcast_S524288_S524288x1_0 : (⟨S524288, .f32⟩ : BufTy).Contents (Elt F) → (⟨S524288x1, .f32⟩ : BufTy).Contents (Elt F)),
    unary main_v671 main_v675 (broadcastInDim S524288x1 ![0] bcast_S524288_S524288x1_0 : (⟨S524288, .f32⟩ : BufTy).Contents (Elt F) → (⟨S524288x1, .f32⟩ : BufTy).Contents (Elt F)),
    unary main_v671 main_v676 (broadcastInDim S524288x1 ![0] bcast_S524288_S524288x1_0 : (⟨S524288, .f32⟩ : BufTy).Contents (Elt F) → (⟨S524288x1, .f32⟩ : BufTy).Contents (Elt F)),
    nary ![main_v673, main_v674, main_v675, main_v676] main_v677 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v671 main_v678 (broadcastInDim S524288x1 ![0] bcast_S524288_S524288x1_0 : (⟨S524288, .f32⟩ : BufTy).Contents (Elt F) → (⟨S524288x1, .f32⟩ : BufTy).Contents (Elt F)),
    unary main_v668 main_v679 (broadcastInDim S524288x1 ![0] bcast_S524288_S524288x1_0 : (⟨S524288, .f32⟩ : BufTy).Contents (Elt F) → (⟨S524288x1, .f32⟩ : BufTy).Contents (Elt F)),
    unary main_v672 main_v680 (broadcastInDim S524288x1 ![0] bcast_S524288_S524288x1_0 : (⟨S524288, .f32⟩ : BufTy).Contents (Elt F) → (⟨S524288x1, .f32⟩ : BufTy).Contents (Elt F)),
    unary main_v671 main_v681 (broadcastInDim S524288x1 ![0] bcast_S524288_S524288x1_0 : (⟨S524288, .f32⟩ : BufTy).Contents (Elt F) → (⟨S524288x1, .f32⟩ : BufTy).Contents (Elt F)),
    nary ![main_v678, main_v679, main_v680, main_v681] main_v682 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v671 main_v683 (broadcastInDim S524288x1 ![0] bcast_S524288_S524288x1_0 : (⟨S524288, .f32⟩ : BufTy).Contents (Elt F) → (⟨S524288x1, .f32⟩ : BufTy).Contents (Elt F)),
    unary main_v669 main_v684 (broadcastInDim S524288x1 ![0] bcast_S524288_S524288x1_0 : (⟨S524288, .f32⟩ : BufTy).Contents (Elt F) → (⟨S524288x1, .f32⟩ : BufTy).Contents (Elt F)),
    unary main_v668 main_v685 (broadcastInDim S524288x1 ![0] bcast_S524288_S524288x1_0 : (⟨S524288, .f32⟩ : BufTy).Contents (Elt F) → (⟨S524288x1, .f32⟩ : BufTy).Contents (Elt F)),
    unary main_v671 main_v686 (broadcastInDim S524288x1 ![0] bcast_S524288_S524288x1_0 : (⟨S524288, .f32⟩ : BufTy).Contents (Elt F) → (⟨S524288x1, .f32⟩ : BufTy).Contents (Elt F)),
    nary ![main_v683, main_v684, main_v685, main_v686] main_v687 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v671 main_v688 (broadcastInDim S524288x1 ![0] bcast_S524288_S524288x1_0 : (⟨S524288, .f32⟩ : BufTy).Contents (Elt F) → (⟨S524288x1, .f32⟩ : BufTy).Contents (Elt F)),
    unary main_v671 main_v689 (broadcastInDim S524288x1 ![0] bcast_S524288_S524288x1_0 : (⟨S524288, .f32⟩ : BufTy).Contents (Elt F) → (⟨S524288x1, .f32⟩ : BufTy).Contents (Elt F)),
    unary main_v671 main_v690 (broadcastInDim S524288x1 ![0] bcast_S524288_S524288x1_0 : (⟨S524288, .f32⟩ : BufTy).Contents (Elt F) → (⟨S524288x1, .f32⟩ : BufTy).Contents (Elt F)),
    unary main_v670 main_v691 (broadcastInDim S524288x1 ![0] bcast_S524288_S524288x1_0 : (⟨S524288, .f32⟩ : BufTy).Contents (Elt F) → (⟨S524288x1, .f32⟩ : BufTy).Contents (Elt F)),
    nary ![main_v688, main_v689, main_v690, main_v691] main_v692 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v677 main_v693 (broadcastInDim S524288x1x4 ![0, 2] bcast_S524288x4_S524288x1x4_0_2 : (⟨S524288x4, .f32⟩ : BufTy).Contents (Elt F) → (⟨S524288x1x4, .f32⟩ : BufTy).Contents (Elt F)),
    unary main_v682 main_v694 (broadcastInDim S524288x1x4 ![0, 2] bcast_S524288x4_S524288x1x4_0_2 : (⟨S524288x4, .f32⟩ : BufTy).Contents (Elt F) → (⟨S524288x1x4, .f32⟩ : BufTy).Contents (Elt F)),
    unary main_v687 main_v695 (broadcastInDim S524288x1x4 ![0, 2] bcast_S524288x4_S524288x1x4_0_2 : (⟨S524288x4, .f32⟩ : BufTy).Contents (Elt F) → (⟨S524288x1x4, .f32⟩ : BufTy).Contents (Elt F)),
    unary main_v692 main_v696 (broadcastInDim S524288x1x4 ![0, 2] bcast_S524288x4_S524288x1x4_0_2 : (⟨S524288x4, .f32⟩ : BufTy).Contents (Elt F) → (⟨S524288x1x4, .f32⟩ : BufTy).Contents (Elt F)),
    nary ![main_v693, main_v694, main_v695, main_v696] main_v697 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v665 main_v697 main_v698 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc35_sub : (pc35 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc35_fresh : (pc35 : List (HloOp τ sig (Elt F))).Forall fun op => op.fresh = ∅ := by
  simp only [List.Forall]; repeat' constructor
/-- The references statements 732 … 766 write. -/
abbrev wr35 : List (Ref sig .tc) := [main_v666, main_v667, main_v668, main_v669, main_cst_63, main_v670, main_cst_64, main_v671, main_v672, main_v673, main_v674, main_v675, main_v676, main_v677, main_v678, main_v679, main_v680, main_v681, main_v682, main_v683, main_v684, main_v685, main_v686, main_v687, main_v688, main_v689, main_v690, main_v691, main_v692, main_v693, main_v694, main_v695, main_v696, main_v697, main_v698]
theorem pc35_writes : (pc35 : List (HloOp τ sig (Elt F))).Forall fun op => op.writes ⊆ ((wr35).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 767 … 780. -/
abbrev pc36 : List (HloOp τ sig (Elt F)) :=
  [ unary main_cst main_v699 ((extractStridedSlice S1 ![0] · slices_S9_S1_0) : (⟨S9, .f32⟩ : BufTy).Contents (Elt F) → (⟨S1, .f32⟩ : BufTy).Contents (Elt F)),
    reshape main_v699 main_v700 rfl shapeCasts_S1_S_,
    nullary main_cst_65 (constant S_ .f32 0xBF800000#32),
    binary main_cst_65 main_v700 main_v701 (mulf : (⟨S_, .f32⟩ : BufTy).Contents (Elt F) → (⟨S_, .f32⟩ : BufTy).Contents (Elt F) → (⟨S_, .f32⟩ : BufTy).Contents (Elt F)),
    unary main_v701 main_v702 (broadcastInDim S524288 ![] bcast_S_S524288 : (⟨S_, .f32⟩ : BufTy).Contents (Elt F) → (⟨S524288, .f32⟩ : BufTy).Contents (Elt F)),
    binary main_v702 main_v2 main_v703 (mulf : (⟨S524288, .f32⟩ : BufTy).Contents (Elt F) → (⟨S524288, .f32⟩ : BufTy).Contents (Elt F) → (⟨S524288, .f32⟩ : BufTy).Contents (Elt F)),
    nullary main_v704 (iotaInDim S4x4 32 0),
    nullary main_v705 (iotaInDim S4x4 32 1),
    nullary main_c_66 (constantI S_ 32 0#32),
    unary main_c_66 main_v706 (broadcastInDim S4x4 ![] bcast_S_S4x4 : (⟨S_, .i32⟩ : BufTy).Contents (Elt F) → (⟨S4x4, .i32⟩ : BufTy).Contents (Elt F)),
    binary main_v704 main_v706 main_v707 (addi : (⟨S4x4, .i32⟩ : BufTy).Contents (Elt F) → (⟨S4x4, .i32⟩ : BufTy).Contents (Elt F) → (⟨S4x4, .i32⟩ : BufTy).Contents (Elt F)),
    binary main_v707 main_v705 main_v708 (cmpi .eq : (⟨S4x4, .i32⟩ : BufTy).Contents (Elt F) → (⟨S4x4, .i32⟩ : BufTy).Contents (Elt F) → (⟨S4x4, .i1⟩ : BufTy).Contents (Elt F)),
    unary main_v708 main_v709 (uitofp .f32 : (⟨S4x4, .i1⟩ : BufTy).Contents (Elt F) → (⟨S4x4, .f32⟩ : BufTy).Contents (Elt F)),
    unary main_v709 main_v710 (broadcastInDim S524288x4x4 ![1, 2] bcast_S4x4_S524288x4x4_1_2 : (⟨S4x4, .f32⟩ : BufTy).Contents (Elt F) → (⟨S524288x4x4, .f32⟩ : BufTy).Contents (Elt F)) ]
theorem pc36_sub : (pc36 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub ..⟩
theorem pc36_fresh : (pc36 : List (HloOp τ sig (Elt F))).Forall fun op => op.fresh = ∅ := by
  simp only [List.Forall]; repeat' constructor
/-- The references statements 767 … 780 write. -/
abbrev wr36 : List (Ref sig .tc) := [main_v699, main_v700, main_cst_65, main_v701, main_v702, main_v703, main_v704, main_v705, main_c_66, main_v706, main_v707, main_v708, main_v709, main_v710]
theorem pc36_writes : (pc36 : List (HloOp τ sig (Elt F))).Forall fun op => op.writes ⊆ ((wr36).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 781 … 787. -/
abbrev pc37 : List (HloOp τ sig (Elt F)) :=
  [ nullary main_c_67 (constantI S_ 32 1#32),
    unary main_c_67 main_v711 (broadcastInDim S1 ![] bcast_S_S1 : (⟨S_, .i32⟩ : BufTy).Contents (Elt F) → (⟨S1, .i32⟩ : BufTy).Contents (Elt F)),
    nullary main_c_68 (constantI S_ 32 3#32),
    unary main_c_68 main_v712 (broadcastInDim S1 ![] bcast_S_S1 : (⟨S_, .i32⟩ : BufTy).Contents (Elt F) → (⟨S1, .i32⟩ : BufTy).Contents (Elt F)),
    binary main_v711 main_v712 main_v713 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v710 main_v713 main_v703 main_v714 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v698 main_v714 main_v715 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc37_sub : (pc37 : List (HloOp τ sig (Elt F))).Forall fun op => op.bufs ⊆ tcRefs τ sig :=
  ⟨nullary_bufs_sub .., unary_bufs_sub .., nullary_bufs_sub .., unary_bufs_sub .., binary_bufs_sub .., ternary_bufs_sub .., binary_bufs_sub ..⟩
theorem pc37_fresh : (pc37 : List (HloOp τ sig (Elt F))).Forall fun op => op.fresh = ∅ := by
  simp only [List.Forall]; repeat' constructor
/-- The references statements 781 … 787 write. -/
abbrev wr37 : List (Ref sig .tc) := [main_c_67, main_v711, main_c_68, main_v712, main_v713, main_v714, main_v715]
theorem pc37_writes : (pc37 : List (HloOp τ sig (Elt F))).Forall fun op => op.writes ⊆ ((wr37).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 788 … 808. -/
abbrev pc38 : List (HloOp τ sig (Elt F)) :=
  [ unary main_cst main_v716 ((extractStridedSlice S1 ![8] · slices_S9_S1_8) : (⟨S9, .f32⟩ : BufTy).Contents (Elt F) → (⟨S1, .f32⟩ : BufTy).Contents (Elt F)),
    reshape main_v716 main_v717 rfl shapeCasts_S1_S_,
    nullary main_cst_69 (constant S_ .f32 0x3F800000#32),
    binary main_cst_69 main_v717 main_v718 (mulf : (⟨S_, .f32⟩ : BufTy).Contents (Elt F) → (⟨S_, .f32⟩ : BufTy).Contents (Elt F) → (⟨S_, .f32⟩ : BufTy).Contents (Elt F)),
    unary main_v718 main_v719 (broadcastInDim S524288 ![] bcast_S_S524288 : (⟨S_, .f32⟩ : BufTy).Contents (Elt F) → (⟨S524288, .f32⟩ : BufTy).Contents (Elt F)),
    binary main_v719 main_v2 main_v720 (mulf : (⟨S524288, .f32⟩ : BufTy).Contents (Elt F) → (⟨S524288, .f32⟩ : BufTy).Contents (Elt F) → (⟨S524288, .f32⟩ : BufTy).Contents (Elt F)),
    nullary main_v721 (iotaInDim S4x4 32 0),
    nullary main_v722 (iotaInDim S4x4 32 1),
    nullary main_c_70 (constantI S_ 32 0#32),
    unary main_c_70 main_v723 (broadcastInDim S4x4 ![] bcast_S_S4x4 : (⟨S_, .i32⟩ : BufTy).Contents (Elt F) → (⟨S4x4, .i32⟩ : BufTy).Contents (Elt F)),
    binary main_v721 main_v723 main_v724 (addi : (⟨S4x4, .i32⟩ : BufTy).Contents (Elt F) → (⟨S4x4, .i32⟩ : BufTy).Contents (Elt F) → (⟨S4x4, .i32⟩ : BufTy).Contents (Elt F)),
    binary main_v724 main_v722 main_v725 (cmpi .eq : (⟨S4x4, .i32⟩ : BufTy).Contents (Elt F) → (⟨S4x4, .i32⟩ : BufTy).Contents (Elt F) → (⟨S4x4, .i1⟩ : BufTy).Contents (Elt F)),
    unary main_v725 main_v726 (uitofp .f32 : (⟨S4x4, .i1⟩ : BufTy).Contents (Elt F) → (⟨S4x4, .f32⟩ : BufTy).Contents (Elt F)),
    unary main_v726 main_v727 (broadcastInDim S524288x4x4 ![1, 2] bcast_S4x4_S524288x4x4_1_2 : (⟨S4x4, .f32⟩ : BufTy).Contents (Elt F) → (⟨S524288x4x4, .f32⟩ : BufTy).Contents (Elt F)),
    nullary main_c_71 (constantI S_ 32 0#32),
    unary main_c_71 main_v728 (broadcastInDim S1 ![] bcast_S_S1 : (⟨S_, .i32⟩ : BufTy).Contents (Elt F) → (⟨S1, .i32⟩ : BufTy).Contents (Elt F)),
    nullary main_c_72 (constantI S_ 32 3#32),
    unary main_c_72 main_v729 (broadcastInDim S1 ![] bcast_S_S1 : (⟨S_, .i32⟩ : BufTy).Contents (Elt F) → (⟨S1, .i32⟩ : BufTy).Contents (Elt F)),
    binary main_v728 main_v729 main_v730 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v727 main_v730 main_v720 main_v731 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v183 main_v731 main_v732 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc38_sub : (pc38 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc38_fresh : (pc38 : List (HloOp τ sig (Elt F))).Forall fun op => op.fresh = ∅ := by
  simp only [List.Forall]; repeat' constructor
/-- The references statements 788 … 808 write. -/
abbrev wr38 : List (Ref sig .tc) := [main_v716, main_v717, main_cst_69, main_v718, main_v719, main_v720, main_v721, main_v722, main_c_70, main_v723, main_v724, main_v725, main_v726, main_v727, main_c_71, main_v728, main_c_72, main_v729, main_v730, main_v731, main_v732]
theorem pc38_writes : (pc38 : List (HloOp τ sig (Elt F))).Forall fun op => op.writes ⊆ ((wr38).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 809 … 840. -/
abbrev pc39 : List (HloOp τ sig (Elt F)) :=
  [ unary main_v0 main_v733 ((extractStridedSlice S524288x1 ![0, 17] · slices_S524288x25_S524288x1_0_17) : (⟨S524288x25, .f32⟩ : BufTy).Contents (Elt F) → (⟨S524288x1, .f32⟩ : BufTy).Contents (Elt F)),
    reshape main_v733 main_v734 rfl shapeCasts_S524288x1_S524288,
    unary main_v734 main_v735 (Host.cos : (⟨S524288, .f32⟩ : BufTy).Contents (Elt F) → (⟨S524288, .f32⟩ : BufTy).Contents (Elt F)),
    unary main_v734 main_v736 (Host.sin : (⟨S524288, .f32⟩ : BufTy).Contents (Elt F) → (⟨S524288, .f32⟩ : BufTy).Contents (Elt F)),
    nullary main_cst_73 (constant S_ .f32 0x3F800000#32),
    unary main_cst_73 main_v737 (broadcastInDim S524288 ![] bcast_S_S524288 : (⟨S_, .f32⟩ : BufTy).Contents (Elt F) → (⟨S524288, .f32⟩ : BufTy).Contents (Elt F)),
    nullary main_cst_74 (constant S_ .f32 0x00000000#32),
    unary main_cst_74 main_v738 (broadcastInDim S524288 ![] bcast_S_S524288 : (⟨S_, .f32⟩ : BufTy).Contents (Elt F) → (⟨S524288, .f32⟩ : BufTy).Contents (Elt F)),
    unary main_v736 main_v739 (Host.negf : (⟨S524288, .f32⟩ : BufTy).Contents (Elt F) → (⟨S524288, .f32⟩ : BufTy).Contents (Elt F)),
    unary main_v735 main_v740 (broadcastInDim S524288x1 ![0] bcast_S524288_S524288x1_0 : (⟨S524288, .f32⟩ : BufTy).Contents (Elt F) → (⟨S524288x1, .f32⟩ : BufTy).Contents (Elt F)),
    unary main_v739 main_v741 (broadcastInDim S524288x1 ![0] bcast_S524288_S524288x1_0 : (⟨S524288, .f32⟩ : BufTy).Contents (Elt F) → (⟨S524288x1, .f32⟩ : BufTy).Contents (Elt F)),
    unary main_v738 main_v742 (broadcastInDim S524288x1 ![0] bcast_S524288_S524288x1_0 : (⟨S524288, .f32⟩ : BufTy).Contents (Elt F) → (⟨S524288x1, .f32⟩ : BufTy).Contents (Elt F)),
    unary main_v738 main_v743 (broadcastInDim S524288x1 ![0] bcast_S524288_S524288x1_0 : (⟨S524288, .f32⟩ : BufTy).Contents (Elt F) → (⟨S524288x1, .f32⟩ : BufTy).Contents (Elt F)),
    nary ![main_v740, main_v741, main_v742, main_v743] main_v744 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v736 main_v745 (broadcastInDim S524288x1 ![0] bcast_S524288_S524288x1_0 : (⟨S524288, .f32⟩ : BufTy).Contents (Elt F) → (⟨S524288x1, .f32⟩ : BufTy).Contents (Elt F)),
    unary main_v735 main_v746 (broadcastInDim S524288x1 ![0] bcast_S524288_S524288x1_0 : (⟨S524288, .f32⟩ : BufTy).Contents (Elt F) → (⟨S524288x1, .f32⟩ : BufTy).Contents (Elt F)),
    unary main_v738 main_v747 (broadcastInDim S524288x1 ![0] bcast_S524288_S524288x1_0 : (⟨S524288, .f32⟩ : BufTy).Contents (Elt F) → (⟨S524288x1, .f32⟩ : BufTy).Contents (Elt F)),
    unary main_v738 main_v748 (broadcastInDim S524288x1 ![0] bcast_S524288_S524288x1_0 : (⟨S524288, .f32⟩ : BufTy).Contents (Elt F) → (⟨S524288x1, .f32⟩ : BufTy).Contents (Elt F)),
    nary ![main_v745, main_v746, main_v747, main_v748] main_v749 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v738 main_v750 (broadcastInDim S524288x1 ![0] bcast_S524288_S524288x1_0 : (⟨S524288, .f32⟩ : BufTy).Contents (Elt F) → (⟨S524288x1, .f32⟩ : BufTy).Contents (Elt F)),
    unary main_v738 main_v751 (broadcastInDim S524288x1 ![0] bcast_S524288_S524288x1_0 : (⟨S524288, .f32⟩ : BufTy).Contents (Elt F) → (⟨S524288x1, .f32⟩ : BufTy).Contents (Elt F)),
    unary main_v737 main_v752 (broadcastInDim S524288x1 ![0] bcast_S524288_S524288x1_0 : (⟨S524288, .f32⟩ : BufTy).Contents (Elt F) → (⟨S524288x1, .f32⟩ : BufTy).Contents (Elt F)),
    unary main_v738 main_v753 (broadcastInDim S524288x1 ![0] bcast_S524288_S524288x1_0 : (⟨S524288, .f32⟩ : BufTy).Contents (Elt F) → (⟨S524288x1, .f32⟩ : BufTy).Contents (Elt F)),
    nary ![main_v750, main_v751, main_v752, main_v753] main_v754 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v738 main_v755 (broadcastInDim S524288x1 ![0] bcast_S524288_S524288x1_0 : (⟨S524288, .f32⟩ : BufTy).Contents (Elt F) → (⟨S524288x1, .f32⟩ : BufTy).Contents (Elt F)),
    unary main_v738 main_v756 (broadcastInDim S524288x1 ![0] bcast_S524288_S524288x1_0 : (⟨S524288, .f32⟩ : BufTy).Contents (Elt F) → (⟨S524288x1, .f32⟩ : BufTy).Contents (Elt F)),
    unary main_v738 main_v757 (broadcastInDim S524288x1 ![0] bcast_S524288_S524288x1_0 : (⟨S524288, .f32⟩ : BufTy).Contents (Elt F) → (⟨S524288x1, .f32⟩ : BufTy).Contents (Elt F)),
    unary main_v737 main_v758 (broadcastInDim S524288x1 ![0] bcast_S524288_S524288x1_0 : (⟨S524288, .f32⟩ : BufTy).Contents (Elt F) → (⟨S524288x1, .f32⟩ : BufTy).Contents (Elt F)),
    nary ![main_v755, main_v756, main_v757, main_v758] main_v759 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v744 main_v760 (broadcastInDim S524288x1x4 ![0, 2] bcast_S524288x4_S524288x1x4_0_2 : (⟨S524288x4, .f32⟩ : BufTy).Contents (Elt F) → (⟨S524288x1x4, .f32⟩ : BufTy).Contents (Elt F)),
    unary main_v749 main_v761 (broadcastInDim S524288x1x4 ![0, 2] bcast_S524288x4_S524288x1x4_0_2 : (⟨S524288x4, .f32⟩ : BufTy).Contents (Elt F) → (⟨S524288x1x4, .f32⟩ : BufTy).Contents (Elt F)),
    unary main_v754 main_v762 (broadcastInDim S524288x1x4 ![0, 2] bcast_S524288x4_S524288x1x4_0_2 : (⟨S524288x4, .f32⟩ : BufTy).Contents (Elt F) → (⟨S524288x1x4, .f32⟩ : BufTy).Contents (Elt F)) ]
theorem pc39_sub : (pc39 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub ..⟩
theorem pc39_fresh : (pc39 : List (HloOp τ sig (Elt F))).Forall fun op => op.fresh = ∅ := by
  simp only [List.Forall]; repeat' constructor
/-- The references statements 809 … 840 write. -/
abbrev wr39 : List (Ref sig .tc) := [main_v733, main_v734, main_v735, main_v736, main_cst_73, main_v737, main_cst_74, main_v738, main_v739, main_v740, main_v741, main_v742, main_v743, main_v744, main_v745, main_v746, main_v747, main_v748, main_v749, main_v750, main_v751, main_v752, main_v753, main_v754, main_v755, main_v756, main_v757, main_v758, main_v759, main_v760, main_v761, main_v762]
theorem pc39_writes : (pc39 : List (HloOp τ sig (Elt F))).Forall fun op => op.writes ⊆ ((wr39).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 841 … 843. -/
abbrev pc40 : List (HloOp τ sig (Elt F)) :=
  [ unary main_v759 main_v763 (broadcastInDim S524288x1x4 ![0, 2] bcast_S524288x4_S524288x1x4_0_2 : (⟨S524288x4, .f32⟩ : BufTy).Contents (Elt F) → (⟨S524288x1x4, .f32⟩ : BufTy).Contents (Elt F)),
    nary ![main_v760, main_v761, main_v762, main_v763] main_v764 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v732 main_v764 main_v765 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc40_sub : (pc40 : List (HloOp τ sig (Elt F))).Forall fun op => op.bufs ⊆ tcRefs τ sig :=
  ⟨unary_bufs_sub .., nary_bufs_sub .., binary_bufs_sub ..⟩
theorem pc40_fresh : (pc40 : List (HloOp τ sig (Elt F))).Forall fun op => op.fresh = ∅ := by
  simp only [List.Forall]; repeat' constructor
/-- The references statements 841 … 843 write. -/
abbrev wr40 : List (Ref sig .tc) := [main_v763, main_v764, main_v765]
theorem pc40_writes : (pc40 : List (HloOp τ sig (Elt F))).Forall fun op => op.writes ⊆ ((wr40).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 844 … 878. -/
abbrev pc41 : List (HloOp τ sig (Elt F)) :=
  [ unary main_v0 main_v766 ((extractStridedSlice S524288x1 ![0, 18] · slices_S524288x25_S524288x1_0_18) : (⟨S524288x25, .f32⟩ : BufTy).Contents (Elt F) → (⟨S524288x1, .f32⟩ : BufTy).Contents (Elt F)),
    reshape main_v766 main_v767 rfl shapeCasts_S524288x1_S524288,
    unary main_v767 main_v768 (Host.cos : (⟨S524288, .f32⟩ : BufTy).Contents (Elt F) → (⟨S524288, .f32⟩ : BufTy).Contents (Elt F)),
    unary main_v767 main_v769 (Host.sin : (⟨S524288, .f32⟩ : BufTy).Contents (Elt F) → (⟨S524288, .f32⟩ : BufTy).Contents (Elt F)),
    nullary main_cst_75 (constant S_ .f32 0x3F800000#32),
    unary main_cst_75 main_v770 (broadcastInDim S524288 ![] bcast_S_S524288 : (⟨S_, .f32⟩ : BufTy).Contents (Elt F) → (⟨S524288, .f32⟩ : BufTy).Contents (Elt F)),
    nullary main_cst_76 (constant S_ .f32 0x00000000#32),
    unary main_cst_76 main_v771 (broadcastInDim S524288 ![] bcast_S_S524288 : (⟨S_, .f32⟩ : BufTy).Contents (Elt F) → (⟨S524288, .f32⟩ : BufTy).Contents (Elt F)),
    unary main_v769 main_v772 (Host.negf : (⟨S524288, .f32⟩ : BufTy).Contents (Elt F) → (⟨S524288, .f32⟩ : BufTy).Contents (Elt F)),
    unary main_v770 main_v773 (broadcastInDim S524288x1 ![0] bcast_S524288_S524288x1_0 : (⟨S524288, .f32⟩ : BufTy).Contents (Elt F) → (⟨S524288x1, .f32⟩ : BufTy).Contents (Elt F)),
    unary main_v771 main_v774 (broadcastInDim S524288x1 ![0] bcast_S524288_S524288x1_0 : (⟨S524288, .f32⟩ : BufTy).Contents (Elt F) → (⟨S524288x1, .f32⟩ : BufTy).Contents (Elt F)),
    unary main_v771 main_v775 (broadcastInDim S524288x1 ![0] bcast_S524288_S524288x1_0 : (⟨S524288, .f32⟩ : BufTy).Contents (Elt F) → (⟨S524288x1, .f32⟩ : BufTy).Contents (Elt F)),
    unary main_v771 main_v776 (broadcastInDim S524288x1 ![0] bcast_S524288_S524288x1_0 : (⟨S524288, .f32⟩ : BufTy).Contents (Elt F) → (⟨S524288x1, .f32⟩ : BufTy).Contents (Elt F)),
    nary ![main_v773, main_v774, main_v775, main_v776] main_v777 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v771 main_v778 (broadcastInDim S524288x1 ![0] bcast_S524288_S524288x1_0 : (⟨S524288, .f32⟩ : BufTy).Contents (Elt F) → (⟨S524288x1, .f32⟩ : BufTy).Contents (Elt F)),
    unary main_v768 main_v779 (broadcastInDim S524288x1 ![0] bcast_S524288_S524288x1_0 : (⟨S524288, .f32⟩ : BufTy).Contents (Elt F) → (⟨S524288x1, .f32⟩ : BufTy).Contents (Elt F)),
    unary main_v772 main_v780 (broadcastInDim S524288x1 ![0] bcast_S524288_S524288x1_0 : (⟨S524288, .f32⟩ : BufTy).Contents (Elt F) → (⟨S524288x1, .f32⟩ : BufTy).Contents (Elt F)),
    unary main_v771 main_v781 (broadcastInDim S524288x1 ![0] bcast_S524288_S524288x1_0 : (⟨S524288, .f32⟩ : BufTy).Contents (Elt F) → (⟨S524288x1, .f32⟩ : BufTy).Contents (Elt F)),
    nary ![main_v778, main_v779, main_v780, main_v781] main_v782 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v771 main_v783 (broadcastInDim S524288x1 ![0] bcast_S524288_S524288x1_0 : (⟨S524288, .f32⟩ : BufTy).Contents (Elt F) → (⟨S524288x1, .f32⟩ : BufTy).Contents (Elt F)),
    unary main_v769 main_v784 (broadcastInDim S524288x1 ![0] bcast_S524288_S524288x1_0 : (⟨S524288, .f32⟩ : BufTy).Contents (Elt F) → (⟨S524288x1, .f32⟩ : BufTy).Contents (Elt F)),
    unary main_v768 main_v785 (broadcastInDim S524288x1 ![0] bcast_S524288_S524288x1_0 : (⟨S524288, .f32⟩ : BufTy).Contents (Elt F) → (⟨S524288x1, .f32⟩ : BufTy).Contents (Elt F)),
    unary main_v771 main_v786 (broadcastInDim S524288x1 ![0] bcast_S524288_S524288x1_0 : (⟨S524288, .f32⟩ : BufTy).Contents (Elt F) → (⟨S524288x1, .f32⟩ : BufTy).Contents (Elt F)),
    nary ![main_v783, main_v784, main_v785, main_v786] main_v787 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v771 main_v788 (broadcastInDim S524288x1 ![0] bcast_S524288_S524288x1_0 : (⟨S524288, .f32⟩ : BufTy).Contents (Elt F) → (⟨S524288x1, .f32⟩ : BufTy).Contents (Elt F)),
    unary main_v771 main_v789 (broadcastInDim S524288x1 ![0] bcast_S524288_S524288x1_0 : (⟨S524288, .f32⟩ : BufTy).Contents (Elt F) → (⟨S524288x1, .f32⟩ : BufTy).Contents (Elt F)),
    unary main_v771 main_v790 (broadcastInDim S524288x1 ![0] bcast_S524288_S524288x1_0 : (⟨S524288, .f32⟩ : BufTy).Contents (Elt F) → (⟨S524288x1, .f32⟩ : BufTy).Contents (Elt F)),
    unary main_v770 main_v791 (broadcastInDim S524288x1 ![0] bcast_S524288_S524288x1_0 : (⟨S524288, .f32⟩ : BufTy).Contents (Elt F) → (⟨S524288x1, .f32⟩ : BufTy).Contents (Elt F)),
    nary ![main_v788, main_v789, main_v790, main_v791] main_v792 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v777 main_v793 (broadcastInDim S524288x1x4 ![0, 2] bcast_S524288x4_S524288x1x4_0_2 : (⟨S524288x4, .f32⟩ : BufTy).Contents (Elt F) → (⟨S524288x1x4, .f32⟩ : BufTy).Contents (Elt F)),
    unary main_v782 main_v794 (broadcastInDim S524288x1x4 ![0, 2] bcast_S524288x4_S524288x1x4_0_2 : (⟨S524288x4, .f32⟩ : BufTy).Contents (Elt F) → (⟨S524288x1x4, .f32⟩ : BufTy).Contents (Elt F)),
    unary main_v787 main_v795 (broadcastInDim S524288x1x4 ![0, 2] bcast_S524288x4_S524288x1x4_0_2 : (⟨S524288x4, .f32⟩ : BufTy).Contents (Elt F) → (⟨S524288x1x4, .f32⟩ : BufTy).Contents (Elt F)),
    unary main_v792 main_v796 (broadcastInDim S524288x1x4 ![0, 2] bcast_S524288x4_S524288x1x4_0_2 : (⟨S524288x4, .f32⟩ : BufTy).Contents (Elt F) → (⟨S524288x1x4, .f32⟩ : BufTy).Contents (Elt F)),
    nary ![main_v793, main_v794, main_v795, main_v796] main_v797 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v765 main_v797 main_v798 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc41_sub : (pc41 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc41_fresh : (pc41 : List (HloOp τ sig (Elt F))).Forall fun op => op.fresh = ∅ := by
  simp only [List.Forall]; repeat' constructor
/-- The references statements 844 … 878 write. -/
abbrev wr41 : List (Ref sig .tc) := [main_v766, main_v767, main_v768, main_v769, main_cst_75, main_v770, main_cst_76, main_v771, main_v772, main_v773, main_v774, main_v775, main_v776, main_v777, main_v778, main_v779, main_v780, main_v781, main_v782, main_v783, main_v784, main_v785, main_v786, main_v787, main_v788, main_v789, main_v790, main_v791, main_v792, main_v793, main_v794, main_v795, main_v796, main_v797, main_v798]
theorem pc41_writes : (pc41 : List (HloOp τ sig (Elt F))).Forall fun op => op.writes ⊆ ((wr41).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 879 … 900. -/
abbrev pc42 : List (HloOp τ sig (Elt F)) :=
  [ unary main_v0 main_v799 ((extractStridedSlice S524288x1 ![0, 19] · slices_S524288x25_S524288x1_0_19) : (⟨S524288x25, .f32⟩ : BufTy).Contents (Elt F) → (⟨S524288x1, .f32⟩ : BufTy).Contents (Elt F)),
    reshape main_v799 main_v800 rfl shapeCasts_S524288x1_S524288,
    unary main_v800 main_v801 (Host.cos : (⟨S524288, .f32⟩ : BufTy).Contents (Elt F) → (⟨S524288, .f32⟩ : BufTy).Contents (Elt F)),
    unary main_v800 main_v802 (Host.sin : (⟨S524288, .f32⟩ : BufTy).Contents (Elt F) → (⟨S524288, .f32⟩ : BufTy).Contents (Elt F)),
    nullary main_cst_77 (constant S_ .f32 0x3F800000#32),
    unary main_cst_77 main_v803 (broadcastInDim S524288 ![] bcast_S_S524288 : (⟨S_, .f32⟩ : BufTy).Contents (Elt F) → (⟨S524288, .f32⟩ : BufTy).Contents (Elt F)),
    nullary main_cst_78 (constant S_ .f32 0x00000000#32),
    unary main_cst_78 main_v804 (broadcastInDim S524288 ![] bcast_S_S524288 : (⟨S_, .f32⟩ : BufTy).Contents (Elt F) → (⟨S524288, .f32⟩ : BufTy).Contents (Elt F)),
    unary main_v802 main_v805 (Host.negf : (⟨S524288, .f32⟩ : BufTy).Contents (Elt F) → (⟨S524288, .f32⟩ : BufTy).Contents (Elt F)),
    unary main_v801 main_v806 (broadcastInDim S524288x1 ![0] bcast_S524288_S524288x1_0 : (⟨S524288, .f32⟩ : BufTy).Contents (Elt F) → (⟨S524288x1, .f32⟩ : BufTy).Contents (Elt F)),
    unary main_v804 main_v807 (broadcastInDim S524288x1 ![0] bcast_S524288_S524288x1_0 : (⟨S524288, .f32⟩ : BufTy).Contents (Elt F) → (⟨S524288x1, .f32⟩ : BufTy).Contents (Elt F)),
    unary main_v802 main_v808 (broadcastInDim S524288x1 ![0] bcast_S524288_S524288x1_0 : (⟨S524288, .f32⟩ : BufTy).Contents (Elt F) → (⟨S524288x1, .f32⟩ : BufTy).Contents (Elt F)),
    unary main_v804 main_v809 (broadcastInDim S524288x1 ![0] bcast_S524288_S524288x1_0 : (⟨S524288, .f32⟩ : BufTy).Contents (Elt F) → (⟨S524288x1, .f32⟩ : BufTy).Contents (Elt F)),
    nary ![main_v806, main_v807, main_v808, main_v809] main_v810 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v804 main_v811 (broadcastInDim S524288x1 ![0] bcast_S524288_S524288x1_0 : (⟨S524288, .f32⟩ : BufTy).Contents (Elt F) → (⟨S524288x1, .f32⟩ : BufTy).Contents (Elt F)),
    unary main_v803 main_v812 (broadcastInDim S524288x1 ![0] bcast_S524288_S524288x1_0 : (⟨S524288, .f32⟩ : BufTy).Contents (Elt F) → (⟨S524288x1, .f32⟩ : BufTy).Contents (Elt F)),
    unary main_v804 main_v813 (broadcastInDim S524288x1 ![0] bcast_S524288_S524288x1_0 : (⟨S524288, .f32⟩ : BufTy).Contents (Elt F) → (⟨S524288x1, .f32⟩ : BufTy).Contents (Elt F)),
    unary main_v804 main_v814 (broadcastInDim S524288x1 ![0] bcast_S524288_S524288x1_0 : (⟨S524288, .f32⟩ : BufTy).Contents (Elt F) → (⟨S524288x1, .f32⟩ : BufTy).Contents (Elt F)),
    nary ![main_v811, main_v812, main_v813, main_v814] main_v815 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v805 main_v816 (broadcastInDim S524288x1 ![0] bcast_S524288_S524288x1_0 : (⟨S524288, .f32⟩ : BufTy).Contents (Elt F) → (⟨S524288x1, .f32⟩ : BufTy).Contents (Elt F)),
    unary main_v804 main_v817 (broadcastInDim S524288x1 ![0] bcast_S524288_S524288x1_0 : (⟨S524288, .f32⟩ : BufTy).Contents (Elt F) → (⟨S524288x1, .f32⟩ : BufTy).Contents (Elt F)),
    unary main_v801 main_v818 (broadcastInDim S524288x1 ![0] bcast_S524288_S524288x1_0 : (⟨S524288, .f32⟩ : BufTy).Contents (Elt F) → (⟨S524288x1, .f32⟩ : BufTy).Contents (Elt F)) ]
theorem pc42_sub : (pc42 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub ..⟩
theorem pc42_fresh : (pc42 : List (HloOp τ sig (Elt F))).Forall fun op => op.fresh = ∅ := by
  simp only [List.Forall]; repeat' constructor
/-- The references statements 879 … 900 write. -/
abbrev wr42 : List (Ref sig .tc) := [main_v799, main_v800, main_v801, main_v802, main_cst_77, main_v803, main_cst_78, main_v804, main_v805, main_v806, main_v807, main_v808, main_v809, main_v810, main_v811, main_v812, main_v813, main_v814, main_v815, main_v816, main_v817, main_v818]
theorem pc42_writes : (pc42 : List (HloOp τ sig (Elt F))).Forall fun op => op.writes ⊆ ((wr42).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 901 … 913. -/
abbrev pc43 : List (HloOp τ sig (Elt F)) :=
  [ unary main_v804 main_v819 (broadcastInDim S524288x1 ![0] bcast_S524288_S524288x1_0 : (⟨S524288, .f32⟩ : BufTy).Contents (Elt F) → (⟨S524288x1, .f32⟩ : BufTy).Contents (Elt F)),
    nary ![main_v816, main_v817, main_v818, main_v819] main_v820 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v804 main_v821 (broadcastInDim S524288x1 ![0] bcast_S524288_S524288x1_0 : (⟨S524288, .f32⟩ : BufTy).Contents (Elt F) → (⟨S524288x1, .f32⟩ : BufTy).Contents (Elt F)),
    unary main_v804 main_v822 (broadcastInDim S524288x1 ![0] bcast_S524288_S524288x1_0 : (⟨S524288, .f32⟩ : BufTy).Contents (Elt F) → (⟨S524288x1, .f32⟩ : BufTy).Contents (Elt F)),
    unary main_v804 main_v823 (broadcastInDim S524288x1 ![0] bcast_S524288_S524288x1_0 : (⟨S524288, .f32⟩ : BufTy).Contents (Elt F) → (⟨S524288x1, .f32⟩ : BufTy).Contents (Elt F)),
    unary main_v803 main_v824 (broadcastInDim S524288x1 ![0] bcast_S524288_S524288x1_0 : (⟨S524288, .f32⟩ : BufTy).Contents (Elt F) → (⟨S524288x1, .f32⟩ : BufTy).Contents (Elt F)),
    nary ![main_v821, main_v822, main_v823, main_v824] main_v825 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v810 main_v826 (broadcastInDim S524288x1x4 ![0, 2] bcast_S524288x4_S524288x1x4_0_2 : (⟨S524288x4, .f32⟩ : BufTy).Contents (Elt F) → (⟨S524288x1x4, .f32⟩ : BufTy).Contents (Elt F)),
    unary main_v815 main_v827 (broadcastInDim S524288x1x4 ![0, 2] bcast_S524288x4_S524288x1x4_0_2 : (⟨S524288x4, .f32⟩ : BufTy).Contents (Elt F) → (⟨S524288x1x4, .f32⟩ : BufTy).Contents (Elt F)),
    unary main_v820 main_v828 (broadcastInDim S524288x1x4 ![0, 2] bcast_S524288x4_S524288x1x4_0_2 : (⟨S524288x4, .f32⟩ : BufTy).Contents (Elt F) → (⟨S524288x1x4, .f32⟩ : BufTy).Contents (Elt F)),
    unary main_v825 main_v829 (broadcastInDim S524288x1x4 ![0, 2] bcast_S524288x4_S524288x1x4_0_2 : (⟨S524288x4, .f32⟩ : BufTy).Contents (Elt F) → (⟨S524288x1x4, .f32⟩ : BufTy).Contents (Elt F)),
    nary ![main_v826, main_v827, main_v828, main_v829] main_v830 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v798 main_v830 main_v831 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc43_sub : (pc43 : List (HloOp τ sig (Elt F))).Forall fun op => op.bufs ⊆ tcRefs τ sig :=
  ⟨unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc43_fresh : (pc43 : List (HloOp τ sig (Elt F))).Forall fun op => op.fresh = ∅ := by
  simp only [List.Forall]; repeat' constructor
/-- The references statements 901 … 913 write. -/
abbrev wr43 : List (Ref sig .tc) := [main_v819, main_v820, main_v821, main_v822, main_v823, main_v824, main_v825, main_v826, main_v827, main_v828, main_v829, main_v830, main_v831]
theorem pc43_writes : (pc43 : List (HloOp τ sig (Elt F))).Forall fun op => op.writes ⊆ ((wr43).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 914 … 934. -/
abbrev pc44 : List (HloOp τ sig (Elt F)) :=
  [ unary main_cst main_v832 ((extractStridedSlice S1 ![7] · slices_S9_S1_7) : (⟨S9, .f32⟩ : BufTy).Contents (Elt F) → (⟨S1, .f32⟩ : BufTy).Contents (Elt F)),
    reshape main_v832 main_v833 rfl shapeCasts_S1_S_,
    nullary main_cst_79 (constant S_ .f32 0xBF800000#32),
    binary main_cst_79 main_v833 main_v834 (mulf : (⟨S_, .f32⟩ : BufTy).Contents (Elt F) → (⟨S_, .f32⟩ : BufTy).Contents (Elt F) → (⟨S_, .f32⟩ : BufTy).Contents (Elt F)),
    unary main_v834 main_v835 (broadcastInDim S524288 ![] bcast_S_S524288 : (⟨S_, .f32⟩ : BufTy).Contents (Elt F) → (⟨S524288, .f32⟩ : BufTy).Contents (Elt F)),
    binary main_v835 main_v2 main_v836 (mulf : (⟨S524288, .f32⟩ : BufTy).Contents (Elt F) → (⟨S524288, .f32⟩ : BufTy).Contents (Elt F) → (⟨S524288, .f32⟩ : BufTy).Contents (Elt F)),
    nullary main_v837 (iotaInDim S4x4 32 0),
    nullary main_v838 (iotaInDim S4x4 32 1),
    nullary main_c_80 (constantI S_ 32 0#32),
    unary main_c_80 main_v839 (broadcastInDim S4x4 ![] bcast_S_S4x4 : (⟨S_, .i32⟩ : BufTy).Contents (Elt F) → (⟨S4x4, .i32⟩ : BufTy).Contents (Elt F)),
    binary main_v837 main_v839 main_v840 (addi : (⟨S4x4, .i32⟩ : BufTy).Contents (Elt F) → (⟨S4x4, .i32⟩ : BufTy).Contents (Elt F) → (⟨S4x4, .i32⟩ : BufTy).Contents (Elt F)),
    binary main_v840 main_v838 main_v841 (cmpi .eq : (⟨S4x4, .i32⟩ : BufTy).Contents (Elt F) → (⟨S4x4, .i32⟩ : BufTy).Contents (Elt F) → (⟨S4x4, .i1⟩ : BufTy).Contents (Elt F)),
    unary main_v841 main_v842 (uitofp .f32 : (⟨S4x4, .i1⟩ : BufTy).Contents (Elt F) → (⟨S4x4, .f32⟩ : BufTy).Contents (Elt F)),
    unary main_v842 main_v843 (broadcastInDim S524288x4x4 ![1, 2] bcast_S4x4_S524288x4x4_1_2 : (⟨S4x4, .f32⟩ : BufTy).Contents (Elt F) → (⟨S524288x4x4, .f32⟩ : BufTy).Contents (Elt F)),
    nullary main_c_81 (constantI S_ 32 1#32),
    unary main_c_81 main_v844 (broadcastInDim S1 ![] bcast_S_S1 : (⟨S_, .i32⟩ : BufTy).Contents (Elt F) → (⟨S1, .i32⟩ : BufTy).Contents (Elt F)),
    nullary main_c_82 (constantI S_ 32 3#32),
    unary main_c_82 main_v845 (broadcastInDim S1 ![] bcast_S_S1 : (⟨S_, .i32⟩ : BufTy).Contents (Elt F) → (⟨S1, .i32⟩ : BufTy).Contents (Elt F)),
    binary main_v844 main_v845 main_v846 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v843 main_v846 main_v836 main_v847 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v831 main_v847 main_v848 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc44_sub : (pc44 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc44_fresh : (pc44 : List (HloOp τ sig (Elt F))).Forall fun op => op.fresh = ∅ := by
  simp only [List.Forall]; repeat' constructor
/-- The references statements 914 … 934 write. -/
abbrev wr44 : List (Ref sig .tc) := [main_v832, main_v833, main_cst_79, main_v834, main_v835, main_v836, main_v837, main_v838, main_c_80, main_v839, main_v840, main_v841, main_v842, main_v843, main_c_81, main_v844, main_c_82, main_v845, main_v846, main_v847, main_v848]
theorem pc44_writes : (pc44 : List (HloOp τ sig (Elt F))).Forall fun op => op.writes ⊆ ((wr44).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

end Cert.ReferenceIdeal.Hand

end
-- ==== Proof.RefOps3.lean ====
/- Written by: bun scratch/gen_refops.js (from proof/ReferenceIdeal.lean). The reference's statements 935 … 1222 of 1222
   as literal lists of operations, one list per stretch; with each list: every buffer it names is a TensorCore buffer,
   no operation allocates, and the references its operations write. -/
import proofs.«164878_j3058016714901_2_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 935 … 960. -/
abbrev pc45 : List (HloOp τ sig (Elt F)) :=
  [ unary main_v0 main_v849 ((extractStridedSlice S524288x1 ![0, 20] · slices_S524288x25_S524288x1_0_20) : (⟨S524288x25, .f32⟩ : BufTy).Contents (Elt F) → (⟨S524288x1, .f32⟩ : BufTy).Contents (Elt F)),
    reshape main_v849 main_v850 rfl shapeCasts_S524288x1_S524288,
    unary main_v850 main_v851 (Host.cos : (⟨S524288, .f32⟩ : BufTy).Contents (Elt F) → (⟨S524288, .f32⟩ : BufTy).Contents (Elt F)),
    unary main_v850 main_v852 (Host.sin : (⟨S524288, .f32⟩ : BufTy).Contents (Elt F) → (⟨S524288, .f32⟩ : BufTy).Contents (Elt F)),
    nullary main_cst_83 (constant S_ .f32 0x3F800000#32),
    unary main_cst_83 main_v853 (broadcastInDim S524288 ![] bcast_S_S524288 : (⟨S_, .f32⟩ : BufTy).Contents (Elt F) → (⟨S524288, .f32⟩ : BufTy).Contents (Elt F)),
    nullary main_cst_84 (constant S_ .f32 0x00000000#32),
    unary main_cst_84 main_v854 (broadcastInDim S524288 ![] bcast_S_S524288 : (⟨S_, .f32⟩ : BufTy).Contents (Elt F) → (⟨S524288, .f32⟩ : BufTy).Contents (Elt F)),
    unary main_v852 main_v855 (Host.negf : (⟨S524288, .f32⟩ : BufTy).Contents (Elt F) → (⟨S524288, .f32⟩ : BufTy).Contents (Elt F)),
    unary main_v853 main_v856 (broadcastInDim S524288x1 ![0] bcast_S524288_S524288x1_0 : (⟨S524288, .f32⟩ : BufTy).Contents (Elt F) → (⟨S524288x1, .f32⟩ : BufTy).Contents (Elt F)),
    unary main_v854 main_v857 (broadcastInDim S524288x1 ![0] bcast_S524288_S524288x1_0 : (⟨S524288, .f32⟩ : BufTy).Contents (Elt F) → (⟨S524288x1, .f32⟩ : BufTy).Contents (Elt F)),
    unary main_v854 main_v858 (broadcastInDim S524288x1 ![0] bcast_S524288_S524288x1_0 : (⟨S524288, .f32⟩ : BufTy).Contents (Elt F) → (⟨S524288x1, .f32⟩ : BufTy).Contents (Elt F)),
    unary main_v854 main_v859 (broadcastInDim S524288x1 ![0] bcast_S524288_S524288x1_0 : (⟨S524288, .f32⟩ : BufTy).Contents (Elt F) → (⟨S524288x1, .f32⟩ : BufTy).Contents (Elt F)),
    nary ![main_v856, main_v857, main_v858, main_v859] main_v860 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v854 main_v861 (broadcastInDim S524288x1 ![0] bcast_S524288_S524288x1_0 : (⟨S524288, .f32⟩ : BufTy).Contents (Elt F) → (⟨S524288x1, .f32⟩ : BufTy).Contents (Elt F)),
    unary main_v851 main_v862 (broadcastInDim S524288x1 ![0] bcast_S524288_S524288x1_0 : (⟨S524288, .f32⟩ : BufTy).Contents (Elt F) → (⟨S524288x1, .f32⟩ : BufTy).Contents (Elt F)),
    unary main_v855 main_v863 (broadcastInDim S524288x1 ![0] bcast_S524288_S524288x1_0 : (⟨S524288, .f32⟩ : BufTy).Contents (Elt F) → (⟨S524288x1, .f32⟩ : BufTy).Contents (Elt F)),
    unary main_v854 main_v864 (broadcastInDim S524288x1 ![0] bcast_S524288_S524288x1_0 : (⟨S524288, .f32⟩ : BufTy).Contents (Elt F) → (⟨S524288x1, .f32⟩ : BufTy).Contents (Elt F)),
    nary ![main_v861, main_v862, main_v863, main_v864] main_v865 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v854 main_v866 (broadcastInDim S524288x1 ![0] bcast_S524288_S524288x1_0 : (⟨S524288, .f32⟩ : BufTy).Contents (Elt F) → (⟨S524288x1, .f32⟩ : BufTy).Contents (Elt F)),
    unary main_v852 main_v867 (broadcastInDim S524288x1 ![0] bcast_S524288_S524288x1_0 : (⟨S524288, .f32⟩ : BufTy).Contents (Elt F) → (⟨S524288x1, .f32⟩ : BufTy).Contents (Elt F)),
    unary main_v851 main_v868 (broadcastInDim S524288x1 ![0] bcast_S524288_S524288x1_0 : (⟨S524288, .f32⟩ : BufTy).Contents (Elt F) → (⟨S524288x1, .f32⟩ : BufTy).Contents (Elt F)),
    unary main_v854 main_v869 (broadcastInDim S524288x1 ![0] bcast_S524288_S524288x1_0 : (⟨S524288, .f32⟩ : BufTy).Contents (Elt F) → (⟨S524288x1, .f32⟩ : BufTy).Contents (Elt F)),
    nary ![main_v866, main_v867, main_v868, main_v869] main_v870 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v854 main_v871 (broadcastInDim S524288x1 ![0] bcast_S524288_S524288x1_0 : (⟨S524288, .f32⟩ : BufTy).Contents (Elt F) → (⟨S524288x1, .f32⟩ : BufTy).Contents (Elt F)),
    unary main_v854 main_v872 (broadcastInDim S524288x1 ![0] bcast_S524288_S524288x1_0 : (⟨S524288, .f32⟩ : BufTy).Contents (Elt F) → (⟨S524288x1, .f32⟩ : BufTy).Contents (Elt F)) ]
theorem pc45_sub : (pc45 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub ..⟩
theorem pc45_fresh : (pc45 : List (HloOp τ sig (Elt F))).Forall fun op => op.fresh = ∅ := by
  simp only [List.Forall]; repeat' constructor
/-- The references statements 935 … 960 write. -/
abbrev wr45 : List (Ref sig .tc) := [main_v849, main_v850, main_v851, main_v852, main_cst_83, main_v853, main_cst_84, main_v854, main_v855, main_v856, main_v857, main_v858, main_v859, main_v860, main_v861, main_v862, main_v863, main_v864, main_v865, main_v866, main_v867, main_v868, main_v869, main_v870, main_v871, main_v872]
theorem pc45_writes : (pc45 : List (HloOp τ sig (Elt F))).Forall fun op => op.writes ⊆ ((wr45).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 961 … 969. -/
abbrev pc46 : List (HloOp τ sig (Elt F)) :=
  [ unary main_v854 main_v873 (broadcastInDim S524288x1 ![0] bcast_S524288_S524288x1_0 : (⟨S524288, .f32⟩ : BufTy).Contents (Elt F) → (⟨S524288x1, .f32⟩ : BufTy).Contents (Elt F)),
    unary main_v853 main_v874 (broadcastInDim S524288x1 ![0] bcast_S524288_S524288x1_0 : (⟨S524288, .f32⟩ : BufTy).Contents (Elt F) → (⟨S524288x1, .f32⟩ : BufTy).Contents (Elt F)),
    nary ![main_v871, main_v872, main_v873, main_v874] main_v875 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v860 main_v876 (broadcastInDim S524288x1x4 ![0, 2] bcast_S524288x4_S524288x1x4_0_2 : (⟨S524288x4, .f32⟩ : BufTy).Contents (Elt F) → (⟨S524288x1x4, .f32⟩ : BufTy).Contents (Elt F)),
    unary main_v865 main_v877 (broadcastInDim S524288x1x4 ![0, 2] bcast_S524288x4_S524288x1x4_0_2 : (⟨S524288x4, .f32⟩ : BufTy).Contents (Elt F) → (⟨S524288x1x4, .f32⟩ : BufTy).Contents (Elt F)),
    unary main_v870 main_v878 (broadcastInDim S524288x1x4 ![0, 2] bcast_S524288x4_S524288x1x4_0_2 : (⟨S524288x4, .f32⟩ : BufTy).Contents (Elt F) → (⟨S524288x1x4, .f32⟩ : BufTy).Contents (Elt F)),
    unary main_v875 main_v879 (broadcastInDim S524288x1x4 ![0, 2] bcast_S524288x4_S524288x1x4_0_2 : (⟨S524288x4, .f32⟩ : BufTy).Contents (Elt F) → (⟨S524288x1x4, .f32⟩ : BufTy).Contents (Elt F)),
    nary ![main_v876, main_v877, main_v878, main_v879] main_v880 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v848 main_v880 main_v881 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc46_sub : (pc46 : List (HloOp τ sig (Elt F))).Forall fun op => op.bufs ⊆ tcRefs τ sig :=
  ⟨unary_bufs_sub .., unary_bufs_sub .., nary_bufs_sub .., unary_bufs_sub .., unary_bufs_sub .., unary_bufs_sub .., unary_bufs_sub .., nary_bufs_sub .., binary_bufs_sub ..⟩
theorem pc46_fresh : (pc46 : List (HloOp τ sig (Elt F))).Forall fun op => op.fresh = ∅ := by
  simp only [List.Forall]; repeat' constructor
/-- The references statements 961 … 969 write. -/
abbrev wr46 : List (Ref sig .tc) := [main_v873, main_v874, main_v875, main_v876, main_v877, main_v878, main_v879, main_v880, main_v881]
theorem pc46_writes : (pc46 : List (HloOp τ sig (Elt F))).Forall fun op => op.writes ⊆ ((wr46).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 970 … 990. -/
abbrev pc47 : List (HloOp τ sig (Elt F)) :=
  [ unary main_cst main_v882 ((extractStridedSlice S1 ![6] · slices_S9_S1_6) : (⟨S9, .f32⟩ : BufTy).Contents (Elt F) → (⟨S1, .f32⟩ : BufTy).Contents (Elt F)),
    reshape main_v882 main_v883 rfl shapeCasts_S1_S_,
    nullary main_cst_85 (constant S_ .f32 0xBF800000#32),
    binary main_cst_85 main_v883 main_v884 (mulf : (⟨S_, .f32⟩ : BufTy).Contents (Elt F) → (⟨S_, .f32⟩ : BufTy).Contents (Elt F) → (⟨S_, .f32⟩ : BufTy).Contents (Elt F)),
    unary main_v884 main_v885 (broadcastInDim S524288 ![] bcast_S_S524288 : (⟨S_, .f32⟩ : BufTy).Contents (Elt F) → (⟨S524288, .f32⟩ : BufTy).Contents (Elt F)),
    binary main_v885 main_v2 main_v886 (mulf : (⟨S524288, .f32⟩ : BufTy).Contents (Elt F) → (⟨S524288, .f32⟩ : BufTy).Contents (Elt F) → (⟨S524288, .f32⟩ : BufTy).Contents (Elt F)),
    nullary main_v887 (iotaInDim S4x4 32 0),
    nullary main_v888 (iotaInDim S4x4 32 1),
    nullary main_c_86 (constantI S_ 32 0#32),
    unary main_c_86 main_v889 (broadcastInDim S4x4 ![] bcast_S_S4x4 : (⟨S_, .i32⟩ : BufTy).Contents (Elt F) → (⟨S4x4, .i32⟩ : BufTy).Contents (Elt F)),
    binary main_v887 main_v889 main_v890 (addi : (⟨S4x4, .i32⟩ : BufTy).Contents (Elt F) → (⟨S4x4, .i32⟩ : BufTy).Contents (Elt F) → (⟨S4x4, .i32⟩ : BufTy).Contents (Elt F)),
    binary main_v890 main_v888 main_v891 (cmpi .eq : (⟨S4x4, .i32⟩ : BufTy).Contents (Elt F) → (⟨S4x4, .i32⟩ : BufTy).Contents (Elt F) → (⟨S4x4, .i1⟩ : BufTy).Contents (Elt F)),
    unary main_v891 main_v892 (uitofp .f32 : (⟨S4x4, .i1⟩ : BufTy).Contents (Elt F) → (⟨S4x4, .f32⟩ : BufTy).Contents (Elt F)),
    unary main_v892 main_v893 (broadcastInDim S524288x4x4 ![1, 2] bcast_S4x4_S524288x4x4_1_2 : (⟨S4x4, .f32⟩ : BufTy).Contents (Elt F) → (⟨S524288x4x4, .f32⟩ : BufTy).Contents (Elt F)),
    nullary main_c_87 (constantI S_ 32 1#32),
    unary main_c_87 main_v894 (broadcastInDim S1 ![] bcast_S_S1 : (⟨S_, .i32⟩ : BufTy).Contents (Elt F) → (⟨S1, .i32⟩ : BufTy).Contents (Elt F)),
    nullary main_c_88 (constantI S_ 32 3#32),
    unary main_c_88 main_v895 (broadcastInDim S1 ![] bcast_S_S1 : (⟨S_, .i32⟩ : BufTy).Contents (Elt F) → (⟨S1, .i32⟩ : BufTy).Contents (Elt F)),
    binary main_v894 main_v895 main_v896 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v893 main_v896 main_v886 main_v897 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v881 main_v897 main_v898 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc47_sub : (pc47 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc47_fresh : (pc47 : List (HloOp τ sig (Elt F))).Forall fun op => op.fresh = ∅ := by
  simp only [List.Forall]; repeat' constructor
/-- The references statements 970 … 990 write. -/
abbrev wr47 : List (Ref sig .tc) := [main_v882, main_v883, main_cst_85, main_v884, main_v885, main_v886, main_v887, main_v888, main_c_86, main_v889, main_v890, main_v891, main_v892, main_v893, main_c_87, main_v894, main_c_88, main_v895, main_v896, main_v897, main_v898]
theorem pc47_writes : (pc47 : List (HloOp τ sig (Elt F))).Forall fun op => op.writes ⊆ ((wr47).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 991 … 1011. -/
abbrev pc48 : List (HloOp τ sig (Elt F)) :=
  [ unary main_cst main_v899 ((extractStridedSlice S1 ![8] · slices_S9_S1_8) : (⟨S9, .f32⟩ : BufTy).Contents (Elt F) → (⟨S1, .f32⟩ : BufTy).Contents (Elt F)),
    reshape main_v899 main_v900 rfl shapeCasts_S1_S_,
    nullary main_cst_89 (constant S_ .f32 0xBF800000#32),
    binary main_cst_89 main_v900 main_v901 (mulf : (⟨S_, .f32⟩ : BufTy).Contents (Elt F) → (⟨S_, .f32⟩ : BufTy).Contents (Elt F) → (⟨S_, .f32⟩ : BufTy).Contents (Elt F)),
    unary main_v901 main_v902 (broadcastInDim S524288 ![] bcast_S_S524288 : (⟨S_, .f32⟩ : BufTy).Contents (Elt F) → (⟨S524288, .f32⟩ : BufTy).Contents (Elt F)),
    binary main_v902 main_v2 main_v903 (mulf : (⟨S524288, .f32⟩ : BufTy).Contents (Elt F) → (⟨S524288, .f32⟩ : BufTy).Contents (Elt F) → (⟨S524288, .f32⟩ : BufTy).Contents (Elt F)),
    nullary main_v904 (iotaInDim S4x4 32 0),
    nullary main_v905 (iotaInDim S4x4 32 1),
    nullary main_c_90 (constantI S_ 32 0#32),
    unary main_c_90 main_v906 (broadcastInDim S4x4 ![] bcast_S_S4x4 : (⟨S_, .i32⟩ : BufTy).Contents (Elt F) → (⟨S4x4, .i32⟩ : BufTy).Contents (Elt F)),
    binary main_v904 main_v906 main_v907 (addi : (⟨S4x4, .i32⟩ : BufTy).Contents (Elt F) → (⟨S4x4, .i32⟩ : BufTy).Contents (Elt F) → (⟨S4x4, .i32⟩ : BufTy).Contents (Elt F)),
    binary main_v907 main_v905 main_v908 (cmpi .eq : (⟨S4x4, .i32⟩ : BufTy).Contents (Elt F) → (⟨S4x4, .i32⟩ : BufTy).Contents (Elt F) → (⟨S4x4, .i1⟩ : BufTy).Contents (Elt F)),
    unary main_v908 main_v909 (uitofp .f32 : (⟨S4x4, .i1⟩ : BufTy).Contents (Elt F) → (⟨S4x4, .f32⟩ : BufTy).Contents (Elt F)),
    unary main_v909 main_v910 (broadcastInDim S524288x4x4 ![1, 2] bcast_S4x4_S524288x4x4_1_2 : (⟨S4x4, .f32⟩ : BufTy).Contents (Elt F) → (⟨S524288x4x4, .f32⟩ : BufTy).Contents (Elt F)),
    nullary main_c_91 (constantI S_ 32 0#32),
    unary main_c_91 main_v911 (broadcastInDim S1 ![] bcast_S_S1 : (⟨S_, .i32⟩ : BufTy).Contents (Elt F) → (⟨S1, .i32⟩ : BufTy).Contents (Elt F)),
    nullary main_c_92 (constantI S_ 32 3#32),
    unary main_c_92 main_v912 (broadcastInDim S1 ![] bcast_S_S1 : (⟨S_, .i32⟩ : BufTy).Contents (Elt F) → (⟨S1, .i32⟩ : BufTy).Contents (Elt F)),
    binary main_v911 main_v912 main_v913 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v910 main_v913 main_v903 main_v914 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v183 main_v914 main_v915 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc48_sub : (pc48 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc48_fresh : (pc48 : List (HloOp τ sig (Elt F))).Forall fun op => op.fresh = ∅ := by
  simp only [List.Forall]; repeat' constructor
/-- The references statements 991 … 1011 write. -/
abbrev wr48 : List (Ref sig .tc) := [main_v899, main_v900, main_cst_89, main_v901, main_v902, main_v903, main_v904, main_v905, main_c_90, main_v906, main_v907, main_v908, main_v909, main_v910, main_c_91, main_v911, main_c_92, main_v912, main_v913, main_v914, main_v915]
theorem pc48_writes : (pc48 : List (HloOp τ sig (Elt F))).Forall fun op => op.writes ⊆ ((wr48).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1012 … 1020. -/
abbrev pc49 : List (HloOp τ sig (Elt F)) :=
  [ unary main_v0 main_v916 ((extractStridedSlice S524288x1 ![0, 21] · slices_S524288x25_S524288x1_0_21) : (⟨S524288x25, .f32⟩ : BufTy).Contents (Elt F) → (⟨S524288x1, .f32⟩ : BufTy).Contents (Elt F)),
    reshape main_v916 main_v917 rfl shapeCasts_S524288x1_S524288,
    unary main_v917 main_v918 (Host.cos : (⟨S524288, .f32⟩ : BufTy).Contents (Elt F) → (⟨S524288, .f32⟩ : BufTy).Contents (Elt F)),
    unary main_v917 main_v919 (Host.sin : (⟨S524288, .f32⟩ : BufTy).Contents (Elt F) → (⟨S524288, .f32⟩ : BufTy).Contents (Elt F)),
    nullary main_cst_93 (constant S_ .f32 0x3F800000#32),
    unary main_cst_93 main_v920 (broadcastInDim S524288 ![] bcast_S_S524288 : (⟨S_, .f32⟩ : BufTy).Contents (Elt F) → (⟨S524288, .f32⟩ : BufTy).Contents (Elt F)),
    nullary main_cst_94 (constant S_ .f32 0x00000000#32),
    unary main_cst_94 main_v921 (broadcastInDim S524288 ![] bcast_S_S524288 : (⟨S_, .f32⟩ : BufTy).Contents (Elt F) → (⟨S524288, .f32⟩ : BufTy).Contents (Elt F)),
    unary main_v919 main_v922 (Host.negf : (⟨S524288, .f32⟩ : BufTy).Contents (Elt F) → (⟨S524288, .f32⟩ : BufTy).Contents (Elt F)) ]
theorem pc49_sub : (pc49 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub ..⟩
theorem pc49_fresh : (pc49 : List (HloOp τ sig (Elt F))).Forall fun op => op.fresh = ∅ := by
  simp only [List.Forall]; repeat' constructor
/-- The references statements 1012 … 1020 write. -/
abbrev wr49 : List (Ref sig .tc) := [main_v916, main_v917, main_v918, main_v919, main_cst_93, main_v920, main_cst_94, main_v921, main_v922]
theorem pc49_writes : (pc49 : List (HloOp τ sig (Elt F))).Forall fun op => op.writes ⊆ ((wr49).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1021 … 1046. -/
abbrev pc50 : List (HloOp τ sig (Elt F)) :=
  [ unary main_v918 main_v923 (broadcastInDim S524288x1 ![0] bcast_S524288_S524288x1_0 : (⟨S524288, .f32⟩ : BufTy).Contents (Elt F) → (⟨S524288x1, .f32⟩ : BufTy).Contents (Elt F)),
    unary main_v922 main_v924 (broadcastInDim S524288x1 ![0] bcast_S524288_S524288x1_0 : (⟨S524288, .f32⟩ : BufTy).Contents (Elt F) → (⟨S524288x1, .f32⟩ : BufTy).Contents (Elt F)),
    unary main_v921 main_v925 (broadcastInDim S524288x1 ![0] bcast_S524288_S524288x1_0 : (⟨S524288, .f32⟩ : BufTy).Contents (Elt F) → (⟨S524288x1, .f32⟩ : BufTy).Contents (Elt F)),
    unary main_v921 main_v926 (broadcastInDim S524288x1 ![0] bcast_S524288_S524288x1_0 : (⟨S524288, .f32⟩ : BufTy).Contents (Elt F) → (⟨S524288x1, .f32⟩ : BufTy).Contents (Elt F)),
    nary ![main_v923, main_v924, main_v925, main_v926] main_v927 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v919 main_v928 (broadcastInDim S524288x1 ![0] bcast_S524288_S524288x1_0 : (⟨S524288, .f32⟩ : BufTy).Contents (Elt F) → (⟨S524288x1, .f32⟩ : BufTy).Contents (Elt F)),
    unary main_v918 main_v929 (broadcastInDim S524288x1 ![0] bcast_S524288_S524288x1_0 : (⟨S524288, .f32⟩ : BufTy).Contents (Elt F) → (⟨S524288x1, .f32⟩ : BufTy).Contents (Elt F)),
    unary main_v921 main_v930 (broadcastInDim S524288x1 ![0] bcast_S524288_S524288x1_0 : (⟨S524288, .f32⟩ : BufTy).Contents (Elt F) → (⟨S524288x1, .f32⟩ : BufTy).Contents (Elt F)),
    unary main_v921 main_v931 (broadcastInDim S524288x1 ![0] bcast_S524288_S524288x1_0 : (⟨S524288, .f32⟩ : BufTy).Contents (Elt F) → (⟨S524288x1, .f32⟩ : BufTy).Contents (Elt F)),
    nary ![main_v928, main_v929, main_v930, main_v931] main_v932 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v921 main_v933 (broadcastInDim S524288x1 ![0] bcast_S524288_S524288x1_0 : (⟨S524288, .f32⟩ : BufTy).Contents (Elt F) → (⟨S524288x1, .f32⟩ : BufTy).Contents (Elt F)),
    unary main_v921 main_v934 (broadcastInDim S524288x1 ![0] bcast_S524288_S524288x1_0 : (⟨S524288, .f32⟩ : BufTy).Contents (Elt F) → (⟨S524288x1, .f32⟩ : BufTy).Contents (Elt F)),
    unary main_v920 main_v935 (broadcastInDim S524288x1 ![0] bcast_S524288_S524288x1_0 : (⟨S524288, .f32⟩ : BufTy).Contents (Elt F) → (⟨S524288x1, .f32⟩ : BufTy).Contents (Elt F)),
    unary main_v921 main_v936 (broadcastInDim S524288x1 ![0] bcast_S524288_S524288x1_0 : (⟨S524288, .f32⟩ : BufTy).Contents (Elt F) → (⟨S524288x1, .f32⟩ : BufTy).Contents (Elt F)),
    nary ![main_v933, main_v934, main_v935, main_v936] main_v937 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v921 main_v938 (broadcastInDim S524288x1 ![0] bcast_S524288_S524288x1_0 : (⟨S524288, .f32⟩ : BufTy).Contents (Elt F) → (⟨S524288x1, .f32⟩ : BufTy).Contents (Elt F)),
    unary main_v921 main_v939 (broadcastInDim S524288x1 ![0] bcast_S524288_S524288x1_0 : (⟨S524288, .f32⟩ : BufTy).Contents (Elt F) → (⟨S524288x1, .f32⟩ : BufTy).Contents (Elt F)),
    unary main_v921 main_v940 (broadcastInDim S524288x1 ![0] bcast_S524288_S524288x1_0 : (⟨S524288, .f32⟩ : BufTy).Contents (Elt F) → (⟨S524288x1, .f32⟩ : BufTy).Contents (Elt F)),
    unary main_v920 main_v941 (broadcastInDim S524288x1 ![0] bcast_S524288_S524288x1_0 : (⟨S524288, .f32⟩ : BufTy).Contents (Elt F) → (⟨S524288x1, .f32⟩ : BufTy).Contents (Elt F)),
    nary ![main_v938, main_v939, main_v940, main_v941] main_v942 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v927 main_v943 (broadcastInDim S524288x1x4 ![0, 2] bcast_S524288x4_S524288x1x4_0_2 : (⟨S524288x4, .f32⟩ : BufTy).Contents (Elt F) → (⟨S524288x1x4, .f32⟩ : BufTy).Contents (Elt F)),
    unary main_v932 main_v944 (broadcastInDim S524288x1x4 ![0, 2] bcast_S524288x4_S524288x1x4_0_2 : (⟨S524288x4, .f32⟩ : BufTy).Contents (Elt F) → (⟨S524288x1x4, .f32⟩ : BufTy).Contents (Elt F)),
    unary main_v937 main_v945 (broadcastInDim S524288x1x4 ![0, 2] bcast_S524288x4_S524288x1x4_0_2 : (⟨S524288x4, .f32⟩ : BufTy).Contents (Elt F) → (⟨S524288x1x4, .f32⟩ : BufTy).Contents (Elt F)),
    unary main_v942 main_v946 (broadcastInDim S524288x1x4 ![0, 2] bcast_S524288x4_S524288x1x4_0_2 : (⟨S524288x4, .f32⟩ : BufTy).Contents (Elt F) → (⟨S524288x1x4, .f32⟩ : BufTy).Contents (Elt F)),
    nary ![main_v943, main_v944, main_v945, main_v946] main_v947 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v915 main_v947 main_v948 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc50_sub : (pc50 : List (HloOp τ sig (Elt F))).Forall fun op => op.bufs ⊆ tcRefs τ sig :=
  ⟨unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc50_fresh : (pc50 : List (HloOp τ sig (Elt F))).Forall fun op => op.fresh = ∅ := by
  simp only [List.Forall]; repeat' constructor
/-- The references statements 1021 … 1046 write. -/
abbrev wr50 : List (Ref sig .tc) := [main_v923, main_v924, main_v925, main_v926, main_v927, main_v928, main_v929, main_v930, main_v931, main_v932, main_v933, main_v934, main_v935, main_v936, main_v937, main_v938, main_v939, main_v940, main_v941, main_v942, main_v943, main_v944, main_v945, main_v946, main_v947, main_v948]
theorem pc50_writes : (pc50 : List (HloOp τ sig (Elt F))).Forall fun op => op.writes ⊆ ((wr50).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1047 … 1080. -/
abbrev pc51 : List (HloOp τ sig (Elt F)) :=
  [ unary main_v0 main_v949 ((extractStridedSlice S524288x1 ![0, 22] · slices_S524288x25_S524288x1_0_22) : (⟨S524288x25, .f32⟩ : BufTy).Contents (Elt F) → (⟨S524288x1, .f32⟩ : BufTy).Contents (Elt F)),
    reshape main_v949 main_v950 rfl shapeCasts_S524288x1_S524288,
    unary main_v950 main_v951 (Host.cos : (⟨S524288, .f32⟩ : BufTy).Contents (Elt F) → (⟨S524288, .f32⟩ : BufTy).Contents (Elt F)),
    unary main_v950 main_v952 (Host.sin : (⟨S524288, .f32⟩ : BufTy).Contents (Elt F) → (⟨S524288, .f32⟩ : BufTy).Contents (Elt F)),
    nullary main_cst_95 (constant S_ .f32 0x3F800000#32),
    unary main_cst_95 main_v953 (broadcastInDim S524288 ![] bcast_S_S524288 : (⟨S_, .f32⟩ : BufTy).Contents (Elt F) → (⟨S524288, .f32⟩ : BufTy).Contents (Elt F)),
    nullary main_cst_96 (constant S_ .f32 0x00000000#32),
    unary main_cst_96 main_v954 (broadcastInDim S524288 ![] bcast_S_S524288 : (⟨S_, .f32⟩ : BufTy).Contents (Elt F) → (⟨S524288, .f32⟩ : BufTy).Contents (Elt F)),
    unary main_v952 main_v955 (Host.negf : (⟨S524288, .f32⟩ : BufTy).Contents (Elt F) → (⟨S524288, .f32⟩ : BufTy).Contents (Elt F)),
    unary main_v953 main_v956 (broadcastInDim S524288x1 ![0] bcast_S524288_S524288x1_0 : (⟨S524288, .f32⟩ : BufTy).Contents (Elt F) → (⟨S524288x1, .f32⟩ : BufTy).Contents (Elt F)),
    unary main_v954 main_v957 (broadcastInDim S524288x1 ![0] bcast_S524288_S524288x1_0 : (⟨S524288, .f32⟩ : BufTy).Contents (Elt F) → (⟨S524288x1, .f32⟩ : BufTy).Contents (Elt F)),
    unary main_v954 main_v958 (broadcastInDim S524288x1 ![0] bcast_S524288_S524288x1_0 : (⟨S524288, .f32⟩ : BufTy).Contents (Elt F) → (⟨S524288x1, .f32⟩ : BufTy).Contents (Elt F)),
    unary main_v954 main_v959 (broadcastInDim S524288x1 ![0] bcast_S524288_S524288x1_0 : (⟨S524288, .f32⟩ : BufTy).Contents (Elt F) → (⟨S524288x1, .f32⟩ : BufTy).Contents (Elt F)),
    nary ![main_v956, main_v957, main_v958, main_v959] main_v960 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v954 main_v961 (broadcastInDim S524288x1 ![0] bcast_S524288_S524288x1_0 : (⟨S524288, .f32⟩ : BufTy).Contents (Elt F) → (⟨S524288x1, .f32⟩ : BufTy).Contents (Elt F)),
    unary main_v951 main_v962 (broadcastInDim S524288x1 ![0] bcast_S524288_S524288x1_0 : (⟨S524288, .f32⟩ : BufTy).Contents (Elt F) → (⟨S524288x1, .f32⟩ : BufTy).Contents (Elt F)),
    unary main_v955 main_v963 (broadcastInDim S524288x1 ![0] bcast_S524288_S524288x1_0 : (⟨S524288, .f32⟩ : BufTy).Contents (Elt F) → (⟨S524288x1, .f32⟩ : BufTy).Contents (Elt F)),
    unary main_v954 main_v964 (broadcastInDim S524288x1 ![0] bcast_S524288_S524288x1_0 : (⟨S524288, .f32⟩ : BufTy).Contents (Elt F) → (⟨S524288x1, .f32⟩ : BufTy).Contents (Elt F)),
    nary ![main_v961, main_v962, main_v963, main_v964] main_v965 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v954 main_v966 (broadcastInDim S524288x1 ![0] bcast_S524288_S524288x1_0 : (⟨S524288, .f32⟩ : BufTy).Contents (Elt F) → (⟨S524288x1, .f32⟩ : BufTy).Contents (Elt F)),
    unary main_v952 main_v967 (broadcastInDim S524288x1 ![0] bcast_S524288_S524288x1_0 : (⟨S524288, .f32⟩ : BufTy).Contents (Elt F) → (⟨S524288x1, .f32⟩ : BufTy).Contents (Elt F)),
    unary main_v951 main_v968 (broadcastInDim S524288x1 ![0] bcast_S524288_S524288x1_0 : (⟨S524288, .f32⟩ : BufTy).Contents (Elt F) → (⟨S524288x1, .f32⟩ : BufTy).Contents (Elt F)),
    unary main_v954 main_v969 (broadcastInDim S524288x1 ![0] bcast_S524288_S524288x1_0 : (⟨S524288, .f32⟩ : BufTy).Contents (Elt F) → (⟨S524288x1, .f32⟩ : BufTy).Contents (Elt F)),
    nary ![main_v966, main_v967, main_v968, main_v969] main_v970 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v954 main_v971 (broadcastInDim S524288x1 ![0] bcast_S524288_S524288x1_0 : (⟨S524288, .f32⟩ : BufTy).Contents (Elt F) → (⟨S524288x1, .f32⟩ : BufTy).Contents (Elt F)),
    unary main_v954 main_v972 (broadcastInDim S524288x1 ![0] bcast_S524288_S524288x1_0 : (⟨S524288, .f32⟩ : BufTy).Contents (Elt F) → (⟨S524288x1, .f32⟩ : BufTy).Contents (Elt F)),
    unary main_v954 main_v973 (broadcastInDim S524288x1 ![0] bcast_S524288_S524288x1_0 : (⟨S524288, .f32⟩ : BufTy).Contents (Elt F) → (⟨S524288x1, .f32⟩ : BufTy).Contents (Elt F)),
    unary main_v953 main_v974 (broadcastInDim S524288x1 ![0] bcast_S524288_S524288x1_0 : (⟨S524288, .f32⟩ : BufTy).Contents (Elt F) → (⟨S524288x1, .f32⟩ : BufTy).Contents (Elt F)),
    nary ![main_v971, main_v972, main_v973, main_v974] main_v975 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v960 main_v976 (broadcastInDim S524288x1x4 ![0, 2] bcast_S524288x4_S524288x1x4_0_2 : (⟨S524288x4, .f32⟩ : BufTy).Contents (Elt F) → (⟨S524288x1x4, .f32⟩ : BufTy).Contents (Elt F)),
    unary main_v965 main_v977 (broadcastInDim S524288x1x4 ![0, 2] bcast_S524288x4_S524288x1x4_0_2 : (⟨S524288x4, .f32⟩ : BufTy).Contents (Elt F) → (⟨S524288x1x4, .f32⟩ : BufTy).Contents (Elt F)),
    unary main_v970 main_v978 (broadcastInDim S524288x1x4 ![0, 2] bcast_S524288x4_S524288x1x4_0_2 : (⟨S524288x4, .f32⟩ : BufTy).Contents (Elt F) → (⟨S524288x1x4, .f32⟩ : BufTy).Contents (Elt F)),
    unary main_v975 main_v979 (broadcastInDim S524288x1x4 ![0, 2] bcast_S524288x4_S524288x1x4_0_2 : (⟨S524288x4, .f32⟩ : BufTy).Contents (Elt F) → (⟨S524288x1x4, .f32⟩ : BufTy).Contents (Elt F)),
    nary ![main_v976, main_v977, main_v978, main_v979] main_v980 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1) ]
theorem pc51_sub : (pc51 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub ..⟩
theorem pc51_fresh : (pc51 : List (HloOp τ sig (Elt F))).Forall fun op => op.fresh = ∅ := by
  simp only [List.Forall]; repeat' constructor
/-- The references statements 1047 … 1080 write. -/
abbrev wr51 : List (Ref sig .tc) := [main_v949, main_v950, main_v951, main_v952, main_cst_95, main_v953, main_cst_96, main_v954, main_v955, main_v956, main_v957, main_v958, main_v959, main_v960, main_v961, main_v962, main_v963, main_v964, main_v965, main_v966, main_v967, main_v968, main_v969, main_v970, main_v971, main_v972, main_v973, main_v974, main_v975, main_v976, main_v977, main_v978, main_v979, main_v980]
theorem pc51_writes : (pc51 : List (HloOp τ sig (Elt F))).Forall fun op => op.writes ⊆ ((wr51).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1081 … 1081. -/
abbrev pc52 : List (HloOp τ sig (Elt F)) :=
  [ binary main_v948 main_v980 main_v981 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc52_sub : (pc52 : List (HloOp τ sig (Elt F))).Forall fun op => op.bufs ⊆ tcRefs τ sig :=
  binary_bufs_sub ..
theorem pc52_fresh : (pc52 : List (HloOp τ sig (Elt F))).Forall fun op => op.fresh = ∅ := by
  simp only [List.Forall]; repeat' constructor
/-- The references statements 1081 … 1081 write. -/
abbrev wr52 : List (Ref sig .tc) := [main_v981]
theorem pc52_writes : (pc52 : List (HloOp τ sig (Elt F))).Forall fun op => op.writes ⊆ ((wr52).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1082 … 1116. -/
abbrev pc53 : List (HloOp τ sig (Elt F)) :=
  [ unary main_v0 main_v982 ((extractStridedSlice S524288x1 ![0, 23] · slices_S524288x25_S524288x1_0_23) : (⟨S524288x25, .f32⟩ : BufTy).Contents (Elt F) → (⟨S524288x1, .f32⟩ : BufTy).Contents (Elt F)),
    reshape main_v982 main_v983 rfl shapeCasts_S524288x1_S524288,
    unary main_v983 main_v984 (Host.cos : (⟨S524288, .f32⟩ : BufTy).Contents (Elt F) → (⟨S524288, .f32⟩ : BufTy).Contents (Elt F)),
    unary main_v983 main_v985 (Host.sin : (⟨S524288, .f32⟩ : BufTy).Contents (Elt F) → (⟨S524288, .f32⟩ : BufTy).Contents (Elt F)),
    nullary main_cst_97 (constant S_ .f32 0x3F800000#32),
    unary main_cst_97 main_v986 (broadcastInDim S524288 ![] bcast_S_S524288 : (⟨S_, .f32⟩ : BufTy).Contents (Elt F) → (⟨S524288, .f32⟩ : BufTy).Contents (Elt F)),
    nullary main_cst_98 (constant S_ .f32 0x00000000#32),
    unary main_cst_98 main_v987 (broadcastInDim S524288 ![] bcast_S_S524288 : (⟨S_, .f32⟩ : BufTy).Contents (Elt F) → (⟨S524288, .f32⟩ : BufTy).Contents (Elt F)),
    unary main_v985 main_v988 (Host.negf : (⟨S524288, .f32⟩ : BufTy).Contents (Elt F) → (⟨S524288, .f32⟩ : BufTy).Contents (Elt F)),
    unary main_v984 main_v989 (broadcastInDim S524288x1 ![0] bcast_S524288_S524288x1_0 : (⟨S524288, .f32⟩ : BufTy).Contents (Elt F) → (⟨S524288x1, .f32⟩ : BufTy).Contents (Elt F)),
    unary main_v987 main_v990 (broadcastInDim S524288x1 ![0] bcast_S524288_S524288x1_0 : (⟨S524288, .f32⟩ : BufTy).Contents (Elt F) → (⟨S524288x1, .f32⟩ : BufTy).Contents (Elt F)),
    unary main_v985 main_v991 (broadcastInDim S524288x1 ![0] bcast_S524288_S524288x1_0 : (⟨S524288, .f32⟩ : BufTy).Contents (Elt F) → (⟨S524288x1, .f32⟩ : BufTy).Contents (Elt F)),
    unary main_v987 main_v992 (broadcastInDim S524288x1 ![0] bcast_S524288_S524288x1_0 : (⟨S524288, .f32⟩ : BufTy).Contents (Elt F) → (⟨S524288x1, .f32⟩ : BufTy).Contents (Elt F)),
    nary ![main_v989, main_v990, main_v991, main_v992] main_v993 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v987 main_v994 (broadcastInDim S524288x1 ![0] bcast_S524288_S524288x1_0 : (⟨S524288, .f32⟩ : BufTy).Contents (Elt F) → (⟨S524288x1, .f32⟩ : BufTy).Contents (Elt F)),
    unary main_v986 main_v995 (broadcastInDim S524288x1 ![0] bcast_S524288_S524288x1_0 : (⟨S524288, .f32⟩ : BufTy).Contents (Elt F) → (⟨S524288x1, .f32⟩ : BufTy).Contents (Elt F)),
    unary main_v987 main_v996 (broadcastInDim S524288x1 ![0] bcast_S524288_S524288x1_0 : (⟨S524288, .f32⟩ : BufTy).Contents (Elt F) → (⟨S524288x1, .f32⟩ : BufTy).Contents (Elt F)),
    unary main_v987 main_v997 (broadcastInDim S524288x1 ![0] bcast_S524288_S524288x1_0 : (⟨S524288, .f32⟩ : BufTy).Contents (Elt F) → (⟨S524288x1, .f32⟩ : BufTy).Contents (Elt F)),
    nary ![main_v994, main_v995, main_v996, main_v997] main_v998 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v988 main_v999 (broadcastInDim S524288x1 ![0] bcast_S524288_S524288x1_0 : (⟨S524288, .f32⟩ : BufTy).Contents (Elt F) → (⟨S524288x1, .f32⟩ : BufTy).Contents (Elt F)),
    unary main_v987 main_v1000 (broadcastInDim S524288x1 ![0] bcast_S524288_S524288x1_0 : (⟨S524288, .f32⟩ : BufTy).Contents (Elt F) → (⟨S524288x1, .f32⟩ : BufTy).Contents (Elt F)),
    unary main_v984 main_v1001 (broadcastInDim S524288x1 ![0] bcast_S524288_S524288x1_0 : (⟨S524288, .f32⟩ : BufTy).Contents (Elt F) → (⟨S524288x1, .f32⟩ : BufTy).Contents (Elt F)),
    unary main_v987 main_v1002 (broadcastInDim S524288x1 ![0] bcast_S524288_S524288x1_0 : (⟨S524288, .f32⟩ : BufTy).Contents (Elt F) → (⟨S524288x1, .f32⟩ : BufTy).Contents (Elt F)),
    nary ![main_v999, main_v1000, main_v1001, main_v1002] main_v1003 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v987 main_v1004 (broadcastInDim S524288x1 ![0] bcast_S524288_S524288x1_0 : (⟨S524288, .f32⟩ : BufTy).Contents (Elt F) → (⟨S524288x1, .f32⟩ : BufTy).Contents (Elt F)),
    unary main_v987 main_v1005 (broadcastInDim S524288x1 ![0] bcast_S524288_S524288x1_0 : (⟨S524288, .f32⟩ : BufTy).Contents (Elt F) → (⟨S524288x1, .f32⟩ : BufTy).Contents (Elt F)),
    unary main_v987 main_v1006 (broadcastInDim S524288x1 ![0] bcast_S524288_S524288x1_0 : (⟨S524288, .f32⟩ : BufTy).Contents (Elt F) → (⟨S524288x1, .f32⟩ : BufTy).Contents (Elt F)),
    unary main_v986 main_v1007 (broadcastInDim S524288x1 ![0] bcast_S524288_S524288x1_0 : (⟨S524288, .f32⟩ : BufTy).Contents (Elt F) → (⟨S524288x1, .f32⟩ : BufTy).Contents (Elt F)),
    nary ![main_v1004, main_v1005, main_v1006, main_v1007] main_v1008 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v993 main_v1009 (broadcastInDim S524288x1x4 ![0, 2] bcast_S524288x4_S524288x1x4_0_2 : (⟨S524288x4, .f32⟩ : BufTy).Contents (Elt F) → (⟨S524288x1x4, .f32⟩ : BufTy).Contents (Elt F)),
    unary main_v998 main_v1010 (broadcastInDim S524288x1x4 ![0, 2] bcast_S524288x4_S524288x1x4_0_2 : (⟨S524288x4, .f32⟩ : BufTy).Contents (Elt F) → (⟨S524288x1x4, .f32⟩ : BufTy).Contents (Elt F)),
    unary main_v1003 main_v1011 (broadcastInDim S524288x1x4 ![0, 2] bcast_S524288x4_S524288x1x4_0_2 : (⟨S524288x4, .f32⟩ : BufTy).Contents (Elt F) → (⟨S524288x1x4, .f32⟩ : BufTy).Contents (Elt F)),
    unary main_v1008 main_v1012 (broadcastInDim S524288x1x4 ![0, 2] bcast_S524288x4_S524288x1x4_0_2 : (⟨S524288x4, .f32⟩ : BufTy).Contents (Elt F) → (⟨S524288x1x4, .f32⟩ : BufTy).Contents (Elt F)),
    nary ![main_v1009, main_v1010, main_v1011, main_v1012] main_v1013 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v981 main_v1013 main_v1014 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc53_sub : (pc53 : List (HloOp τ sig (Elt F))).Forall fun op => op.bufs ⊆ tcRefs τ sig :=
  ⟨unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc53_fresh : (pc53 : List (HloOp τ sig (Elt F))).Forall fun op => op.fresh = ∅ := by
  simp only [List.Forall]; repeat' constructor
/-- The references statements 1082 … 1116 write. -/
abbrev wr53 : List (Ref sig .tc) := [main_v982, main_v983, main_v984, main_v985, main_cst_97, main_v986, main_cst_98, main_v987, main_v988, main_v989, main_v990, main_v991, main_v992, main_v993, main_v994, main_v995, main_v996, main_v997, main_v998, main_v999, main_v1000, main_v1001, main_v1002, main_v1003, main_v1004, main_v1005, main_v1006, main_v1007, main_v1008, main_v1009, main_v1010, main_v1011, main_v1012, main_v1013, main_v1014]
theorem pc53_writes : (pc53 : List (HloOp τ sig (Elt F))).Forall fun op => op.writes ⊆ ((wr53).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1117 … 1137. -/
abbrev pc54 : List (HloOp τ sig (Elt F)) :=
  [ unary main_cst main_v1015 ((extractStridedSlice S1 ![7] · slices_S9_S1_7) : (⟨S9, .f32⟩ : BufTy).Contents (Elt F) → (⟨S1, .f32⟩ : BufTy).Contents (Elt F)),
    reshape main_v1015 main_v1016 rfl shapeCasts_S1_S_,
    nullary main_cst_99 (constant S_ .f32 0xBF800000#32),
    binary main_cst_99 main_v1016 main_v1017 (mulf : (⟨S_, .f32⟩ : BufTy).Contents (Elt F) → (⟨S_, .f32⟩ : BufTy).Contents (Elt F) → (⟨S_, .f32⟩ : BufTy).Contents (Elt F)),
    unary main_v1017 main_v1018 (broadcastInDim S524288 ![] bcast_S_S524288 : (⟨S_, .f32⟩ : BufTy).Contents (Elt F) → (⟨S524288, .f32⟩ : BufTy).Contents (Elt F)),
    binary main_v1018 main_v2 main_v1019 (mulf : (⟨S524288, .f32⟩ : BufTy).Contents (Elt F) → (⟨S524288, .f32⟩ : BufTy).Contents (Elt F) → (⟨S524288, .f32⟩ : BufTy).Contents (Elt F)),
    nullary main_v1020 (iotaInDim S4x4 32 0),
    nullary main_v1021 (iotaInDim S4x4 32 1),
    nullary main_c_100 (constantI S_ 32 0#32),
    unary main_c_100 main_v1022 (broadcastInDim S4x4 ![] bcast_S_S4x4 : (⟨S_, .i32⟩ : BufTy).Contents (Elt F) → (⟨S4x4, .i32⟩ : BufTy).Contents (Elt F)),
    binary main_v1020 main_v1022 main_v1023 (addi : (⟨S4x4, .i32⟩ : BufTy).Contents (Elt F) → (⟨S4x4, .i32⟩ : BufTy).Contents (Elt F) → (⟨S4x4, .i32⟩ : BufTy).Contents (Elt F)),
    binary main_v1023 main_v1021 main_v1024 (cmpi .eq : (⟨S4x4, .i32⟩ : BufTy).Contents (Elt F) → (⟨S4x4, .i32⟩ : BufTy).Contents (Elt F) → (⟨S4x4, .i1⟩ : BufTy).Contents (Elt F)),
    unary main_v1024 main_v1025 (uitofp .f32 : (⟨S4x4, .i1⟩ : BufTy).Contents (Elt F) → (⟨S4x4, .f32⟩ : BufTy).Contents (Elt F)),
    unary main_v1025 main_v1026 (broadcastInDim S524288x4x4 ![1, 2] bcast_S4x4_S524288x4x4_1_2 : (⟨S4x4, .f32⟩ : BufTy).Contents (Elt F) → (⟨S524288x4x4, .f32⟩ : BufTy).Contents (Elt F)),
    nullary main_c_101 (constantI S_ 32 1#32),
    unary main_c_101 main_v1027 (broadcastInDim S1 ![] bcast_S_S1 : (⟨S_, .i32⟩ : BufTy).Contents (Elt F) → (⟨S1, .i32⟩ : BufTy).Contents (Elt F)),
    nullary main_c_102 (constantI S_ 32 3#32),
    unary main_c_102 main_v1028 (broadcastInDim S1 ![] bcast_S_S1 : (⟨S_, .i32⟩ : BufTy).Contents (Elt F) → (⟨S1, .i32⟩ : BufTy).Contents (Elt F)),
    binary main_v1027 main_v1028 main_v1029 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v1026 main_v1029 main_v1019 main_v1030 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v1014 main_v1030 main_v1031 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc54_sub : (pc54 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc54_fresh : (pc54 : List (HloOp τ sig (Elt F))).Forall fun op => op.fresh = ∅ := by
  simp only [List.Forall]; repeat' constructor
/-- The references statements 1117 … 1137 write. -/
abbrev wr54 : List (Ref sig .tc) := [main_v1015, main_v1016, main_cst_99, main_v1017, main_v1018, main_v1019, main_v1020, main_v1021, main_c_100, main_v1022, main_v1023, main_v1024, main_v1025, main_v1026, main_c_101, main_v1027, main_c_102, main_v1028, main_v1029, main_v1030, main_v1031]
theorem pc54_writes : (pc54 : List (HloOp τ sig (Elt F))).Forall fun op => op.writes ⊆ ((wr54).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1138 … 1140. -/
abbrev pc55 : List (HloOp τ sig (Elt F)) :=
  [ unary main_v0 main_v1032 ((extractStridedSlice S524288x1 ![0, 24] · slices_S524288x25_S524288x1_0_24) : (⟨S524288x25, .f32⟩ : BufTy).Contents (Elt F) → (⟨S524288x1, .f32⟩ : BufTy).Contents (Elt F)),
    reshape main_v1032 main_v1033 rfl shapeCasts_S524288x1_S524288,
    unary main_v1033 main_v1034 (Host.cos : (⟨S524288, .f32⟩ : BufTy).Contents (Elt F) → (⟨S524288, .f32⟩ : BufTy).Contents (Elt F)) ]
theorem pc55_sub : (pc55 : List (HloOp τ sig (Elt F))).Forall fun op => op.bufs ⊆ tcRefs τ sig :=
  ⟨unary_bufs_sub .., reshape_bufs_sub .., unary_bufs_sub ..⟩
theorem pc55_fresh : (pc55 : List (HloOp τ sig (Elt F))).Forall fun op => op.fresh = ∅ := by
  simp only [List.Forall]; repeat' constructor
/-- The references statements 1138 … 1140 write. -/
abbrev wr55 : List (Ref sig .tc) := [main_v1032, main_v1033, main_v1034]
theorem pc55_writes : (pc55 : List (HloOp τ sig (Elt F))).Forall fun op => op.writes ⊆ ((wr55).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1141 … 1172. -/
abbrev pc56 : List (HloOp τ sig (Elt F)) :=
  [ unary main_v1033 main_v1035 (Host.sin : (⟨S524288, .f32⟩ : BufTy).Contents (Elt F) → (⟨S524288, .f32⟩ : BufTy).Contents (Elt F)),
    nullary main_cst_103 (constant S_ .f32 0x3F800000#32),
    unary main_cst_103 main_v1036 (broadcastInDim S524288 ![] bcast_S_S524288 : (⟨S_, .f32⟩ : BufTy).Contents (Elt F) → (⟨S524288, .f32⟩ : BufTy).Contents (Elt F)),
    nullary main_cst_104 (constant S_ .f32 0x00000000#32),
    unary main_cst_104 main_v1037 (broadcastInDim S524288 ![] bcast_S_S524288 : (⟨S_, .f32⟩ : BufTy).Contents (Elt F) → (⟨S524288, .f32⟩ : BufTy).Contents (Elt F)),
    unary main_v1035 main_v1038 (Host.negf : (⟨S524288, .f32⟩ : BufTy).Contents (Elt F) → (⟨S524288, .f32⟩ : BufTy).Contents (Elt F)),
    unary main_v1036 main_v1039 (broadcastInDim S524288x1 ![0] bcast_S524288_S524288x1_0 : (⟨S524288, .f32⟩ : BufTy).Contents (Elt F) → (⟨S524288x1, .f32⟩ : BufTy).Contents (Elt F)),
    unary main_v1037 main_v1040 (broadcastInDim S524288x1 ![0] bcast_S524288_S524288x1_0 : (⟨S524288, .f32⟩ : BufTy).Contents (Elt F) → (⟨S524288x1, .f32⟩ : BufTy).Contents (Elt F)),
    unary main_v1037 main_v1041 (broadcastInDim S524288x1 ![0] bcast_S524288_S524288x1_0 : (⟨S524288, .f32⟩ : BufTy).Contents (Elt F) → (⟨S524288x1, .f32⟩ : BufTy).Contents (Elt F)),
    unary main_v1037 main_v1042 (broadcastInDim S524288x1 ![0] bcast_S524288_S524288x1_0 : (⟨S524288, .f32⟩ : BufTy).Contents (Elt F) → (⟨S524288x1, .f32⟩ : BufTy).Contents (Elt F)),
    nary ![main_v1039, main_v1040, main_v1041, main_v1042] main_v1043 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v1037 main_v1044 (broadcastInDim S524288x1 ![0] bcast_S524288_S524288x1_0 : (⟨S524288, .f32⟩ : BufTy).Contents (Elt F) → (⟨S524288x1, .f32⟩ : BufTy).Contents (Elt F)),
    unary main_v1034 main_v1045 (broadcastInDim S524288x1 ![0] bcast_S524288_S524288x1_0 : (⟨S524288, .f32⟩ : BufTy).Contents (Elt F) → (⟨S524288x1, .f32⟩ : BufTy).Contents (Elt F)),
    unary main_v1038 main_v1046 (broadcastInDim S524288x1 ![0] bcast_S524288_S524288x1_0 : (⟨S524288, .f32⟩ : BufTy).Contents (Elt F) → (⟨S524288x1, .f32⟩ : BufTy).Contents (Elt F)),
    unary main_v1037 main_v1047 (broadcastInDim S524288x1 ![0] bcast_S524288_S524288x1_0 : (⟨S524288, .f32⟩ : BufTy).Contents (Elt F) → (⟨S524288x1, .f32⟩ : BufTy).Contents (Elt F)),
    nary ![main_v1044, main_v1045, main_v1046, main_v1047] main_v1048 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v1037 main_v1049 (broadcastInDim S524288x1 ![0] bcast_S524288_S524288x1_0 : (⟨S524288, .f32⟩ : BufTy).Contents (Elt F) → (⟨S524288x1, .f32⟩ : BufTy).Contents (Elt F)),
    unary main_v1035 main_v1050 (broadcastInDim S524288x1 ![0] bcast_S524288_S524288x1_0 : (⟨S524288, .f32⟩ : BufTy).Contents (Elt F) → (⟨S524288x1, .f32⟩ : BufTy).Contents (Elt F)),
    unary main_v1034 main_v1051 (broadcastInDim S524288x1 ![0] bcast_S524288_S524288x1_0 : (⟨S524288, .f32⟩ : BufTy).Contents (Elt F) → (⟨S524288x1, .f32⟩ : BufTy).Contents (Elt F)),
    unary main_v1037 main_v1052 (broadcastInDim S524288x1 ![0] bcast_S524288_S524288x1_0 : (⟨S524288, .f32⟩ : BufTy).Contents (Elt F) → (⟨S524288x1, .f32⟩ : BufTy).Contents (Elt F)),
    nary ![main_v1049, main_v1050, main_v1051, main_v1052] main_v1053 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v1037 main_v1054 (broadcastInDim S524288x1 ![0] bcast_S524288_S524288x1_0 : (⟨S524288, .f32⟩ : BufTy).Contents (Elt F) → (⟨S524288x1, .f32⟩ : BufTy).Contents (Elt F)),
    unary main_v1037 main_v1055 (broadcastInDim S524288x1 ![0] bcast_S524288_S524288x1_0 : (⟨S524288, .f32⟩ : BufTy).Contents (Elt F) → (⟨S524288x1, .f32⟩ : BufTy).Contents (Elt F)),
    unary main_v1037 main_v1056 (broadcastInDim S524288x1 ![0] bcast_S524288_S524288x1_0 : (⟨S524288, .f32⟩ : BufTy).Contents (Elt F) → (⟨S524288x1, .f32⟩ : BufTy).Contents (Elt F)),
    unary main_v1036 main_v1057 (broadcastInDim S524288x1 ![0] bcast_S524288_S524288x1_0 : (⟨S524288, .f32⟩ : BufTy).Contents (Elt F) → (⟨S524288x1, .f32⟩ : BufTy).Contents (Elt F)),
    nary ![main_v1054, main_v1055, main_v1056, main_v1057] main_v1058 (fun u => concatenate S524288x4 1 [⟨S524288x1, u 0⟩, ⟨S524288x1, u 1⟩, ⟨S524288x1, u 2⟩, ⟨S524288x1, u 3⟩] concatenates_S524288x1_S524288x1_S524288x1_S524288x1_S524288x4_d1),
    unary main_v1043 main_v1059 (broadcastInDim S524288x1x4 ![0, 2] bcast_S524288x4_S524288x1x4_0_2 : (⟨S524288x4, .f32⟩ : BufTy).Contents (Elt F) → (⟨S524288x1x4, .f32⟩ : BufTy).Contents (Elt F)),
    unary main_v1048 main_v1060 (broadcastInDim S524288x1x4 ![0, 2] bcast_S524288x4_S524288x1x4_0_2 : (⟨S524288x4, .f32⟩ : BufTy).Contents (Elt F) → (⟨S524288x1x4, .f32⟩ : BufTy).Contents (Elt F)),
    unary main_v1053 main_v1061 (broadcastInDim S524288x1x4 ![0, 2] bcast_S524288x4_S524288x1x4_0_2 : (⟨S524288x4, .f32⟩ : BufTy).Contents (Elt F) → (⟨S524288x1x4, .f32⟩ : BufTy).Contents (Elt F)),
    unary main_v1058 main_v1062 (broadcastInDim S524288x1x4 ![0, 2] bcast_S524288x4_S524288x1x4_0_2 : (⟨S524288x4, .f32⟩ : BufTy).Contents (Elt F) → (⟨S524288x1x4, .f32⟩ : BufTy).Contents (Elt F)),
    nary ![main_v1059, main_v1060, main_v1061, main_v1062] main_v1063 (fun u => concatenate S524288x4x4 1 [⟨S524288x1x4, u 0⟩, ⟨S524288x1x4, u 1⟩, ⟨S524288x1x4, u 2⟩, ⟨S524288x1x4, u 3⟩] concatenates_S524288x1x4_S524288x1x4_S524288x1x4_S524288x1x4_S524288x4x4_d1),
    binary main_v1031 main_v1063 main_v1064 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc56_sub : (pc56 : List (HloOp τ sig (Elt F))).Forall fun op => op.bufs ⊆ tcRefs τ sig :=
  ⟨unary_bufs_sub .., nullary_bufs_sub .., unary_bufs_sub .., nullary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., binary_bufs_sub ..⟩
theorem pc56_fresh : (pc56 : List (HloOp τ sig (Elt F))).Forall fun op => op.fresh = ∅ := by
  simp only [List.Forall]; repeat' constructor
/-- The references statements 1141 … 1172 write. -/
abbrev wr56 : List (Ref sig .tc) := [main_v1035, main_cst_103, main_v1036, main_cst_104, main_v1037, main_v1038, main_v1039, main_v1040, main_v1041, main_v1042, main_v1043, main_v1044, main_v1045, main_v1046, main_v1047, main_v1048, main_v1049, main_v1050, main_v1051, main_v1052, main_v1053, main_v1054, main_v1055, main_v1056, main_v1057, main_v1058, main_v1059, main_v1060, main_v1061, main_v1062, main_v1063, main_v1064]
theorem pc56_writes : (pc56 : List (HloOp τ sig (Elt F))).Forall fun op => op.writes ⊆ ((wr56).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1173 … 1193. -/
abbrev pc57 : List (HloOp τ sig (Elt F)) :=
  [ unary main_cst main_v1065 ((extractStridedSlice S1 ![6] · slices_S9_S1_6) : (⟨S9, .f32⟩ : BufTy).Contents (Elt F) → (⟨S1, .f32⟩ : BufTy).Contents (Elt F)),
    reshape main_v1065 main_v1066 rfl shapeCasts_S1_S_,
    nullary main_cst_105 (constant S_ .f32 0xBF800000#32),
    binary main_cst_105 main_v1066 main_v1067 (mulf : (⟨S_, .f32⟩ : BufTy).Contents (Elt F) → (⟨S_, .f32⟩ : BufTy).Contents (Elt F) → (⟨S_, .f32⟩ : BufTy).Contents (Elt F)),
    unary main_v1067 main_v1068 (broadcastInDim S524288 ![] bcast_S_S524288 : (⟨S_, .f32⟩ : BufTy).Contents (Elt F) → (⟨S524288, .f32⟩ : BufTy).Contents (Elt F)),
    binary main_v1068 main_v2 main_v1069 (mulf : (⟨S524288, .f32⟩ : BufTy).Contents (Elt F) → (⟨S524288, .f32⟩ : BufTy).Contents (Elt F) → (⟨S524288, .f32⟩ : BufTy).Contents (Elt F)),
    nullary main_v1070 (iotaInDim S4x4 32 0),
    nullary main_v1071 (iotaInDim S4x4 32 1),
    nullary main_c_106 (constantI S_ 32 0#32),
    unary main_c_106 main_v1072 (broadcastInDim S4x4 ![] bcast_S_S4x4 : (⟨S_, .i32⟩ : BufTy).Contents (Elt F) → (⟨S4x4, .i32⟩ : BufTy).Contents (Elt F)),
    binary main_v1070 main_v1072 main_v1073 (addi : (⟨S4x4, .i32⟩ : BufTy).Contents (Elt F) → (⟨S4x4, .i32⟩ : BufTy).Contents (Elt F) → (⟨S4x4, .i32⟩ : BufTy).Contents (Elt F)),
    binary main_v1073 main_v1071 main_v1074 (cmpi .eq : (⟨S4x4, .i32⟩ : BufTy).Contents (Elt F) → (⟨S4x4, .i32⟩ : BufTy).Contents (Elt F) → (⟨S4x4, .i1⟩ : BufTy).Contents (Elt F)),
    unary main_v1074 main_v1075 (uitofp .f32 : (⟨S4x4, .i1⟩ : BufTy).Contents (Elt F) → (⟨S4x4, .f32⟩ : BufTy).Contents (Elt F)),
    unary main_v1075 main_v1076 (broadcastInDim S524288x4x4 ![1, 2] bcast_S4x4_S524288x4x4_1_2 : (⟨S4x4, .f32⟩ : BufTy).Contents (Elt F) → (⟨S524288x4x4, .f32⟩ : BufTy).Contents (Elt F)),
    nullary main_c_107 (constantI S_ 32 1#32),
    unary main_c_107 main_v1077 (broadcastInDim S1 ![] bcast_S_S1 : (⟨S_, .i32⟩ : BufTy).Contents (Elt F) → (⟨S1, .i32⟩ : BufTy).Contents (Elt F)),
    nullary main_c_108 (constantI S_ 32 3#32),
    unary main_c_108 main_v1078 (broadcastInDim S1 ![] bcast_S_S1 : (⟨S_, .i32⟩ : BufTy).Contents (Elt F) → (⟨S1, .i32⟩ : BufTy).Contents (Elt F)),
    binary main_v1077 main_v1078 main_v1079 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v1076 main_v1079 main_v1069 main_v1080 ((fun x i u => Host.scatter scatter_S524288x4x4_S2_S524288_0_12_12_0 (fun _ b => b) x i u) : (⟨S524288x4x4, .f32⟩ : BufTy).Contents (Elt F) → (⟨S2, .i32⟩ : BufTy).Contents (Elt F) → (⟨S524288, .f32⟩ : BufTy).Contents (Elt F) → (⟨S524288x4x4, .f32⟩ : BufTy).Contents (Elt F)),
    binary main_v1064 main_v1080 main_v1081 ((fun l r => Host.dotGeneral dot_S524288x4x4_S524288x4x4_S524288x4x4_2_1_1_2_0_0 none l r) : (⟨S524288x4x4, .f32⟩ : BufTy).Contents (Elt F) → (⟨S524288x4x4, .f32⟩ : BufTy).Contents (Elt F) → (⟨S524288x4x4, .f32⟩ : BufTy).Contents (Elt F)) ]
theorem pc57_sub : (pc57 : List (HloOp τ sig (Elt F))).Forall fun op => op.bufs ⊆ tcRefs τ sig :=
  ⟨unary_bufs_sub .., reshape_bufs_sub .., nullary_bufs_sub .., binary_bufs_sub .., unary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., nullary_bufs_sub .., unary_bufs_sub .., binary_bufs_sub .., ternary_bufs_sub .., binary_bufs_sub ..⟩
theorem pc57_fresh : (pc57 : List (HloOp τ sig (Elt F))).Forall fun op => op.fresh = ∅ := by
  simp only [List.Forall]; repeat' constructor
/-- The references statements 1173 … 1193 write. -/
abbrev wr57 : List (Ref sig .tc) := [main_v1065, main_v1066, main_cst_105, main_v1067, main_v1068, main_v1069, main_v1070, main_v1071, main_c_106, main_v1072, main_v1073, main_v1074, main_v1075, main_v1076, main_c_107, main_v1077, main_c_108, main_v1078, main_v1079, main_v1080, main_v1081]
theorem pc57_writes : (pc57 : List (HloOp τ sig (Elt F))).Forall fun op => op.writes ⊆ ((wr57).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1194 … 1200. -/
abbrev pc58 : List (HloOp τ sig (Elt F)) :=
  [ unary main_v100 main_v1082 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v183 main_v1083 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v299 main_v1084 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v349 main_v1085 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v366 main_v1086 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v482 main_v1087 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v532 main_v1088 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)) ]
theorem pc58_sub : (pc58 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub ..⟩
theorem pc58_fresh : (pc58 : List (HloOp τ sig (Elt F))).Forall fun op => op.fresh = ∅ := by
  simp only [List.Forall]; repeat' constructor
/-- The references statements 1194 … 1200 write. -/
abbrev wr58 : List (Ref sig .tc) := [main_v1082, main_v1083, main_v1084, main_v1085, main_v1086, main_v1087, main_v1088]
theorem pc58_writes : (pc58 : List (HloOp τ sig (Elt F))).Forall fun op => op.writes ⊆ ((wr58).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

/-- Statements 1201 … 1222. -/
abbrev pc59 : List (HloOp τ sig (Elt F)) :=
  [ unary main_v549 main_v1089 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v665 main_v1090 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v715 main_v1091 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v732 main_v1092 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v848 main_v1093 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v898 main_v1094 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v915 main_v1095 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v1031 main_v1096 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    unary main_v1081 main_v1097 (broadcastInDim S524288x1x4x4 ![0, 2, 3] bcast_S524288x4x4_S524288x1x4x4_0_2_3 : (⟨S524288x4x4, .f32⟩ : BufTy).Contents (Elt F) → (⟨S524288x1x4x4, .f32⟩ : BufTy).Contents (Elt F)),
    nary ![main_v1082, main_v1083, main_v1084, main_v1085, main_v1086, main_v1087, main_v1088, main_v1089, main_v1090, main_v1091, main_v1092, main_v1093, main_v1094, main_v1095, main_v1096, main_v1097] main_v1098 (fun u => concatenate S524288x16x4x4 1 [⟨S524288x1x4x4, u 0⟩, ⟨S524288x1x4x4, u 1⟩, ⟨S524288x1x4x4, u 2⟩, ⟨S524288x1x4x4, u 3⟩, ⟨S524288x1x4x4, u 4⟩, ⟨S524288x1x4x4, u 5⟩, ⟨S524288x1x4x4, u 6⟩, ⟨S524288x1x4x4, u 7⟩, ⟨S524288x1x4x4, u 8⟩, ⟨S524288x1x4x4, u 9⟩, ⟨S524288x1x4x4, u 10⟩, ⟨S524288x1x4x4, u 11⟩, ⟨S524288x1x4x4, u 12⟩, ⟨S524288x1x4x4, u 13⟩, ⟨S524288x1x4x4, u 14⟩, ⟨S524288x1x4x4, u 15⟩] concatenates_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x16x4x4_d1),
    unary main_v1098 main_v1099 ((extractStridedSlice S524288x16x3x1 ![0, 0, 0, 3] · slices_S524288x16x4x4_S524288x16x3x1_0_0_0_3) : (⟨S524288x16x4x4, .f32⟩ : BufTy).Contents (Elt F) → (⟨S524288x16x3x1, .f32⟩ : BufTy).Contents (Elt F)),
    reshape main_v1099 main_v1100 rfl shapeCasts_S524288x16x3x1_S524288x16x3,
    unary main_v1100 main_v1101 ((extractStridedSlice S524288x1x3 ![0, 8, 0] · slices_S524288x16x3_S524288x1x3_0_8_0) : (⟨S524288x16x3, .f32⟩ : BufTy).Contents (Elt F) → (⟨S524288x1x3, .f32⟩ : BufTy).Contents (Elt F)),
    reshape main_v1101 main_v1102 rfl shapeCasts_S524288x1x3_S524288x3,
    unary main_v1100 main_v1103 ((extractStridedSlice S524288x1x3 ![0, 6, 0] · slices_S524288x16x3_S524288x1x3_0_6_0) : (⟨S524288x16x3, .f32⟩ : BufTy).Contents (Elt F) → (⟨S524288x1x3, .f32⟩ : BufTy).Contents (Elt F)),
    reshape main_v1103 main_v1104 rfl shapeCasts_S524288x1x3_S524288x3,
    binary main_v1102 main_v1104 main_v1105 (addf : (⟨S524288x3, .f32⟩ : BufTy).Contents (Elt F) → (⟨S524288x3, .f32⟩ : BufTy).Contents (Elt F) → (⟨S524288x3, .f32⟩ : BufTy).Contents (Elt F)),
    nullary main_cst_109 (constant S_ .f32 0x3F000000#32),
    unary main_cst_109 main_v1106 (broadcastInDim S524288x3 ![] bcast_S_S524288x3 : (⟨S_, .f32⟩ : BufTy).Contents (Elt F) → (⟨S524288x3, .f32⟩ : BufTy).Contents (Elt F)),
    binary main_v1106 main_v1105 main_v1107 (mulf : (⟨S524288x3, .f32⟩ : BufTy).Contents (Elt F) → (⟨S524288x3, .f32⟩ : BufTy).Contents (Elt F) → (⟨S524288x3, .f32⟩ : BufTy).Contents (Elt F)),
    reshape main_v1100 main_v1108 rfl shapeCasts_S524288x16x3_S524288x48,
    binary main_v1108 main_v1107 main_v1109 ((fun a b => concatenate S524288x51 1 [⟨S524288x48, a⟩, ⟨S524288x3, b⟩] concatenates_S524288x48_S524288x3_S524288x51_d1) : (⟨S524288x48, .f32⟩ : BufTy).Contents (Elt F) → (⟨S524288x3, .f32⟩ : BufTy).Contents (Elt F) → (⟨S524288x51, .f32⟩ : BufTy).Contents (Elt F)) ]
theorem pc59_sub : (pc59 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., nary_bufs_sub .., unary_bufs_sub .., reshape_bufs_sub .., unary_bufs_sub .., reshape_bufs_sub .., unary_bufs_sub .., reshape_bufs_sub .., binary_bufs_sub .., nullary_bufs_sub .., unary_bufs_sub .., binary_bufs_sub .., reshape_bufs_sub .., binary_bufs_sub ..⟩
theorem pc59_fresh : (pc59 : List (HloOp τ sig (Elt F))).Forall fun op => op.fresh = ∅ := by
  simp only [List.Forall]; repeat' constructor
/-- The references statements 1201 … 1222 write. -/
abbrev wr59 : List (Ref sig .tc) := [main_v1089, main_v1090, main_v1091, main_v1092, main_v1093, main_v1094, main_v1095, main_v1096, main_v1097, main_v1098, main_v1099, main_v1100, main_v1101, main_v1102, main_v1103, main_v1104, main_v1105, main_cst_109, main_v1106, main_v1107, main_v1108, main_v1109]
theorem pc59_writes : (pc59 : List (HloOp τ sig (Elt F))).Forall fun op => op.writes ⊆ ((wr59).map (Proc.devRef (τ := τ) .tc)).toFinset := by
  simp only [List.Forall, nullary_writes, unary_writes, binary_writes, ternary_writes, reshape_writes, nary_writes]
  repeat' apply And.intro
  all_goals (intro b hb; rw [Finset.mem_singleton] at hb; subst hb; simp only [List.map_cons, List.map_nil, List.toFinset_cons, List.toFinset_nil, Finset.mem_insert, true_or, or_true])

end Cert.ReferenceIdeal.Hand

end
-- ==== Proof.RefBlocks.lean ====
/-
  The reference's arrays, block by block, as functions of arrays.

  The reference builds, for every sample b at once, 4×4 matrices as arrays [524288, 4, 4]: a rotation matrix is four
  rows, each a concatenation of four columns [524288, 1] (a cosine, a sine, its negative, a broadcast one or zero),
  stacked along a new middle axis; a translation matrix is the broadcast 4×4 identity (an iota compared with an iota)
  with one scattered entry: element (a, 3) of every sample's matrix replaced by
  that sample's bone length; a pose is a batched product of such arrays; the result gathers the last column of
  sixteen poses. Each definition below is one such block, spelt with the operations the reference uses, so that a
  stretch of the reference's operations leaves exactly these terms.
-/
import proofs.«164878_j3058016714901_2_alg».proof.Proof.Gen.ReferenceIdeal
import Idealize.ShloMosaic.PureOps.Ideal

noncomputable section

namespace Cert.ReferenceIdeal.Blocks

open Cert.ReferenceIdeal Cert.ReferenceIdeal.Gen Idealize.ShloMosaic

/-- A broadcast word: the same number for every sample. -/
def wordA (w : BitVec 32) : FVec Ideal S524288 .f32 :=
  broadcastInDim S524288 ![] bcast_S_S524288 (constant (F := Ideal) S_ .f32 w)

/-- Column k of the angles [524288, 25], as a vector over the samples. -/
def colA (v0 : FVec Ideal S524288x25 .f32) (k : Nat) (h : S524288x25.Slices ![0, k] S524288x1) : FVec Ideal S524288 .f32 :=
  shapeCast S524288 (extractStridedSlice S524288x1 ![0, k] v0 h) shapeCasts_S524288x1_S524288

/-- One row of a matrix: four per-sample numbers side by side. -/
def row4 (a b c d : FVec Ideal S524288 .f32) : FVec Ideal S524288x4 .f32 :=
  concatenate S524288x4 1
    [⟨S524288x1, broadcastInDim S524288x1 ![0] bcast_S524288_S524288x1_0 a⟩, ⟨S524288x1, broadcastInDim S524288x1 ![0] bcast_S524288_S524288x1_0 b⟩,
     ⟨S524288x1, broadcastInDim S524288x1 ![0] bcast_S524288_S524288x1_0 c⟩, ⟨S524288x1, broadcastInDim S524288x1 ![0] bcast_S524288_S524288x1_0 d⟩]
    concatenates_S524288x1_S524288x1_S524288x1_S524288x1_S524288x4_d1

/-- Four rows stacked into a matrix per sample. -/
def mat4 (r0 r1 r2 r3 : FVec Ideal S524288x4 .f32) : FVec Ideal S524288x4x4 .f32 :=
  concatenate S524288x4x4 1
    [⟨S524288x1x4, broadcastInDim S524288x1x4 ![0, 2] bcast_S524288x4_S524288x1x4_0_2 r0⟩, ⟨S524288x1x4, broadcastInDim S524288x1x4 ![0, 2] bcast_S524288x4_S524288x1x4_0_2 r1⟩,
     ⟨S524288x1x4, broadcastInDim S524288x1x4 ![0, 2] bcast_S524288x4_S524288x1x4_0_2 r2⟩, ⟨S524288x1x4, broadcastInDim S524288x1x4 ![0, 2] bcast_S524288x4_S524288x1x4_0_2 r3⟩]
    concatenates_S524288x1x4_S524288x1x4_S524288x1x4_S524288x1x4_S524288x4x4_d1

abbrev oneA : FVec Ideal S524288 .f32 := wordA 0x3F800000#32
abbrev zeroA : FVec Ideal S524288 .f32 := wordA 0x00000000#32

/-- The rotation about z by each sample's angle. -/
def rotZA (a : FVec Ideal S524288 .f32) : FVec Ideal S524288x4x4 .f32 :=
  mat4 (row4 (Host.cos a) (Host.negf (Host.sin a)) zeroA zeroA) (row4 (Host.sin a) (Host.cos a) zeroA zeroA)
    (row4 zeroA zeroA oneA zeroA) (row4 zeroA zeroA zeroA oneA)
/-- The rotation about x. -/
def rotXA (a : FVec Ideal S524288 .f32) : FVec Ideal S524288x4x4 .f32 :=
  mat4 (row4 oneA zeroA zeroA zeroA) (row4 zeroA (Host.cos a) (Host.negf (Host.sin a)) zeroA)
    (row4 zeroA (Host.sin a) (Host.cos a) zeroA) (row4 zeroA zeroA zeroA oneA)
/-- The rotation about y. -/
def rotYA (a : FVec Ideal S524288 .f32) : FVec Ideal S524288x4x4 .f32 :=
  mat4 (row4 (Host.cos a) zeroA (Host.sin a) zeroA) (row4 zeroA oneA zeroA zeroA)
    (row4 (Host.negf (Host.sin a)) zeroA (Host.cos a) zeroA) (row4 zeroA zeroA zeroA oneA)

/-- The batched product: sample by sample, a 4×4 product. -/
def mmA (l r : FVec Ideal S524288x4x4 .f32) : FVec Ideal S524288x4x4 .f32 :=
  Host.dotGeneral dot_S524288x4x4_S524288x4x4_S524288x4x4_2_1_1_2_0_0 none l r

/-- Entry k of the table of nine bone lengths, as a scalar. -/
def lenA (cst : FVec Ideal S9 .f32) (k : Nat) (h : S9.Slices ![k] S1) : FVec Ideal S_ .f32 :=
  shapeCast S_ (extractStridedSlice S1 ![k] cst h) shapeCasts_S1_S_

/-- A bone per sample: the sign word times the length, broadcast, times the sample's scale. -/
def boneA (sg : BitVec 32) (len : FVec Ideal S_ .f32) (scale : FVec Ideal S524288 .f32) : FVec Ideal S524288 .f32 :=
  mulf (broadcastInDim S524288 ![] bcast_S_S524288 (mulf (constant (F := Ideal) S_ .f32 sg) len)) scale

/-- The 4×4 identity for every sample: row number equal to column number, as a float. -/
def eyeA : FVec Ideal S524288x4x4 .f32 :=
  broadcastInDim S524288x4x4 ![1, 2] bcast_S4x4_S524288x4x4_1_2
    (uitofp .f32 (cmpi .eq (addi (iotaInDim S4x4 32 0) (broadcastInDim S4x4 ![] bcast_S_S4x4 (constantI S_ 32 0#32))) (iotaInDim S4x4 32 1)))

/-- The scatter index: the pair (a, 3). -/
def idxA (a : BitVec 32) : IVec S2 32 :=
  concatenate S2 0 [⟨S1, broadcastInDim S1 ![] bcast_S_S1 (constantI S_ 32 a)⟩, ⟨S1, broadcastInDim S1 ![] bcast_S_S1 (constantI S_ 32 3#32)⟩]
    concatenates_S1_S1_S2_d0

/-- The translation along axis a by each sample's d: the identity with element (a, 3) set to d. -/
def transA (a : BitVec 32) (d : FVec Ideal S524288 .f32) : FVec Ideal S524288x4x4 .f32 :=
  Host.scatter scatter_S524288x4x4_S2_S524288_0_12_12_0 (fun _ b => b) eyeA (idxA a) d

/-- The table of the nine bone lengths. -/
def tblA : FVec Ideal S9 .f32 := fun i => FloatOps.ofBits .f32 (lit0 (S9.rowMajor i))

/-- The 25 angle columns of the argument. -/
def v0A (x : FVec Ideal S524288x26 .f32) : FVec Ideal S524288x25 .f32 :=
  extractStridedSlice S524288x25 ![0, 0] x slices_S524288x26_S524288x25_0_0

/-- The scale column of the argument, as a vector over the samples. -/
def scaleA (x : FVec Ideal S524288x26 .f32) : FVec Ideal S524288 .f32 :=
  shapeCast S524288 (extractStridedSlice S524288x1 ![0, 25] x slices_S524288x26_S524288x1_0_25) shapeCasts_S524288x1_S524288

/-- A pose given a unit joint axis, to be stacked. -/
def liftJ (M : FVec Ideal S524288x4x4 .f32) : FVec Ideal S524288x1x4x4 .f32 :=
  broadcastInDim S524288x1x4x4 ![0, 2, 3] bcast_S524288x4x4_S524288x1x4x4_0_2_3 M

/-- The joint positions [524288, 16, 3]: the sixteen poses stacked, rows 0..2 of their last column. -/
def posA (M0 M1 M2 M3 M4 M5 M6 M7 M8 M9 M10 M11 M12 M13 M14 M15 : FVec Ideal S524288x4x4 .f32) : FVec Ideal S524288x16x3 .f32 :=
  shapeCast S524288x16x3
    (extractStridedSlice S524288x16x3x1 ![0, 0, 0, 3]
      (concatenate S524288x16x4x4 1 [⟨S524288x1x4x4, liftJ M0⟩, ⟨S524288x1x4x4, liftJ M1⟩, ⟨S524288x1x4x4, liftJ M2⟩, ⟨S524288x1x4x4, liftJ M3⟩, ⟨S524288x1x4x4, liftJ M4⟩, ⟨S524288x1x4x4, liftJ M5⟩, ⟨S524288x1x4x4, liftJ M6⟩, ⟨S524288x1x4x4, liftJ M7⟩, ⟨S524288x1x4x4, liftJ M8⟩, ⟨S524288x1x4x4, liftJ M9⟩, ⟨S524288x1x4x4, liftJ M10⟩, ⟨S524288x1x4x4, liftJ M11⟩, ⟨S524288x1x4x4, liftJ M12⟩, ⟨S524288x1x4x4, liftJ M13⟩, ⟨S524288x1x4x4, liftJ M14⟩, ⟨S524288x1x4x4, liftJ M15⟩]
        concatenates_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x16x4x4_d1)
      slices_S524288x16x4x4_S524288x16x3x1_0_0_0_3)
    shapeCasts_S524288x16x3x1_S524288x16x3

/-- The result [524288, 51]: the 48 coordinates, then half the sum of joints 8 and 6. -/
def outA (P : FVec Ideal S524288x16x3 .f32) : FVec Ideal S524288x51 .f32 :=
  concatenate S524288x51 1
    [⟨S524288x48, shapeCast S524288x48 P shapeCasts_S524288x16x3_S524288x48⟩,
     ⟨S524288x3, mulf (broadcastInDim S524288x3 ![] bcast_S_S524288x3 (constant (F := Ideal) S_ .f32 0x3F000000#32))
        (addf (shapeCast S524288x3 (extractStridedSlice S524288x1x3 ![0, 8, 0] P slices_S524288x16x3_S524288x1x3_0_8_0) shapeCasts_S524288x1x3_S524288x3)
              (shapeCast S524288x3 (extractStridedSlice S524288x1x3 ![0, 6, 0] P slices_S524288x16x3_S524288x1x3_0_6_0) shapeCasts_S524288x1x3_S524288x3))⟩]
    concatenates_S524288x48_S524288x3_S524288x51_d1

end Cert.ReferenceIdeal.Blocks

end
-- ==== Proof.RefGroups0.lean ====
/- For an arbitrary valuation W of the buffers: what a factor group's stretch leaves in its result buffer, as the
   block function (RefBlocks) of what W holds in the buffers the group reads; and that a stretch keeps every buffer
   it does not write. -/
import proofs.«164878_j3058016714901_2_alg».proof.Proof.RefOps0
import proofs.«164878_j3058016714901_2_alg».proof.Proof.RefOps1
import proofs.«164878_j3058016714901_2_alg».proof.Proof.RefOps2
import proofs.«164878_j3058016714901_2_alg».proof.Proof.RefOps3
import proofs.«164878_j3058016714901_2_alg».proof.Proof.RefBlocks

set_option maxRecDepth 16384
set_option maxHeartbeats 4000000

noncomputable section

namespace Cert.ReferenceIdeal.Hand

open Cert.ReferenceIdeal Cert.ReferenceIdeal.Gen Cert.ReferenceIdeal.Blocks Idealize.ShloMosaic Idealize.ShloMosaic.TcCoe Idealize.SL.Sem Idealize.ShloMosaic.StableHlo

theorem rd0_cst (W : Valuation τ sig (Elt Ideal)) :
    after (pc0 (F := Ideal)) W (no_index (Proc.devRef .tc main_cst)) = tblA := by
  simp only [pc0]
  after_results_simp
  rfl
theorem rd0_v0 (W : Valuation τ sig (Elt Ideal)) :
    after (pc0 (F := Ideal)) W (no_index (Proc.devRef .tc main_v0)) = v0A (W (Proc.devRef .tc main_arg0)) := by
  simp only [pc0]
  after_results_simp
  rfl
theorem rd0_v2 (W : Valuation τ sig (Elt Ideal)) :
    after (pc0 (F := Ideal)) W (no_index (Proc.devRef .tc main_v2)) = scaleA (W (Proc.devRef .tc main_arg0)) := by
  simp only [pc0]
  after_results_simp
  rfl
theorem rd0_v34 (W : Valuation τ sig (Elt Ideal)) :
    after (pc0 (F := Ideal)) W (no_index (Proc.devRef .tc main_v34)) = rotZA (colA (v0A (W (Proc.devRef .tc main_arg0))) 0 slices_S524288x25_S524288x1_0_0) := by
  simp only [pc0]
  after_results_simp
  rfl

theorem rd1 (W : Valuation τ sig (Elt Ideal)) :
    after (pc2 (F := Ideal)) (after (pc1 (F := Ideal)) W) (no_index (Proc.devRef .tc main_v67))
      = mmA (W (Proc.devRef .tc main_v34)) (rotXA (colA (W (Proc.devRef .tc main_v0)) 1 slices_S524288x25_S524288x1_0_1)) := by
  simp only [pc1, pc2]
  after_results_simp
  rfl

theorem rd2 (W : Valuation τ sig (Elt Ideal)) :
    after (pc3 (F := Ideal)) W (no_index (Proc.devRef .tc main_v100))
      = mmA (W (Proc.devRef .tc main_v67)) (rotYA (colA (W (Proc.devRef .tc main_v0)) 2 slices_S524288x25_S524288x1_0_2)) := by
  simp only [pc3]
  after_results_simp
  rfl

theorem rd3 (W : Valuation τ sig (Elt Ideal)) :
    after (pc5 (F := Ideal)) (after (pc4 (F := Ideal)) W) (no_index (Proc.devRef .tc main_v133))
      = mmA (W (Proc.devRef .tc main_v100)) (rotZA (colA (W (Proc.devRef .tc main_v0)) 3 slices_S524288x25_S524288x1_0_3)) := by
  simp only [pc4, pc5]
  after_results_simp
  rfl

theorem rd4 (W : Valuation τ sig (Elt Ideal)) :
    after (pc6 (F := Ideal)) W (no_index (Proc.devRef .tc main_v166))
      = mmA (W (Proc.devRef .tc main_v133)) (rotYA (colA (W (Proc.devRef .tc main_v0)) 4 slices_S524288x25_S524288x1_0_4)) := by
  simp only [pc6]
  after_results_simp
  rfl

theorem rd5 (W : Valuation τ sig (Elt Ideal)) :
    after (pc8 (F := Ideal)) (after (pc7 (F := Ideal)) W) (no_index (Proc.devRef .tc main_v183))
      = mmA (W (Proc.devRef .tc main_v166)) (transA 1#32 (boneA 0x3F800000#32 (lenA (W (Proc.devRef .tc main_cst)) 3 slices_S9_S1_3) (W (Proc.devRef .tc main_v2)))) := by
  simp only [pc7, pc8]
  after_results_simp
  rfl

theorem rd6 (W : Valuation τ sig (Elt Ideal)) :
    after (pc9 (F := Ideal)) W (no_index (Proc.devRef .tc main_v216))
      = mmA (W (Proc.devRef .tc main_v183)) (rotZA (colA (W (Proc.devRef .tc main_v0)) 5 slices_S524288x25_S524288x1_0_5)) := by
  simp only [pc9]
  after_results_simp
  rfl

theorem rd7 (W : Valuation τ sig (Elt Ideal)) :
    after (pc11 (F := Ideal)) (after (pc10 (F := Ideal)) W) (no_index (Proc.devRef .tc main_v249))
      = mmA (W (Proc.devRef .tc main_v216)) (rotXA (colA (W (Proc.devRef .tc main_v0)) 6 slices_S524288x25_S524288x1_0_6)) := by
  simp only [pc10, pc11]
  after_results_simp
  rfl

theorem rd8 (W : Valuation τ sig (Elt Ideal)) :
    after (pc13 (F := Ideal)) (after (pc12 (F := Ideal)) W) (no_index (Proc.devRef .tc main_v282))
      = mmA (W (Proc.devRef .tc main_v249)) (rotYA (colA (W (Proc.devRef .tc main_v0)) 7 slices_S524288x25_S524288x1_0_7)) := by
  simp only [pc12, pc13]
  after_results_simp
  rfl

theorem rd9 (W : Valuation τ sig (Elt Ideal)) :
    after (pc14 (F := Ideal)) W (no_index (Proc.devRef .tc main_v299))
      = mmA (W (Proc.devRef .tc main_v282)) (transA 1#32 (boneA 0x3F800000#32 (lenA (W (Proc.devRef .tc main_cst)) 4 slices_S9_S1_4) (W (Proc.devRef .tc main_v2)))) := by
  simp only [pc14]
  after_results_simp
  rfl

theorem rd10 (W : Valuation τ sig (Elt Ideal)) :
    after (pc15 (F := Ideal)) W (no_index (Proc.devRef .tc main_v332))
      = mmA (W (Proc.devRef .tc main_v299)) (rotXA (colA (W (Proc.devRef .tc main_v0)) 8 slices_S524288x25_S524288x1_0_8)) := by
  simp only [pc15]
  after_results_simp
  rfl

theorem kp0 (W : Valuation τ sig (Elt Ideal)) {r : Ref sig .tc} (hr : r ∉ wr0) :
    after (pc0 (F := Ideal)) W (no_index (Proc.devRef .tc r)) = W (Proc.devRef .tc r) := after_of_writes_sub _ W pc0_writes hr
theorem kp1 (W : Valuation τ sig (Elt Ideal)) {r : Ref sig .tc} (hr : r ∉ wr1) :
    after (pc1 (F := Ideal)) W (no_index (Proc.devRef .tc r)) = W (Proc.devRef .tc r) := after_of_writes_sub _ W pc1_writes hr
theorem kp2 (W : Valuation τ sig (Elt Ideal)) {r : Ref sig .tc} (hr : r ∉ wr2) :
    after (pc2 (F := Ideal)) W (no_index (Proc.devRef .tc r)) = W (Proc.devRef .tc r) := after_of_writes_sub _ W pc2_writes hr
theorem kp3 (W : Valuation τ sig (Elt Ideal)) {r : Ref sig .tc} (hr : r ∉ wr3) :
    after (pc3 (F := Ideal)) W (no_index (Proc.devRef .tc r)) = W (Proc.devRef .tc r) := after_of_writes_sub _ W pc3_writes hr
theorem kp4 (W : Valuation τ sig (Elt Ideal)) {r : Ref sig .tc} (hr : r ∉ wr4) :
    after (pc4 (F := Ideal)) W (no_index (Proc.devRef .tc r)) = W (Proc.devRef .tc r) := after_of_writes_sub _ W pc4_writes hr
theorem kp5 (W : Valuation τ sig (Elt Ideal)) {r : Ref sig .tc} (hr : r ∉ wr5) :
    after (pc5 (F := Ideal)) W (no_index (Proc.devRef .tc r)) = W (Proc.devRef .tc r) := after_of_writes_sub _ W pc5_writes hr
theorem kp6 (W : Valuation τ sig (Elt Ideal)) {r : Ref sig .tc} (hr : r ∉ wr6) :
    after (pc6 (F := Ideal)) W (no_index (Proc.devRef .tc r)) = W (Proc.devRef .tc r) := after_of_writes_sub _ W pc6_writes hr
theorem kp7 (W : Valuation τ sig (Elt Ideal)) {r : Ref sig .tc} (hr : r ∉ wr7) :
    after (pc7 (F := Ideal)) W (no_index (Proc.devRef .tc r)) = W (Proc.devRef .tc r) := after_of_writes_sub _ W pc7_writes hr
theorem kp8 (W : Valuation τ sig (Elt Ideal)) {r : Ref sig .tc} (hr : r ∉ wr8) :
    after (pc8 (F := Ideal)) W (no_index (Proc.devRef .tc r)) = W (Proc.devRef .tc r) := after_of_writes_sub _ W pc8_writes hr
theorem kp9 (W : Valuation τ sig (Elt Ideal)) {r : Ref sig .tc} (hr : r ∉ wr9) :
    after (pc9 (F := Ideal)) W (no_index (Proc.devRef .tc r)) = W (Proc.devRef .tc r) := after_of_writes_sub _ W pc9_writes hr
theorem kp10 (W : Valuation τ sig (Elt Ideal)) {r : Ref sig .tc} (hr : r ∉ wr10) :
    after (pc10 (F := Ideal)) W (no_index (Proc.devRef .tc r)) = W (Proc.devRef .tc r) := after_of_writes_sub _ W pc10_writes hr
theorem kp11 (W : Valuation τ sig (Elt Ideal)) {r : Ref sig .tc} (hr : r ∉ wr11) :
    after (pc11 (F := Ideal)) W (no_index (Proc.devRef .tc r)) = W (Proc.devRef .tc r) := after_of_writes_sub _ W pc11_writes hr
theorem kp12 (W : Valuation τ sig (Elt Ideal)) {r : Ref sig .tc} (hr : r ∉ wr12) :
    after (pc12 (F := Ideal)) W (no_index (Proc.devRef .tc r)) = W (Proc.devRef .tc r) := after_of_writes_sub _ W pc12_writes hr
theorem kp13 (W : Valuation τ sig (Elt Ideal)) {r : Ref sig .tc} (hr : r ∉ wr13) :
    after (pc13 (F := Ideal)) W (no_index (Proc.devRef .tc r)) = W (Proc.devRef .tc r) := after_of_writes_sub _ W pc13_writes hr
theorem kp14 (W : Valuation τ sig (Elt Ideal)) {r : Ref sig .tc} (hr : r ∉ wr14) :
    after (pc14 (F := Ideal)) W (no_index (Proc.devRef .tc r)) = W (Proc.devRef .tc r) := after_of_writes_sub _ W pc14_writes hr
theorem kp15 (W : Valuation τ sig (Elt Ideal)) {r : Ref sig .tc} (hr : r ∉ wr15) :
    after (pc15 (F := Ideal)) W (no_index (Proc.devRef .tc r)) = W (Proc.devRef .tc r) := after_of_writes_sub _ W pc15_writes hr

end Cert.ReferenceIdeal.Hand

end
-- ==== Proof.RefGroups1.lean ====
/- For an arbitrary valuation W of the buffers: what a factor group's stretch leaves in its result buffer, as the
   block function (RefBlocks) of what W holds in the buffers the group reads; and that a stretch keeps every buffer
   it does not write. -/
import proofs.«164878_j3058016714901_2_alg».proof.Proof.RefOps0
import proofs.«164878_j3058016714901_2_alg».proof.Proof.RefOps1
import proofs.«164878_j3058016714901_2_alg».proof.Proof.RefOps2
import proofs.«164878_j3058016714901_2_alg».proof.Proof.RefOps3
import proofs.«164878_j3058016714901_2_alg».proof.Proof.RefBlocks

set_option maxRecDepth 16384
set_option maxHeartbeats 4000000

noncomputable section

namespace Cert.ReferenceIdeal.Hand

open Cert.ReferenceIdeal Cert.ReferenceIdeal.Gen Cert.ReferenceIdeal.Blocks Idealize.ShloMosaic Idealize.ShloMosaic.TcCoe Idealize.SL.Sem Idealize.ShloMosaic.StableHlo

theorem rd11 (W : Valuation τ sig (Elt Ideal)) :
    after (pc16 (F := Ideal)) W (no_index (Proc.devRef .tc main_v349))
      = mmA (W (Proc.devRef .tc main_v332)) (transA 1#32 (boneA 0x3F800000#32 (lenA (W (Proc.devRef .tc main_cst)) 5 slices_S9_S1_5) (W (Proc.devRef .tc main_v2)))) := by
  simp only [pc16]
  after_results_simp
  rfl

theorem rd12 (W : Valuation τ sig (Elt Ideal)) :
    after (pc17 (F := Ideal)) W (no_index (Proc.devRef .tc main_v366))
      = mmA (W (Proc.devRef .tc main_v100)) (transA 0#32 (boneA 0x3F800000#32 (lenA (W (Proc.devRef .tc main_cst)) 2 slices_S9_S1_2) (W (Proc.devRef .tc main_v2)))) := by
  simp only [pc17]
  after_results_simp
  rfl

theorem rd13 (W : Valuation τ sig (Elt Ideal)) :
    after (pc19 (F := Ideal)) (after (pc18 (F := Ideal)) W) (no_index (Proc.devRef .tc main_v399))
      = mmA (W (Proc.devRef .tc main_v366)) (rotZA (colA (W (Proc.devRef .tc main_v0)) 9 slices_S524288x25_S524288x1_0_9)) := by
  simp only [pc18, pc19]
  after_results_simp
  rfl

theorem rd14 (W : Valuation τ sig (Elt Ideal)) :
    after (pc20 (F := Ideal)) W (no_index (Proc.devRef .tc main_v432))
      = mmA (W (Proc.devRef .tc main_v399)) (rotXA (colA (W (Proc.devRef .tc main_v0)) 10 slices_S524288x25_S524288x1_0_10)) := by
  simp only [pc20]
  after_results_simp
  rfl

theorem rd15 (W : Valuation τ sig (Elt Ideal)) :
    after (pc22 (F := Ideal)) (after (pc21 (F := Ideal)) W) (no_index (Proc.devRef .tc main_v465))
      = mmA (W (Proc.devRef .tc main_v432)) (rotYA (colA (W (Proc.devRef .tc main_v0)) 11 slices_S524288x25_S524288x1_0_11)) := by
  simp only [pc21, pc22]
  after_results_simp
  rfl

theorem rd16 (W : Valuation τ sig (Elt Ideal)) :
    after (pc23 (F := Ideal)) W (no_index (Proc.devRef .tc main_v482))
      = mmA (W (Proc.devRef .tc main_v465)) (transA 1#32 (boneA 0xBF800000#32 (lenA (W (Proc.devRef .tc main_cst)) 1 slices_S9_S1_1) (W (Proc.devRef .tc main_v2)))) := by
  simp only [pc23]
  after_results_simp
  rfl

theorem rd17 (W : Valuation τ sig (Elt Ideal)) :
    after (pc25 (F := Ideal)) (after (pc24 (F := Ideal)) W) (no_index (Proc.devRef .tc main_v515))
      = mmA (W (Proc.devRef .tc main_v482)) (rotXA (colA (W (Proc.devRef .tc main_v0)) 12 slices_S524288x25_S524288x1_0_12)) := by
  simp only [pc24, pc25]
  after_results_simp
  rfl

theorem rd18 (W : Valuation τ sig (Elt Ideal)) :
    after (pc26 (F := Ideal)) W (no_index (Proc.devRef .tc main_v532))
      = mmA (W (Proc.devRef .tc main_v515)) (transA 1#32 (boneA 0xBF800000#32 (lenA (W (Proc.devRef .tc main_cst)) 0 slices_S9_S1_0) (W (Proc.devRef .tc main_v2)))) := by
  simp only [pc26]
  after_results_simp
  rfl

theorem rd19 (W : Valuation τ sig (Elt Ideal)) :
    after (pc28 (F := Ideal)) (after (pc27 (F := Ideal)) W) (no_index (Proc.devRef .tc main_v549))
      = mmA (W (Proc.devRef .tc main_v100)) (transA 0#32 (boneA 0xBF800000#32 (lenA (W (Proc.devRef .tc main_cst)) 2 slices_S9_S1_2) (W (Proc.devRef .tc main_v2)))) := by
  simp only [pc27, pc28]
  after_results_simp
  rfl

theorem rd20 (W : Valuation τ sig (Elt Ideal)) :
    after (pc29 (F := Ideal)) W (no_index (Proc.devRef .tc main_v582))
      = mmA (W (Proc.devRef .tc main_v549)) (rotZA (colA (W (Proc.devRef .tc main_v0)) 13 slices_S524288x25_S524288x1_0_13)) := by
  simp only [pc29]
  after_results_simp
  rfl

theorem rd21 (W : Valuation τ sig (Elt Ideal)) :
    after (pc31 (F := Ideal)) (after (pc30 (F := Ideal)) W) (no_index (Proc.devRef .tc main_v615))
      = mmA (W (Proc.devRef .tc main_v582)) (rotXA (colA (W (Proc.devRef .tc main_v0)) 14 slices_S524288x25_S524288x1_0_14)) := by
  simp only [pc30, pc31]
  after_results_simp
  rfl

theorem kp16 (W : Valuation τ sig (Elt Ideal)) {r : Ref sig .tc} (hr : r ∉ wr16) :
    after (pc16 (F := Ideal)) W (no_index (Proc.devRef .tc r)) = W (Proc.devRef .tc r) := after_of_writes_sub _ W pc16_writes hr
theorem kp17 (W : Valuation τ sig (Elt Ideal)) {r : Ref sig .tc} (hr : r ∉ wr17) :
    after (pc17 (F := Ideal)) W (no_index (Proc.devRef .tc r)) = W (Proc.devRef .tc r) := after_of_writes_sub _ W pc17_writes hr
theorem kp18 (W : Valuation τ sig (Elt Ideal)) {r : Ref sig .tc} (hr : r ∉ wr18) :
    after (pc18 (F := Ideal)) W (no_index (Proc.devRef .tc r)) = W (Proc.devRef .tc r) := after_of_writes_sub _ W pc18_writes hr
theorem kp19 (W : Valuation τ sig (Elt Ideal)) {r : Ref sig .tc} (hr : r ∉ wr19) :
    after (pc19 (F := Ideal)) W (no_index (Proc.devRef .tc r)) = W (Proc.devRef .tc r) := after_of_writes_sub _ W pc19_writes hr
theorem kp20 (W : Valuation τ sig (Elt Ideal)) {r : Ref sig .tc} (hr : r ∉ wr20) :
    after (pc20 (F := Ideal)) W (no_index (Proc.devRef .tc r)) = W (Proc.devRef .tc r) := after_of_writes_sub _ W pc20_writes hr
theorem kp21 (W : Valuation τ sig (Elt Ideal)) {r : Ref sig .tc} (hr : r ∉ wr21) :
    after (pc21 (F := Ideal)) W (no_index (Proc.devRef .tc r)) = W (Proc.devRef .tc r) := after_of_writes_sub _ W pc21_writes hr
theorem kp22 (W : Valuation τ sig (Elt Ideal)) {r : Ref sig .tc} (hr : r ∉ wr22) :
    after (pc22 (F := Ideal)) W (no_index (Proc.devRef .tc r)) = W (Proc.devRef .tc r) := after_of_writes_sub _ W pc22_writes hr
theorem kp23 (W : Valuation τ sig (Elt Ideal)) {r : Ref sig .tc} (hr : r ∉ wr23) :
    after (pc23 (F := Ideal)) W (no_index (Proc.devRef .tc r)) = W (Proc.devRef .tc r) := after_of_writes_sub _ W pc23_writes hr
theorem kp24 (W : Valuation τ sig (Elt Ideal)) {r : Ref sig .tc} (hr : r ∉ wr24) :
    after (pc24 (F := Ideal)) W (no_index (Proc.devRef .tc r)) = W (Proc.devRef .tc r) := after_of_writes_sub _ W pc24_writes hr
theorem kp25 (W : Valuation τ sig (Elt Ideal)) {r : Ref sig .tc} (hr : r ∉ wr25) :
    after (pc25 (F := Ideal)) W (no_index (Proc.devRef .tc r)) = W (Proc.devRef .tc r) := after_of_writes_sub _ W pc25_writes hr
theorem kp26 (W : Valuation τ sig (Elt Ideal)) {r : Ref sig .tc} (hr : r ∉ wr26) :
    after (pc26 (F := Ideal)) W (no_index (Proc.devRef .tc r)) = W (Proc.devRef .tc r) := after_of_writes_sub _ W pc26_writes hr
theorem kp27 (W : Valuation τ sig (Elt Ideal)) {r : Ref sig .tc} (hr : r ∉ wr27) :
    after (pc27 (F := Ideal)) W (no_index (Proc.devRef .tc r)) = W (Proc.devRef .tc r) := after_of_writes_sub _ W pc27_writes hr
theorem kp28 (W : Valuation τ sig (Elt Ideal)) {r : Ref sig .tc} (hr : r ∉ wr28) :
    after (pc28 (F := Ideal)) W (no_index (Proc.devRef .tc r)) = W (Proc.devRef .tc r) := after_of_writes_sub _ W pc28_writes hr
theorem kp29 (W : Valuation τ sig (Elt Ideal)) {r : Ref sig .tc} (hr : r ∉ wr29) :
    after (pc29 (F := Ideal)) W (no_index (Proc.devRef .tc r)) = W (Proc.devRef .tc r) := after_of_writes_sub _ W pc29_writes hr
theorem kp30 (W : Valuation τ sig (Elt Ideal)) {r : Ref sig .tc} (hr : r ∉ wr30) :
    after (pc30 (F := Ideal)) W (no_index (Proc.devRef .tc r)) = W (Proc.devRef .tc r) := after_of_writes_sub _ W pc30_writes hr
theorem kp31 (W : Valuation τ sig (Elt Ideal)) {r : Ref sig .tc} (hr : r ∉ wr31) :
    after (pc31 (F := Ideal)) W (no_index (Proc.devRef .tc r)) = W (Proc.devRef .tc r) := after_of_writes_sub _ W pc31_writes hr

end Cert.ReferenceIdeal.Hand

end
-- ==== Proof.RefGroups2.lean ====
/- For an arbitrary valuation W of the buffers: what a factor group's stretch leaves in its result buffer, as the
   block function (RefBlocks) of what W holds in the buffers the group reads; and that a stretch keeps every buffer
   it does not write. -/
import proofs.«164878_j3058016714901_2_alg».proof.Proof.RefOps0
import proofs.«164878_j3058016714901_2_alg».proof.Proof.RefOps1
import proofs.«164878_j3058016714901_2_alg».proof.Proof.RefOps2
import proofs.«164878_j3058016714901_2_alg».proof.Proof.RefOps3
import proofs.«164878_j3058016714901_2_alg».proof.Proof.RefBlocks

set_option maxRecDepth 16384
set_option maxHeartbeats 4000000

noncomputable section

namespace Cert.ReferenceIdeal.Hand

open Cert.ReferenceIdeal Cert.ReferenceIdeal.Gen Cert.ReferenceIdeal.Blocks Idealize.ShloMosaic Idealize.ShloMosaic.TcCoe Idealize.SL.Sem Idealize.ShloMosaic.StableHlo

theorem rd22 (W : Valuation τ sig (Elt Ideal)) :
    after (pc32 (F := Ideal)) W (no_index (Proc.devRef .tc main_v648))
      = mmA (W (Proc.devRef .tc main_v615)) (rotYA (colA (W (Proc.devRef .tc main_v0)) 15 slices_S524288x25_S524288x1_0_15)) := by
  simp only [pc32]
  after_results_simp
  rfl

theorem rd23 (W : Valuation τ sig (Elt Ideal)) :
    after (pc34 (F := Ideal)) (after (pc33 (F := Ideal)) W) (no_index (Proc.devRef .tc main_v665))
      = mmA (W (Proc.devRef .tc main_v648)) (transA 1#32 (boneA 0xBF800000#32 (lenA (W (Proc.devRef .tc main_cst)) 1 slices_S9_S1_1) (W (Proc.devRef .tc main_v2)))) := by
  simp only [pc33, pc34]
  after_results_simp
  rfl

theorem rd24 (W : Valuation τ sig (Elt Ideal)) :
    after (pc35 (F := Ideal)) W (no_index (Proc.devRef .tc main_v698))
      = mmA (W (Proc.devRef .tc main_v665)) (rotXA (colA (W (Proc.devRef .tc main_v0)) 16 slices_S524288x25_S524288x1_0_16)) := by
  simp only [pc35]
  after_results_simp
  rfl

theorem rd25 (W : Valuation τ sig (Elt Ideal)) :
    after (pc37 (F := Ideal)) (after (pc36 (F := Ideal)) W) (no_index (Proc.devRef .tc main_v715))
      = mmA (W (Proc.devRef .tc main_v698)) (transA 1#32 (boneA 0xBF800000#32 (lenA (W (Proc.devRef .tc main_cst)) 0 slices_S9_S1_0) (W (Proc.devRef .tc main_v2)))) := by
  simp only [pc36, pc37]
  after_results_simp
  rfl

theorem rd26 (W : Valuation τ sig (Elt Ideal)) :
    after (pc38 (F := Ideal)) W (no_index (Proc.devRef .tc main_v732))
      = mmA (W (Proc.devRef .tc main_v183)) (transA 0#32 (boneA 0x3F800000#32 (lenA (W (Proc.devRef .tc main_cst)) 8 slices_S9_S1_8) (W (Proc.devRef .tc main_v2)))) := by
  simp only [pc38]
  after_results_simp
  rfl

theorem rd27 (W : Valuation τ sig (Elt Ideal)) :
    after (pc40 (F := Ideal)) (after (pc39 (F := Ideal)) W) (no_index (Proc.devRef .tc main_v765))
      = mmA (W (Proc.devRef .tc main_v732)) (rotZA (colA (W (Proc.devRef .tc main_v0)) 17 slices_S524288x25_S524288x1_0_17)) := by
  simp only [pc39, pc40]
  after_results_simp
  rfl

theorem rd28 (W : Valuation τ sig (Elt Ideal)) :
    after (pc41 (F := Ideal)) W (no_index (Proc.devRef .tc main_v798))
      = mmA (W (Proc.devRef .tc main_v765)) (rotXA (colA (W (Proc.devRef .tc main_v0)) 18 slices_S524288x25_S524288x1_0_18)) := by
  simp only [pc41]
  after_results_simp
  rfl

theorem rd29 (W : Valuation τ sig (Elt Ideal)) :
    after (pc43 (F := Ideal)) (after (pc42 (F := Ideal)) W) (no_index (Proc.devRef .tc main_v831))
      = mmA (W (Proc.devRef .tc main_v798)) (rotYA (colA (W (Proc.devRef .tc main_v0)) 19 slices_S524288x25_S524288x1_0_19)) := by
  simp only [pc42, pc43]
  after_results_simp
  rfl

theorem rd30 (W : Valuation τ sig (Elt Ideal)) :
    after (pc44 (F := Ideal)) W (no_index (Proc.devRef .tc main_v848))
      = mmA (W (Proc.devRef .tc main_v831)) (transA 1#32 (boneA 0xBF800000#32 (lenA (W (Proc.devRef .tc main_cst)) 7 slices_S9_S1_7) (W (Proc.devRef .tc main_v2)))) := by
  simp only [pc44]
  after_results_simp
  rfl

theorem rd31 (W : Valuation τ sig (Elt Ideal)) :
    after (pc46 (F := Ideal)) (after (pc45 (F := Ideal)) W) (no_index (Proc.devRef .tc main_v881))
      = mmA (W (Proc.devRef .tc main_v848)) (rotXA (colA (W (Proc.devRef .tc main_v0)) 20 slices_S524288x25_S524288x1_0_20)) := by
  simp only [pc45, pc46]
  after_results_simp
  rfl

theorem rd32 (W : Valuation τ sig (Elt Ideal)) :
    after (pc47 (F := Ideal)) W (no_index (Proc.devRef .tc main_v898))
      = mmA (W (Proc.devRef .tc main_v881)) (transA 1#32 (boneA 0xBF800000#32 (lenA (W (Proc.devRef .tc main_cst)) 6 slices_S9_S1_6) (W (Proc.devRef .tc main_v2)))) := by
  simp only [pc47]
  after_results_simp
  rfl

theorem kp32 (W : Valuation τ sig (Elt Ideal)) {r : Ref sig .tc} (hr : r ∉ wr32) :
    after (pc32 (F := Ideal)) W (no_index (Proc.devRef .tc r)) = W (Proc.devRef .tc r) := after_of_writes_sub _ W pc32_writes hr
theorem kp33 (W : Valuation τ sig (Elt Ideal)) {r : Ref sig .tc} (hr : r ∉ wr33) :
    after (pc33 (F := Ideal)) W (no_index (Proc.devRef .tc r)) = W (Proc.devRef .tc r) := after_of_writes_sub _ W pc33_writes hr
theorem kp34 (W : Valuation τ sig (Elt Ideal)) {r : Ref sig .tc} (hr : r ∉ wr34) :
    after (pc34 (F := Ideal)) W (no_index (Proc.devRef .tc r)) = W (Proc.devRef .tc r) := after_of_writes_sub _ W pc34_writes hr
theorem kp35 (W : Valuation τ sig (Elt Ideal)) {r : Ref sig .tc} (hr : r ∉ wr35) :
    after (pc35 (F := Ideal)) W (no_index (Proc.devRef .tc r)) = W (Proc.devRef .tc r) := after_of_writes_sub _ W pc35_writes hr
theorem kp36 (W : Valuation τ sig (Elt Ideal)) {r : Ref sig .tc} (hr : r ∉ wr36) :
    after (pc36 (F := Ideal)) W (no_index (Proc.devRef .tc r)) = W (Proc.devRef .tc r) := after_of_writes_sub _ W pc36_writes hr
theorem kp37 (W : Valuation τ sig (Elt Ideal)) {r : Ref sig .tc} (hr : r ∉ wr37) :
    after (pc37 (F := Ideal)) W (no_index (Proc.devRef .tc r)) = W (Proc.devRef .tc r) := after_of_writes_sub _ W pc37_writes hr
theorem kp38 (W : Valuation τ sig (Elt Ideal)) {r : Ref sig .tc} (hr : r ∉ wr38) :
    after (pc38 (F := Ideal)) W (no_index (Proc.devRef .tc r)) = W (Proc.devRef .tc r) := after_of_writes_sub _ W pc38_writes hr
theorem kp39 (W : Valuation τ sig (Elt Ideal)) {r : Ref sig .tc} (hr : r ∉ wr39) :
    after (pc39 (F := Ideal)) W (no_index (Proc.devRef .tc r)) = W (Proc.devRef .tc r) := after_of_writes_sub _ W pc39_writes hr
theorem kp40 (W : Valuation τ sig (Elt Ideal)) {r : Ref sig .tc} (hr : r ∉ wr40) :
    after (pc40 (F := Ideal)) W (no_index (Proc.devRef .tc r)) = W (Proc.devRef .tc r) := after_of_writes_sub _ W pc40_writes hr
theorem kp41 (W : Valuation τ sig (Elt Ideal)) {r : Ref sig .tc} (hr : r ∉ wr41) :
    after (pc41 (F := Ideal)) W (no_index (Proc.devRef .tc r)) = W (Proc.devRef .tc r) := after_of_writes_sub _ W pc41_writes hr
theorem kp42 (W : Valuation τ sig (Elt Ideal)) {r : Ref sig .tc} (hr : r ∉ wr42) :
    after (pc42 (F := Ideal)) W (no_index (Proc.devRef .tc r)) = W (Proc.devRef .tc r) := after_of_writes_sub _ W pc42_writes hr
theorem kp43 (W : Valuation τ sig (Elt Ideal)) {r : Ref sig .tc} (hr : r ∉ wr43) :
    after (pc43 (F := Ideal)) W (no_index (Proc.devRef .tc r)) = W (Proc.devRef .tc r) := after_of_writes_sub _ W pc43_writes hr
theorem kp44 (W : Valuation τ sig (Elt Ideal)) {r : Ref sig .tc} (hr : r ∉ wr44) :
    after (pc44 (F := Ideal)) W (no_index (Proc.devRef .tc r)) = W (Proc.devRef .tc r) := after_of_writes_sub _ W pc44_writes hr
theorem kp45 (W : Valuation τ sig (Elt Ideal)) {r : Ref sig .tc} (hr : r ∉ wr45) :
    after (pc45 (F := Ideal)) W (no_index (Proc.devRef .tc r)) = W (Proc.devRef .tc r) := after_of_writes_sub _ W pc45_writes hr
theorem kp46 (W : Valuation τ sig (Elt Ideal)) {r : Ref sig .tc} (hr : r ∉ wr46) :
    after (pc46 (F := Ideal)) W (no_index (Proc.devRef .tc r)) = W (Proc.devRef .tc r) := after_of_writes_sub _ W pc46_writes hr
theorem kp47 (W : Valuation τ sig (Elt Ideal)) {r : Ref sig .tc} (hr : r ∉ wr47) :
    after (pc47 (F := Ideal)) W (no_index (Proc.devRef .tc r)) = W (Proc.devRef .tc r) := after_of_writes_sub _ W pc47_writes hr

end Cert.ReferenceIdeal.Hand

end
-- ==== Proof.RefGroups3.lean ====
/- For an arbitrary valuation W of the buffers: what a factor group's stretch leaves in its result buffer, as the
   block function (RefBlocks) of what W holds in the buffers the group reads; and that a stretch keeps every buffer
   it does not write. -/
import proofs.«164878_j3058016714901_2_alg».proof.Proof.RefOps0
import proofs.«164878_j3058016714901_2_alg».proof.Proof.RefOps1
import proofs.«164878_j3058016714901_2_alg».proof.Proof.RefOps2
import proofs.«164878_j3058016714901_2_alg».proof.Proof.RefOps3
import proofs.«164878_j3058016714901_2_alg».proof.Proof.RefBlocks

set_option maxRecDepth 16384
set_option maxHeartbeats 4000000

noncomputable section

namespace Cert.ReferenceIdeal.Hand

open Cert.ReferenceIdeal Cert.ReferenceIdeal.Gen Cert.ReferenceIdeal.Blocks Idealize.ShloMosaic Idealize.ShloMosaic.TcCoe Idealize.SL.Sem Idealize.ShloMosaic.StableHlo

theorem rd33 (W : Valuation τ sig (Elt Ideal)) :
    after (pc48 (F := Ideal)) W (no_index (Proc.devRef .tc main_v915))
      = mmA (W (Proc.devRef .tc main_v183)) (transA 0#32 (boneA 0xBF800000#32 (lenA (W (Proc.devRef .tc main_cst)) 8 slices_S9_S1_8) (W (Proc.devRef .tc main_v2)))) := by
  simp only [pc48]
  after_results_simp
  rfl

theorem rd34 (W : Valuation τ sig (Elt Ideal)) :
    after (pc50 (F := Ideal)) (after (pc49 (F := Ideal)) W) (no_index (Proc.devRef .tc main_v948))
      = mmA (W (Proc.devRef .tc main_v915)) (rotZA (colA (W (Proc.devRef .tc main_v0)) 21 slices_S524288x25_S524288x1_0_21)) := by
  simp only [pc49, pc50]
  after_results_simp
  rfl

theorem rd35 (W : Valuation τ sig (Elt Ideal)) :
    after (pc52 (F := Ideal)) (after (pc51 (F := Ideal)) W) (no_index (Proc.devRef .tc main_v981))
      = mmA (W (Proc.devRef .tc main_v948)) (rotXA (colA (W (Proc.devRef .tc main_v0)) 22 slices_S524288x25_S524288x1_0_22)) := by
  simp only [pc51, pc52]
  after_results_simp
  rfl

theorem rd36 (W : Valuation τ sig (Elt Ideal)) :
    after (pc53 (F := Ideal)) W (no_index (Proc.devRef .tc main_v1014))
      = mmA (W (Proc.devRef .tc main_v981)) (rotYA (colA (W (Proc.devRef .tc main_v0)) 23 slices_S524288x25_S524288x1_0_23)) := by
  simp only [pc53]
  after_results_simp
  rfl

theorem rd37 (W : Valuation τ sig (Elt Ideal)) :
    after (pc54 (F := Ideal)) W (no_index (Proc.devRef .tc main_v1031))
      = mmA (W (Proc.devRef .tc main_v1014)) (transA 1#32 (boneA 0xBF800000#32 (lenA (W (Proc.devRef .tc main_cst)) 7 slices_S9_S1_7) (W (Proc.devRef .tc main_v2)))) := by
  simp only [pc54]
  after_results_simp
  rfl

theorem rd38 (W : Valuation τ sig (Elt Ideal)) :
    after (pc56 (F := Ideal)) (after (pc55 (F := Ideal)) W) (no_index (Proc.devRef .tc main_v1064))
      = mmA (W (Proc.devRef .tc main_v1031)) (rotXA (colA (W (Proc.devRef .tc main_v0)) 24 slices_S524288x25_S524288x1_0_24)) := by
  simp only [pc55, pc56]
  after_results_simp
  rfl

theorem rd39 (W : Valuation τ sig (Elt Ideal)) :
    after (pc57 (F := Ideal)) W (no_index (Proc.devRef .tc main_v1081))
      = mmA (W (Proc.devRef .tc main_v1064)) (transA 1#32 (boneA 0xBF800000#32 (lenA (W (Proc.devRef .tc main_cst)) 6 slices_S9_S1_6) (W (Proc.devRef .tc main_v2)))) := by
  simp only [pc57]
  after_results_simp
  rfl

theorem rd40 (W : Valuation τ sig (Elt Ideal)) :
    after (pc59 (F := Ideal)) (after (pc58 (F := Ideal)) W) (no_index (Proc.devRef .tc main_v1109))
      = outA (posA (W (Proc.devRef .tc main_v100)) (W (Proc.devRef .tc main_v183)) (W (Proc.devRef .tc main_v299)) (W (Proc.devRef .tc main_v349)) (W (Proc.devRef .tc main_v366)) (W (Proc.devRef .tc main_v482)) (W (Proc.devRef .tc main_v532)) (W (Proc.devRef .tc main_v549)) (W (Proc.devRef .tc main_v665)) (W (Proc.devRef .tc main_v715)) (W (Proc.devRef .tc main_v732)) (W (Proc.devRef .tc main_v848)) (W (Proc.devRef .tc main_v898)) (W (Proc.devRef .tc main_v915)) (W (Proc.devRef .tc main_v1031)) (W (Proc.devRef .tc main_v1081))) := by
  simp only [pc58, pc59]
  after_results_simp
  rfl

theorem kp48 (W : Valuation τ sig (Elt Ideal)) {r : Ref sig .tc} (hr : r ∉ wr48) :
    after (pc48 (F := Ideal)) W (no_index (Proc.devRef .tc r)) = W (Proc.devRef .tc r) := after_of_writes_sub _ W pc48_writes hr
theorem kp49 (W : Valuation τ sig (Elt Ideal)) {r : Ref sig .tc} (hr : r ∉ wr49) :
    after (pc49 (F := Ideal)) W (no_index (Proc.devRef .tc r)) = W (Proc.devRef .tc r) := after_of_writes_sub _ W pc49_writes hr
theorem kp50 (W : Valuation τ sig (Elt Ideal)) {r : Ref sig .tc} (hr : r ∉ wr50) :
    after (pc50 (F := Ideal)) W (no_index (Proc.devRef .tc r)) = W (Proc.devRef .tc r) := after_of_writes_sub _ W pc50_writes hr
theorem kp51 (W : Valuation τ sig (Elt Ideal)) {r : Ref sig .tc} (hr : r ∉ wr51) :
    after (pc51 (F := Ideal)) W (no_index (Proc.devRef .tc r)) = W (Proc.devRef .tc r) := after_of_writes_sub _ W pc51_writes hr
theorem kp52 (W : Valuation τ sig (Elt Ideal)) {r : Ref sig .tc} (hr : r ∉ wr52) :
    after (pc52 (F := Ideal)) W (no_index (Proc.devRef .tc r)) = W (Proc.devRef .tc r) := after_of_writes_sub _ W pc52_writes hr
theorem kp53 (W : Valuation τ sig (Elt Ideal)) {r : Ref sig .tc} (hr : r ∉ wr53) :
    after (pc53 (F := Ideal)) W (no_index (Proc.devRef .tc r)) = W (Proc.devRef .tc r) := after_of_writes_sub _ W pc53_writes hr
theorem kp54 (W : Valuation τ sig (Elt Ideal)) {r : Ref sig .tc} (hr : r ∉ wr54) :
    after (pc54 (F := Ideal)) W (no_index (Proc.devRef .tc r)) = W (Proc.devRef .tc r) := after_of_writes_sub _ W pc54_writes hr
theorem kp55 (W : Valuation τ sig (Elt Ideal)) {r : Ref sig .tc} (hr : r ∉ wr55) :
    after (pc55 (F := Ideal)) W (no_index (Proc.devRef .tc r)) = W (Proc.devRef .tc r) := after_of_writes_sub _ W pc55_writes hr
theorem kp56 (W : Valuation τ sig (Elt Ideal)) {r : Ref sig .tc} (hr : r ∉ wr56) :
    after (pc56 (F := Ideal)) W (no_index (Proc.devRef .tc r)) = W (Proc.devRef .tc r) := after_of_writes_sub _ W pc56_writes hr
theorem kp57 (W : Valuation τ sig (Elt Ideal)) {r : Ref sig .tc} (hr : r ∉ wr57) :
    after (pc57 (F := Ideal)) W (no_index (Proc.devRef .tc r)) = W (Proc.devRef .tc r) := after_of_writes_sub _ W pc57_writes hr
theorem kp58 (W : Valuation τ sig (Elt Ideal)) {r : Ref sig .tc} (hr : r ∉ wr58) :
    after (pc58 (F := Ideal)) W (no_index (Proc.devRef .tc r)) = W (Proc.devRef .tc r) := after_of_writes_sub _ W pc58_writes hr
theorem kp59 (W : Valuation τ sig (Elt Ideal)) {r : Ref sig .tc} (hr : r ∉ wr59) :
    after (pc59 (F := Ideal)) W (no_index (Proc.devRef .tc r)) = W (Proc.devRef .tc r) := after_of_writes_sub _ W pc59_writes hr

end Cert.ReferenceIdeal.Hand

end
-- ==== Proof.RefRun.lean ====
/-
  The reference's run. Its @main is a straight line of 1222 host operations; cut into stretches (the lists 'pcN'),
  each printed window of @main is the sequence of its stretches, @main the sequence of them all, and from any
  memory every weakly fair execution terminates with each buffer at the fold of the operations' results over its
  launch contents ('StableHlo.after').
-/
import proofs.«164878_j3058016714901_2_alg».proof.Proof.RefOps0
import proofs.«164878_j3058016714901_2_alg».proof.Proof.RefOps1
import proofs.«164878_j3058016714901_2_alg».proof.Proof.RefOps2
import proofs.«164878_j3058016714901_2_alg».proof.Proof.RefOps3

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the stretches one after the other. -/
def ops : List (HloOp τ sig (Elt F)) :=
  pc0 ++ (pc1 ++ (pc2 ++ (pc3 ++ (pc4 ++ (pc5 ++ (pc6 ++ (pc7 ++ (pc8 ++ (pc9 ++ (pc10 ++ (pc11 ++ (pc12 ++ (pc13 ++ (pc14 ++ (pc15 ++ (pc16 ++ (pc17 ++ (pc18 ++ (pc19 ++ (pc20 ++ (pc21 ++ (pc22 ++ (pc23 ++ (pc24 ++ (pc25 ++ (pc26 ++ (pc27 ++ (pc28 ++ (pc29 ++ (pc30 ++ (pc31 ++ (pc32 ++ (pc33 ++ (pc34 ++ (pc35 ++ (pc36 ++ (pc37 ++ (pc38 ++ (pc39 ++ (pc40 ++ (pc41 ++ (pc42 ++ (pc43 ++ (pc44 ++ (pc45 ++ (pc46 ++ (pc47 ++ (pc48 ++ (pc49 ++ (pc50 ++ (pc51 ++ (pc52 ++ (pc53 ++ (pc54 ++ (pc55 ++ (pc56 ++ (pc57 ++ (pc58 ++ (pc59)))))))))))))))))))))))))))))))))))))))))))))))))))))))))))

theorem ops_def : (ops : List (HloOp τ sig (Elt F))) =
  pc0 ++ (pc1 ++ (pc2 ++ (pc3 ++ (pc4 ++ (pc5 ++ (pc6 ++ (pc7 ++ (pc8 ++ (pc9 ++ (pc10 ++ (pc11 ++ (pc12 ++ (pc13 ++ (pc14 ++ (pc15 ++ (pc16 ++ (pc17 ++ (pc18 ++ (pc19 ++ (pc20 ++ (pc21 ++ (pc22 ++ (pc23 ++ (pc24 ++ (pc25 ++ (pc26 ++ (pc27 ++ (pc28 ++ (pc29 ++ (pc30 ++ (pc31 ++ (pc32 ++ (pc33 ++ (pc34 ++ (pc35 ++ (pc36 ++ (pc37 ++ (pc38 ++ (pc39 ++ (pc40 ++ (pc41 ++ (pc42 ++ (pc43 ++ (pc44 ++ (pc45 ++ (pc46 ++ (pc47 ++ (pc48 ++ (pc49 ++ (pc50 ++ (pc51 ++ (pc52 ++ (pc53 ++ (pc54 ++ (pc55 ++ (pc56 ++ (pc57 ++ (pc58 ++ (pc59))))))))))))))))))))))))))))))))))))))))))))))))))))))))))) := rfl

/-- An operation of @main lies in one of the stretches. -/
theorem mem_ops {op : HloOp τ sig (Elt F)} (h : op ∈ (ops : List (HloOp τ sig (Elt F)))) :
    op ∈ (pc0 : List (HloOp τ sig (Elt F))) ∨ op ∈ (pc1 : List (HloOp τ sig (Elt F))) ∨ op ∈ (pc2 : List (HloOp τ sig (Elt F))) ∨ op ∈ (pc3 : List (HloOp τ sig (Elt F))) ∨ op ∈ (pc4 : List (HloOp τ sig (Elt F))) ∨ op ∈ (pc5 : List (HloOp τ sig (Elt F))) ∨ op ∈ (pc6 : List (HloOp τ sig (Elt F))) ∨ op ∈ (pc7 : List (HloOp τ sig (Elt F))) ∨ op ∈ (pc8 : List (HloOp τ sig (Elt F))) ∨ op ∈ (pc9 : List (HloOp τ sig (Elt F))) ∨ op ∈ (pc10 : List (HloOp τ sig (Elt F))) ∨ op ∈ (pc11 : List (HloOp τ sig (Elt F))) ∨ op ∈ (pc12 : List (HloOp τ sig (Elt F))) ∨ op ∈ (pc13 : List (HloOp τ sig (Elt F))) ∨ op ∈ (pc14 : List (HloOp τ sig (Elt F))) ∨ op ∈ (pc15 : List (HloOp τ sig (Elt F))) ∨ op ∈ (pc16 : List (HloOp τ sig (Elt F))) ∨ op ∈ (pc17 : List (HloOp τ sig (Elt F))) ∨ op ∈ (pc18 : List (HloOp τ sig (Elt F))) ∨ op ∈ (pc19 : List (HloOp τ sig (Elt F))) ∨ op ∈ (pc20 : List (HloOp τ sig (Elt F))) ∨ op ∈ (pc21 : List (HloOp τ sig (Elt F))) ∨ op ∈ (pc22 : List (HloOp τ sig (Elt F))) ∨ op ∈ (pc23 : List (HloOp τ sig (Elt F))) ∨ op ∈ (pc24 : List (HloOp τ sig (Elt F))) ∨ op ∈ (pc25 : List (HloOp τ sig (Elt F))) ∨ op ∈ (pc26 : List (HloOp τ sig (Elt F))) ∨ op ∈ (pc27 : List (HloOp τ sig (Elt F))) ∨ op ∈ (pc28 : List (HloOp τ sig (Elt F))) ∨ op ∈ (pc29 : List (HloOp τ sig (Elt F))) ∨ op ∈ (pc30 : List (HloOp τ sig (Elt F))) ∨ op ∈ (pc31 : List (HloOp τ sig (Elt F))) ∨ op ∈ (pc32 : List (HloOp τ sig (Elt F))) ∨ op ∈ (pc33 : List (HloOp τ sig (Elt F))) ∨ op ∈ (pc34 : List (HloOp τ sig (Elt F))) ∨ op ∈ (pc35 : List (HloOp τ sig (Elt F))) ∨ op ∈ (pc36 : List (HloOp τ sig (Elt F))) ∨ op ∈ (pc37 : List (HloOp τ sig (Elt F))) ∨ op ∈ (pc38 : List (HloOp τ sig (Elt F))) ∨ op ∈ (pc39 : List (HloOp τ sig (Elt F))) ∨ op ∈ (pc40 : List (HloOp τ sig (Elt F))) ∨ op ∈ (pc41 : List (HloOp τ sig (Elt F))) ∨ op ∈ (pc42 : List (HloOp τ sig (Elt F))) ∨ op ∈ (pc43 : List (HloOp τ sig (Elt F))) ∨ op ∈ (pc44 : List (HloOp τ sig (Elt F))) ∨ op ∈ (pc45 : List (HloOp τ sig (Elt F))) ∨ op ∈ (pc46 : List (HloOp τ sig (Elt F))) ∨ op ∈ (pc47 : List (HloOp τ sig (Elt F))) ∨ op ∈ (pc48 : List (HloOp τ sig (Elt F))) ∨ op ∈ (pc49 : List (HloOp τ sig (Elt F))) ∨ op ∈ (pc50 : List (HloOp τ sig (Elt F))) ∨ op ∈ (pc51 : List (HloOp τ sig (Elt F))) ∨ op ∈ (pc52 : List (HloOp τ sig (Elt F))) ∨ op ∈ (pc53 : List (HloOp τ sig (Elt F))) ∨ op ∈ (pc54 : List (HloOp τ sig (Elt F))) ∨ op ∈ (pc55 : List (HloOp τ sig (Elt F))) ∨ op ∈ (pc56 : List (HloOp τ sig (Elt F))) ∨ op ∈ (pc57 : List (HloOp τ sig (Elt F))) ∨ op ∈ (pc58 : List (HloOp τ sig (Elt F))) ∨ op ∈ (pc59 : List (HloOp τ sig (Elt F))) := by
  rw [ops_def] at h
  simpa only [List.mem_append] using h

theorem main_part0_eq (c : Dev nD) : main_part0 (F := F) c = seq (pc0 ++ pc1) := rfl
theorem main_part1_eq (c : Dev nD) : main_part1 (F := F) c = seq (pc2 ++ pc3 ++ pc4) := rfl
theorem main_part2_eq (c : Dev nD) : main_part2 (F := F) c = seq (pc5 ++ pc6 ++ pc7) := rfl
theorem main_part3_eq (c : Dev nD) : main_part3 (F := F) c = seq (pc8 ++ pc9 ++ pc10) := rfl
theorem main_part4_eq (c : Dev nD) : main_part4 (F := F) c = seq (pc11 ++ pc12) := rfl
theorem main_part5_eq (c : Dev nD) : main_part5 (F := F) c = seq (pc13 ++ pc14 ++ pc15) := rfl
theorem main_part6_eq (c : Dev nD) : main_part6 (F := F) c = seq (pc16 ++ pc17 ++ pc18) := rfl
theorem main_part7_eq (c : Dev nD) : main_part7 (F := F) c = seq (pc19 ++ pc20 ++ pc21) := rfl
theorem main_part8_eq (c : Dev nD) : main_part8 (F := F) c = seq (pc22 ++ pc23 ++ pc24) := rfl
theorem main_part9_eq (c : Dev nD) : main_part9 (F := F) c = seq (pc25 ++ pc26 ++ pc27) := rfl
theorem main_part10_eq (c : Dev nD) : main_part10 (F := F) c = seq (pc28 ++ pc29 ++ pc30) := rfl
theorem main_part11_eq (c : Dev nD) : main_part11 (F := F) c = seq (pc31 ++ pc32 ++ pc33) := rfl
theorem main_part12_eq (c : Dev nD) : main_part12 (F := F) c = seq (pc34 ++ pc35 ++ pc36) := rfl
theorem main_part13_eq (c : Dev nD) : main_part13 (F := F) c = seq (pc37 ++ pc38 ++ pc39) := rfl
theorem main_part14_eq (c : Dev nD) : main_part14 (F := F) c = seq (pc40 ++ pc41 ++ pc42) := rfl
theorem main_part15_eq (c : Dev nD) : main_part15 (F := F) c = seq (pc43 ++ pc44 ++ pc45) := rfl
theorem main_part16_eq (c : Dev nD) : main_part16 (F := F) c = seq (pc46 ++ pc47 ++ pc48 ++ pc49) := rfl
theorem main_part17_eq (c : Dev nD) : main_part17 (F := F) c = seq (pc50 ++ pc51) := rfl
theorem main_part18_eq (c : Dev nD) : main_part18 (F := F) c = seq (pc52 ++ pc53 ++ pc54 ++ pc55) := rfl
theorem main_part19_eq (c : Dev nD) : main_part19 (F := F) c = seq (pc56 ++ pc57 ++ pc58) := rfl
theorem main_part20_eq (c : Dev nD) : main_part20 (F := F) c = seq (pc59) := rfl

/-- @main is its operations run in order. -/
theorem main_eq (c : Dev nD) : main (F := F) c = seq ops := by
  simp only [ops_def, seq_append, List.append_assoc]
  simp only [main, main_part0_eq c, main_part1_eq c, main_part2_eq c, main_part3_eq c, main_part4_eq c, main_part5_eq c, main_part6_eq c, main_part7_eq c, main_part8_eq c, main_part9_eq c, main_part10_eq c, main_part11_eq c, main_part12_eq c, main_part13_eq c, main_part14_eq c, main_part15_eq c, main_part16_eq c, main_part17_eq c, main_part18_eq c, main_part19_eq c, main_part20_eq c, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : ∀ op ∈ (ops : List (HloOp τ sig (Elt F))), op.bufs ⊆ tcRefs τ sig := fun op h => by
  rcases mem_ops h with h | h | h | h | h | h | h | h | h | h | h | h | h | h | h | h | h | h | h | h | h | h | h | h | h | h | h | h | h | h | h | h | h | h | h | h | h | h | h | h | h | h | h | h | h | h | h | h | h | h | h | h | h | h | h | h | h | h | h | h
  exacts [List.forall_iff_forall_mem.mp pc0_sub op h, List.forall_iff_forall_mem.mp pc1_sub op h, List.forall_iff_forall_mem.mp pc2_sub op h, List.forall_iff_forall_mem.mp pc3_sub op h, List.forall_iff_forall_mem.mp pc4_sub op h, List.forall_iff_forall_mem.mp pc5_sub op h, List.forall_iff_forall_mem.mp pc6_sub op h, List.forall_iff_forall_mem.mp pc7_sub op h, List.forall_iff_forall_mem.mp pc8_sub op h, List.forall_iff_forall_mem.mp pc9_sub op h, List.forall_iff_forall_mem.mp pc10_sub op h, List.forall_iff_forall_mem.mp pc11_sub op h, List.forall_iff_forall_mem.mp pc12_sub op h, List.forall_iff_forall_mem.mp pc13_sub op h, List.forall_iff_forall_mem.mp pc14_sub op h, List.forall_iff_forall_mem.mp pc15_sub op h, List.forall_iff_forall_mem.mp pc16_sub op h, List.forall_iff_forall_mem.mp pc17_sub op h, List.forall_iff_forall_mem.mp pc18_sub op h, List.forall_iff_forall_mem.mp pc19_sub op h, List.forall_iff_forall_mem.mp pc20_sub op h, List.forall_iff_forall_mem.mp pc21_sub op h, List.forall_iff_forall_mem.mp pc22_sub op h, List.forall_iff_forall_mem.mp pc23_sub op h, List.forall_iff_forall_mem.mp pc24_sub op h, List.forall_iff_forall_mem.mp pc25_sub op h, List.forall_iff_forall_mem.mp pc26_sub op h, List.forall_iff_forall_mem.mp pc27_sub op h, List.forall_iff_forall_mem.mp pc28_sub op h, List.forall_iff_forall_mem.mp pc29_sub op h, List.forall_iff_forall_mem.mp pc30_sub op h, List.forall_iff_forall_mem.mp pc31_sub op h, List.forall_iff_forall_mem.mp pc32_sub op h, List.forall_iff_forall_mem.mp pc33_sub op h, List.forall_iff_forall_mem.mp pc34_sub op h, List.forall_iff_forall_mem.mp pc35_sub op h, List.forall_iff_forall_mem.mp pc36_sub op h, List.forall_iff_forall_mem.mp pc37_sub op h, List.forall_iff_forall_mem.mp pc38_sub op h, List.forall_iff_forall_mem.mp pc39_sub op h, List.forall_iff_forall_mem.mp pc40_sub op h, List.forall_iff_forall_mem.mp pc41_sub op h, List.forall_iff_forall_mem.mp pc42_sub op h, List.forall_iff_forall_mem.mp pc43_sub op h, List.forall_iff_forall_mem.mp pc44_sub op h, List.forall_iff_forall_mem.mp pc45_sub op h, List.forall_iff_forall_mem.mp pc46_sub op h, List.forall_iff_forall_mem.mp pc47_sub op h, List.forall_iff_forall_mem.mp pc48_sub op h, List.forall_iff_forall_mem.mp pc49_sub op h, List.forall_iff_forall_mem.mp pc50_sub op h, List.forall_iff_forall_mem.mp pc51_sub op h, List.forall_iff_forall_mem.mp pc52_sub op h, List.forall_iff_forall_mem.mp pc53_sub op h, List.forall_iff_forall_mem.mp pc54_sub op h, List.forall_iff_forall_mem.mp pc55_sub op h, List.forall_iff_forall_mem.mp pc56_sub op h, List.forall_iff_forall_mem.mp pc57_sub op h, List.forall_iff_forall_mem.mp pc58_sub op h, List.forall_iff_forall_mem.mp pc59_sub op h]

theorem ops_fresh : ∀ op ∈ (ops : List (HloOp τ sig (Elt F))), op.fresh = ∅ := fun op h => by
  rcases mem_ops h with h | h | h | h | h | h | h | h | h | h | h | h | h | h | h | h | h | h | h | h | h | h | h | h | h | h | h | h | h | h | h | h | h | h | h | h | h | h | h | h | h | h | h | h | h | h | h | h | h | h | h | h | h | h | h | h | h | h | h | h
  exacts [List.forall_iff_forall_mem.mp pc0_fresh op h, List.forall_iff_forall_mem.mp pc1_fresh op h, List.forall_iff_forall_mem.mp pc2_fresh op h, List.forall_iff_forall_mem.mp pc3_fresh op h, List.forall_iff_forall_mem.mp pc4_fresh op h, List.forall_iff_forall_mem.mp pc5_fresh op h, List.forall_iff_forall_mem.mp pc6_fresh op h, List.forall_iff_forall_mem.mp pc7_fresh op h, List.forall_iff_forall_mem.mp pc8_fresh op h, List.forall_iff_forall_mem.mp pc9_fresh op h, List.forall_iff_forall_mem.mp pc10_fresh op h, List.forall_iff_forall_mem.mp pc11_fresh op h, List.forall_iff_forall_mem.mp pc12_fresh op h, List.forall_iff_forall_mem.mp pc13_fresh op h, List.forall_iff_forall_mem.mp pc14_fresh op h, List.forall_iff_forall_mem.mp pc15_fresh op h, List.forall_iff_forall_mem.mp pc16_fresh op h, List.forall_iff_forall_mem.mp pc17_fresh op h, List.forall_iff_forall_mem.mp pc18_fresh op h, List.forall_iff_forall_mem.mp pc19_fresh op h, List.forall_iff_forall_mem.mp pc20_fresh op h, List.forall_iff_forall_mem.mp pc21_fresh op h, List.forall_iff_forall_mem.mp pc22_fresh op h, List.forall_iff_forall_mem.mp pc23_fresh op h, List.forall_iff_forall_mem.mp pc24_fresh op h, List.forall_iff_forall_mem.mp pc25_fresh op h, List.forall_iff_forall_mem.mp pc26_fresh op h, List.forall_iff_forall_mem.mp pc27_fresh op h, List.forall_iff_forall_mem.mp pc28_fresh op h, List.forall_iff_forall_mem.mp pc29_fresh op h, List.forall_iff_forall_mem.mp pc30_fresh op h, List.forall_iff_forall_mem.mp pc31_fresh op h, List.forall_iff_forall_mem.mp pc32_fresh op h, List.forall_iff_forall_mem.mp pc33_fresh op h, List.forall_iff_forall_mem.mp pc34_fresh op h, List.forall_iff_forall_mem.mp pc35_fresh op h, List.forall_iff_forall_mem.mp pc36_fresh op h, List.forall_iff_forall_mem.mp pc37_fresh op h, List.forall_iff_forall_mem.mp pc38_fresh op h, List.forall_iff_forall_mem.mp pc39_fresh op h, List.forall_iff_forall_mem.mp pc40_fresh op h, List.forall_iff_forall_mem.mp pc41_fresh op h, List.forall_iff_forall_mem.mp pc42_fresh op h, List.forall_iff_forall_mem.mp pc43_fresh op h, List.forall_iff_forall_mem.mp pc44_fresh op h, List.forall_iff_forall_mem.mp pc45_fresh op h, List.forall_iff_forall_mem.mp pc46_fresh op h, List.forall_iff_forall_mem.mp pc47_fresh op h, List.forall_iff_forall_mem.mp pc48_fresh op h, List.forall_iff_forall_mem.mp pc49_fresh op h, List.forall_iff_forall_mem.mp pc50_fresh op h, List.forall_iff_forall_mem.mp pc51_fresh op h, List.forall_iff_forall_mem.mp pc52_fresh op h, List.forall_iff_forall_mem.mp pc53_fresh op h, List.forall_iff_forall_mem.mp pc54_fresh op h, List.forall_iff_forall_mem.mp pc55_fresh op h, List.forall_iff_forall_mem.mp pc56_fresh op h, List.forall_iff_forall_mem.mp pc57_fresh op h, List.forall_iff_forall_mem.mp pc58_fresh op h, List.forall_iff_forall_mem.mp pc59_fresh op h]

/-- On every device, from any memory with zero counters: every weakly fair execution of @main terminates, and
    each TensorCore buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => List.forall_iff_forall_mem.mpr ops_sub) m ρ (fun _ => ops_fresh)

end Cert.ReferenceIdeal.Hand

end
-- ==== Proof.LibStages.lean ====
/-
  Reading a long line of host operations in stretches.

  What a line of operations leaves in a buffer is a fold over the line (`StableHlo.after`). Read in one piece, the
  fold's term repeats every shared intermediate result once per use and its evaluation compares every buffer with
  every operation. Cut into stretches the fold is read stretch by stretch: a stretch's results as functions of what
  an ARBITRARY valuation holds in the buffers the stretch reads, and the buffers a stretch does not write kept as
  they were. The whole line's results are then the stretches' functions composed.
  `after_append`, `after_take_drop`: the fold over a line cut in two. `reads_stretch`: a stretch's result read off
  (the literal list computed, each operation's result rewritten once, the rest by unfolding). `keeps_stretch`: a buffer no
  operation of a stretch writes is kept (the references' inequalities decided one by one).
-/
import Idealize.ShloMosaic.Lib.StableHlo.Run

noncomputable section

namespace Cert.LibStages

open Idealize.ShloMosaic Idealize.ShloMosaic.StableHlo

variable {τ : Topo} {sig : RefSig} {Val : EltTy → Type}

/-- Two stretches run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first `k` operations. -/
theorem after_take_drop (k : Nat) (l : List (HloOp τ sig Val)) (V : Valuation τ sig Val) :
    after l V = after (l.drop k) (after (l.take k) V) := by
  rw [← after_append, List.take_append_drop]

/-- `reads_stretch [defs]`: closes `after ‹literal stretch› W ↑b = ‹the stretch's function of W's contents›`. -/
syntax "reads_stretch" "[" Lean.Parser.Tactic.simpLemma,* "]" : tactic
macro_rules
  | `(tactic| reads_stretch [$defs,*]) => `(tactic| (
      simp only [$defs,*, List.take_succ_cons, List.take_zero, List.drop_succ_cons, List.drop_zero,
        List.flatten_cons, List.flatten_nil, List.append_nil, List.cons_append, List.nil_append]
      after_results_simp
      rfl))

/-- `keeps_stretch [defs]`: closes `after ‹literal stretch› W ↑r = W ↑r` when no operation of the stretch writes `r`. -/
syntax "keeps_stretch" "[" Lean.Parser.Tactic.simpLemma,* "]" : tactic
macro_rules
  | `(tactic| keeps_stretch [$defs,*]) => `(tactic| (
      refine StableHlo.after_of_forall_not_mem _ _ (List.forall_iff_forall_mem.mp ?_)
      simp only [$defs,*, List.take_succ_cons, List.take_zero, List.drop_succ_cons, List.drop_zero,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, StableHlo.nary_writes,
        Finset.mem_singleton]
      repeat' apply And.intro
      all_goals exact StableHlo.devRef_ne_of_ne (by decide)))

end Cert.LibStages

end
-- ==== Proof.RefValue.lean ====
/-
  The reference's result as one function of its argument array.

  'RefArr x' spells the kinematic tree at the level of arrays, with the blocks of RefBlocks: each pose is the batched
  product of its parent's pose with its own rotations (about z, x, y by the sample's angles) and its bone's translation,
  and the result gathers the sixteen poses' last columns. 'ref_value': the fold of the reference's 1222 operations over
  any contents 'V' of the buffers leaves 'RefArr' of the argument in the result buffer — read stretch by stretch: a
  group's stretch leaves its block function of what the earlier stretches left, and every stretch keeps the buffers
  it does not write.
-/
import proofs.«164878_j3058016714901_2_alg».proof.Proof.RefGroups0
import proofs.«164878_j3058016714901_2_alg».proof.Proof.RefGroups1
import proofs.«164878_j3058016714901_2_alg».proof.Proof.RefGroups2
import proofs.«164878_j3058016714901_2_alg».proof.Proof.RefGroups3
import proofs.«164878_j3058016714901_2_alg».proof.Proof.RefRun
import proofs.«164878_j3058016714901_2_alg».proof.Proof.LibStages

set_option maxRecDepth 16384

noncomputable section

namespace Cert.ReferenceIdeal.Hand

open Cert.ReferenceIdeal Cert.ReferenceIdeal.Gen Cert.ReferenceIdeal.Blocks Idealize.ShloMosaic Idealize.ShloMosaic.TcCoe Idealize.SL.Sem Idealize.ShloMosaic.StableHlo

section
variable (x : FVec Ideal S524288x26 .f32)

/-- The rotations by angle column k, and the translations by bone k with sign word sg, of every sample. -/
def RzA (k : Nat) (h : S524288x25.Slices ![0, k] S524288x1) : FVec Ideal S524288x4x4 .f32 := rotZA (colA (v0A x) k h)
def RxA (k : Nat) (h : S524288x25.Slices ![0, k] S524288x1) : FVec Ideal S524288x4x4 .f32 := rotXA (colA (v0A x) k h)
def RyA (k : Nat) (h : S524288x25.Slices ![0, k] S524288x1) : FVec Ideal S524288x4x4 .f32 := rotYA (colA (v0A x) k h)
def TyA (sg : BitVec 32) (k : Nat) (h : S9.Slices ![k] S1) : FVec Ideal S524288x4x4 .f32 := transA 1#32 (boneA sg (lenA tblA k h) (scaleA x))
def TxA (sg : BitVec 32) (k : Nat) (h : S9.Slices ![k] S1) : FVec Ideal S524288x4x4 .f32 := transA 0#32 (boneA sg (lenA tblA k h) (scaleA x))

def ApelA : FVec Ideal S524288x4x4 .f32 := mmA (mmA (RzA x 0 slices_S524288x25_S524288x1_0_0) (RxA x 1 slices_S524288x25_S524288x1_0_1)) (RyA x 2 slices_S524288x25_S524288x1_0_2)
def AtorA : FVec Ideal S524288x4x4 .f32 := mmA (mmA (mmA (ApelA x) (RzA x 3 slices_S524288x25_S524288x1_0_3)) (RyA x 4 slices_S524288x25_S524288x1_0_4)) (TyA x 0x3F800000#32 3 slices_S9_S1_3)
def AnecA : FVec Ideal S524288x4x4 .f32 := mmA (mmA (mmA (mmA (AtorA x) (RzA x 5 slices_S524288x25_S524288x1_0_5)) (RxA x 6 slices_S524288x25_S524288x1_0_6)) (RyA x 7 slices_S524288x25_S524288x1_0_7)) (TyA x 0x3F800000#32 4 slices_S9_S1_4)
def AhedA : FVec Ideal S524288x4x4 .f32 := mmA (mmA (AnecA x) (RxA x 8 slices_S524288x25_S524288x1_0_8)) (TyA x 0x3F800000#32 5 slices_S9_S1_5)
def AlhpA : FVec Ideal S524288x4x4 .f32 := mmA (ApelA x) (TxA x 0x3F800000#32 2 slices_S9_S1_2)
def AlknA : FVec Ideal S524288x4x4 .f32 := mmA (mmA (mmA (mmA (AlhpA x) (RzA x 9 slices_S524288x25_S524288x1_0_9)) (RxA x 10 slices_S524288x25_S524288x1_0_10)) (RyA x 11 slices_S524288x25_S524288x1_0_11)) (TyA x 0xBF800000#32 1 slices_S9_S1_1)
def AlanA : FVec Ideal S524288x4x4 .f32 := mmA (mmA (AlknA x) (RxA x 12 slices_S524288x25_S524288x1_0_12)) (TyA x 0xBF800000#32 0 slices_S9_S1_0)
def ArhpA : FVec Ideal S524288x4x4 .f32 := mmA (ApelA x) (TxA x 0xBF800000#32 2 slices_S9_S1_2)
def ArknA : FVec Ideal S524288x4x4 .f32 := mmA (mmA (mmA (mmA (ArhpA x) (RzA x 13 slices_S524288x25_S524288x1_0_13)) (RxA x 14 slices_S524288x25_S524288x1_0_14)) (RyA x 15 slices_S524288x25_S524288x1_0_15)) (TyA x 0xBF800000#32 1 slices_S9_S1_1)
def AranA : FVec Ideal S524288x4x4 .f32 := mmA (mmA (ArknA x) (RxA x 16 slices_S524288x25_S524288x1_0_16)) (TyA x 0xBF800000#32 0 slices_S9_S1_0)
def AlshA : FVec Ideal S524288x4x4 .f32 := mmA (AtorA x) (TxA x 0x3F800000#32 8 slices_S9_S1_8)
def AlelA : FVec Ideal S524288x4x4 .f32 := mmA (mmA (mmA (mmA (AlshA x) (RzA x 17 slices_S524288x25_S524288x1_0_17)) (RxA x 18 slices_S524288x25_S524288x1_0_18)) (RyA x 19 slices_S524288x25_S524288x1_0_19)) (TyA x 0xBF800000#32 7 slices_S9_S1_7)
def AlwrA : FVec Ideal S524288x4x4 .f32 := mmA (mmA (AlelA x) (RxA x 20 slices_S524288x25_S524288x1_0_20)) (TyA x 0xBF800000#32 6 slices_S9_S1_6)
def ArshA : FVec Ideal S524288x4x4 .f32 := mmA (AtorA x) (TxA x 0xBF800000#32 8 slices_S9_S1_8)
def ArelA : FVec Ideal S524288x4x4 .f32 := mmA (mmA (mmA (mmA (ArshA x) (RzA x 21 slices_S524288x25_S524288x1_0_21)) (RxA x 22 slices_S524288x25_S524288x1_0_22)) (RyA x 23 slices_S524288x25_S524288x1_0_23)) (TyA x 0xBF800000#32 7 slices_S9_S1_7)
def ArwrA : FVec Ideal S524288x4x4 .f32 := mmA (mmA (ArelA x) (RxA x 24 slices_S524288x25_S524288x1_0_24)) (TyA x 0xBF800000#32 6 slices_S9_S1_6)

/-- The reference's result [524288, 51] as a function of its argument [524288, 26]. -/
def RefArr : FVec Ideal S524288x51 .f32 :=
  outA (posA (ApelA x) (AtorA x) (AnecA x) (AhedA x) (AlhpA x) (AlknA x) (AlanA x) (ArhpA x) (ArknA x) (AranA x)
    (AlshA x) (AlelA x) (AlwrA x) (ArshA x) (ArelA x) (ArwrA x))

end

/-- The fold of the reference's operations leaves 'RefArr' of the argument in the result buffer, and the argument
    where it was. -/
theorem ref_value (V : Valuation τ sig (Elt Ideal)) :
    after (ops (F := Ideal)) V (Proc.devRef .tc main_v1109) = RefArr (V (Proc.devRef .tc main_arg0)) := by
  simp (disch := decide) only [ops_def, Cert.LibStages.after_append, rd0_cst, rd0_v0, rd0_v2, rd0_v34,
    rd1, rd2, rd3, rd4, rd5, rd6, rd7, rd8, rd9, rd10, rd11, rd12, rd13, rd14, rd15, rd16, rd17, rd18, rd19, rd20, rd21, rd22, rd23, rd24, rd25, rd26, rd27, rd28, rd29, rd30, rd31, rd32, rd33, rd34, rd35, rd36, rd37, rd38, rd39, rd40,
    kp0, kp1, kp2, kp3, kp4, kp5, kp6, kp7, kp8, kp9, kp10, kp11, kp12, kp13, kp14, kp15, kp16, kp17, kp18, kp19, kp20, kp21, kp22, kp23, kp24, kp25, kp26, kp27, kp28, kp29, kp30, kp31, kp32, kp33, kp34, kp35, kp36, kp37, kp38, kp39, kp40, kp41, kp42, kp43, kp44, kp45, kp46, kp47, kp48, kp49, kp50, kp51, kp52, kp53, kp54, kp55, kp56, kp57, kp58, kp59]
  rfl

theorem ref_arg (V : Valuation τ sig (Elt Ideal)) :
    after (ops (F := Ideal)) V (Proc.devRef .tc main_arg0) = V (Proc.devRef .tc main_arg0) := by
  simp (disch := decide) only [ops_def, Cert.LibStages.after_append, kp0, kp1, kp2, kp3, kp4, kp5, kp6, kp7, kp8, kp9, kp10, kp11, kp12, kp13, kp14, kp15, kp16, kp17, kp18, kp19, kp20, kp21, kp22, kp23, kp24, kp25, kp26, kp27, kp28, kp29, kp30, kp31, kp32, kp33, kp34, kp35, kp36, kp37, kp38, kp39, kp40, kp41, kp42, kp43, kp44, kp45, kp46, kp47, kp48, kp49, kp50, kp51, kp52, kp53, kp54, kp55, kp56, kp57, kp58, kp59]

end Cert.ReferenceIdeal.Hand

end
-- ==== Proof.RefReadMat.lean ====
/-
  The reference's blocks read at an index: the batched 4×4 product as a sum over the contracted coordinate, a matrix
  as the row its row coordinate names, a row as the number its column coordinate names, a broadcast word as the
  number it denotes, and the columns cut from the argument as the argument's entries.
-/
import proofs.«164878_j3058016714901_2_alg».proof.Proof.RefBlocks
import proofs.«164878_j3058016714901_2_alg».proof.Proof.Spec
import Idealize.ShloMosaic.Lib.ValueIdx
import Idealize.ShloMosaic.Lib.ValueLayout
import Idealize.ShloMosaic.Lib.IdealHost
import Idealize.ShloMosaic.Lib.StackMember
import Idealize.ShloMosaic.Lib.Pipeline.Value

noncomputable section

open scoped BigOperators

namespace Cert.ReferenceIdeal.Blocks

open Cert.ReferenceIdeal Cert.ReferenceIdeal.Gen Idealize.ShloMosaic Idealize.ShloMosaic.ValueIdx

/-- The batched product at an entry: the sum over the contracted coordinate. -/
theorem mmA_apply (l r : FVec Ideal S524288x4x4 .f32) (b : Fin 524288) (i j : Fin 4) :
    mmA l r (ix3 b i j) = ∑ k : Fin 4, l (ix3 b i k) * r (ix3 b k j) := by
  unfold mmA
  exact StackMember.dotGeneral_stack_apply _ none l r b i j

/-- Four stacked rows read, at row i, that row at the same sample and column. -/
theorem mat4_apply (r0 r1 r2 r3 : FVec Ideal S524288x4 .f32) (b : Fin 524288) (i j : Fin 4) :
    mat4 r0 r1 r2 r3 (ix3 b i j) = ![r0 (ix2 b j), r1 (ix2 b j), r2 (ix2 b j), r3 (ix2 b j)] i := by
  unfold mat4
  have hi : ∀ c : Fin S524288x1x4.rank, c.cast (rfl : S524288x1x4.rank = S524288x4x4.rank) ≠ (1 : Fin S524288x4x4.rank) →
      ((ix3 b (0 : Fin 1) j) c).val = ((ix3 b i j) (c.cast rfl)).val := fun c => match c with
    | ⟨0, _⟩ => fun _ => rfl
    | ⟨1, _⟩ => fun h => absurd rfl h
    | ⟨2, _⟩ => fun _ => rfl
  have hb : ∀ r : FVec Ideal S524288x4 .f32,
      broadcastInDim S524288x1x4 ![0, 2] bcast_S524288x4_S524288x1x4_0_2 r (ix3 b (0 : Fin 1) j) = r (ix2 b j) := fun r =>
    broadcastInDim_apply _ _ _ (ix3 b (0 : Fin 1) j) (ix2 b j) (fun c => match c with | ⟨0, _⟩ => rfl | ⟨1, _⟩ => rfl)
  fin_cases i
  · refine Eq.trans (concatenate_apply_piece (t := S524288x4x4) _ _ _ _ 0 ?_ S524288x1x4 _ ?_ rfl 0 ?_ (ix3 b (0 : Fin 1) j) hi ?_) (hb r0)
    all_goals first | rfl | exact Nat.lt_of_sub_eq_succ rfl
  · refine Eq.trans (concatenate_apply_piece (t := S524288x4x4) _ _ _ _ 1 ?_ S524288x1x4 _ ?_ rfl 1 ?_ (ix3 b (0 : Fin 1) j) hi ?_) (hb r1)
    all_goals first | rfl | exact Nat.lt_of_sub_eq_succ rfl
  · refine Eq.trans (concatenate_apply_piece (t := S524288x4x4) _ _ _ _ 2 ?_ S524288x1x4 _ ?_ rfl 2 ?_ (ix3 b (0 : Fin 1) j) hi ?_) (hb r2)
    all_goals first | rfl | exact Nat.lt_of_sub_eq_succ rfl
  · refine Eq.trans (concatenate_apply_piece (t := S524288x4x4) _ _ _ _ 3 ?_ S524288x1x4 _ ?_ rfl 3 ?_ (ix3 b (0 : Fin 1) j) hi ?_) (hb r3)
    all_goals first | rfl | exact Nat.lt_of_sub_eq_succ rfl

/-- One row of four per-sample numbers reads the number its column names. -/
theorem row4_apply (a0 a1 a2 a3 : FVec Ideal S524288 .f32) (b : Fin 524288) (j : Fin 4) :
    row4 a0 a1 a2 a3 (ix2 b j) = ![a0 (ix1 b), a1 (ix1 b), a2 (ix1 b), a3 (ix1 b)] j := by
  unfold row4
  have hi : ∀ c : Fin S524288x1.rank, c.cast (rfl : S524288x1.rank = S524288x4.rank) ≠ (1 : Fin S524288x4.rank) →
      ((ix2 b (0 : Fin 1)) c).val = ((ix2 b j) (c.cast rfl)).val := fun c => match c with
    | ⟨0, _⟩ => fun _ => rfl
    | ⟨1, _⟩ => fun h => absurd rfl h
  have hb : ∀ a : FVec Ideal S524288 .f32,
      broadcastInDim S524288x1 ![0] bcast_S524288_S524288x1_0 a (ix2 b (0 : Fin 1)) = a (ix1 b) := fun a =>
    broadcastInDim_apply _ _ _ (ix2 b (0 : Fin 1)) (ix1 b) (fun c => match c with | ⟨0, _⟩ => rfl)
  fin_cases j
  · refine Eq.trans (concatenate_apply_piece (t := S524288x4) _ _ _ _ 0 ?_ S524288x1 _ ?_ rfl 0 ?_ (ix2 b (0 : Fin 1)) hi ?_) (hb a0)
    all_goals first | rfl | exact Nat.lt_of_sub_eq_succ rfl
  · refine Eq.trans (concatenate_apply_piece (t := S524288x4) _ _ _ _ 1 ?_ S524288x1 _ ?_ rfl 1 ?_ (ix2 b (0 : Fin 1)) hi ?_) (hb a1)
    all_goals first | rfl | exact Nat.lt_of_sub_eq_succ rfl
  · refine Eq.trans (concatenate_apply_piece (t := S524288x4) _ _ _ _ 2 ?_ S524288x1 _ ?_ rfl 2 ?_ (ix2 b (0 : Fin 1)) hi ?_) (hb a2)
    all_goals first | rfl | exact Nat.lt_of_sub_eq_succ rfl
  · refine Eq.trans (concatenate_apply_piece (t := S524288x4) _ _ _ _ 3 ?_ S524288x1 _ ?_ rfl 3 ?_ (ix2 b (0 : Fin 1)) hi ?_) (hb a3)
    all_goals first | rfl | exact Nat.lt_of_sub_eq_succ rfl

/-- A broadcast word reads the number the word denotes at every sample. -/
theorem wordA_apply (w : BitVec 32) (b : Fin 524288) : wordA w (ix1 b) = Cert.Kin.kw w := by
  unfold wordA
  rw [broadcastInDim_scalar_apply]
  rfl

/-- Column k of the angles reads the angle array at (b, k). -/
theorem colA_apply (v0 : FVec Ideal S524288x25 .f32) (k : Nat) (h : S524288x25.Slices ![0, k] S524288x1) (hk : k < 25)
    (b : Fin 524288) : colA v0 k h (ix1 b) = v0 (ix2 b ⟨k, hk⟩) := by
  unfold colA
  refine (shapeCast_apply _ _ (ix1 b) (ix2 b (0 : Fin 1)) ?_).trans ?_
  · rw [Shape.rowMajor_val_two, Shape.rowMajor_val_one]
    show b.val * 1 + 0 = b.val
    omega
  · exact extractStridedSlice_apply _ _ _ (ix2 b (0 : Fin 1)) (ix2 b ⟨k, hk⟩) (fun a => match a with
      | ⟨0, _⟩ => by show b.val = 0 + b.val; omega
      | ⟨1, _⟩ => by show k = k + 0; omega)

/-- The angle columns read the argument at the same place. -/
theorem v0A_apply (x : FVec Ideal S524288x26 .f32) (b : Fin 524288) (k : Fin 25) :
    v0A x (ix2 b k) = x (ix2 b ⟨k.val, by omega⟩) := by
  unfold v0A
  exact extractStridedSlice_apply _ _ _ (ix2 b k) (ix2 b ⟨k.val, by omega⟩) (fun a => match a with
      | ⟨0, _⟩ => by show b.val = 0 + b.val; omega
      | ⟨1, _⟩ => by show k.val = 0 + k.val; omega)

/-- The scale column reads the argument's last column. -/
theorem scaleA_apply (x : FVec Ideal S524288x26 .f32) (b : Fin 524288) :
    scaleA x (ix1 b) = x (ix2 b (25 : Fin 26)) := by
  unfold scaleA
  refine (shapeCast_apply _ _ (ix1 b) (ix2 b (0 : Fin 1)) ?_).trans ?_
  · rw [Shape.rowMajor_val_two, Shape.rowMajor_val_one]
    show b.val * 1 + 0 = b.val
    omega
  · exact extractStridedSlice_apply _ _ _ (ix2 b (0 : Fin 1)) (ix2 b (25 : Fin 26)) (fun a => match a with
      | ⟨0, _⟩ => by show b.val = 0 + b.val; omega
      | ⟨1, _⟩ => by show 25 = 25 + 0; omega)

end Cert.ReferenceIdeal.Blocks

end
-- ==== Proof.LibScatterFold.lean ====
/-
  A left fold of pointwise overwrites, read at one index.

  A scatter is a left fold over its updates, each step overwriting the one element the update aims at (or nothing,
  when the update falls outside). Read at a single index, such a fold only sees the updates aimed at that index: when
  none is, the initial value stands; when exactly one is, the value is the body applied to the initial value and that
  update, whatever the order of the others. The two facts are stated first for any fold whose step acts that way,
  then for a scatter at its dimension numbers.
-/
import Idealize.ShloMosaic.PureOps.ShapeOps
import Mathlib.Data.List.Nodup
import Mathlib.Data.List.FinRange

namespace Cert.LibScatterFold

open Idealize.ShloMosaic

section Fold

variable {ι α β : Type*}

/-- A fold whose steps leave index `j` alone unless aimed at it, over updates none of which aims at `j`,
    holds the initial value at `j`. -/
theorem foldl_apply_of_miss (step : (ι → α) → β → ι → α) (tgt : β → Option ι) (j : ι)
    (hmiss : ∀ r n, tgt n ≠ some j → step r n j = r j) :
    ∀ (l : List β) (x : ι → α), (∀ n ∈ l, tgt n ≠ some j) → l.foldl step x j = x j
  | [], _, _ => rfl
  | n :: l, x, h => by
    rw [List.foldl_cons, foldl_apply_of_miss step tgt j hmiss l _ (fun m hm => h m (List.mem_cons_of_mem _ hm)),
      hmiss x n (h n (by simp))]

/-- A fold over updates of which exactly the middle one aims at `j` holds at `j` the body applied to the initial
    value and that update. -/
theorem foldl_apply_of_hit (step : (ι → α) → β → ι → α) (tgt : β → Option ι) (val : β → α) (f : α → α → α) (j : ι)
    (hmiss : ∀ r n, tgt n ≠ some j → step r n j = r j)
    (hhit : ∀ r n, tgt n = some j → step r n j = f (r j) (val n))
    (l₁ l₂ : List β) (n : β) (x : ι → α)
    (h₁ : ∀ m ∈ l₁, tgt m ≠ some j) (hn : tgt n = some j) (h₂ : ∀ m ∈ l₂, tgt m ≠ some j) :
    (l₁ ++ n :: l₂).foldl step x j = f (x j) (val n) := by
  rw [List.foldl_append, List.foldl_cons, foldl_apply_of_miss step tgt j hmiss l₂ _ h₂, hhit _ n hn,
    foldl_apply_of_miss step tgt j hmiss l₁ x h₁]

/-- A fold over a list without repeats, of which exactly one update `n` aims at `j`, holds at `j` the body applied
    to the initial value and that update. -/
theorem foldl_apply_of_unique (step : (ι → α) → β → ι → α) (tgt : β → Option ι) (val : β → α) (f : α → α → α) (j : ι)
    (hmiss : ∀ r n, tgt n ≠ some j → step r n j = r j)
    (hhit : ∀ r n, tgt n = some j → step r n j = f (r j) (val n))
    (l : List β) (hl : l.Nodup) (n : β) (hnl : n ∈ l) (hn : tgt n = some j)
    (hu : ∀ m ∈ l, m ≠ n → tgt m ≠ some j) (x : ι → α) :
    l.foldl step x j = f (x j) (val n) := by
  obtain ⟨l₁, l₂, rfl⟩ := List.append_of_mem hnl
  have hnot : n ∉ l₁ ++ l₂ := (List.nodup_cons.1 (List.nodup_middle.1 hl)).1
  refine foldl_apply_of_hit step tgt val f j hmiss hhit l₁ l₂ n x (fun m hm => ?_) hn (fun m hm => ?_)
  · exact hu m (List.mem_append_left _ hm) (fun e => hnot (e ▸ List.mem_append_left _ hm))
  · exact hu m (List.mem_append_right _ (List.mem_cons_of_mem _ hm)) (fun e => hnot (e ▸ List.mem_append_right _ hm))

end Fold

section Scatter

variable {s si u : Shape} {α : Type} {w : Nat}

/-- The step of a scatter's fold, read at `i`: the body at the update when the update lands on `i`, the old value
    otherwise. -/
private theorem step_apply (d : ScatterDims s si u) (f : α → α → α) (idx : IVec si w) (upd : u.Idx → α)
    (r : s.Idx → α) (n : Fin u.numel) (i : s.Idx) :
    (match d.resultIdx? (u.rowMajor.symm n) idx with
      | some i₀ => fun i' => if i' = i₀ then f (r i₀) (upd (u.rowMajor.symm n)) else r i'
      | none => r) i
    = if d.resultIdx? (u.rowMajor.symm n) idx = some i then f (r i) (upd (u.rowMajor.symm n)) else r i := by
  cases h : d.resultIdx? (u.rowMajor.symm n) idx with
  | none => simp
  | some i₀ =>
    by_cases e : i = i₀
    · subst e; simp
    · have : ¬ i₀ = i := fun e' => e e'.symm
      simp [e, this]

/-- A scatter read at an element no update lands on: the operand's element. -/
theorem scatter_apply_of_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  unfold Host.scatter
  refine foldl_apply_of_miss _ (fun n => d.resultIdx? (u.rowMajor.symm n) idx) i (fun r n hn => ?_) _ x
    (fun n _ => h _)
  exact (step_apply d f idx upd r n i).trans (if_neg hn)

/-- A scatter read at an element exactly one update `j` lands on: the body applied to the operand's element and
    that update, whatever the order of the updates. -/
theorem scatter_apply_of_unique (d : ScatterDims s si u) (f : α → α → α) (x : s.Idx → α) (idx : IVec si w)
    (upd : u.Idx → α) (i : s.Idx) (j : u.Idx) (hj : d.resultIdx? j idx = some i)
    (hu : ∀ j' : u.Idx, j' ≠ j → d.resultIdx? j' idx ≠ some i) :
    Host.scatter d f x idx upd i = f (x i) (upd j) := by
  unfold Host.scatter
  refine (foldl_apply_of_unique _ (fun n => d.resultIdx? (u.rowMajor.symm n) idx)
    (fun n => upd (u.rowMajor.symm n)) f i (fun r n hn => ?_) (fun r n hn => ?_)
    (List.finRange u.numel) (List.nodup_finRange _) (u.rowMajor j) (List.mem_finRange _)
    ?_ (fun m _ hm => hu _ (fun e => hm ?_)) x).trans ?_
  · exact (step_apply d f idx upd r n i).trans (if_neg hn)
  · exact (step_apply d f idx upd r n i).trans (if_pos hn)
  · show d.resultIdx? (u.rowMajor.symm (u.rowMajor j)) idx = some i
    rw [Equiv.symm_apply_apply]; exact hj
  · rw [← e, Equiv.apply_symm_apply]
  · show f (x i) (upd (u.rowMajor.symm (u.rowMajor j))) = _
    rw [Equiv.symm_apply_apply]

end Scatter

end Cert.LibScatterFold
-- ==== Proof.RefReadTrans.lean ====
/-
  The reference's small blocks read at an index.

  The translation array is the broadcast 4×4 identity with one element of every sample's matrix overwritten by a
  scatter: update `n` lands on element `(a, 3)` of sample `n`'s matrix and on nothing else, so distinct updates land
  on distinct elements and the scatter, read at sample `b`, row `i`, column `j`, is the update of sample `b` at
  `(a, 3)` and the identity's entry elsewhere: the scalar translation matrix along axis `a`. The identity itself is
  "row number equals column number" as a float; a bone is a product of three numbers; an entry of the table of
  lengths is the literal word at that position.
-/
import proofs.«164878_j3058016714901_2_alg».proof.Proof.RefBlocks
import proofs.«164878_j3058016714901_2_alg».proof.Proof.Spec
import proofs.«164878_j3058016714901_2_alg».proof.Proof.LibScatterFold
import Idealize.ShloMosaic.Lib.ValueIdx
import Idealize.ShloMosaic.Lib.Pipeline.Value
import Idealize.ShloMosaic.Lib.IdealHost

noncomputable section

namespace Cert.ReferenceIdeal.Blocks

open Cert.ReferenceIdeal Cert.ReferenceIdeal.Gen Idealize.ShloMosaic Idealize.ShloMosaic.ValueIdx

/-- A one-bit word for "row equals column", from the two coordinates as 32-bit words. -/
private theorem eq_word (i j : Fin 4) :
    IntOp.cmpi .eq (IntOp.addi (BitVec.ofNat 32 i.val) 0#32) (BitVec.ofNat 32 j.val) = if i = j then 1#1 else 0#1 := by
  revert i j; decide

/-- The broadcast identity at sample `b`, row `i`, column `j`: one on the diagonal, zero off it. -/
theorem eyeA_apply (b : Fin 524288) (i j : Fin 4) : eyeA (ix3 b i j) = if i = j then (1 : EReal) else 0 := by
  unfold eyeA
  rw [broadcastInDim_apply _ _ _ (ix3 b i j) (ix2 i j) (fun a => by
    match a with
    | ⟨0, _⟩ => rfl
    | ⟨1, _⟩ => rfl)]
  show (((IntOp.cmpi .eq (IntOp.addi (BitVec.ofNat 32 i.val) 0#32) (BitVec.ofNat 32 j.val)).toNat : ℝ) : EReal) = _
  rw [eq_word]
  split_ifs <;> simp

/-- The dimension numbers of the one scatter the reference uses: one index vector, a window along the samples. -/
private abbrev DS := scatter_S524288x4x4_S2_S524288_0_12_12_0

/-- Where update `n` of the scatter lands: element `(a, 3)` of sample `n`'s matrix. -/
theorem resultIdx_ix1 (a : BitVec 32) (ai : Fin 4) (h : a.toInt = (ai.val : Int)) (n : Fin 524288) :
    DS.resultIdx? (ix1 n) (idxA a) = some (ix3 n ai (3 : Fin 4)) := by
  have hn := n.isLt
  have hai := ai.isLt
  have H : ∀ x : Fin 3, 0 ≤ DS.start (ix1 n) (idxA a) x + (DS.window (ix1 n) x : Int) ∧
      DS.start (ix1 n) (idxA a) x + (DS.window (ix1 n) x : Int) < (S524288x4x4.size x : Int) := by
    intro x
    match x with
    | ⟨0, _⟩ =>
      show (0 : Int) ≤ 0 + ((n.val : Nat) : Int) ∧ (0 : Int) + ((n.val : Nat) : Int) < ((524288 : Nat) : Int)
      omega
    | ⟨1, _⟩ =>
      show (0 : Int) ≤ a.toInt + ((0 : Nat) : Int) ∧ a.toInt + ((0 : Nat) : Int) < ((4 : Nat) : Int)
      omega
    | ⟨2, _⟩ =>
      show (0 : Int) ≤ (3#32 : BitVec 32).toInt + ((0 : Nat) : Int) ∧ (3#32 : BitVec 32).toInt + ((0 : Nat) : Int) < ((4 : Nat) : Int)
      decide
  unfold ScatterDims.resultIdx?
  rw [dif_pos H]
  refine congrArg some (funext fun x => Fin.ext ?_)
  match x with
  | ⟨0, _⟩ =>
    show ((0 : Int) + ((n.val : Nat) : Int)).toNat = n.val
    omega
  | ⟨1, _⟩ =>
    show (a.toInt + ((0 : Nat) : Int)).toNat = ai.val
    omega
  | ⟨2, _⟩ =>
    show ((3#32 : BitVec 32).toInt + ((0 : Nat) : Int)).toNat = 3
    decide

/-- Two index triples are equal only if their coordinates are. -/
private theorem ix3_inj {n0 n1 n2 : Nat} {a a' : Fin n0} {b b' : Fin n1} {c c' : Fin n2} (h : ix3 a b c = ix3 a' b' c') :
    a = a' ∧ b = b' ∧ c = c' :=
  ⟨congrFun h 0, congrFun h 1, congrFun h 2⟩

/-- The identity with element `(a, 3)` of every sample's matrix set to that sample's `d`, read at sample `b`,
    row `i`, column `j`: the scalar translation matrix along axis `a` by `d b`. -/
theorem transA_apply (a : BitVec 32) (ai : Fin 4) (h : a.toInt = (ai.val : Int)) (d : FVec Ideal S524288 .f32)
    (b : Fin 524288) (i j : Fin 4) : transA a d (ix3 b i j) = Cert.Kin.trans ai (d (ix1 b)) i j := by
  unfold transA Cert.Kin.trans
  by_cases hij : i = ai ∧ j = 3
  · obtain ⟨rfl, rfl⟩ := hij
    rw [if_pos ⟨rfl, rfl⟩]
    refine Cert.LibScatterFold.scatter_apply_of_unique DS (fun _ v => v) eyeA (idxA a) d (ix3 b i 3) (ix1 b)
      (resultIdx_ix1 a i h b) (fun j' hj' e => hj' ?_)
    obtain ⟨n, rfl⟩ : ∃ n : Fin 524288, j' = ix1 n := ⟨j' 0, eq_ix1 j'⟩
    rw [resultIdx_ix1 a i h n] at e
    rw [(ix3_inj (Option.some.inj e)).1]
  · rw [if_neg hij, ← eyeA_apply b i j]
    refine Cert.LibScatterFold.scatter_apply_of_miss DS (fun _ v => v) eyeA (idxA a) d (ix3 b i j) (fun j' e => hij ?_)
    obtain ⟨n, rfl⟩ : ∃ n : Fin 524288, j' = ix1 n := ⟨j' 0, eq_ix1 j'⟩
    rw [resultIdx_ix1 a ai h n] at e
    have := ix3_inj (Option.some.inj e)
    exact ⟨this.2.1.symm, this.2.2.symm⟩

/-- The translation along the first axis, read at an index. -/
theorem transA_apply0 (d : FVec Ideal S524288 .f32) (b : Fin 524288) (i j : Fin 4) :
    transA 0#32 d (ix3 b i j) = Cert.Kin.trans 0 (d (ix1 b)) i j :=
  transA_apply 0#32 0 (by decide) d b i j

/-- The translation along the second axis, read at an index. -/
theorem transA_apply1 (d : FVec Ideal S524288 .f32) (b : Fin 524288) (i j : Fin 4) :
    transA 1#32 d (ix3 b i j) = Cert.Kin.trans 1 (d (ix1 b)) i j :=
  transA_apply 1#32 1 (by decide) d b i j

/-- A bone read at sample `b`: the sign word times the length times the sample's scale. -/
theorem boneA_apply (sg : BitVec 32) (len : FVec Ideal S_ .f32) (scale : FVec Ideal S524288 .f32) (b : Fin 524288) :
    boneA sg len scale (ix1 b) = Cert.Kin.kw sg * len ix0 * scale (ix1 b) := by
  unfold boneA
  rw [mulf_apply, broadcastInDim_scalar_apply, mulf_apply, constant_apply]

/-- The rank-zero shape has one position, number zero. -/
private theorem rowMajor_S_ (j : S_.Idx) : (S_.rowMajor j).val = 0 := by
  have h : S_.numel = 1 := by decide
  have := (S_.rowMajor j).isLt
  omega

/-- Entry `k` of the table read as a scalar is the table at `k`. -/
theorem lenA_apply (cst : FVec Ideal S9 .f32) (k : Nat) (h : S9.Slices ![k] S1) (hk : k < 9) :
    lenA cst k h ix0 = cst (ix1 ⟨k, hk⟩) := by
  unfold lenA
  rw [shapeCast_apply _ _ ix0 (ix1 (0 : Fin 1)) (by rw [Shape.rowMajor_val_one, rowMajor_S_]; rfl)]
  exact extractStridedSlice_apply _ _ _ _ (ix1 ⟨k, hk⟩) (fun a => by
    match a with
    | ⟨0, _⟩ => rfl)

/-- The table of bone lengths at `k` is the `k`-th literal word. -/
theorem tblA_apply (k : Fin 9) : tblA (ix1 k) = Cert.Kin.kw (lit0 k) := by
  unfold tblA
  have e : S9.rowMajor (ix1 k) = k := Fin.ext (by rw [Shape.rowMajor_val_one])
  rw [e]
  rfl

end Cert.ReferenceIdeal.Blocks

end
-- ==== Proof.RefReadOut.lean ====
/-
  The reference's last blocks read at an index: the stack of sixteen poses cut to the first three rows of its last
  column, as the pose its joint coordinate names; and the result array, as the positions laid out row-major beside
  half the sum of two joints.
-/
import proofs.«164878_j3058016714901_2_alg».proof.Proof.RefBlocks
import proofs.«164878_j3058016714901_2_alg».proof.Proof.Spec
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.ReferenceIdeal.Blocks

open Cert.ReferenceIdeal Cert.ReferenceIdeal.Gen Idealize.ShloMosaic Idealize.ShloMosaic.ValueIdx

/-- The joint positions read pose q's last column at row i. -/
theorem posA_apply (M0 M1 M2 M3 M4 M5 M6 M7 M8 M9 M10 M11 M12 M13 M14 M15 : FVec Ideal S524288x4x4 .f32)
    (b : Fin 524288) (q : Fin 16) (i : Fin 3) :
    posA M0 M1 M2 M3 M4 M5 M6 M7 M8 M9 M10 M11 M12 M13 M14 M15 (ix3 b q i)
      = (![M0, M1, M2, M3, M4, M5, M6, M7, M8, M9, M10, M11, M12, M13, M14, M15] q) (ix3 b ⟨i.val, by omega⟩ (3 : Fin 4)) := by
  unfold posA
  refine (shapeCast_apply _ _ (ix3 b q i) (ix4 b q i (0 : Fin 1)) ?_).trans ?_
  · rw [Shape.rowMajor_val_four, Shape.rowMajor_val_three]
    show ((b.val * 16 + q.val) * 3 + i.val) * 1 + 0 = (b.val * 16 + q.val) * 3 + i.val
    omega
  refine (extractStridedSlice_apply _ _ _ (ix4 b q i (0 : Fin 1)) (ix4 b q (⟨i.val, by omega⟩ : Fin 4) (3 : Fin 4)) (fun a => match a with
      | ⟨0, _⟩ => by show b.val = 0 + b.val; omega
      | ⟨1, _⟩ => by show q.val = 0 + q.val; omega
      | ⟨2, _⟩ => by show i.val = 0 + i.val; omega
      | ⟨3, _⟩ => by show 3 = 3 + 0; omega)).trans ?_
  show concatenate S524288x16x4x4 1
      (List.ofFn fun n : Fin 16 => (⟨S524288x1x4x4, liftJ (![M0, M1, M2, M3, M4, M5, M6, M7, M8, M9, M10, M11, M12, M13, M14, M15] n)⟩ : (s : Shape) × (s.Idx → EReal)))
      concatenates_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x1x4x4_S524288x16x4x4_d1
      (ix4 b q (⟨i.val, by omega⟩ : Fin 4) (3 : Fin 4)) = _
  refine (concatenate_ofFn_unit_apply (t := S524288x16x4x4) (s₁ := S524288x1x4x4) 1 _ _ rfl rfl _ q rfl
    (ix4 b (0 : Fin 1) (⟨i.val, by omega⟩ : Fin 4) (3 : Fin 4)) (fun c => match c with
      | ⟨0, _⟩ => fun _ => rfl
      | ⟨1, _⟩ => fun h => absurd rfl h
      | ⟨2, _⟩ => fun _ => rfl
      | ⟨3, _⟩ => fun _ => rfl)).trans ?_
  unfold liftJ
  exact broadcastInDim_apply _ _ _ (ix4 b (0 : Fin 1) (⟨i.val, by omega⟩ : Fin 4) (3 : Fin 4)) (ix3 b ⟨i.val, by omega⟩ (3 : Fin 4))
    (fun c => match c with | ⟨0, _⟩ => rfl | ⟨1, _⟩ => rfl | ⟨2, _⟩ => rfl)

/-- Joint q's coordinates, cut from the positions and flattened, read the positions at (b, q, c). -/
theorem jointA_apply (P : FVec Ideal S524288x16x3 .f32) (q : Nat) (hq : q < 16)
    (h : S524288x16x3.Slices ![0, q, 0] S524288x1x3) (b : Fin 524288) (c : Fin 3) :
    shapeCast S524288x3 (extractStridedSlice S524288x1x3 ![0, q, 0] P h) shapeCasts_S524288x1x3_S524288x3 (ix2 b c)
      = P (ix3 b ⟨q, hq⟩ c) := by
  refine (shapeCast_apply _ _ (ix2 b c) (ix3 b (0 : Fin 1) c) ?_).trans ?_
  · rw [Shape.rowMajor_val_three, Shape.rowMajor_val_two]
    show (b.val * 1 + 0) * 3 + c.val = b.val * 3 + c.val
    omega
  · exact extractStridedSlice_apply _ _ _ (ix3 b (0 : Fin 1) c) (ix3 b ⟨q, hq⟩ c) (fun a => match a with
      | ⟨0, _⟩ => by show b.val = 0 + b.val; omega
      | ⟨1, _⟩ => by show q = q + 0; omega
      | ⟨2, _⟩ => by show c.val = 0 + c.val; omega)

/-- The result reads, in its first 48 columns, the joint positions row-major, and in its last three, half the sum of
    joints 8 and 6. -/
theorem outA_apply (P : FVec Ideal S524288x16x3 .f32) (b : Fin 524288) (j : Fin 51) :
    outA P (ix2 b j) = if h : j.val < 48 then P (ix3 b ⟨j.val / 3, by omega⟩ ⟨j.val % 3, by omega⟩)
      else Cert.Kin.kw 0x3F000000#32 * (P (ix3 b (8 : Fin 16) ⟨j.val - 48, by omega⟩) + P (ix3 b (6 : Fin 16) ⟨j.val - 48, by omega⟩)) := by
  unfold outA
  by_cases h : j.val < 48
  · rw [dif_pos h]
    refine (concatenate_pair_apply_left (t := S524288x51) (s₁ := S524288x48) (s₂ := S524288x3) _ _ _ _ (ix2 b j) rfl (ix2 b (⟨j.val, h⟩ : Fin 48)) (fun c => match c with
      | ⟨0, _⟩ => rfl
      | ⟨1, _⟩ => rfl)).trans ?_
    refine shapeCast_apply _ _ (ix2 b (⟨j.val, h⟩ : Fin 48)) (ix3 b ⟨j.val / 3, by omega⟩ ⟨j.val % 3, by omega⟩) ?_
    rw [Shape.rowMajor_val_three, Shape.rowMajor_val_two]
    show (b.val * 16 + j.val / 3) * 3 + j.val % 3 = b.val * 48 + j.val
    omega
  · rw [dif_neg h]
    have hj : j.val - 48 < 3 := by omega
    refine (concatenate_pair_apply_right (t := S524288x51) (s₁ := S524288x48) (s₂ := S524288x3) _ _ _ _ (ix2 b j) rfl rfl (ix2 b (⟨j.val - 48, hj⟩ : Fin 3)) (fun c => match c with
      | ⟨0, _⟩ => fun _ => rfl
      | ⟨1, _⟩ => fun hc => absurd rfl hc) ?_).trans ?_
    · show (j.val - 48) + 48 = j.val
      omega
    rw [mulf_apply, addf_apply, jointA_apply P 8 (by omega) _ b ⟨j.val - 48, hj⟩, jointA_apply P 6 (by omega) _ b ⟨j.val - 48, hj⟩,
      broadcastInDim_scalar_apply]
    rfl

end Cert.ReferenceIdeal.Blocks

end
-- ==== Proof.RefRead.lean ====
/-
  The reference's result read at an index: row b of 'RefArr x' is the kinematic chain, with the 4×4 products formed
  as they stand, of row b of the argument. Sample by sample: a rotation array at sample b is the rotation matrix of
  that sample's angle, a translation array the translation matrix of that sample's bone, a batched product the
  product of the two samples' matrices; the gathered last columns are the chain's joint positions.
-/
import proofs.«164878_j3058016714901_2_alg».proof.Proof.RefValue
import proofs.«164878_j3058016714901_2_alg».proof.Proof.RefReadMat
import proofs.«164878_j3058016714901_2_alg».proof.Proof.RefReadTrans
import proofs.«164878_j3058016714901_2_alg».proof.Proof.RefReadOut
import proofs.«164878_j3058016714901_2_alg».proof.Proof.Out

noncomputable section

namespace Cert.ReferenceIdeal.Hand

open Cert.ReferenceIdeal Cert.ReferenceIdeal.Gen Cert.ReferenceIdeal.Blocks Cert.Kin Idealize.ShloMosaic Idealize.ShloMosaic.ValueIdx

variable (x : FVec Ideal S524288x26 .f32)

/-- A batched product at sample b is the product of the factors' matrices at sample b. -/
theorem mmA_mmul (b : Fin 524288) (l r : FVec Ideal S524288x4x4 .f32) (L R : Mat)
    (hl : ∀ i k : Fin 4, l (ix3 b i k) = L i k) (hr : ∀ k j : Fin 4, r (ix3 b k j) = R k j) :
    ∀ i j : Fin 4, mmA l r (ix3 b i j) = mmul L R i j := by
  intro i j
  rw [mmA_apply]
  unfold mmul
  exact Finset.sum_congr rfl fun k _ => by rw [hl, hr]

/-- Angle k of sample b. -/
theorem col_sample (k : Nat) (h : S524288x25.Slices ![0, k] S524288x1) (hk : k < 25) (b : Fin 524288) :
    colA (v0A x) k h (ix1 b) = sample x b ⟨k, by omega⟩ := by
  rw [colA_apply _ _ _ hk, v0A_apply]; rfl

/-- One row of a rotation array at sample b. -/
theorem row_at (a0 a1 a2 a3 : FVec Ideal S524288 .f32) (b : Fin 524288) (j : Fin 4) (e0 e1 e2 e3 : EReal)
    (h0 : a0 (ix1 b) = e0) (h1 : a1 (ix1 b) = e1) (h2 : a2 (ix1 b) = e2) (h3 : a3 (ix1 b) = e3) :
    row4 a0 a1 a2 a3 (ix2 b j) = ![e0, e1, e2, e3] j := by
  rw [row4_apply, h0, h1, h2, h3]

theorem cos_at (a : FVec Ideal S524288 .f32) (b : Fin 524288) : Host.cos a (ix1 b) = Ideal.cos (a (ix1 b)) := rfl
theorem sin_at (a : FVec Ideal S524288 .f32) (b : Fin 524288) : Host.sin a (ix1 b) = Ideal.sin (a (ix1 b)) := rfl
theorem nsin_at (a : FVec Ideal S524288 .f32) (b : Fin 524288) : Host.negf (Host.sin a) (ix1 b) = -Ideal.sin (a (ix1 b)) := rfl

theorem RzA_apply (k : Nat) (h : S524288x25.Slices ![0, k] S524288x1) (hk : k < 25) (b : Fin 524288) :
    ∀ i j : Fin 4, RzA x k h (ix3 b i j) = Rz (sample x b) ⟨k, by omega⟩ i j := by
  intro i j
  unfold RzA rotZA Rz rotZ co si
  rw [mat4_apply]
  fin_cases i <;>
    (simp only [Fin.zero_eta, Fin.mk_one, Fin.reduceFinMk, Matrix.cons_val_zero, Matrix.cons_val_one, Matrix.cons_val]
     refine (row_at _ _ _ _ b j _ _ _ _ ?_ ?_ ?_ ?_) <;>
       first
         | exact wordA_apply _ b
         | (rw [cos_at, col_sample x k h hk])
         | (rw [sin_at, col_sample x k h hk])
         | (rw [nsin_at, col_sample x k h hk]))

theorem RxA_apply (k : Nat) (h : S524288x25.Slices ![0, k] S524288x1) (hk : k < 25) (b : Fin 524288) :
    ∀ i j : Fin 4, RxA x k h (ix3 b i j) = Rx (sample x b) ⟨k, by omega⟩ i j := by
  intro i j
  unfold RxA rotXA Rx rotX co si
  rw [mat4_apply]
  fin_cases i <;>
    (simp only [Fin.zero_eta, Fin.mk_one, Fin.reduceFinMk, Matrix.cons_val_zero, Matrix.cons_val_one, Matrix.cons_val]
     refine (row_at _ _ _ _ b j _ _ _ _ ?_ ?_ ?_ ?_) <;>
       first
         | exact wordA_apply _ b
         | (rw [cos_at, col_sample x k h hk])
         | (rw [sin_at, col_sample x k h hk])
         | (rw [nsin_at, col_sample x k h hk]))

theorem RyA_apply (k : Nat) (h : S524288x25.Slices ![0, k] S524288x1) (hk : k < 25) (b : Fin 524288) :
    ∀ i j : Fin 4, RyA x k h (ix3 b i j) = Ry (sample x b) ⟨k, by omega⟩ i j := by
  intro i j
  unfold RyA rotYA Ry rotY co si
  rw [mat4_apply]
  fin_cases i <;>
    (simp only [Fin.zero_eta, Fin.mk_one, Fin.reduceFinMk, Matrix.cons_val_zero, Matrix.cons_val_one, Matrix.cons_val]
     refine (row_at _ _ _ _ b j _ _ _ _ ?_ ?_ ?_ ?_) <;>
       first
         | exact wordA_apply _ b
         | (rw [cos_at, col_sample x k h hk])
         | (rw [sin_at, col_sample x k h hk])
         | (rw [nsin_at, col_sample x k h hk]))

/-- The bone of sample b: sign word, entry k of the length table, the sample's scale. -/
theorem bone_sample (sg : BitVec 32) (k : Nat) (h : S9.Slices ![k] S1) (hk : k < 9) (b : Fin 524288) :
    boneA sg (lenA tblA k h) (scaleA x) (ix1 b) = bone (sample x b) sg (lit0 ⟨k, hk⟩) := by
  rw [boneA_apply, lenA_apply _ _ _ hk, tblA_apply, scaleA_apply]; rfl

theorem TyA_apply (sg : BitVec 32) (k : Nat) (h : S9.Slices ![k] S1) (hk : k < 9) (w : BitVec 32) (hw : lit0 ⟨k, hk⟩ = w) (b : Fin 524288) :
    ∀ i j : Fin 4, TyA x sg k h (ix3 b i j) = Ty (sample x b) sg w i j := by
  intro i j; unfold TyA Ty; rw [transA_apply1, bone_sample x sg k h hk, hw]
theorem TxA_apply (sg : BitVec 32) (k : Nat) (h : S9.Slices ![k] S1) (hk : k < 9) (w : BitVec 32) (hw : lit0 ⟨k, hk⟩ = w) (b : Fin 524288) :
    ∀ i j : Fin 4, TxA x sg k h (ix3 b i j) = Tx (sample x b) sg w i j := by
  intro i j; unfold TxA Tx; rw [transA_apply0, bone_sample x sg k h hk, hw]

theorem Apel_apply (b : Fin 524288) : ∀ i j : Fin 4, ApelA x (ix3 b i j) = Tpel (sample x b) i j := by
  unfold ApelA Tpel
  exact mmA_mmul b _ _ _ _ (mmA_mmul b _ _ _ _ (RzA_apply x 0 slices_S524288x25_S524288x1_0_0 (by omega) b) (RxA_apply x 1 slices_S524288x25_S524288x1_0_1 (by omega) b)) (RyA_apply x 2 slices_S524288x25_S524288x1_0_2 (by omega) b)
theorem Ator_apply (b : Fin 524288) : ∀ i j : Fin 4, AtorA x (ix3 b i j) = Ttor (sample x b) i j := by
  unfold AtorA Ttor
  exact mmA_mmul b _ _ _ _ (mmA_mmul b _ _ _ _ (mmA_mmul b _ _ _ _ (Apel_apply x b) (RzA_apply x 3 slices_S524288x25_S524288x1_0_3 (by omega) b)) (RyA_apply x 4 slices_S524288x25_S524288x1_0_4 (by omega) b)) (TyA_apply x 0x3F800000#32 3 slices_S9_S1_3 (by omega) 0x3FAAAAAB#32 (by decide) b)
theorem Anec_apply (b : Fin 524288) : ∀ i j : Fin 4, AnecA x (ix3 b i j) = Tnec (sample x b) i j := by
  unfold AnecA Tnec
  exact mmA_mmul b _ _ _ _ (mmA_mmul b _ _ _ _ (mmA_mmul b _ _ _ _ (mmA_mmul b _ _ _ _ (Ator_apply x b) (RzA_apply x 5 slices_S524288x25_S524288x1_0_5 (by omega) b)) (RxA_apply x 6 slices_S524288x25_S524288x1_0_6 (by omega) b)) (RyA_apply x 7 slices_S524288x25_S524288x1_0_7 (by omega) b)) (TyA_apply x 0x3F800000#32 4 slices_S9_S1_4 (by omega) 0x3E7C733C#32 (by decide) b)
theorem Ahed_apply (b : Fin 524288) : ∀ i j : Fin 4, AhedA x (ix3 b i j) = Thed (sample x b) i j := by
  unfold AhedA Thed
  exact mmA_mmul b _ _ _ _ (mmA_mmul b _ _ _ _ (Anec_apply x b) (RxA_apply x 8 slices_S524288x25_S524288x1_0_8 (by omega) b)) (TyA_apply x 0x3F800000#32 5 slices_S9_S1_5 (by omega) 0x3F54816F#32 (by decide) b)
theorem Alhp_apply (b : Fin 524288) : ∀ i j : Fin 4, AlhpA x (ix3 b i j) = Tlhp (sample x b) i j := by
  unfold AlhpA Tlhp
  exact mmA_mmul b _ _ _ _ (Apel_apply x b) (TxA_apply x 0x3F800000#32 2 slices_S9_S1_2 (by omega) 0x3E800000#32 (by decide) b)
theorem Alkn_apply (b : Fin 524288) : ∀ i j : Fin 4, AlknA x (ix3 b i j) = Tlkn (sample x b) i j := by
  unfold AlknA Tlkn
  exact mmA_mmul b _ _ _ _ (mmA_mmul b _ _ _ _ (mmA_mmul b _ _ _ _ (mmA_mmul b _ _ _ _ (Alhp_apply x b) (RzA_apply x 9 slices_S524288x25_S524288x1_0_9 (by omega) b)) (RxA_apply x 10 slices_S524288x25_S524288x1_0_10 (by omega) b)) (RyA_apply x 11 slices_S524288x25_S524288x1_0_11 (by omega) b)) (TyA_apply x 0xBF800000#32 1 slices_S9_S1_1 (by omega) 0x3F955555#32 (by decide) b)
theorem Alan_apply (b : Fin 524288) : ∀ i j : Fin 4, AlanA x (ix3 b i j) = Tlan (sample x b) i j := by
  unfold AlanA Tlan
  exact mmA_mmul b _ _ _ _ (mmA_mmul b _ _ _ _ (Alkn_apply x b) (RxA_apply x 12 slices_S524288x25_S524288x1_0_12 (by omega) b)) (TyA_apply x 0xBF800000#32 0 slices_S9_S1_0 (by omega) 0x3F800000#32 (by decide) b)
theorem Arhp_apply (b : Fin 524288) : ∀ i j : Fin 4, ArhpA x (ix3 b i j) = Trhp (sample x b) i j := by
  unfold ArhpA Trhp
  exact mmA_mmul b _ _ _ _ (Apel_apply x b) (TxA_apply x 0xBF800000#32 2 slices_S9_S1_2 (by omega) 0x3E800000#32 (by decide) b)
theorem Arkn_apply (b : Fin 524288) : ∀ i j : Fin 4, ArknA x (ix3 b i j) = Trkn (sample x b) i j := by
  unfold ArknA Trkn
  exact mmA_mmul b _ _ _ _ (mmA_mmul b _ _ _ _ (mmA_mmul b _ _ _ _ (mmA_mmul b _ _ _ _ (Arhp_apply x b) (RzA_apply x 13 slices_S524288x25_S524288x1_0_13 (by omega) b)) (RxA_apply x 14 slices_S524288x25_S524288x1_0_14 (by omega) b)) (RyA_apply x 15 slices_S524288x25_S524288x1_0_15 (by omega) b)) (TyA_apply x 0xBF800000#32 1 slices_S9_S1_1 (by omega) 0x3F955555#32 (by decide) b)
theorem Aran_apply (b : Fin 524288) : ∀ i j : Fin 4, AranA x (ix3 b i j) = Tran (sample x b) i j := by
  unfold AranA Tran
  exact mmA_mmul b _ _ _ _ (mmA_mmul b _ _ _ _ (Arkn_apply x b) (RxA_apply x 16 slices_S524288x25_S524288x1_0_16 (by omega) b)) (TyA_apply x 0xBF800000#32 0 slices_S9_S1_0 (by omega) 0x3F800000#32 (by decide) b)
theorem Alsh_apply (b : Fin 524288) : ∀ i j : Fin 4, AlshA x (ix3 b i j) = Tlsh (sample x b) i j := by
  unfold AlshA Tlsh
  exact mmA_mmul b _ _ _ _ (Ator_apply x b) (TxA_apply x 0x3F800000#32 8 slices_S9_S1_8 (by omega) 0x3F111111#32 (by decide) b)
theorem Alel_apply (b : Fin 524288) : ∀ i j : Fin 4, AlelA x (ix3 b i j) = Tlel (sample x b) i j := by
  unfold AlelA Tlel
  exact mmA_mmul b _ _ _ _ (mmA_mmul b _ _ _ _ (mmA_mmul b _ _ _ _ (mmA_mmul b _ _ _ _ (Alsh_apply x b) (RzA_apply x 17 slices_S524288x25_S524288x1_0_17 (by omega) b)) (RxA_apply x 18 slices_S524288x25_S524288x1_0_18 (by omega) b)) (RyA_apply x 19 slices_S524288x25_S524288x1_0_19 (by omega) b)) (TyA_apply x 0xBF800000#32 7 slices_S9_S1_7 (by omega) 0x3F555555#32 (by decide) b)
theorem Alwr_apply (b : Fin 524288) : ∀ i j : Fin 4, AlwrA x (ix3 b i j) = Tlwr (sample x b) i j := by
  unfold AlwrA Tlwr
  exact mmA_mmul b _ _ _ _ (mmA_mmul b _ _ _ _ (Alel_apply x b) (RxA_apply x 20 slices_S524288x25_S524288x1_0_20 (by omega) b)) (TyA_apply x 0xBF800000#32 6 slices_S9_S1_6 (by omega) 0x3F555555#32 (by decide) b)
theorem Arsh_apply (b : Fin 524288) : ∀ i j : Fin 4, ArshA x (ix3 b i j) = Trsh (sample x b) i j := by
  unfold ArshA Trsh
  exact mmA_mmul b _ _ _ _ (Ator_apply x b) (TxA_apply x 0xBF800000#32 8 slices_S9_S1_8 (by omega) 0x3F111111#32 (by decide) b)
theorem Arel_apply (b : Fin 524288) : ∀ i j : Fin 4, ArelA x (ix3 b i j) = Trel (sample x b) i j := by
  unfold ArelA Trel
  exact mmA_mmul b _ _ _ _ (mmA_mmul b _ _ _ _ (mmA_mmul b _ _ _ _ (mmA_mmul b _ _ _ _ (Arsh_apply x b) (RzA_apply x 21 slices_S524288x25_S524288x1_0_21 (by omega) b)) (RxA_apply x 22 slices_S524288x25_S524288x1_0_22 (by omega) b)) (RyA_apply x 23 slices_S524288x25_S524288x1_0_23 (by omega) b)) (TyA_apply x 0xBF800000#32 7 slices_S9_S1_7 (by omega) 0x3F555555#32 (by decide) b)
theorem Arwr_apply (b : Fin 524288) : ∀ i j : Fin 4, ArwrA x (ix3 b i j) = Trwr (sample x b) i j := by
  unfold ArwrA Trwr
  exact mmA_mmul b _ _ _ _ (mmA_mmul b _ _ _ _ (Arel_apply x b) (RxA_apply x 24 slices_S524288x25_S524288x1_0_24 (by omega) b)) (TyA_apply x 0xBF800000#32 6 slices_S9_S1_6 (by omega) 0x3F555555#32 (by decide) b)

/-- The sixteen pose arrays at sample b are the sixteen poses of sample b. -/
theorem poses_at (b : Fin 524288) (q : Fin 16) (i j : Fin 4) :
    (![ApelA x, AtorA x, AnecA x, AhedA x, AlhpA x, AlknA x, AlanA x, ArhpA x, ArknA x, AranA x, AlshA x, AlelA x, AlwrA x, ArshA x, ArelA x, ArwrA x] q) (ix3 b i j)
      = pose (sample x b) q i j := by
  fin_cases q
  · exact Apel_apply x b i j
  · exact Ator_apply x b i j
  · exact Anec_apply x b i j
  · exact Ahed_apply x b i j
  · exact Alhp_apply x b i j
  · exact Alkn_apply x b i j
  · exact Alan_apply x b i j
  · exact Arhp_apply x b i j
  · exact Arkn_apply x b i j
  · exact Aran_apply x b i j
  · exact Alsh_apply x b i j
  · exact Alel_apply x b i j
  · exact Alwr_apply x b i j
  · exact Arsh_apply x b i j
  · exact Arel_apply x b i j
  · exact Arwr_apply x b i j

/-- Row b of the reference's result is the chain of row b of the argument. -/
theorem RefArr_apply (b : Fin 524288) (j : Fin 51) : RefArr x (ix2 b j) = refOut (sample x b) j := by
  unfold RefArr refOut
  rw [outA_apply]
  by_cases h : j.val < 48
  · rw [dif_pos h, dif_pos h, posA_apply, poses_at]
  · rw [dif_neg h, dif_neg h, posA_apply, posA_apply, poses_at, poses_at]

/-- The reference's result is the chain, with the products formed as they stand, of every row of the argument. -/
theorem RefArr_eq_rOut : RefArr x = rOut x := by
  funext i
  obtain ⟨b, j, rfl⟩ : ∃ (b : Fin 524288) (j : Fin 51), i = ix2 b j := ⟨i 0, i 1, eq_ix2 i⟩
  rw [RefArr_apply]
  rfl

end Cert.ReferenceIdeal.Hand

end
-- ==== Proof.SpecLaw.lean ====
/-
  The law joining the two spellings of the kinematic chain: a homogeneous matrix '[[R, t], [0, 1]]' times a rotation
  about an axis, or times a translation along an axis, is the homogeneous matrix of the updated block and column.
  Applied along each joint's chain of factors it gives every pose as '[[R, t], [0, 1]]' of the carried pair, so a joint's
  position (the last column of its pose) is the carried column: 'refOut = kinOut', on all extended reals.
-/
import proofs.«164878_j3058016714901_2_alg».proof.Proof.Spec

noncomputable section

namespace Cert.Kin

open Idealize.ShloMosaic

/-- The homogeneous matrix of a rotation block and a translation column. -/
def hom (R : R9) (t : T3) : Mat :=
  ![![R.a00, R.a01, R.a02, t.t0], ![R.a10, R.a11, R.a12, t.t1], ![R.a20, R.a21, R.a22, t.t2], ![0, 0, 0, 1]]

/-- A rotation about z is the homogeneous matrix of the identity block rotated, with no translation. -/
theorem rotZ_first (c s : EReal) : rotZ c s o1 z0 = hom (rz0 c s) ⟨k0, k0, k0⟩ := by
  funext i j
  fin_cases i <;> fin_cases j <;>
    simp [hom, rotZ, rz0, kw_one, kw_zero, kw_negone, kw_negzero]

theorem hom_rz (R : R9) (t : T3) (c s : EReal) : mmul (hom R t) (rotZ c s o1 z0) = hom (rz R c s) t := by
  funext i j
  fin_cases i <;> fin_cases j <;>
    simp [mmul, hom, rotZ, rz, Fin.sum_univ_four, kw_one, kw_zero, sub_eq_add_neg]

theorem hom_rx (R : R9) (t : T3) (c s : EReal) : mmul (hom R t) (rotX c s o1 z0) = hom (rx R c s) t := by
  funext i j
  fin_cases i <;> fin_cases j <;>
    simp [mmul, hom, rotX, rx, Fin.sum_univ_four, kw_one, kw_zero, sub_eq_add_neg]

theorem hom_ry (R : R9) (t : T3) (c s : EReal) : mmul (hom R t) (rotY c s o1 z0) = hom (ry R c s) t := by
  funext i j
  fin_cases i <;> fin_cases j <;>
    simp [mmul, hom, rotY, ry, Fin.sum_univ_four, kw_one, kw_zero, sub_eq_add_neg]

theorem hom_ty (R : R9) (t : T3) (d : EReal) : mmul (hom R t) (trans 1 d) = hom R (ty R t d) := by
  funext i j
  fin_cases i <;> fin_cases j <;>
    simp [mmul, hom, trans, ty, Fin.sum_univ_four, add_comm]

theorem hom_tx (R : R9) (t : T3) (d : EReal) : mmul (hom R t) (trans 0 d) = hom R (tx R t d) := by
  funext i j
  fin_cases i <;> fin_cases j <;>
    simp [mmul, hom, trans, tx, Fin.sum_univ_four, add_comm]

/-- The last column of a homogeneous matrix is its translation column. -/
theorem hom_col (R : R9) (t : T3) (i : ℕ) (h3 : i < 3) : hom R t ⟨i, by omega⟩ 3 = t.get ⟨i, h3⟩ := by
  interval_cases i <;> rfl

end Cert.Kin

end
-- ==== Proof.SpecJoint.lean ====
/-
  Every pose of the chain is the homogeneous matrix of the carried rotation block and translation column, joint by
  joint along the tree (pelvis; torso, neck, head; the two legs from the pelvis; the two arms from the torso), so the
  two spellings of the result agree entry by entry, on all extended reals.
  A bone enters the first spelling as (sign word · length word) · scale and the second as scale · (one word carrying the
  sign): equal because the sign word denotes 1 or -1 and flipping a word's sign bit negates the number it denotes.
-/
import proofs.«164878_j3058016714901_2_alg».proof.Proof.SpecLaw

noncomputable section

namespace Cert.Kin

open Idealize.ShloMosaic

variable (x : Fin 26 → EReal)

/-- A bone with the sign word +1. -/
theorem bone_pos (len : BitVec 32) : bone x 0x3F800000#32 len = bn x len := by
  unfold bone bn; rw [kw_one, one_mul, mul_comm]

/-- A bone with the sign word -1: the length word with its sign bit set. -/
theorem bone_neg {len nlen : BitVec 32} (h : kw nlen = -kw len) : bone x 0xBF800000#32 len = bn x nlen := by
  unfold bone bn; rw [kw_negone, h, neg_one_mul, neg_mul, mul_neg, mul_comm]

theorem Tpel_eq : Tpel x = hom (Rpel x) tpel := by
  unfold Tpel Rz Rx Ry Rpel; rw [rotZ_first, hom_rx, hom_ry]; rfl
theorem Ttor_eq : Ttor x = hom (Rtor x) (ttor x) := by
  unfold Ttor Rz Ry Ty Rtor ttor; rw [Tpel_eq, hom_rz, hom_ry, hom_ty, bone_pos] <;> rfl
theorem Tnec_eq : Tnec x = hom (Rnec x) (tnec x) := by
  unfold Tnec Rz Rx Ry Ty Rnec tnec; rw [Ttor_eq, hom_rz, hom_rx, hom_ry, hom_ty, bone_pos] <;> rfl
theorem Thed_eq : Thed x = hom (Rhed x) (thed x) := by
  unfold Thed Rx Ty Rhed thed; rw [Tnec_eq, hom_rx, hom_ty, bone_pos] <;> rfl
theorem Tlhp_eq : Tlhp x = hom (Rpel x) (tlhp x) := by
  unfold Tlhp Tx tlhp; rw [Tpel_eq, hom_tx, bone_pos] <;> rfl
theorem Tlkn_eq : Tlkn x = hom (Rlkn x) (tlkn x) := by
  unfold Tlkn Rz Rx Ry Ty Rlkn tlkn; rw [Tlhp_eq, hom_rz, hom_rx, hom_ry, hom_ty, bone_neg x kw_neg_7_6] <;> rfl
theorem Tlan_eq : Tlan x = hom (Rlan x) (tlan x) := by
  unfold Tlan Rx Ty Rlan tlan; rw [Tlkn_eq, hom_rx, hom_ty, bone_neg x kw_neg_one'] <;> rfl
theorem Trhp_eq : Trhp x = hom (Rpel x) (trhp x) := by
  unfold Trhp Tx trhp; rw [Tpel_eq, hom_tx, bone_neg x kw_neg_1_4] <;> rfl
theorem Trkn_eq : Trkn x = hom (Rrkn x) (trkn x) := by
  unfold Trkn Rz Rx Ry Ty Rrkn trkn; rw [Trhp_eq, hom_rz, hom_rx, hom_ry, hom_ty, bone_neg x kw_neg_7_6] <;> rfl
theorem Tran_eq : Tran x = hom (Rran x) (tran x) := by
  unfold Tran Rx Ty Rran tran; rw [Trkn_eq, hom_rx, hom_ty, bone_neg x kw_neg_one'] <;> rfl
theorem Tlsh_eq : Tlsh x = hom (Rtor x) (tlsh x) := by
  unfold Tlsh Tx tlsh; rw [Ttor_eq, hom_tx, bone_pos] <;> rfl
theorem Tlel_eq : Tlel x = hom (Rlel x) (tlel x) := by
  unfold Tlel Rz Rx Ry Ty Rlel tlel; rw [Tlsh_eq, hom_rz, hom_rx, hom_ry, hom_ty, bone_neg x kw_neg_5_6] <;> rfl
theorem Tlwr_eq : Tlwr x = hom (Rlwr x) (tlwr x) := by
  unfold Tlwr Rx Ty Rlwr tlwr; rw [Tlel_eq, hom_rx, hom_ty, bone_neg x kw_neg_5_6] <;> rfl
theorem Trsh_eq : Trsh x = hom (Rtor x) (trsh x) := by
  unfold Trsh Tx trsh; rw [Ttor_eq, hom_tx, bone_neg x kw_neg_17_30] <;> rfl
theorem Trel_eq : Trel x = hom (Rrel x) (trel x) := by
  unfold Trel Rz Rx Ry Ty Rrel trel; rw [Trsh_eq, hom_rz, hom_rx, hom_ry, hom_ty, bone_neg x kw_neg_5_6] <;> rfl
theorem Trwr_eq : Trwr x = hom (Rrwr x) (trwr x) := by
  unfold Trwr Rx Ty Rrwr trwr; rw [Trel_eq, hom_rx, hom_ty, bone_neg x kw_neg_5_6] <;> rfl

/-- The rotation block each joint's pose carries. -/
def block : Fin 16 → R9 :=
  ![Rpel x, Rtor x, Rnec x, Rhed x, Rpel x, Rlkn x, Rlan x, Rpel x, Rrkn x, Rran x, Rtor x, Rlel x, Rlwr x, Rtor x, Rrel x, Rrwr x]

/-- Every pose is the homogeneous matrix of its block and its joint position. -/
theorem pose_eq (q : Fin 16) : pose x q = hom (block x q) (joint x q) := by
  fin_cases q
  · exact Tpel_eq x
  · exact Ttor_eq x
  · exact Tnec_eq x
  · exact Thed_eq x
  · exact Tlhp_eq x
  · exact Tlkn_eq x
  · exact Tlan_eq x
  · exact Trhp_eq x
  · exact Trkn_eq x
  · exact Tran_eq x
  · exact Tlsh_eq x
  · exact Tlel_eq x
  · exact Tlwr_eq x
  · exact Trsh_eq x
  · exact Trel_eq x
  · exact Trwr_eq x

/-- The two spellings of the result agree, entry by entry, for every sample of extended reals. -/
theorem refOut_eq_kinOut (j : Fin 51) : refOut x j = kinOut x j := by
  unfold refOut kinOut
  split
  · rw [pose_eq, hom_col]
  · rw [pose_eq, pose_eq, hom_col, hom_col]

end Cert.Kin

end
-- ==== Proof.RefSide.lean ====
/-
  The reference's value run: from any memory every weakly fair execution of the reference terminates with the
  kinematic chain of every sample of its argument in its result array — in the spelling that carries a rotation
  block and a translation column, by the law joining the two spellings — and with the argument where it was.
-/
import proofs.«164878_j3058016714901_2_alg».proof.Proof.RefRead
import proofs.«164878_j3058016714901_2_alg».proof.Proof.SpecJoint

noncomputable section

namespace Cert.ReferenceIdeal.Hand

open Cert.ReferenceIdeal Cert.ReferenceIdeal.Gen Idealize.ShloMosaic Idealize.ShloMosaic.TcCoe Idealize.SL.Sem Idealize.ShloMosaic.StableHlo

/-- The two spellings of the result array agree for every argument array of extended reals. -/
theorem rOut_eq_kOut (a : Cert.Kin.SIn.Idx → EReal) : Cert.Kin.rOut a = Cert.Kin.kOut a :=
  funext fun _ => Cert.Kin.refOut_eq_kinOut _ _

theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1109) = Cert.Kin.kOut (m ((c.tc : Thread nD τ).loc main_arg0))
      ∧ r.2.mem ((c.tc : Thread nD τ).loc main_arg0) = m ((c.tc : Thread nD τ).loc main_arg0) :=
  (θ_run defs _ _).mono
    (fun _ h c => ⟨by rw [h c main_v1109, ref_value, RefArr_eq_rOut]; exact rOut_eq_kOut _,
      (h c main_arg0).trans (ref_arg _)⟩)
    (run_after (F := Ideal) m ρ)

end Cert.ReferenceIdeal.Hand

end
-- ==== Proof.lean ====
/-
  The certificate of the kinematic-chain kernel against its reference.

  Both programs map an array x of 524288 samples — 25 joint angles and a scale each — to the 16 joint positions of a
  kinematic tree and the midpoint of two of them, 51 numbers a sample. The kernel (after a transpose and a reshape that
  lay the samples along the lanes) carries each pose as a 3×3 rotation block and a translation column and updates them
  by the two columns a rotation about an axis mixes; the reference multiplies homogeneous 4×4 matrices and reads off
  their last columns. A homogeneous matrix times a rotation or a translation is the homogeneous matrix of the updated
  block and column (Proof/SpecLaw.lean), so joint by joint along the tree the two agree (Proof/SpecJoint.lean) — on ALL
  extended reals: only x·0 = 0, x·1 = x, x + 0 = x, the sign rules and commutativity are used, so the precondition is
  never opened.
  The kernel's run gives its result array as that function of the argument (Proof/KernelRun.lean, read off the
  generated frame run); the reference's run is its 1222 host operations folded (Proof/RefRun.lean), the fold read
  stretch by stretch as one array-level term (Proof/RefValue.lean), that term read sample by sample
  (Proof/RefRead.lean) and joined to the kernel's spelling (Proof/RefSide.lean). The frames of the two kernel programs
  are the generated ones; the reference's frame is its run with the result dropped. The idealization rewrote nothing,
  so 'preserves' is 'True'.
-/
import proofs.«164878_j3058016714901_2_alg».proof.Defs
import proofs.«164878_j3058016714901_2_alg».proof.Proof.Gen.Kernel
import proofs.«164878_j3058016714901_2_alg».proof.Proof.Gen.Kernel.Frame
import proofs.«164878_j3058016714901_2_alg».proof.Proof.Gen.KernelIdeal
import proofs.«164878_j3058016714901_2_alg».proof.Proof.Gen.KernelIdeal.Frame
import proofs.«164878_j3058016714901_2_alg».proof.Proof.Gen.ReferenceIdeal
import proofs.«164878_j3058016714901_2_alg».proof.Proof.Gen.Pre_finite_inputs
import proofs.«164878_j3058016714901_2_alg».proof.Proof.KernelRun
import proofs.«164878_j3058016714901_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference's run keeps its argument: no operation writes it. -/
theorem frame_ri : Cert.frame_ReferenceIdeal := fun m ρ _ =>
  (θ_run Cert.ReferenceIdeal.defs _ _).mono (fun _ h c => (h c).2) (Cert.ReferenceIdeal.Hand.run_value m ρ)

/-- Both idealized programs end with the kinematic chain of every sample in their result array. -/
theorem algebraic : Cert.algebraic_KernelIdeal_ReferenceIdeal := by
  intro m ρ m' ρ' _ hagree
  refine ⟨fun c => Cert.Kin.kOut (m ((c.tc : Thread Cert.KernelIdeal.nD Cert.KernelIdeal.τ).loc Cert.KernelIdeal.main_arg0)),
    Cert.KernelIdeal.HandValue.run m ρ, ?_⟩
  refine (θ_run Cert.ReferenceIdeal.defs _ _).mono (fun _ h c => ⟨?_, (h c).2⟩) (Cert.ReferenceIdeal.Hand.run_value m' ρ')
  rw [(h c).1, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
